-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_v33 : IVec S_ 1) : IVec S_ 1 :=
  let main_c_12 : IVec S_ 32 := constantI S_ 32 0#32
  let main_v34 : IVec S2x800000 32 := broadcastInDim S2x800000 ![] bcast_S_S2x800000 main_c_12
  let main_v35 : IVec S2x800000 1 := cmpi .sge main_arg1 main_v34
  let main_c_13 : IVec S_ 32 := constantI S_ 32 100000#32
  let main_v36 : IVec S2x800000 32 := broadcastInDim S2x800000 ![] bcast_S_S2x800000 main_c_13
  let main_v37 : IVec S2x800000 1 := cmpi .slt main_arg1 main_v36
  let main_v38 : IVec S2x800000 1 := andi main_v35 main_v37
  let main_c_14 : IVec S_ 1 := constantI S_ 1 1#1
  let main_v39 : IVec S_ 1 := (fun x v => Host.reduce IntOp.andi x v reducesTo_S2x800000_S_d0_1 h_S_) main_v38 main_c_14
  let main_v40 : IVec S_ 1 := andi main_v33 main_v39
  main_v40

def fn_part1 {F : FTy → Type} [FloatOps F] (main_arg1 : IVec S2x800000 32) (main_arg5 : FVec F S512 .f32) (main_arg6 : FVec F S512x64 .f32) (main_arg7 : FVec F S64 .f32) (main_v13 : IVec S_ 1) (main_v16 : IVec S128x512 1) : IVec S_ 1 :=
  let main_c_5 : IVec S_ 1 := constantI S_ 1 1#1
  let main_v17 : IVec S_ 1 := (fun x v => Host.reduce IntOp.andi x v reducesTo_S128x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x64 .f32 := Host.absf main_arg6
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x800000 32) (main_arg2 : FVec F S128x128 .f32) (main_arg3 : FVec F S128 .f32) (main_arg4 : FVec F S128x512 .f32) (main_arg5 : FVec F S512 .f32) (main_arg6 : FVec F S512x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x512 .f32 := Host.absf main_arg4
  let main_cst_4 : FVec F S_ .f32 := constant S_ .f32 0x7F800000#32
  let main_v15 : FVec F S128x512 .f32 := broadcastInDim S128x512 ![] bcast_S_S128x512 main_cst_4
  let main_v16 : IVec S128x512 1 := cmpf .olt main_v14 main_v15
  fn_part1 (F := F) main_arg1 main_arg5 main_arg6 main_arg7 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S10000x128 : Shape := ⟨2, ![10000, 128]⟩
abbrev S901120 : Shape := ⟨1, ![901120]⟩
abbrev S901120x1 : Shape := ⟨2, ![901120, 1]⟩
abbrev S1x901120 : Shape := ⟨2, ![1, 901120]⟩
abbrev S100352x128 : Shape := ⟨2, ![100352, 128]⟩
abbrev S901120x128 : Shape := ⟨2, ![901120, 128]⟩
abbrev S2048x1 : Shape := ⟨2, ![2048, 1]⟩
abbrev S2048x128 : Shape := ⟨2, ![2048, 128]⟩
abbrev S2048x2048 : Shape := ⟨2, ![2048, 2048]⟩
abbrev S1x128 : Shape := ⟨2, ![1, 128]⟩
abbrev S1x2048 : Shape := ⟨2, ![1, 2048]⟩
abbrev S1x512 : Shape := ⟨2, ![1, 512]⟩
abbrev S1x64 : Shape := ⟨2, ![1, 64]⟩
abbrev S100000x64 : Shape := ⟨2, ![100000, 64]⟩
abbrev S10000x64 : Shape := ⟨2, ![10000, 64]⟩
abbrev S10000x512 : Shape := ⟨2, ![10000, 512]⟩
abbrev S10000 : Shape := ⟨1, ![10000]⟩
abbrev S10000x1 : Shape := ⟨2, ![10000, 1]⟩

abbrev nBuf : Space → Nat
  | .hbm => 72
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000, .f32⟩
  | .hbm, ⟨47, _⟩ => ⟨S900000, .f32⟩
  | .hbm, ⟨48, _⟩ => ⟨S100000x128, .f32⟩
  | .hbm, ⟨49, _⟩ => ⟨S_, .i32⟩
  | .hbm, ⟨50, _⟩ => ⟨S_, .i32⟩
  | .hbm, ⟨51, _⟩ => ⟨S901120, .i32⟩
  | .hbm, ⟨52, _⟩ => ⟨S901120x1, .i32⟩
  | .hbm, ⟨53, _⟩ => ⟨S_, .i32⟩
  | .hbm, ⟨54, _⟩ => ⟨S_, .i32⟩
  | .hbm, ⟨55, _⟩ => ⟨S901120, .i32⟩
  | .hbm, ⟨56, _⟩ => ⟨S1x901120, .i32⟩
  | .hbm, ⟨57, _⟩ => ⟨S_, .i32⟩
  | .hbm, ⟨58, _⟩ => ⟨S_, .f32⟩
  | .hbm, ⟨59, _⟩ => ⟨S901120, .f32⟩
  | .hbm, ⟨60, _⟩ => ⟨S901120x1, .f32⟩
  | .hbm, ⟨61, _⟩ => ⟨S_, .i32⟩
  | .hbm, ⟨62, _⟩ => ⟨S_, .f32⟩
  | .hbm, ⟨63, _⟩ => ⟨S100352x128, .f32⟩
  | .hbm, ⟨64, _⟩ => ⟨S100352x128, .bf16⟩
  | .hbm, ⟨65, _⟩ => ⟨S901120x128, .f32⟩
  | .hbm, ⟨66, _⟩ => ⟨S1x128, .f32⟩
  | .hbm, ⟨67, _⟩ => ⟨S100352x128, .f32⟩
  | .hbm, ⟨68, _⟩ => ⟨S100000x128, .f32⟩
  | .hbm, ⟨69, _⟩ => ⟨S1x512, .f32⟩
  | .hbm, ⟨70, _⟩ => ⟨S1x64, .f32⟩
  | .hbm, ⟨71, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S2048x1, .i32⟩
  | .local _ .vmem, ⟨6, _⟩ => ⟨S2048x1, .i32⟩
  | .local _ .vmem, ⟨7, _⟩ => ⟨S2048x1, .f32⟩
  | .local _ .vmem, ⟨8, _⟩ => ⟨S2048x1, .f32⟩
  | .local _ .vmem, ⟨9, _⟩ => ⟨S2048x128, .bf16⟩
  | .local _ .vmem, ⟨10, _⟩ => ⟨S2048x128, .bf16⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x2048, .i32⟩
  | .local _ .vmem, ⟨15, _⟩ => ⟨S1x2048, .i32⟩
  | .local _ .vmem, ⟨16, _⟩ => ⟨S2048x128, .f32⟩
  | .local _ .vmem, ⟨17, _⟩ => ⟨S2048x128, .f32⟩
  | .local _ .vmem, ⟨18, _⟩ => ⟨S1x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S10000x128, .f32⟩
  | .local _ .vmem, ⟨23, _⟩ => ⟨S10000x128, .f32⟩
  | .local _ .vmem, ⟨24, _⟩ => ⟨S128x512, .f32⟩
  | .local _ .vmem, ⟨25, _⟩ => ⟨S1x512, .f32⟩
  | .local _ .vmem, ⟨26, _⟩ => ⟨S512x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_call2_v0 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_call3_v0 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_call4_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem4_0 : DmaSem sig := 25
abbrev cc3_sem5_0 : DmaSem sig := 26
abbrev cc3_sem5_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![440, 49], ![false, false]⟩

def k1_cond2 (i : grid1.Coords) : BitVec 1 :=
  let arg1 : BitVec 32 := BitVec.ofNat 32 (i 1).val
  let c48_i32 : BitVec 32 := 48#32
  let v22 : BitVec 1 := Scalar.cmpi .eq arg1 c48_i32
  let v23 : BitVec 32 := Scalar.extui v22
  let c0_i32_8 : BitVec 32 := 0#32
  let v24 : BitVec 1 := Scalar.cmpi .ne v23 c0_i32_8
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 440], ![false, false]⟩

def k2_cond2 (i : grid2.Coords) : BitVec 1 :=
  let arg1 : BitVec 32 := BitVec.ofNat 32 (i 1).val
  let c439_i32 : BitVec 32 := 439#32
  let v23 : BitVec 1 := Scalar.cmpi .eq arg1 c439_i32
  let v24 : BitVec 32 := Scalar.extui v23
  let c0_i32_8 : BitVec 32 := 0#32
  let v25 : BitVec 1 := Scalar.cmpi .ne v24 c0_i32_8
  v25

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S2048x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S512x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  pads_S900000_S901120_011200 : S900000.Pads (![0] : Fin 1 → Nat) ![1120] ![0] S901120
  h_S_ : 0 < S_.numel
  shapeCasts_S901120_S901120x1 : S901120.ShapeCasts S901120x1
  shapeCasts_S901120_S1x901120 : S901120.ShapeCasts S1x901120
  pads_S100000x128_S100352x128_03520_000 : S100000x128.Pads (![0, 0] : Fin 2 → Nat) ![352, 0] ![0, 0] S100352x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S2048x2048_d1_w32 : S2048x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  natLt_1_32 : 1 < 32
  broadcasts_S2048x1_S2048x128 : S2048x1.Broadcasts S2048x128
  shapeCasts_S128_S1x128 : S128.ShapeCasts S1x128
  iota_S2048x2048_d0_w32 : S2048x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  slices_S100352x128_S100000x128_0_0 : S100352x128.Slices ![0, 0] S100000x128
  shapeCasts_S512_S1x512 : S512.ShapeCasts S1x512
  shapeCasts_S64_S1x64 : S64.ShapeCasts S1x64
  shapeCasts_S10000x128_S10000x128 : S10000x128.ShapeCasts S10000x128
  inb_S128x512_S128x512_0_0 : ∀ a, (![0, 0] : Fin 2 → Nat) a + S128x512.size a ≤ S128x512.size a
  h_S128x512 : 0 < S128x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S10000x512 : S1x512.Broadcasts S10000x512
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  inb_S10000x64_S10000x64_0_0 : ∀ a, (![0, 0] : Fin 2 → Nat) a + S10000x64.size a ≤ S10000x64.size a
  h_S10000x64 : 0 < S10000x64.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S10000x128_S128x128_S10000x128_1_0_0_1_n_n_wf : DotDims.WF S10000x128 S128x128 S10000x128 [1] [0] [0] [1] [] []
  dot_S2048x2048_S2048x128_S2048x128_1_0_0_1_n_n_wf : DotDims.WF S2048x2048 S2048x128 S2048x128 [1] [0] [0] [1] [] []
  dot_S10000x128_S128x512_S10000x512_1_0_0_1_n_n_wf : DotDims.WF S10000x128 S128x512 S10000x512 [1] [0] [0] [1] [] []
  dot_S10000x512_S512x64_S10000x64_1_0_0_1_n_n_wf : DotDims.WF S10000x512 S512x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S901120x1.size a
  hwx1_0 : ∀ i : grid1.Coords, EltTy.bits .i32 = 32 ∨ (Rect.block (s := S901120x1) S2048x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S901120x1.size a
  hwx1_1 : ∀ i : grid1.Coords, EltTy.bits .f32 = 32 ∨ (Rect.block (s := S901120x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S100352x128.size a
  hwx1_2 : ∀ i : grid1.Coords, EltTy.bits .bf16 = 32 ∨ (Rect.block (s := S100352x128) S2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S901120x128.size a
  hwx1_3 : ∀ i : grid1.Coords, EltTy.bits .f32 = 32 ∨ (Rect.block (s := S901120x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x901120.size a
  hwx2_0 : ∀ i : grid2.Coords, EltTy.bits .i32 = 32 ∨ (Rect.block (s := S1x901120) S1x2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S901120x128.size a
  hwx2_1 : ∀ i : grid2.Coords, EltTy.bits .f32 = 32 ∨ (Rect.block (s := S901120x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x128.size a ≤ S100352x128.size a
  hwx2_3 : ∀ i : grid2.Coords, EltTy.bits .f32 = 32 ∨ (Rect.block (s := S100352x128) S2048x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x512.size a ≤ S128x512.size a
  hwx3_1 : ∀ i : grid3.Coords, EltTy.bits .f32 = 32 ∨ (Rect.block (s := S128x512) S128x512.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S512x64.size a ≤ S512x64.size a
  hwx3_3 : ∀ i : grid3.Coords, EltTy.bits .f32 = 32 ∨ (Rect.block (s := S512x64) S512x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x64.size a ≤ S100000x64.size a
  hwx3_5 : ∀ i : grid3.Coords, EltTy.bits .f32 = 32 ∨ (Rect.block (s := S100000x64) S10000x64.size (cc3_transform_5 i) (hinb3_5 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S10000x128_S128x512_S10000x512_1_0_0_1_n_n : DotDims S10000x128 S128x512 S10000x512 where
  lhsContracting := [1]
  rhsContracting := [0]
  lhsNonContracting := [0]
  rhsNonContracting := [1]
  lhsBatch := []
  rhsBatch := []
  wf := dot_S10000x128_S128x512_S10000x512_1_0_0_1_n_n_wf
def dot_S10000x512_S512x64_S10000x64_1_0_0_1_n_n : DotDims S10000x512 S512x64 S10000x64 where
  lhsContracting := [1]
  rhsContracting := [0]
  lhsNonContracting := [0]
  rhsNonContracting := [1]
  lhsBatch := []
  rhsBatch := []
  wf := dot_S10000x512_S512x64_S10000x64_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v32) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v39) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v34) S1x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2048x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S128x512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S512x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v44) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v45) S10000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x512 : Shape := ⟨2, ![128, 512]⟩
abbrev S512 : Shape := ⟨1, ![512]⟩
abbrev S512x64 : Shape := ⟨2, ![512, 64]⟩
abbrev S64 : Shape := ⟨1, ![64]⟩
abbrev S100000 : Shape := ⟨1, ![100000]⟩
abbrev S1x800000 : Shape := ⟨2, ![1, 800000]⟩
abbrev S800000 : Shape := ⟨1, ![800000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x512 : Shape := ⟨2, ![100000, 512]⟩
abbrev S1x512 : Shape := ⟨2, ![1, 512]⟩
abbrev S100000x64 : Shape := ⟨2, ![100000, 64]⟩
abbrev S1x64 : Shape := ⟨2, ![1, 64]⟩
abbrev S100000x1 : Shape := ⟨2, ![100000, 1]⟩

abbrev nBuf : Space → Nat
  | .hbm => 97
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x512, .f32⟩
  | .hbm, ⟨5, _⟩ => ⟨S512, .f32⟩
  | .hbm, ⟨6, _⟩ => ⟨S512x64, .f32⟩
  | .hbm, ⟨7, _⟩ => ⟨S64, .f32⟩
  | .hbm, ⟨8, _⟩ => ⟨S100000, .i32⟩
  | .hbm, ⟨9, _⟩ => ⟨S1x800000, .i32⟩
  | .hbm, ⟨10, _⟩ => ⟨S800000, .i32⟩
  | .hbm, ⟨11, _⟩ => ⟨S900000, .i32⟩
  | .hbm, ⟨12, _⟩ => ⟨S1x800000, .i32⟩
  | .hbm, ⟨13, _⟩ => ⟨S800000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000, .f32⟩
  | .hbm, ⟨47, _⟩ => ⟨S900000, .f32⟩
  | .hbm, ⟨48, _⟩ => ⟨S100000x128, .f32⟩
  | .hbm, ⟨49, _⟩ => ⟨S_, .i32⟩
  | .hbm, ⟨50, _⟩ => ⟨S900000, .i32⟩
  | .hbm, ⟨51, _⟩ => ⟨S900000, .i1⟩
  | .hbm, ⟨52, _⟩ => ⟨S_, .i32⟩
  | .hbm, ⟨53, _⟩ => ⟨S900000, .i32⟩
  | .hbm, ⟨54, _⟩ => ⟨S900000, .i32⟩
  | .hbm, ⟨55, _⟩ => ⟨S900000, .i32⟩
  | .hbm, ⟨56, _⟩ => ⟨S900000x1, .i32⟩
  | .hbm, ⟨57, _⟩ => ⟨S900000x128, .f32⟩
  | .hbm, ⟨58, _⟩ => ⟨S900000x1, .f32⟩
  | .hbm, ⟨59, _⟩ => ⟨S900000x128, .f32⟩
  | .hbm, ⟨60, _⟩ => ⟨S900000x128, .f32⟩
  | .hbm, ⟨61, _⟩ => ⟨S_, .f32⟩
  | .hbm, ⟨62, _⟩ => ⟨S100000x128, .f32⟩
  | .hbm, ⟨63, _⟩ => ⟨S900000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x512, .f32⟩
  | .hbm, ⟨72, _⟩ => ⟨S1x512, .f32⟩
  | .hbm, ⟨73, _⟩ => ⟨S100000x512, .f32⟩
  | .hbm, ⟨74, _⟩ => ⟨S100000x512, .f32⟩
  | .hbm, ⟨75, _⟩ => ⟨S_, .f32⟩
  | .hbm, ⟨76, _⟩ => ⟨S100000x512, .f32⟩
  | .hbm, ⟨77, _⟩ => ⟨S100000x512, .f32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S100000x1, .f32⟩
  | .hbm, ⟨88, _⟩ => ⟨S100000x64, .f32⟩
  | .hbm, ⟨89, _⟩ => ⟨S100000x64, .f32⟩
  | .hbm, ⟨90, _⟩ => ⟨S100000x64, .f32⟩
  | .hbm, ⟨91, _⟩ => ⟨S_, .f32⟩
  | .hbm, ⟨92, _⟩ => ⟨S100000, .f32⟩
  | .hbm, ⟨93, _⟩ => ⟨S100000x1, .f32⟩
  | .hbm, ⟨94, _⟩ => ⟨S100000x1, .f32⟩
  | .hbm, ⟨95, _⟩ => ⟨S100000x64, .f32⟩
  | .hbm, ⟨96, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_call3_cst : Ref sig .tc := ⟨.hbm, 82, rfl⟩
abbrev main_call3_v0 : Ref sig .tc := ⟨.hbm, 83, rfl⟩
abbrev main_call3_cst_0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_v6 : Ref sig .tc := ⟨.hbm, 90, rfl⟩
abbrev main_call3_cst_1 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_v57 : Ref sig .tc := ⟨.hbm, 96, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S100000_S900000_d0 : Shape.Concatenates [S800000, S100000] S900000 0
  slices_S2x800000_S1x800000_1_0 : S2x800000.Slices ![1, 0] S1x800000
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  bcast_S_S100000x512 : S_.BroadcastsInDim S100000x512 (![] : Fin 0 → Fin S100000x512.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x512_S100000x512_1_0_0_1_n_n_wf : DotDims.WF S100000x128 S128x512 S100000x512 [1] [0] [0] [1] [] []
  dot_S100000x512_S512x64_S100000x64_1_0_0_1_n_n_wf : DotDims.WF S100000x512 S512x64 S100000x64 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf

class Facts : Prop extends Facts₀ where

variable [Facts]
-- ==== Proof.K.Region0.lean ====
import proofs.«171723_j29566554866533_1_alg».proof.Proof.Gen.Kernel.Launch
import proofs.«171723_j29566554866533_1_alg».proof.Proof.Gen.Kernel.Skeleton
import proofs.«171723_j29566554866533_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: `cc0__matmul_kernel` (pipeline 0), at the entry contents `V`

One row block of the product per grid point: the body reads the whole staged block of the left operand and
the whole right operand, and stores the product block over the whole output buffer (after one load of that
buffer whose value nothing reads). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product
    payload over the whole buffer. -/
def out0_2 (x0 : Vec F S10000x128 .f32) (x1 : Vec F S128x128 .f32) : Vec F S10000x128 .f32 :=
  View.canon [⟨r0_0, k0_pay1 (View.ld x0 r0_0) (View.ld x1 r0_1)⟩]

/-- The one store's rectangle is the whole buffer, so it covers it. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.Kernel.Hand

end
-- ==== Proof.K.Region1.lean ====
/-
  The gather region (pallas_call 1): its proof data, at any contents V of the buffers when the region is entered.

  The grid is 440 × 49; point t is (edge tile, node tile) = (t / 49, t % 49). A scratch accumulator is zeroed at node
  tile 0, gains at every point the product of the one-hot selector (source id = node id) with the node tile's rows, and at
  node tile 48 is scaled row by row by the edge weights and stored as the edge tile's block of the output. So there are
  three kinds of point: the first of a row (k = 0), the middle ones, the last (k = 48); the output's buffer is written
  only at the last and is idle before. What the accumulator and the output's buffer hold after each point is defined by
  recursion on the point (`outsAt1`); the invariant carries the accumulator at that value from one point to the next.
-/
import proofs.«171723_j29566554866533_1_alg».proof.Proof.Gen.Kernel.Launch
import proofs.«171723_j29566554866533_1_alg».proof.Proof.Gen.Kernel.Skeleton
import proofs.«171723_j29566554866533_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The node-tile coordinate of point t is t mod 49. -/
theorem coords1_k (t : Fin cfg1.N) : ((grid1.coords t) 1).val = t.val % 49 := by
  show t.val / grid1.stride 1 % 49 = t.val % 49
  rw [show grid1.stride 1 = 1 from by decide, Nat.div_one]

/-- The first branch's condition: the node tile is the first. -/
abbrev cond1_0 (i : grid1.Coords) : Prop := (Scalar.cmpi .ne (Scalar.extui (Scalar.cmpi .eq (BitVec.ofNat 32 (i 1).val) 0#32)) 0#32) = 1#1
/-- The second branch's condition: the node tile is the last. -/
abbrev cond1_1 (i : grid1.Coords) : Prop := k1_cond2 i = 1#1

theorem hcond1_0 (t : Fin cfg1.N) : cond1_0 (grid1.coords t) ↔ t.val % 49 = 0 := by
  have h : ∀ k : Fin 49, ((Scalar.cmpi .ne (Scalar.extui (Scalar.cmpi .eq (BitVec.ofNat 32 k.val) 0#32)) 0#32) = 1#1) ↔ k.val = 0 := by decide +kernel
  have h' := h ⟨t.val % 49, Nat.mod_lt _ (by decide)⟩
  show ((Scalar.cmpi .ne (Scalar.extui (Scalar.cmpi .eq (BitVec.ofNat 32 ((grid1.coords t) 1).val) 0#32)) 0#32) = 1#1) ↔ _
  rw [coords1_k]; exact h'

theorem hcond1_1 (t : Fin cfg1.N) : cond1_1 (grid1.coords t) ↔ t.val % 49 = 48 := by
  have h : ∀ k : Fin 49, ((Scalar.cmpi .ne (Scalar.extui (Scalar.cmpi .eq (BitVec.ofNat 32 k.val) 48#32)) 0#32) = 1#1) ↔ k.val = 48 := by decide +kernel
  have h' := h ⟨t.val % 49, Nat.mod_lt _ (by decide)⟩
  show ((Scalar.cmpi .ne (Scalar.extui (Scalar.cmpi .eq (BitVec.ofNat 32 ((grid1.coords t) 1).val) 48#32)) 0#32) = 1#1) ↔ _
  rw [coords1_k]; exact h'

/-! ## Where the windows are idle -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the last node tile the output's buffer is idle, -/
theorem idleAt1_3 (t : Fin cfg1.N) (h : ¬cond1_1 (grid1.coords t)) : cfg1.idle 3 (grid1.coords t) = true := by
  show (!(k1_cond2 (grid1.coords t) == 1#1)) = true
  simp only [Bool.not_eq_true', beq_eq_false_iff_ne, ne_eq]; exact h
/-- and it is not written back there; -/
theorem noFlush1_3 (t : Fin cfg1.N) (h : ¬t.val % 49 = 48) : (cfg1.win 3).flush t = false :=
  Bool.eq_false_iff.mpr fun hf => h ((flush1_3 t).mp hf)
/-- at the last node tile it is live. -/
theorem liveAt1_3 (t : Fin cfg1.N) (h : cond1_1 (grid1.coords t)) : cfg1.idle 3 (grid1.coords t) = false := by
  show (!(k1_cond2 (grid1.coords t) == 1#1)) = false
  simp only [Bool.not_eq_false', beq_iff_eq]; exact h

/-! ## The staging memrefs and the scratch -/

abbrev VO1_3 : View sig .tc .vmem S2048x128 .f32 := (Memref.whole cc1_stg3_0 : Memref sig .tc .vmem S2048x128 .f32).view
abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2048x128 .f32 := Memref.whole cc1_scratch0
abbrev VS1_0 : View sig .tc .vmem S2048x128 .f32 := scM1_0.view

/-- The scoped buffers no window of this region stages, -/
abbrev restSet1 : Finset (Ref sig .tc) := (Finset.univ.filter fun b : Ref sig .tc => b.isScoped) \ Finset.univ.image (Pipeline.stageRef spec1)
theorem scratch_mem1 : cc1_scratch0 ∈ restSet1 := by decide
/-- less the accumulator, each at some contents. -/
def Rest1 (c : Dev nD) : sProp 𝕄 :=
  bigSep (restSet1.erase cc1_scratch0) fun b => iprop(∃ f : Buf (Elt F) ((c.tc : Thread nD τ).loc b), ((c.tc : Thread nD τ).loc b) ↦{fullShare} f)

/-- The class invariant with the accumulator singled out. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA Pipeline.scopedRest Rest1
  rw [bigSep_erase scratch_mem1]; simp only [scM1_0, owns_whole]; try rfl

/-! ## The body on any staging memrefs, one run per kind of point -/

set_option maxHeartbeats 4000000 in
/-- FIRST node tile: the inputs' buffers at their contents, the output's idle buffer handed back untouched, the accumulator
    at anything; the run ends with the accumulator's pieces written. -/
noncomputable def kernelRun1_A (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE node tiles: as the first, the accumulator at what the point before left. -/
noncomputable def kernelRun1_B (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST node tile: the output's buffer at anything, left with its pieces written; the accumulator as in the middle. -/
noncomputable def kernelRun1_C (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

section AtV
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end AtV

/-! ## What each kind of point leaves -/

/-- The accumulator's pieces cover it. -/
theorem scover1_A_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y
/-- What the point leaves in the accumulator. -/
def sout1_A_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)
/-- What the point leaves in the output's buffer (nothing: a placeholder nothing reads). -/
def out1_A_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- The accumulator's pieces cover it. -/
theorem scover1_B_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y
/-- What the point leaves in the accumulator. -/
def sout1_B_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)
/-- What the point leaves in the output's buffer (nothing: a placeholder nothing reads). -/
def out1_B_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The accumulator's pieces cover it. -/
theorem scover1_C_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y
/-- What the point leaves in the accumulator. -/
def sout1_C_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)
/-- The output's pieces cover its block. -/
theorem cover1_C_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y
/-- What the point leaves in the output's buffer. -/
def out1_C_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

section AtV2
variable (V : (c : Dev nD) → (b : Ref sig .tc) → Buf (Elt F) ((c : Thread nD τ).loc b))

/-! ## What the output's buffer and the accumulator hold after each point -/

/-- By recursion on the point: (the output's buffer, the accumulator) after the body at position n. -/
def outsAt1 (c : Dev nD) : (n : ℕ) → n < cfg1.N → Vec F S2048x128 .f32 × Vec F S2048x128 .f32
  | 0, hn =>
    have h0 : (0 : ℕ) % 49 = 0 := rfl
    have h1 : ¬ (0 : ℕ) % 49 = 48 := by decide
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 49 = 0 then
      if h1 : (n + 1) % 49 = 48 then False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
         sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 49 = 48 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 49 = 0) (h1 : ¬t.val % 49 = 48) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 49 = 0) (h1 : ¬t.val % 49 = 48) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 49 = 0) (h1 : t.val % 49 = 48) :
    outsAt1 V c t.val t.isLt =
      (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-! ## The invariant: the accumulator carried from point to point -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end AtV2

section Body
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the node-tile coordinate says which kind of point it is; the
    invariant hands the body the accumulator at what the point before left (at anything before the first point) and takes it
    back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 49 = 0
  · by_cases h1 : t.val % 49 = 48
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t h1)]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 49 = 48
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      have hz : t.val ≠ 0 := fun hz => h0 (by rw [hz])
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t h1)]
      rw [outsAt1_B V c t h0 h1]
      unfold sout1_B_0; (try dsimp only)
      have hz : t.val ≠ 0 := fun hz => h0 (by rw [hz])
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 21560 := N_1; omega)

end Body

end Cert.Kernel.Hand

end
-- ==== Proof.K.Region2.lean ====
/-
  The scatter region (pallas_call 2): its proof data, at any contents V of the buffers when the region is entered.

  The grid is 49 × 440; point t is (node tile, edge tile) = (t / 440, t % 440). A scratch accumulator is zeroed at edge
  tile 0, gains at every point the product of the one-hot selector (node id = destination id) with the edge tile's message
  rows, and at edge tile 439 has the bias row added, is clamped below at zero and stored as the node tile's block of the
  output. So there are three kinds of point: the first of a row (k = 0), the middle ones, the last (k = 439); the output's
  buffer is written only at the last and is idle before. What the accumulator and the output's buffer hold after each point
  is defined by recursion on the point (`outsAt2`); the invariant carries the accumulator at that value from one point to
  the next.
-/
import proofs.«171723_j29566554866533_1_alg».proof.Proof.Gen.Kernel.Launch
import proofs.«171723_j29566554866533_1_alg».proof.Proof.Gen.Kernel.Skeleton
import proofs.«171723_j29566554866533_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The edge-tile coordinate of point t is t mod 440. -/
theorem coords2_k (t : Fin cfg2.N) : ((grid2.coords t) 1).val = t.val % 440 := by
  show t.val / grid2.stride 1 % 440 = t.val % 440
  rw [show grid2.stride 1 = 1 from by decide, Nat.div_one]

/-- The first branch's condition: the edge tile is the first. -/
abbrev cond2_0 (i : grid2.Coords) : Prop := (Scalar.cmpi .ne (Scalar.extui (Scalar.cmpi .eq (BitVec.ofNat 32 (i 1).val) 0#32)) 0#32) = 1#1
/-- The second branch's condition: the edge tile is the last. -/
abbrev cond2_1 (i : grid2.Coords) : Prop := k2_cond2 i = 1#1

theorem hcond2_0 (t : Fin cfg2.N) : cond2_0 (grid2.coords t) ↔ t.val % 440 = 0 := by
  have h : ∀ k : Fin 440, ((Scalar.cmpi .ne (Scalar.extui (Scalar.cmpi .eq (BitVec.ofNat 32 k.val) 0#32)) 0#32) = 1#1) ↔ k.val = 0 := by decide +kernel
  have h' := h ⟨t.val % 440, Nat.mod_lt _ (by decide)⟩
  show ((Scalar.cmpi .ne (Scalar.extui (Scalar.cmpi .eq (BitVec.ofNat 32 ((grid2.coords t) 1).val) 0#32)) 0#32) = 1#1) ↔ _
  rw [coords2_k]; exact h'

theorem hcond2_1 (t : Fin cfg2.N) : cond2_1 (grid2.coords t) ↔ t.val % 440 = 439 := by
  have h : ∀ k : Fin 440, ((Scalar.cmpi .ne (Scalar.extui (Scalar.cmpi .eq (BitVec.ofNat 32 k.val) 439#32)) 0#32) = 1#1) ↔ k.val = 439 := by decide +kernel
  have h' := h ⟨t.val % 440, Nat.mod_lt _ (by decide)⟩
  show ((Scalar.cmpi .ne (Scalar.extui (Scalar.cmpi .eq (BitVec.ofNat 32 ((grid2.coords t) 1).val) 439#32)) 0#32) = 1#1) ↔ _
  rw [coords2_k]; exact h'

/-! ## Where the windows are idle -/

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- Away from the last edge tile the output's buffer is idle, -/
theorem idleAt2_3 (t : Fin cfg2.N) (h : ¬cond2_1 (grid2.coords t)) : cfg2.idle 3 (grid2.coords t) = true := by
  show (!(k2_cond2 (grid2.coords t) == 1#1)) = true
  simp only [Bool.not_eq_true', beq_eq_false_iff_ne, ne_eq]; exact h
/-- and it is not written back there; -/
theorem noFlush2_3 (t : Fin cfg2.N) (h : ¬t.val % 440 = 439) : (cfg2.win 3).flush t = false :=
  Bool.eq_false_iff.mpr fun hf => h ((flush2_3 t).mp hf)
/-- at the last edge tile it is live. -/
theorem liveAt2_3 (t : Fin cfg2.N) (h : cond2_1 (grid2.coords t)) : cfg2.idle 3 (grid2.coords t) = false := by
  show (!(k2_cond2 (grid2.coords t) == 1#1)) = false
  simp only [Bool.not_eq_false', beq_iff_eq]; exact h

/-! ## The staging memrefs and the scratch -/

abbrev VO2_3 : View sig .tc .vmem S2048x128 .f32 := (Memref.whole cc2_stg3_0 : Memref sig .tc .vmem S2048x128 .f32).view
abbrev ms2_0 (t : Fin cfg2.N) : Memref sig .tc .vmem S1x2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S2048x128 .f32 := Memref.whole cc2_scratch0
abbrev VS2_0 : View sig .tc .vmem S2048x128 .f32 := scM2_0.view

/-- The scoped buffers no window of this region stages, -/
abbrev restSet2 : Finset (Ref sig .tc) := (Finset.univ.filter fun b : Ref sig .tc => b.isScoped) \ Finset.univ.image (Pipeline.stageRef spec2)
theorem scratch_mem2 : cc2_scratch0 ∈ restSet2 := by decide
/-- less the accumulator, each at some contents. -/
def Rest2 (c : Dev nD) : sProp 𝕄 :=
  bigSep (restSet2.erase cc2_scratch0) fun b => iprop(∃ f : Buf (Elt F) ((c.tc : Thread nD τ).loc b), ((c.tc : Thread nD τ).loc b) ↦{fullShare} f)

/-- The class invariant with the accumulator singled out. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA Pipeline.scopedRest Rest2
  rw [bigSep_erase scratch_mem2]; simp only [scM2_0, owns_whole]; try rfl

/-! ## The body on any staging memrefs, one run per kind of point -/

set_option maxHeartbeats 4000000 in
/-- FIRST edge tile: the inputs' buffers at their contents, the output's idle buffer handed back untouched, the accumulator
    at anything; the run ends with the accumulator's pieces written. -/
noncomputable def kernelRun2_A (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE edge tiles: as the first, the accumulator at what the point before left. -/
noncomputable def kernelRun2_B (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST edge tile: the output's buffer at anything, left with its pieces written; the accumulator as in the middle. -/
noncomputable def kernelRun2_C (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

section AtV
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end AtV

/-! ## What each kind of point leaves -/

/-- The accumulator's pieces cover it. -/
theorem scover2_A_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) (y : S2048x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x128.size (by sl_kernel_rfl) y
/-- What the point leaves in the accumulator. -/
def sout2_A_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) : Vec F S2048x128 .f32 :=
  VS2_0.read (Elt F) (VS2_0.writes (Elt F) VS2_0.junk (kernelRun2_A c i arg2 harg2 arg3 harg3 arg4 harg4 arg5 harg5 arg6 harg6 hc0 hc1 x0 x1 x2).2.1)
/-- What the point leaves in the output's buffer (nothing: a placeholder nothing reads). -/
def out2_A_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) : Vec F S2048x128 .f32 :=
  VO2_3.read (Elt F) (VO2_3.writes (Elt F) VO2_3.junk (kernelRun2_A c i arg2 harg2 arg3 harg3 arg4 harg4 arg5 harg5 arg6 harg6 hc0 hc1 x0 x1 x2).1)

/-- The accumulator's pieces cover it. -/
theorem scover2_B_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) (y : S2048x128.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x128.size (by sl_kernel_rfl) y
/-- What the point leaves in the accumulator. -/
def sout2_B_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) : Vec F S2048x128 .f32 :=
  VS2_0.read (Elt F) (VS2_0.writes (Elt F) VS2_0.junk (kernelRun2_B c i arg2 harg2 arg3 harg3 arg4 harg4 arg5 harg5 arg6 harg6 hc0 hc1 x0 x1 x2 xs0).2.1)
/-- What the point leaves in the output's buffer (nothing: a placeholder nothing reads). -/
def out2_B_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) : Vec F S2048x128 .f32 :=
  VO2_3.read (Elt F) (VO2_3.writes (Elt F) VO2_3.junk (kernelRun2_B c i arg2 harg2 arg3 harg3 arg4 harg4 arg5 harg5 arg6 harg6 hc0 hc1 x0 x1 x2 xs0).1)

/-- The accumulator's pieces cover it. -/
theorem scover2_C_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x128.size (by sl_kernel_rfl) y
/-- What the point leaves in the accumulator. -/
def sout2_C_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 hc0 hc1 x0 x1 x2 xs0).2.1)
/-- The output's pieces cover its block. -/
theorem cover2_C_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x128.size (by sl_kernel_rfl) y
/-- What the point leaves in the output's buffer. -/
def out2_C_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) : Vec F S2048x128 .f32 :=
  VO2_3.read (Elt F) (VO2_3.writes (Elt F) VO2_3.junk (kernelRun2_C c i arg2 harg2 arg3 harg3 arg4 harg4 arg5 harg5 arg6 harg6 hc0 hc1 x0 x1 x2 xs0).1)

section AtV2
variable (V : (c : Dev nD) → (b : Ref sig .tc) → Buf (Elt F) ((c : Thread nD τ).loc b))

/-! ## What the output's buffer and the accumulator hold after each point -/

/-- By recursion on the point: (the output's buffer, the accumulator) after the body at position n. -/
def outsAt2 (c : Dev nD) : (n : ℕ) → n < cfg2.N → Vec F S2048x128 .f32 × Vec F S2048x128 .f32
  | 0, hn =>
    have h0 : (0 : ℕ) % 440 = 0 := rfl
    have h1 : ¬ (0 : ℕ) % 440 = 439 := by decide
    (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩),
     sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩))
  | n + 1, hn =>
    if h0 : (n + 1) % 440 = 0 then
      if h1 : (n + 1) % 440 = 439 then False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
         sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 440 = 439 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
         sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 440 = 0) (h1 : ¬t.val % 440 = 439) :
    outsAt2 V c t.val t.isLt =
      (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
       sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 440 = 0) (h1 : ¬t.val % 440 = 439) :
    outsAt2 V c t.val t.isLt =
      (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2,
       sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt2_C (c : Dev nD) (t : Fin cfg2.N) (h0 : ¬t.val % 440 = 0) (h1 : t.val % 440 = 439) :
    outsAt2 V c t.val t.isLt =
      (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
       sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-! ## The invariant: the accumulator carried from point to point -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end AtV2

section Body
variable (V : (c : Dev nD) → (b : Ref sig .tc) → Buf (Elt F) ((c : Thread nD τ).loc b))

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the edge-tile coordinate says which kind of point it is; the
    invariant hands the body the accumulator at what the point before left (at anything before the first point) and takes it
    back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  by_cases h0 : t.val % 440 = 0
  · by_cases h1 : t.val % 440 = 439
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t h1)]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 440 = 439
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      have hz : t.val ≠ 0 := fun hz => h0 (by rw [hz])
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t h1)]
      rw [outsAt2_B V c t h0 h1]
      unfold sout2_B_0; (try dsimp only)
      have hz : t.val ≠ 0 := fun hz => h0 (by rw [hz])
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's value is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 21560 := N_2; omega)

end Body

end Cert.Kernel.Hand

end
-- ==== Proof.K.Region3.lean ====
import proofs.«171723_j29566554866533_1_alg».proof.Proof.Gen.Kernel.Launch
import proofs.«171723_j29566554866533_1_alg».proof.Proof.Gen.Kernel.Skeleton
import proofs.«171723_j29566554866533_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 3 of @main: `cc3__mlp_kernel` (pipeline 3), at the entry contents `V`

One row block of the two dense layers and the row-wise log-softmax per grid point: the body reads the whole
staged row block, both weight matrices and both bias rows, and stores the result block over the whole output
buffer (after one load of that buffer whose value nothing reads). -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x128 := Rect.unit (s := S10000x128) ![0, 0] S10000x128.size inb_S10000x128_S10000x128_0_0
abbrev r3_1 : Rect S128x512 := Rect.unit (s := S128x512) ![0, 0] S128x512.size inb_S128x512_S128x512_0_0
abbrev r3_2 : Rect S1x512 := Rect.unit (s := S1x512) ![0, 0] S1x512.size inb_S1x512_S1x512_0_0
abbrev r3_3 : Rect S512x64 := Rect.unit (s := S512x64) ![0, 0] S512x64.size inb_S512x64_S512x64_0_0
abbrev r3_4 : Rect S1x64 := Rect.unit (s := S1x64) ![0, 0] S1x64.size inb_S1x64_S1x64_0_0
abbrev r3_5 : Rect S10000x64 := Rect.unit (s := S10000x64) ![0, 0] S10000x64.size inb_S10000x64_S10000x64_0_0

/-! ## What the body leaves in the output window's buffer -/

/-- Window 5's staging buffer after the body, from the input windows' blocks: its one store, of the payload
    over the whole buffer. -/
def out3_5 (x0 : Vec F S10000x128 .f32) (x1 : Vec F S128x512 .f32) (x2 : Vec F S1x512 .f32) (x3 : Vec F S512x64 .f32) (x4 : Vec F S1x64 .f32) : Vec F S10000x64 .f32 :=
  View.canon [⟨r3_5, k3_pay1 (View.ld x0 r3_0) (View.ld x1 r3_1) (View.ld x2 r3_2) (View.ld x3 r3_3) (View.ld x4 r3_4)⟩]

/-- The one store's rectangle is the whole buffer, so it covers it. -/
theorem cover3_5 (p0 : Vec F S10000x64 .f32) (y : S10000x64.Idx) :
    ∃ pc ∈ ([⟨r3_5, p0⟩] : List (View.Piece (Elt F) S10000x64 .f32)), y ∈ pc.1.set :=
  View.cover_of_tiled [⟨r3_5, p0⟩] S10000x64.size (by rfl) y

/-! ## The body's triple -/

set_option maxHeartbeats 1000000 in
/-- The kernel body on whole staging memrefs, the inputs' at read contents `xW` and the output's at anything,
    runs to the continuation holding the inputs' as they were and the output's at `out3_5` of the inputs'. -/
theorem sound_kernel3 (c : Dev nD) (E : Set ℕ) (i : grid3.Coords) (arg0 : Memref sig .tc .vmem S10000x128 .f32) (harg0 : arg0.IsWhole) (arg1 : Memref sig .tc .vmem S128x512 .f32) (harg1 : arg1.IsWhole) (arg2 : Memref sig .tc .vmem S1x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x128 .f32) (x1 : Vec F S128x512 .f32) (x2 : Vec F S1x512 .f32) (x3 : Vec F S512x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__mlp_kernel i arg0 harg0 arg1 harg1 arg2 harg2 arg3 harg3 arg4 harg4 arg5 harg5) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.Kernel.Hand

end
-- ==== Proof.K.Run.lean ====
/-
  The whole run of the four-region program: what every buffer holds between two items of the main function, the proof data of
  the four pipelines (each at its region's entry contents), each region as a segment between two such states, and the run
  itself — every weakly fair execution terminates, the arguments end as launched, and the result buffer ends at what the
  last region's write-backs leave.
-/
import proofs.«171723_j29566554866533_1_alg».proof.Proof.Gen.Kernel.Regions
import proofs.«171723_j29566554866533_1_alg».proof.Proof.K.Region0
import proofs.«171723_j29566554866533_1_alg».proof.Proof.K.Region1
import proofs.«171723_j29566554866533_1_alg».proof.Proof.K.Region2
import proofs.«171723_j29566554866533_1_alg».proof.Proof.K.Region3
import Idealize.ShloMosaic.Lib.Pipeline.RegionsLoop

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-! ## What the regions leave, one after the other -/

/-- What region 0 leaves in its output array: the fold of its write-backs. -/
def o0 (c : Dev nD) : Buf (Elt F) ((c : Thread nD τ).loc main_v30) := (dat0 (atRefs (V3 m)) c).arrAt 2 cfg0.N
def outs0 : Outs (F := F) := fun _ r c => if h : r = main_v30 then h ▸ o0 m c else V0 m c r
/-- Region 1's, entered after region 0 and the host operations between. -/
def o1 (c : Dev nD) : Buf (Elt F) ((c : Thread nD τ).loc main_v39) := (dat1 (atRefs (V13 m (outs0 m))) c).arrAt 3 cfg1.N
def outs1 : Outs (F := F) := fun J r c => if h : r = main_v39 then h ▸ o1 m c else outs0 m J r c
def o2 (c : Dev nD) : Buf (Elt F) ((c : Thread nD τ).loc main_v41) := (dat2 (atRefs (V15 m (outs1 m))) c).arrAt 3 cfg2.N
def outs2 : Outs (F := F) := fun J r c => if h : r = main_v41 then h ▸ o2 m c else outs1 m J r c
def o3 (c : Dev nD) : Buf (Elt F) ((c : Thread nD τ).loc main_v45) := (dat3 (atRefs (V17 m (outs2 m))) c).arrAt 5 cfg3.N
/-- What every region leaves. -/
def outs : Outs (F := F) := fun J r c => if h : r = main_v45 then h ▸ o3 m c else outs2 m J r c

theorem outs_4 (c : Dev nD) : outs m 4 main_v30 c = o0 m c := by
  unfold outs outs2 outs1 outs0
  rw [dif_neg (by decide), dif_neg (by decide), dif_neg (by decide), dif_pos rfl]
theorem outs_14 (c : Dev nD) : outs m 14 main_v39 c = o1 m c := by
  unfold outs outs2 outs1
  rw [dif_neg (by decide), dif_neg (by decide), dif_pos rfl]
theorem outs_16 (c : Dev nD) : outs m 16 main_v41 c = o2 m c := by
  unfold outs outs2
  rw [dif_neg (by decide), dif_pos rfl]
theorem outs_18 (c : Dev nD) : outs m 18 main_v45 c = o3 m c := by
  unfold outs
  rw [dif_pos rfl]
theorem outs0_4 (c : Dev nD) : outs0 m 4 main_v30 c = o0 m c := by unfold outs0; rw [dif_pos rfl]
theorem outs1_4 (c : Dev nD) : outs1 m 4 main_v30 c = o0 m c := by unfold outs1 outs0; rw [dif_neg (by decide), dif_pos rfl]
theorem outs1_14 (c : Dev nD) : outs1 m 14 main_v39 c = o1 m c := by unfold outs1; rw [dif_pos rfl]
theorem outs2_4 (c : Dev nD) : outs2 m 4 main_v30 c = o0 m c := by unfold outs2 outs1 outs0; rw [dif_neg (by decide), dif_neg (by decide), dif_pos rfl]
theorem outs2_14 (c : Dev nD) : outs2 m 14 main_v39 c = o1 m c := by unfold outs2 outs1; rw [dif_neg (by decide), dif_pos rfl]
theorem outs2_16 (c : Dev nD) : outs2 m 16 main_v41 c = o2 m c := by unfold outs2; rw [dif_pos rfl]

/-- The contents a region is entered from do not depend on what later regions leave. -/
theorem Vin1_eq (c : Dev nD) : V13 m (outs0 m) c = V13 m (outs m) c := by
  show StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs0 m 4 main_v30 c)))))))))) = StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs m 4 main_v30 c))))))))))
  rw [outs0_4, outs_4]
theorem Vin1_eq' (c : Dev nD) : V13 m (outs1 m) c = V13 m (outs m) c := by
  show StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs1 m 4 main_v30 c)))))))))) = StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs m 4 main_v30 c))))))))))
  rw [outs1_4, outs_4]
theorem Vin1_eq'' (c : Dev nD) : V13 m (outs2 m) c = V13 m (outs m) c := by
  show StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs2 m 4 main_v30 c)))))))))) = StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs m 4 main_v30 c))))))))))
  rw [outs2_4, outs_4]
theorem Vin2_eq (c : Dev nD) : V15 m (outs1 m) c = V15 m (outs m) c := by
  show StableHlo.after hostOps2 (Function.update (V13 m (outs1 m) c) main_v39 (outs1 m 14 main_v39 c)) = StableHlo.after hostOps2 (Function.update (V13 m (outs m) c) main_v39 (outs m 14 main_v39 c))
  rw [Vin1_eq', outs1_14, outs_14]
theorem Vin2_eq' (c : Dev nD) : V15 m (outs2 m) c = V15 m (outs m) c := by
  show StableHlo.after hostOps2 (Function.update (V13 m (outs2 m) c) main_v39 (outs2 m 14 main_v39 c)) = StableHlo.after hostOps2 (Function.update (V13 m (outs m) c) main_v39 (outs m 14 main_v39 c))
  rw [Vin1_eq'', outs2_14, outs_14]
theorem Vin3_eq (c : Dev nD) : V17 m (outs2 m) c = V17 m (outs m) c := by
  show StableHlo.after hostOps3 (Function.update (V15 m (outs2 m) c) main_v41 (outs2 m 16 main_v41 c)) = StableHlo.after hostOps3 (Function.update (V15 m (outs m) c) main_v41 (outs m 16 main_v41 c))
  rw [Vin2_eq', outs2_16, outs_16]

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atRefs (V3 m)) c
  | ⟨1, _⟩ => fun c => dat1 (atRefs (V13 m (outs0 m))) c
  | ⟨2, _⟩ => fun c => dat2 (atRefs (V15 m (outs1 m))) c
  | ⟨3, _⟩ => fun c => dat3 (atRefs (V17 m (outs2 m))) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev Rst (c : Dev nD) : sProp 𝕄 := iprop((∃ r, prngReg c r) ∗ ∃ W, owes (c : Thread nD τ) (0 : CellTallies nD τ sig Unit) W)

/-! ## The regions as segments -/

set_option maxHeartbeats 2000000 in
/-- At region 0's exit each of its arrays holds what the pipeline leaves, -/
theorem hF0 (c : Dev nD) (w : Fin cfg0.W) : (pdats m 0 c).arrAt w cfg0.N = atRefs (V4 m (outs m)) c (Pipeline.arrRef spec0 w) := by
  have hA : ∀ w, (pdats m 0 c).A w = atRefs (V3 m) c (Pipeline.arrRef spec0 w) := fun w => by
    exact (show (pdats m 0 c).A w = atRefs (V3 m) c (Pipeline.arrRef spec0 w) from A_eq0 _ c w)
  match w with
  | ⟨0, _⟩ => exact (((pdats m 0 c).arrAt_in 0 rfl _).trans (hA 0)).trans (V4_of m (outs m) c (Pipeline.arrRef spec0 0) (by decide)).symm
  | ⟨1, _⟩ => exact (((pdats m 0 c).arrAt_in 1 rfl _).trans (hA 1)).trans (V4_of m (outs m) c (Pipeline.arrRef spec0 1) (by decide)).symm
  | ⟨2, hw⟩ =>
    have hw' : (⟨2, hw⟩ : Fin cfg0.W) = 2 := rfl
    rw [hw']
    exact (show (pdats m 0 c).arrAt 2 cfg0.N = o0 m c from rfl).trans ((outs_4 m c).symm.trans (show outs m 4 main_v30 c = V4 m (outs m) c main_v30 from by simp only [V4, Function.update_self]))
/-- and every other buffer what it held at entry. -/
theorem hrest0 (c : Dev nD) : ∀ b, b ∉ Finset.univ.image (Pipeline.arrRef spec0) → atRefs (V4 m (outs m)) c b = atRefs (V3 m) c b :=
  fun b hb => V4_of m (outs m) c b fun hm => hb (by
    rw [List.mem_singleton] at hm; subst hm
    exact Finset.mem_image.mpr ⟨(2 : Fin cfg0.W), Finset.mem_univ _, rfl⟩)

set_option backward.isDefEq.respectTransparency.types false in
/-- REGION 0 over the thread state: entered from every unscoped buffer at the contents before it, left at those after it;
    its arrays split out of the unscoped buffers and put back at the exit contents; the generator register (and for a region
    with an accumulator, the scoped rest) into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (V3 m)) c).loose
  hwaits := Pipeline.hwaits_of_owed_zero _ _ _ _ L lv 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atRefs (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V3 m) c) fun w => by
        exact (show (pdats m 0 c).A w = atRefs (V3 m) c (Pipeline.arrRef spec0 w) from A_eq0 _ c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V3 m) c) (atRefs (V4 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 1's exit each of its arrays holds what the pipeline leaves, -/
theorem hF1 (c : Dev nD) (w : Fin cfg1.W) : (pdats m 1 c).arrAt w cfg1.N = atRefs (V14 m (outs m)) c (Pipeline.arrRef spec1 w) := by
  have hA : ∀ w, (pdats m 1 c).A w = atRefs (V13 m (outs m)) c (Pipeline.arrRef spec1 w) := fun w => by
    exact (show (pdats m 1 c).A w = atRefs (V13 m (outs0 m)) c (Pipeline.arrRef spec1 w) from A_eq1 _ c w).trans (congrFun (Vin1_eq m c) _)
  match w with
  | ⟨0, _⟩ => exact (((pdats m 1 c).arrAt_in 0 rfl _).trans (hA 0)).trans (V14_of m (outs m) c (Pipeline.arrRef spec1 0) (by decide)).symm
  | ⟨1, _⟩ => exact (((pdats m 1 c).arrAt_in 1 rfl _).trans (hA 1)).trans (V14_of m (outs m) c (Pipeline.arrRef spec1 1) (by decide)).symm
  | ⟨2, _⟩ => exact (((pdats m 1 c).arrAt_in 2 rfl _).trans (hA 2)).trans (V14_of m (outs m) c (Pipeline.arrRef spec1 2) (by decide)).symm
  | ⟨3, hw⟩ =>
    have hw' : (⟨3, hw⟩ : Fin cfg1.W) = 3 := rfl
    rw [hw']
    exact (show (pdats m 1 c).arrAt 3 cfg1.N = o1 m c from rfl).trans ((outs_14 m c).symm.trans (show outs m 14 main_v39 c = V14 m (outs m) c main_v39 from by simp only [V14, Function.update_self]))
/-- and every other buffer what it held at entry. -/
theorem hrest1 (c : Dev nD) : ∀ b, b ∉ Finset.univ.image (Pipeline.arrRef spec1) → atRefs (V14 m (outs m)) c b = atRefs (V13 m (outs m)) c b :=
  fun b hb => V14_of m (outs m) c b fun hm => hb (by
    rw [List.mem_singleton] at hm; subst hm
    exact Finset.mem_image.mpr ⟨(3 : Fin cfg1.W), Finset.mem_univ _, rfl⟩)

set_option backward.isDefEq.respectTransparency.types false in
/-- REGION 1 over the thread state: entered from every unscoped buffer at the contents before it, left at those after it;
    its arrays split out of the unscoped buffers and put back at the exit contents; the generator register (and for a region
    with an accumulator, the scoped rest) into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (V13 m (outs0 m))) c).loose
  hwaits := Pipeline.hwaits_of_owed_zero _ _ _ _ L lv 1 fun _ _ => rfl
  pre c := iprop(StableHlo.held (c : Thread nD τ) (Pipeline.ucRefs τ sig) (V13 m (outs m) c) ∗ Rst c)
  post c := iprop(StableHlo.held (c : Thread nD τ) (Pipeline.ucRefs τ sig) (V14 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atRefs (V13 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V13 m (outs m)) c) fun w => by
        exact (show (pdats m 1 c).A w = atRefs (V13 m (outs0 m)) c (Pipeline.arrRef spec1 w) from A_eq1 _ c w).trans (congrFun (Vin1_eq m c) _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (atRefs (V13 m (outs0 m))) c).Φ 0 from rfl]
    refine BIBase.Entails.trans ?_ (hin1 (atRefs (V13 m (outs0 m))) c)
    unfold Pipeline.ΦA
    iintro ⟨Hp, -, Hr⟩
    isplitl [Hr]; · iexact Hr
    iexact Hp
  hout c := by
    rw [Pipeline.ownSems0_none, show (pdats m 1 c).Φ (Fin.last _) = (dat1 (atRefs (V13 m (outs0 m))) c).Φ (Fin.last cfg1.N) from rfl]
    refine (hout1 (atRefs (V13 m (outs0 m))) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V13 m (outs m)) c) (atRefs (V14 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 2's exit each of its arrays holds what the pipeline leaves, -/
theorem hF2 (c : Dev nD) (w : Fin cfg2.W) : (pdats m 2 c).arrAt w cfg2.N = atRefs (V16 m (outs m)) c (Pipeline.arrRef spec2 w) := by
  have hA : ∀ w, (pdats m 2 c).A w = atRefs (V15 m (outs m)) c (Pipeline.arrRef spec2 w) := fun w => by
    exact (show (pdats m 2 c).A w = atRefs (V15 m (outs1 m)) c (Pipeline.arrRef spec2 w) from A_eq2 _ c w).trans (congrFun (Vin2_eq m c) _)
  match w with
  | ⟨0, _⟩ => exact (((pdats m 2 c).arrAt_in 0 rfl _).trans (hA 0)).trans (V16_of m (outs m) c (Pipeline.arrRef spec2 0) (by decide)).symm
  | ⟨1, _⟩ => exact (((pdats m 2 c).arrAt_in 1 rfl _).trans (hA 1)).trans (V16_of m (outs m) c (Pipeline.arrRef spec2 1) (by decide)).symm
  | ⟨2, _⟩ => exact (((pdats m 2 c).arrAt_in 2 rfl _).trans (hA 2)).trans (V16_of m (outs m) c (Pipeline.arrRef spec2 2) (by decide)).symm
  | ⟨3, hw⟩ =>
    have hw' : (⟨3, hw⟩ : Fin cfg2.W) = 3 := rfl
    rw [hw']
    exact (show (pdats m 2 c).arrAt 3 cfg2.N = o2 m c from rfl).trans ((outs_16 m c).symm.trans (show outs m 16 main_v41 c = V16 m (outs m) c main_v41 from by simp only [V16, Function.update_self]))
/-- and every other buffer what it held at entry. -/
theorem hrest2 (c : Dev nD) : ∀ b, b ∉ Finset.univ.image (Pipeline.arrRef spec2) → atRefs (V16 m (outs m)) c b = atRefs (V15 m (outs m)) c b :=
  fun b hb => V16_of m (outs m) c b fun hm => hb (by
    rw [List.mem_singleton] at hm; subst hm
    exact Finset.mem_image.mpr ⟨(3 : Fin cfg2.W), Finset.mem_univ _, rfl⟩)

set_option backward.isDefEq.respectTransparency.types false in
/-- REGION 2 over the thread state: entered from every unscoped buffer at the contents before it, left at those after it;
    its arrays split out of the unscoped buffers and put back at the exit contents; the generator register (and for a region
    with an accumulator, the scoped rest) into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (V15 m (outs1 m))) c).loose
  hwaits := Pipeline.hwaits_of_owed_zero _ _ _ _ L lv 2 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atRefs (V15 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (V15 m (outs m)) c) fun w => by
        exact (show (pdats m 2 c).A w = atRefs (V15 m (outs1 m)) c (Pipeline.arrRef spec2 w) from A_eq2 _ c w).trans (congrFun (Vin2_eq m c) _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (atRefs (V15 m (outs1 m))) c).Φ 0 from rfl]
    refine BIBase.Entails.trans ?_ (hin2 (atRefs (V15 m (outs1 m))) c)
    unfold Pipeline.ΦA
    iintro ⟨Hp, -, Hr⟩
    isplitl [Hr]; · iexact Hr
    iexact Hp
  hout c := by
    rw [Pipeline.ownSems0_none, show (pdats m 2 c).Φ (Fin.last _) = (dat2 (atRefs (V15 m (outs1 m))) c).Φ (Fin.last cfg2.N) from rfl]
    refine (hout2 (atRefs (V15 m (outs1 m))) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (V15 m (outs m)) c) (atRefs (V16 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 3's exit each of its arrays holds what the pipeline leaves, -/
theorem hF3 (c : Dev nD) (w : Fin cfg3.W) : (pdats m 3 c).arrAt w cfg3.N = atRefs (V18 m (outs m)) c (Pipeline.arrRef spec3 w) := by
  have hA : ∀ w, (pdats m 3 c).A w = atRefs (V17 m (outs m)) c (Pipeline.arrRef spec3 w) := fun w => by
    exact (show (pdats m 3 c).A w = atRefs (V17 m (outs2 m)) c (Pipeline.arrRef spec3 w) from A_eq3 _ c w).trans (congrFun (Vin3_eq m c) _)
  match w with
  | ⟨0, _⟩ => exact (((pdats m 3 c).arrAt_in 0 rfl _).trans (hA 0)).trans (V18_of m (outs m) c (Pipeline.arrRef spec3 0) (by decide)).symm
  | ⟨1, _⟩ => exact (((pdats m 3 c).arrAt_in 1 rfl _).trans (hA 1)).trans (V18_of m (outs m) c (Pipeline.arrRef spec3 1) (by decide)).symm
  | ⟨2, _⟩ => exact (((pdats m 3 c).arrAt_in 2 rfl _).trans (hA 2)).trans (V18_of m (outs m) c (Pipeline.arrRef spec3 2) (by decide)).symm
  | ⟨3, _⟩ => exact (((pdats m 3 c).arrAt_in 3 rfl _).trans (hA 3)).trans (V18_of m (outs m) c (Pipeline.arrRef spec3 3) (by decide)).symm
  | ⟨4, _⟩ => exact (((pdats m 3 c).arrAt_in 4 rfl _).trans (hA 4)).trans (V18_of m (outs m) c (Pipeline.arrRef spec3 4) (by decide)).symm
  | ⟨5, hw⟩ =>
    have hw' : (⟨5, hw⟩ : Fin cfg3.W) = 5 := rfl
    rw [hw']
    exact (show (pdats m 3 c).arrAt 5 cfg3.N = o3 m c from rfl).trans ((outs_18 m c).symm.trans (show outs m 18 main_v45 c = V18 m (outs m) c main_v45 from by simp only [V18, Function.update_self]))
/-- and every other buffer what it held at entry. -/
theorem hrest3 (c : Dev nD) : ∀ b, b ∉ Finset.univ.image (Pipeline.arrRef spec3) → atRefs (V18 m (outs m)) c b = atRefs (V17 m (outs m)) c b :=
  fun b hb => V18_of m (outs m) c b fun hm => hb (by
    rw [List.mem_singleton] at hm; subst hm
    exact Finset.mem_image.mpr ⟨(5 : Fin cfg3.W), Finset.mem_univ _, rfl⟩)

set_option backward.isDefEq.respectTransparency.types false in
/-- REGION 3 over the thread state: entered from every unscoped buffer at the contents before it, left at those after it;
    its arrays split out of the unscoped buffers and put back at the exit contents; the generator register (and for a region
    with an accumulator, the scoped rest) into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (V17 m (outs2 m))) c).loose
  hwaits := Pipeline.hwaits_of_owed_zero _ _ _ _ L lv 3 fun _ _ => rfl
  pre c := iprop(StableHlo.held (c : Thread nD τ) (Pipeline.ucRefs τ sig) (V17 m (outs m) c) ∗ Rst c)
  post c := iprop(StableHlo.held (c : Thread nD τ) (Pipeline.ucRefs τ sig) (V18 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atRefs (V17 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (V17 m (outs m)) c) fun w => by
        exact (show (pdats m 3 c).A w = atRefs (V17 m (outs2 m)) c (Pipeline.arrRef spec3 w) from A_eq3 _ c w).trans (congrFun (Vin3_eq m c) _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (V17 m (outs m)) c) (atRefs (V18 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the run -/

section TheRun
variable (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state: the generator register, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => Rst (F := F) c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : Rst (F := F) c ⊢ (iprop(∃ W, owes (c : Thread nD τ) (0 : CellTallies nD τ sig Unit) W) : sProp 𝕄) := by
  iintro ⟨-, HO⟩; iexact HO

/-- THE FRAME, at any instance: every weakly fair execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => Rst c) (hE0 ρ) (hE4)
    (reg0 m) (fun _ => .rfl) (fun _ => .rfl) (reg1 m) (fun _ => .rfl) (fun _ => .rfl)
    (reg2 m) (fun _ => .rfl) (fun _ => .rfl) (reg3 m) (fun _ => .rfl) (fun _ => .rfl)

set_option backward.isDefEq.respectTransparency.types false in
/-- THE RUN WITH ITS RESULT: besides the frame, the result buffer ends at what region 3's write-backs leave. -/
theorem run_result : θ_run defs (onTc (τ := τ) (main (F := F))) ⟨m, fun _ => 0, ρ⟩ (fun r => ∀ c : Dev nD,
      r.2.mem ((c.tc : Thread nD τ).loc main_v45) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outs m) 𝒱₀ L lv (fun _ c => Rst c) () (pdats m) (reg0 m) (reg1 m) (reg2 m) (reg3 m))
    (fun c Q => by
      rewrite [main_chain c, Seg.run_eq_chain,
        show (segs m (outs m) 𝒱₀ L lv (fun _ c => Rst c) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (hu₀ (F := F))
    (T₀ := fun c => iprop(StableHlo.held (c : Thread nD τ) (Pipeline.ucRefs τ sig) (V0 m c) ∗ Rst c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl, (sep_mono .rfl (hE4 c))⟩)
    (hinit := ?_) (QY := fun c s => s.mem ((c.tc : Thread nD τ).loc main_v45) = o3 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rst (F := F) c)]
    isplitl [Hh]; · iexact Hh
    iexact HE
  · unfold StableHlo.held
    iintro ⟨Hh, HSI⟩
    ihave Hr := (pointsTo_read_all (Pipeline.ucRefs τ sig) (fun b => ((c : Thread nD τ).1, b)) (V18 m (outs m) c) s') $$ [Hh HSI]
    · isplitl [Hh] <;> iassumption
    icases Hr with ⟨%h, HSI⟩
    imodintro
    isplitr
    · ipureintro
      exact ⟨(h (Proc.devRef .tc main_v45) (Finset.mem_filter.mpr ⟨StableHlo.devRef_mem_tcRefs main_v45, by decide⟩)).trans
          ((show V18 m (outs m) c main_v45 = outs m 18 main_v45 c from by simp only [V18, Function.update_self]).trans (outs_18 m c)),
        (h (Proc.devRef .tc main_arg0) (Finset.mem_filter.mpr ⟨StableHlo.devRef_mem_tcRefs main_arg0, by decide⟩)).trans (V18_main_arg0 m (outs m) c),
        (h (Proc.devRef .tc main_arg1) (Finset.mem_filter.mpr ⟨StableHlo.devRef_mem_tcRefs main_arg1, by decide⟩)).trans (V18_main_arg1 m (outs m) c),
        (h (Proc.devRef .tc main_arg2) (Finset.mem_filter.mpr ⟨StableHlo.devRef_mem_tcRefs main_arg2, by decide⟩)).trans (V18_main_arg2 m (outs m) c),
        (h (Proc.devRef .tc main_arg3) (Finset.mem_filter.mpr ⟨StableHlo.devRef_mem_tcRefs main_arg3, by decide⟩)).trans (V18_main_arg3 m (outs m) c),
        (h (Proc.devRef .tc main_arg4) (Finset.mem_filter.mpr ⟨StableHlo.devRef_mem_tcRefs main_arg4, by decide⟩)).trans (V18_main_arg4 m (outs m) c),
        (h (Proc.devRef .tc main_arg5) (Finset.mem_filter.mpr ⟨StableHlo.devRef_mem_tcRefs main_arg5, by decide⟩)).trans (V18_main_arg5 m (outs m) c),
        (h (Proc.devRef .tc main_arg6) (Finset.mem_filter.mpr ⟨StableHlo.devRef_mem_tcRefs main_arg6, by decide⟩)).trans (V18_main_arg6 m (outs m) c),
        (h (Proc.devRef .tc main_arg7) (Finset.mem_filter.mpr ⟨StableHlo.devRef_mem_tcRefs main_arg7, by decide⟩)).trans (V18_main_arg7 m (outs m) c)⟩
    · iexact HSI

end TheRun

end Cert.Kernel.Hand

end
-- ==== Proof.KI.Region0.lean ====
import proofs.«171723_j29566554866533_1_alg».proof.Proof.Gen.KernelIdeal.Launch
import proofs.«171723_j29566554866533_1_alg».proof.Proof.Gen.KernelIdeal.Skeleton
import proofs.«171723_j29566554866533_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 0 of @main: `cc0__matmul_kernel` (pipeline 0), at the entry contents `V`

One row block of the product per grid point: the body reads the whole staged block of the left operand and
the whole right operand, and stores the product block over the whole output buffer (after one load of that
buffer whose value nothing reads). -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): unfetched, the block
    index has not moved; the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): unfetched, the block
    index has not moved; the window is uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0

/-! ## What the body leaves in the output window's buffer -/

/-- Window 2's staging buffer after the body, from the input windows' blocks: its one store, of the product
    payload over the whole buffer. -/
def out0_2 (x0 : Vec F S10000x128 .f32) (x1 : Vec F S128x128 .f32) : Vec F S10000x128 .f32 :=
  View.canon [⟨r0_0, k0_pay1 (View.ld x0 r0_0) (View.ld x1 r0_1)⟩]

/-- The one store's rectangle is the whole buffer, so it covers it. -/
theorem cover0_2 (p0 : Vec F S10000x128 .f32) (y : S10000x128.Idx) :
    ∃ pc ∈ ([⟨r0_0, p0⟩] : List (View.Piece (Elt F) S10000x128 .f32)), y ∈ pc.1.set :=
  View.cover_of_tiled [⟨r0_0, p0⟩] S10000x128.size (by rfl) y

/-! ## The body's triple -/

set_option maxHeartbeats 1000000 in
/-- The kernel body on whole staging memrefs, the inputs' at read contents `x0`, `x1` and the output's at anything,
    runs to the continuation holding the inputs' as they were and the output's at `out0_2` of the inputs'. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S10000x128 .f32) (harg2 : arg2.IsWhole)
    (x0 : Vec F S10000x128 .f32) (x1 : Vec F S128x128 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them (`V`); after the body at
    point `t` each input's buffer at its block and the output's at `out0_2` of the input blocks; the invariant
    is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the
    invariant and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Regions

end Cert.KernelIdeal.Hand

end
-- ==== Proof.KI.Region1.lean ====
/-
  The gather region (pallas_call 1): its proof data, at any contents V of the buffers when the region is entered.

  The grid is 440 × 49; point t is (edge tile, node tile) = (t / 49, t % 49). A scratch accumulator is zeroed at node
  tile 0, gains at every point the product of the one-hot selector (source id = node id) with the node tile's rows, and at
  node tile 48 is scaled row by row by the edge weights and stored as the edge tile's block of the output. So there are
  three kinds of point: the first of a row (k = 0), the middle ones, the last (k = 48); the output's buffer is written
  only at the last and is idle before. What the accumulator and the output's buffer hold after each point is defined by
  recursion on the point (`outsAt1`); the invariant carries the accumulator at that value from one point to the next.
-/
import proofs.«171723_j29566554866533_1_alg».proof.Proof.Gen.KernelIdeal.Launch
import proofs.«171723_j29566554866533_1_alg».proof.Proof.Gen.KernelIdeal.Skeleton
import proofs.«171723_j29566554866533_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The node-tile coordinate of point t is t mod 49. -/
theorem coords1_k (t : Fin cfg1.N) : ((grid1.coords t) 1).val = t.val % 49 := by
  show t.val / grid1.stride 1 % 49 = t.val % 49
  rw [show grid1.stride 1 = 1 from by decide, Nat.div_one]

/-- The first branch's condition: the node tile is the first. -/
abbrev cond1_0 (i : grid1.Coords) : Prop := (Scalar.cmpi .ne (Scalar.extui (Scalar.cmpi .eq (BitVec.ofNat 32 (i 1).val) 0#32)) 0#32) = 1#1
/-- The second branch's condition: the node tile is the last. -/
abbrev cond1_1 (i : grid1.Coords) : Prop := k1_cond2 i = 1#1

theorem hcond1_0 (t : Fin cfg1.N) : cond1_0 (grid1.coords t) ↔ t.val % 49 = 0 := by
  have h : ∀ k : Fin 49, ((Scalar.cmpi .ne (Scalar.extui (Scalar.cmpi .eq (BitVec.ofNat 32 k.val) 0#32)) 0#32) = 1#1) ↔ k.val = 0 := by decide +kernel
  have h' := h ⟨t.val % 49, Nat.mod_lt _ (by decide)⟩
  show ((Scalar.cmpi .ne (Scalar.extui (Scalar.cmpi .eq (BitVec.ofNat 32 ((grid1.coords t) 1).val) 0#32)) 0#32) = 1#1) ↔ _
  rw [coords1_k]; exact h'

theorem hcond1_1 (t : Fin cfg1.N) : cond1_1 (grid1.coords t) ↔ t.val % 49 = 48 := by
  have h : ∀ k : Fin 49, ((Scalar.cmpi .ne (Scalar.extui (Scalar.cmpi .eq (BitVec.ofNat 32 k.val) 48#32)) 0#32) = 1#1) ↔ k.val = 48 := by decide +kernel
  have h' := h ⟨t.val % 49, Nat.mod_lt _ (by decide)⟩
  show ((Scalar.cmpi .ne (Scalar.extui (Scalar.cmpi .eq (BitVec.ofNat 32 ((grid1.coords t) 1).val) 48#32)) 0#32) = 1#1) ↔ _
  rw [coords1_k]; exact h'

/-! ## Where the windows are idle -/

theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the last node tile the output's buffer is idle, -/
theorem idleAt1_3 (t : Fin cfg1.N) (h : ¬cond1_1 (grid1.coords t)) : cfg1.idle 3 (grid1.coords t) = true := by
  show (!(k1_cond2 (grid1.coords t) == 1#1)) = true
  simp only [Bool.not_eq_true', beq_eq_false_iff_ne, ne_eq]; exact h
/-- and it is not written back there; -/
theorem noFlush1_3 (t : Fin cfg1.N) (h : ¬t.val % 49 = 48) : (cfg1.win 3).flush t = false :=
  Bool.eq_false_iff.mpr fun hf => h ((flush1_3 t).mp hf)
/-- at the last node tile it is live. -/
theorem liveAt1_3 (t : Fin cfg1.N) (h : cond1_1 (grid1.coords t)) : cfg1.idle 3 (grid1.coords t) = false := by
  show (!(k1_cond2 (grid1.coords t) == 1#1)) = false
  simp only [Bool.not_eq_false', beq_iff_eq]; exact h

/-! ## The staging memrefs and the scratch -/

abbrev VO1_3 : View sig .tc .vmem S2048x128 .f32 := (Memref.whole cc1_stg3_0 : Memref sig .tc .vmem S2048x128 .f32).view
abbrev ms1_0 (t : Fin cfg1.N) : Memref sig .tc .vmem S2048x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x128 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1_0 : Memref sig .tc .vmem S2048x128 .f32 := Memref.whole cc1_scratch0
abbrev VS1_0 : View sig .tc .vmem S2048x128 .f32 := scM1_0.view

/-- The scoped buffers no window of this region stages, -/
abbrev restSet1 : Finset (Ref sig .tc) := (Finset.univ.filter fun b : Ref sig .tc => b.isScoped) \ Finset.univ.image (Pipeline.stageRef spec1)
theorem scratch_mem1 : cc1_scratch0 ∈ restSet1 := by decide
/-- less the accumulator, each at some contents. -/
def Rest1 (c : Dev nD) : sProp 𝕄 :=
  bigSep (restSet1.erase cc1_scratch0) fun b => iprop(∃ f : Buf (Elt F) ((c.tc : Thread nD τ).loc b), ((c.tc : Thread nD τ).loc b) ↦{fullShare} f)

/-- The class invariant with the accumulator singled out. -/
theorem PhiA1_eq (c : Dev nD) :
    (Pipeline.ΦA spec1 c : sProp 𝕄)
      = iprop(iprop((∃ d, owns (c : Thread nD τ) scM1_0 fullShare d) ∗ Rest1 (F := F) c) ∗ (∃ r, prngReg c r)) := by
  unfold Pipeline.ΦA Pipeline.scopedRest Rest1
  rw [bigSep_erase scratch_mem1]; simp only [scM1_0, owns_whole]; try rfl

/-! ## The body on any staging memrefs, one run per kind of point -/

set_option maxHeartbeats 4000000 in
/-- FIRST node tile: the inputs' buffers at their contents, the output's idle buffer handed back untouched, the accumulator
    at anything; the run ends with the accumulator's pieces written. -/
noncomputable def kernelRun1_A (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE node tiles: as the first, the accumulator at what the point before left. -/
noncomputable def kernelRun1_B (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨[], ?_, fun xi3 E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST node tile: the output's buffer at anything, left with its pieces written; the accumulator as in the middle. -/
noncomputable def kernelRun1_C (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gather_kernel i arg2 harg2 arg3 harg3 arg4 harg4 arg5 harg5 arg6 harg6) K } := by
  refine ⟨?_, ?_, fun E K => ?run⟩
  case run =>
    simp only [cc1__gather_kernel_eq_skeleton]; unfold cc1__gather_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

section AtV
variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end AtV

/-! ## What each kind of point leaves -/

/-- The accumulator's pieces cover it. -/
theorem scover1_A_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) (y : S2048x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S2048x128.size (by sl_kernel_rfl) y
/-- What the point leaves in the accumulator. -/
def sout1_A_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) : Vec F S2048x128 .f32 :=
  VS1_0.read (Elt F) (VS1_0.writes (Elt F) VS1_0.junk (kernelRun1_A c i arg2 harg2 arg3 harg3 arg4 harg4 arg5 harg5 arg6 harg6 hc0 hc1 x0 x1 x2).2.1)
/-- What the point leaves in the output's buffer (nothing: a placeholder nothing reads). -/
def out1_A_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) : Vec F S2048x128 .f32 :=
  VO1_3.read (Elt F) (VO1_3.writes (Elt F) VO1_3.junk (kernelRun1_A c i arg2 harg2 arg3 harg3 arg4 harg4 arg5 harg5 arg6 harg6 hc0 hc1 x0 x1 x2).1)

/-- The accumulator's pieces cover it. -/
theorem scover1_B_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) (y : S2048x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S2048x128.size (by sl_kernel_rfl) y
/-- What the point leaves in the accumulator. -/
def sout1_B_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) : Vec F S2048x128 .f32 :=
  VS1_0.read (Elt F) (VS1_0.writes (Elt F) VS1_0.junk (kernelRun1_B c i arg2 harg2 arg3 harg3 arg4 harg4 arg5 harg5 arg6 harg6 hc0 hc1 x0 x1 x2 xs0).2.1)
/-- What the point leaves in the output's buffer (nothing: a placeholder nothing reads). -/
def out1_B_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) : Vec F S2048x128 .f32 :=
  VO1_3.read (Elt F) (VO1_3.writes (Elt F) VO1_3.junk (kernelRun1_B c i arg2 harg2 arg3 harg3 arg4 harg4 arg5 harg5 arg6 harg6 hc0 hc1 x0 x1 x2 xs0).1)

/-- The accumulator's pieces cover it. -/
theorem scover1_C_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S2048x128.size (by sl_kernel_rfl) y
/-- What the point leaves in the accumulator. -/
def sout1_C_0 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) : Vec F S2048x128 .f32 :=
  VS1_0.read (Elt F) (VS1_0.writes (Elt F) VS1_0.junk (kernelRun1_C c i arg2 harg2 arg3 harg3 arg4 harg4 arg5 harg5 arg6 harg6 hc0 hc1 x0 x1 x2 xs0).2.1)
/-- The output's pieces cover its block. -/
theorem cover1_C_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) (y : S2048x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S2048x128.size (by sl_kernel_rfl) y
/-- What the point leaves in the output's buffer. -/
def out1_C_3 (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) : Vec F S2048x128 .f32 :=
  VO1_3.read (Elt F) (VO1_3.writes (Elt F) VO1_3.junk (kernelRun1_C c i arg2 harg2 arg3 harg3 arg4 harg4 arg5 harg5 arg6 harg6 hc0 hc1 x0 x1 x2 xs0).1)

section AtV2
variable (V : (c : Dev nD) → (b : Ref sig .tc) → Buf (Elt F) ((c : Thread nD τ).loc b))

/-! ## What the output's buffer and the accumulator hold after each point -/

/-- By recursion on the point: (the output's buffer, the accumulator) after the body at position n. -/
def outsAt1 (c : Dev nD) : (n : ℕ) → n < cfg1.N → Vec F S2048x128 .f32 × Vec F S2048x128 .f32
  | 0, hn =>
    have h0 : (0 : ℕ) % 49 = 0 := rfl
    have h1 : ¬ (0 : ℕ) % 49 = 48 := by decide
    (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩),
     sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩))
  | n + 1, hn =>
    if h0 : (n + 1) % 49 = 0 then
      if h1 : (n + 1) % 49 = 48 then False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩),
         sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 49 = 48 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 49 = 0) (h1 : ¬t.val % 49 = 48) :
    outsAt1 V c t.val t.isLt =
      (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
       sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 49 = 0) (h1 : ¬t.val % 49 = 48) :
    outsAt1 V c t.val t.isLt =
      (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
       sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt1_C (c : Dev nD) (t : Fin cfg1.N) (h0 : ¬t.val % 49 = 0) (h1 : t.val % 49 = 48) :
    outsAt1 V c t.val t.isLt =
      (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
       sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-! ## The invariant: the accumulator carried from point to point -/

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1_0 fullShare ((outsAt1 V c n hn).2) ∗ Rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ Rest1 (F := F) c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end AtV2

section Body
variable (V : (c : Dev nD) → (b : Ref sig .tc) → Buf (Elt F) ((c : Thread nD τ).loc b))

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the node-tile coordinate says which kind of point it is; the
    invariant hands the body the accumulator at what the point before left (at anything before the first point) and takes it
    back at this point's value. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  by_cases h0 : t.val % 49 = 0
  · by_cases h1 : t.val % 49 = 48
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t h1)]
      rw [outsAt1_A V c t h0 h1]
      unfold sout1_A_0; (try dsimp only)
      by_cases hz : t.val = 0
      · rw [PhiS1_castSucc V c t, PhiS1_zero V c _ _ hz, PhiA1_eq]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, HR⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover1_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 49 = 48
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      have hz : t.val ≠ 0 := fun hz => h0 (by rw [hz])
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t h1)]
      rw [outsAt1_B V c t h0 h1]
      unfold sout1_B_0; (try dsimp only)
      have hz : t.val ≠ 0 := fun hz => h0 (by rw [hz])
      rw [PhiS1_castSucc V c t, PhiS1_pos V c _ _ hz]
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class invariant back: the accumulator's value is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HR⟩, Hg⟩
  isplitl [HS0 HR]
  · isplitl [HS0]
    · iexists _; iexact HS0
    iexact HR
  iexact Hg

theorem hout1 (c : Dev nD) : (dat1 V c).Φ (Fin.last cfg1.N) ⊢ Pipeline.ΦA spec1 c :=
  Phi_out1 V c _ (by rw [Fin.val_last]; have : cfg1.N = 21560 := N_1; omega)

end Body

end Cert.KernelIdeal.Hand

end
-- ==== Proof.KI.Region2.lean ====
/-
  The scatter region (pallas_call 2): its proof data, at any contents V of the buffers when the region is entered.

  The grid is 49 × 440; point t is (node tile, edge tile) = (t / 440, t % 440). A scratch accumulator is zeroed at edge
  tile 0, gains at every point the product of the one-hot selector (node id = destination id) with the edge tile's message
  rows, and at edge tile 439 has the bias row added, is clamped below at zero and stored as the node tile's block of the
  output. So there are three kinds of point: the first of a row (k = 0), the middle ones, the last (k = 439); the output's
  buffer is written only at the last and is idle before. What the accumulator and the output's buffer hold after each point
  is defined by recursion on the point (`outsAt2`); the invariant carries the accumulator at that value from one point to
  the next.
-/
import proofs.«171723_j29566554866533_1_alg».proof.Proof.Gen.KernelIdeal.Launch
import proofs.«171723_j29566554866533_1_alg».proof.Proof.Gen.KernelIdeal.Skeleton
import proofs.«171723_j29566554866533_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- The edge-tile coordinate of point t is t mod 440. -/
theorem coords2_k (t : Fin cfg2.N) : ((grid2.coords t) 1).val = t.val % 440 := by
  show t.val / grid2.stride 1 % 440 = t.val % 440
  rw [show grid2.stride 1 = 1 from by decide, Nat.div_one]

/-- The first branch's condition: the edge tile is the first. -/
abbrev cond2_0 (i : grid2.Coords) : Prop := (Scalar.cmpi .ne (Scalar.extui (Scalar.cmpi .eq (BitVec.ofNat 32 (i 1).val) 0#32)) 0#32) = 1#1
/-- The second branch's condition: the edge tile is the last. -/
abbrev cond2_1 (i : grid2.Coords) : Prop := k2_cond2 i = 1#1

theorem hcond2_0 (t : Fin cfg2.N) : cond2_0 (grid2.coords t) ↔ t.val % 440 = 0 := by
  have h : ∀ k : Fin 440, ((Scalar.cmpi .ne (Scalar.extui (Scalar.cmpi .eq (BitVec.ofNat 32 k.val) 0#32)) 0#32) = 1#1) ↔ k.val = 0 := by decide +kernel
  have h' := h ⟨t.val % 440, Nat.mod_lt _ (by decide)⟩
  show ((Scalar.cmpi .ne (Scalar.extui (Scalar.cmpi .eq (BitVec.ofNat 32 ((grid2.coords t) 1).val) 0#32)) 0#32) = 1#1) ↔ _
  rw [coords2_k]; exact h'

theorem hcond2_1 (t : Fin cfg2.N) : cond2_1 (grid2.coords t) ↔ t.val % 440 = 439 := by
  have h : ∀ k : Fin 440, ((Scalar.cmpi .ne (Scalar.extui (Scalar.cmpi .eq (BitVec.ofNat 32 k.val) 439#32)) 0#32) = 1#1) ↔ k.val = 439 := by decide +kernel
  have h' := h ⟨t.val % 440, Nat.mod_lt _ (by decide)⟩
  show ((Scalar.cmpi .ne (Scalar.extui (Scalar.cmpi .eq (BitVec.ofNat 32 ((grid2.coords t) 1).val) 439#32)) 0#32) = 1#1) ↔ _
  rw [coords2_k]; exact h'

/-! ## Where the windows are idle -/

theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- Away from the last edge tile the output's buffer is idle, -/
theorem idleAt2_3 (t : Fin cfg2.N) (h : ¬cond2_1 (grid2.coords t)) : cfg2.idle 3 (grid2.coords t) = true := by
  show (!(k2_cond2 (grid2.coords t) == 1#1)) = true
  simp only [Bool.not_eq_true', beq_eq_false_iff_ne, ne_eq]; exact h
/-- and it is not written back there; -/
theorem noFlush2_3 (t : Fin cfg2.N) (h : ¬t.val % 440 = 439) : (cfg2.win 3).flush t = false :=
  Bool.eq_false_iff.mpr fun hf => h ((flush2_3 t).mp hf)
/-- at the last edge tile it is live. -/
theorem liveAt2_3 (t : Fin cfg2.N) (h : cond2_1 (grid2.coords t)) : cfg2.idle 3 (grid2.coords t) = false := by
  show (!(k2_cond2 (grid2.coords t) == 1#1)) = false
  simp only [Bool.not_eq_false', beq_iff_eq]; exact h

/-! ## The staging memrefs and the scratch -/

abbrev VO2_3 : View sig .tc .vmem S2048x128 .f32 := (Memref.whole cc2_stg3_0 : Memref sig .tc .vmem S2048x128 .f32).view
abbrev ms2_0 (t : Fin cfg2.N) : Memref sig .tc .vmem S1x2048 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2048x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S2048x128 .f32 := Memref.whole cc2_scratch0
abbrev VS2_0 : View sig .tc .vmem S2048x128 .f32 := scM2_0.view

/-- The scoped buffers no window of this region stages, -/
abbrev restSet2 : Finset (Ref sig .tc) := (Finset.univ.filter fun b : Ref sig .tc => b.isScoped) \ Finset.univ.image (Pipeline.stageRef spec2)
theorem scratch_mem2 : cc2_scratch0 ∈ restSet2 := by decide
/-- less the accumulator, each at some contents. -/
def Rest2 (c : Dev nD) : sProp 𝕄 :=
  bigSep (restSet2.erase cc2_scratch0) fun b => iprop(∃ f : Buf (Elt F) ((c.tc : Thread nD τ).loc b), ((c.tc : Thread nD τ).loc b) ↦{fullShare} f)

/-- The class invariant with the accumulator singled out. -/
theorem PhiA2_eq (c : Dev nD) :
    (Pipeline.ΦA spec2 c : sProp 𝕄)
      = iprop(iprop((∃ d, owns (c : Thread nD τ) scM2_0 fullShare d) ∗ Rest2 (F := F) c) ∗ (∃ r, prngReg c r)) := by
  unfold Pipeline.ΦA Pipeline.scopedRest Rest2
  rw [bigSep_erase scratch_mem2]; simp only [scM2_0, owns_whole]; try rfl

/-! ## The body on any staging memrefs, one run per kind of point -/

set_option maxHeartbeats 4000000 in
/-- FIRST edge tile: the inputs' buffers at their contents, the output's idle buffer handed back untouched, the accumulator
    at anything; the run ends with the accumulator's pieces written. -/
noncomputable def kernelRun2_A (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- MIDDLE edge tiles: as the first, the accumulator at what the point before left. -/
noncomputable def kernelRun2_B (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (xi3 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨[], ?_, fun xi3 E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

set_option maxHeartbeats 4000000 in
/-- LAST edge tile: the output's buffer at anything, left with its pieces written; the accumulator as in the middle. -/
noncomputable def kernelRun2_C (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) :
    Σ' (L3 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__scatter_kernel i arg2 harg2 arg3 harg3 arg4 harg4 arg5 harg5 arg6 harg6) K } := by
  refine ⟨?_, ?_, fun E K => ?run⟩
  case run =>
    simp only [cc2__scatter_kernel_eq_skeleton]; unfold cc2__scatter_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact HS0

section AtV
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end AtV

/-! ## What each kind of point leaves -/

/-- The accumulator's pieces cover it. -/
theorem scover2_A_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) (y : S2048x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S2048x128.size (by sl_kernel_rfl) y
/-- What the point leaves in the accumulator. -/
def sout2_A_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) : Vec F S2048x128 .f32 :=
  VS2_0.read (Elt F) (VS2_0.writes (Elt F) VS2_0.junk (kernelRun2_A c i arg2 harg2 arg3 harg3 arg4 harg4 arg5 harg5 arg6 harg6 hc0 hc1 x0 x1 x2).2.1)
/-- What the point leaves in the output's buffer (nothing: a placeholder nothing reads). -/
def out2_A_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : cond2_0 i) (hc1 : ¬cond2_1 i)
    (x0 : Vec F S1x2048 .i32) (x1 : Vec F S2048x128 .f32) (x2 : Vec F S1x128 .f32) : Vec F S2048x128 .f32 :=
  VO2_3.read (Elt F) (VO2_3.writes (Elt F) VO2_3.junk (kernelRun2_A c i arg2 harg2 arg3 harg3 arg4 harg4 arg5 harg5 arg6 harg6 hc0 hc1 x0 x1 x2).1)

/-- The accumulator's pieces cover it. -/
theorem scover2_B_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) (y : S2048x128.Idx) :
    ∃ pc ∈ (kernelRun2_B c i arg2 harg2 arg3 harg3 arg4 harg4 arg5 harg5 arg6 harg6 hc0 hc1 x0 x1 x2 xs0).2.1, y ∈ pc.1.set :=
  View.cover_of_tiledL (kernelRun2_B c i arg2 harg2 arg3 harg3 arg4 harg4 arg5 harg5 arg6 harg6 hc0 hc1 x0 x1 x2 xs0).2.1 S2048x128.size (by sl_kernel_rfl) y
/-- What the point leaves in the accumulator. -/
def sout2_B_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) : Vec F S2048x128 .f32 :=
  VS2_0.read (Elt F) (VS2_0.writes (Elt F) VS2_0.junk (kernelRun2_B c i arg2 harg2 arg3 harg3 arg4 harg4 arg5 harg5 arg6 harg6 hc0 hc1 x0 x1 x2 xs0).2.1)
/-- What the point leaves in the output's buffer (nothing: a placeholder nothing reads). -/
def out2_B_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : ¬cond2_1 i)
    (x0 : Vec F S1x2048 .i32) (x1 : Vec F S2048x128 .f32) (x2 : Vec F S1x128 .f32) (xs0 : Vec F S2048x128 .f32) : Vec F S2048x128 .f32 :=
  VO2_3.read (Elt F) (VO2_3.writes (Elt F) VO2_3.junk (kernelRun2_B c i arg2 harg2 arg3 harg3 arg4 harg4 arg5 harg5 arg6 harg6 hc0 hc1 x0 x1 x2 xs0).1)

/-- The accumulator's pieces cover it. -/
theorem scover2_C_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S2048x128.size (by sl_kernel_rfl) y
/-- What the point leaves in the accumulator. -/
def sout2_C_0 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) : Vec F S2048x128 .f32 :=
  VS2_0.read (Elt F) (VS2_0.writes (Elt F) VS2_0.junk (kernelRun2_C c i arg2 harg2 arg3 harg3 arg4 harg4 arg5 harg5 arg6 harg6 hc0 hc1 x0 x1 x2 xs0).2.1)
/-- The output's pieces cover its block. -/
theorem cover2_C_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) (y : S2048x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S2048x128.size (by sl_kernel_rfl) y
/-- What the point leaves in the output's buffer. -/
def out2_C_3 (c : Dev nD) (i : grid2.Coords) (arg2 : Memref sig .tc .vmem S1x2048 .i32) (harg2 : arg2.IsWhole) (arg3 : Memref sig .tc .vmem S2048x128 .f32) (harg3 : arg3.IsWhole) (arg4 : Memref sig .tc .vmem S1x128 .f32) (harg4 : arg4.IsWhole) (arg5 : Memref sig .tc .vmem S2048x128 .f32) (harg5 : arg5.IsWhole) (arg6 : Memref sig .tc .vmem S2048x128 .f32) (harg6 : arg6.IsWhole) (hc0 : ¬cond2_0 i) (hc1 : cond2_1 i)
    (x0 : Vec F S1x2048 .i32) (x1 : Vec F S2048x128 .f32) (x2 : Vec F S1x128 .f32) (xs0 : Vec F S2048x128 .f32) : Vec F S2048x128 .f32 :=
  VO2_3.read (Elt F) (VO2_3.writes (Elt F) VO2_3.junk (kernelRun2_C c i arg2 harg2 arg3 harg3 arg4 harg4 arg5 harg5 arg6 harg6 hc0 hc1 x0 x1 x2 xs0).1)

section AtV2
variable (V : (c : Dev nD) → (b : Ref sig .tc) → Buf (Elt F) ((c : Thread nD τ).loc b))

/-! ## What the output's buffer and the accumulator hold after each point -/

/-- By recursion on the point: (the output's buffer, the accumulator) after the body at position n. -/
def outsAt2 (c : Dev nD) : (n : ℕ) → n < cfg2.N → Vec F S2048x128 .f32 × Vec F S2048x128 .f32
  | 0, hn =>
    have h0 : (0 : ℕ) % 440 = 0 := rfl
    have h1 : ¬ (0 : ℕ) % 440 = 439 := by decide
    (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩),
     sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩))
  | n + 1, hn =>
    if h0 : (n + 1) % 440 = 0 then
      if h1 : (n + 1) % 440 = 439 then False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
         sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 440 = 439 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
         sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        (out2_B_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2,
         sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (outsAt2 c n (Nat.lt_of_succ_lt hn)).2)

theorem outsAt2_A (c : Dev nD) (t : Fin cfg2.N) (h0 : t.val % 440 = 0) (h1 : ¬t.val % 440 = 439) :
    outsAt2 V c t.val t.isLt =
      (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
       sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

theorem outsAt2_B (c : Dev nD) (t : Fin cfg2.N) (h0 : ¬t.val % 440 = 0) (h1 : ¬t.val % 440 = 439) :
    outsAt2 V c t.val t.isLt =
      (out2_B_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2,
       sout2_B_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_neg h1).trans rfl)

theorem outsAt2_C (c : Dev nD) (t : Fin cfg2.N) (h0 : ¬t.val % 440 = 0) (h1 : t.val % 440 = 439) :
    outsAt2 V c t.val t.isLt =
      (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
       sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; exact absurd (Nat.zero_mod _) h0)
  | succ n => exact (dif_neg h0).trans ((dif_pos h1).trans rfl)

/-! ## The invariant: the accumulator carried from point to point -/

def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ Rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2_0 fullShare ((outsAt2 V c n hn).2) ∗ Rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ Rest2 (F := F) c) ∗ (∃ r, prngReg c r)) := by
  cases n with
  | zero => exact absurd rfl hz
  | succ n => rfl

/-! ## The proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

end AtV2

section Body
variable (V : (c : Dev nD) → (b : Ref sig .tc) → Buf (Elt F) ((c : Thread nD τ).loc b))

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' buffers hold their blocks; the edge-tile coordinate says which kind of point it is; the
    invariant hands the body the accumulator at what the point before left (at anything before the first point) and takes it
    back at this point's value. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  by_cases h0 : t.val % 440 = 0
  · by_cases h1 : t.val % 440 = 439
    · exfalso; omega
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t h1)]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 440 = 439
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3 t ((hcond2_1 t).mpr h1)], after2_3]
      rw [outsAt2_C V c t h0 h1]
      unfold out2_C_3 sout2_C_0; (try dsimp only)
      have hz : t.val ≠ 0 := fun hz => h0 (by rw [hz])
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_C_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover2_C_3 c _ _ _ _ _ _ _ _ _ _ _ _ _ _ _ _ _)
    ·
      rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3 t (fun h => h1 ((hcond2_1 t).mp h))) (noFlush2_3 t h1)]
      rw [outsAt2_B V c t h0 h1]
      unfold sout2_B_0; (try dsimp only)
      have hz : t.val ≠ 0 := fun hz => h0 (by rw [hz])
      rw [PhiS2_castSucc V c t, PhiS2_pos V c _ _ hz]
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h)) (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          iexact HR
        iexact Hg
      isplitl [Ho]; · iexact Ho
      isplitl [H0]; · iexact H0
      isplitl [H1]; · iexact H1
      isplitl [H2]; · iexact H2
      iexists _; iexact H3

theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class invariant back: the accumulator's value is forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

theorem hout2 (c : Dev nD) : (dat2 V c).Φ (Fin.last cfg2.N) ⊢ Pipeline.ΦA spec2 c :=
  Phi_out2 V c _ (by rw [Fin.val_last]; have : cfg2.N = 21560 := N_2; omega)

end Body

end Cert.KernelIdeal.Hand

end
-- ==== Proof.KI.Region3.lean ====
import proofs.«171723_j29566554866533_1_alg».proof.Proof.Gen.KernelIdeal.Launch
import proofs.«171723_j29566554866533_1_alg».proof.Proof.Gen.KernelIdeal.Skeleton
import proofs.«171723_j29566554866533_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered: the parameter the region's half is stated at
variable (V : (c : Dev nD) → (b : Ref sig .tc) → Buf (Elt F) ((c : Thread nD τ).loc b))

/-! # REGION 3 of @main: `cc3__mlp_kernel` (pipeline 3), at the entry contents `V`

One row block of the two dense layers and the row-wise log-softmax per grid point: the body reads the whole
staged row block, both weight matrices and both bias rows, and stores the result block over the whole output
buffer (after one load of that buffer whose value nothing reads). -/

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S10000x128 := Rect.unit (s := S10000x128) ![0, 0] S10000x128.size inb_S10000x128_S10000x128_0_0
abbrev r3_1 : Rect S128x512 := Rect.unit (s := S128x512) ![0, 0] S128x512.size inb_S128x512_S128x512_0_0
abbrev r3_2 : Rect S1x512 := Rect.unit (s := S1x512) ![0, 0] S1x512.size inb_S1x512_S1x512_0_0
abbrev r3_3 : Rect S512x64 := Rect.unit (s := S512x64) ![0, 0] S512x64.size inb_S512x64_S512x64_0_0
abbrev r3_4 : Rect S1x64 := Rect.unit (s := S1x64) ![0, 0] S1x64.size inb_S1x64_S1x64_0_0
abbrev r3_5 : Rect S10000x64 := Rect.unit (s := S10000x64) ![0, 0] S10000x64.size inb_S10000x64_S10000x64_0_0

/-! ## What the body leaves in the output window's buffer -/

/-- Window 5's staging buffer after the body, from the input windows' blocks: its one store, of the payload
    over the whole buffer. -/
def out3_5 (x0 : Vec F S10000x128 .f32) (x1 : Vec F S128x512 .f32) (x2 : Vec F S1x512 .f32) (x3 : Vec F S512x64 .f32) (x4 : Vec F S1x64 .f32) : Vec F S10000x64 .f32 :=
  View.canon [⟨r3_5, k3_pay1 (View.ld x0 r3_0) (View.ld x1 r3_1) (View.ld x2 r3_2) (View.ld x3 r3_3) (View.ld x4 r3_4)⟩]

/-- The one store's rectangle is the whole buffer, so it covers it. -/
theorem cover3_5 (p0 : Vec F S10000x64 .f32) (y : S10000x64.Idx) :
    ∃ pc ∈ ([⟨r3_5, p0⟩] : List (View.Piece (Elt F) S10000x64 .f32)), y ∈ pc.1.set :=
  View.cover_of_tiled [⟨r3_5, p0⟩] S10000x64.size (by rfl) y

/-! ## The body's triple -/

set_option maxHeartbeats 1000000 in
/-- The kernel body on whole staging memrefs, the inputs' at read contents `xW` and the output's at anything,
    runs to the continuation holding the inputs' as they were and the output's at `out3_5` of the inputs'. -/
theorem sound_kernel3 (c : Dev nD) (E : Set ℕ) (i : grid3.Coords) (arg0 : Memref sig .tc .vmem S10000x128 .f32) (harg0 : arg0.IsWhole) (arg1 : Memref sig .tc .vmem S128x512 .f32) (harg1 : arg1.IsWhole) (arg2 : Memref sig .tc .vmem S1x512 .f32) (harg2 : arg2.IsWhole) (arg3 : Memref sig .tc .vmem S512x64 .f32) (harg3 : arg3.IsWhole) (arg4 : Memref sig .tc .vmem S1x64 .f32) (harg4 : arg4.IsWhole) (arg5 : Memref sig .tc .vmem S10000x64 .f32) (harg5 : arg5.IsWhole)
    (x0 : Vec F S10000x128 .f32) (x1 : Vec F S128x512 .f32) (x2 : Vec F S1x512 .f32) (x3 : Vec F S512x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out3_5 x0 x1 x2 x3 x4)) -∗ K ⟨⟩))
      ⊢ wp frame (wpE (defs₀ (F := F)) Variants.none c none) E (cc3__mlp_kernel i arg0 harg0 arg1 harg1 arg2 harg2 arg3 harg3 arg4 harg4 arg5 harg5) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The pipeline's proof data -/

/-- The proof data of pipeline 3 on core `c`: the arrays as the region finds them (`V`); after the body at
    point `t` each input's buffer at its block and the output's at `out3_5` of the input blocks; the invariant
    is the scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Regions

end Cert.KernelIdeal.Hand

end
-- ==== Proof.KI.Run.lean ====
/-
  The whole run of the four-region program: what every buffer holds between two items of the main function, the proof data of
  the four pipelines (each at its region's entry contents), each region as a segment between two such states, and the run
  itself — every weakly fair execution terminates, the arguments end as launched, and the result buffer ends at what the
  last region's write-backs leave.
-/
import proofs.«171723_j29566554866533_1_alg».proof.Proof.Gen.KernelIdeal.Regions
import proofs.«171723_j29566554866533_1_alg».proof.Proof.KI.Region0
import proofs.«171723_j29566554866533_1_alg».proof.Proof.KI.Region1
import proofs.«171723_j29566554866533_1_alg».proof.Proof.KI.Region2
import proofs.«171723_j29566554866533_1_alg».proof.Proof.KI.Region3
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) :=
  fun c b => W c b

/-! ## What the regions leave, one after the other -/

/-- What region 0 leaves in its output array: the fold of its write-backs. -/
def o0 (c : Dev nD) : Buf (Elt F) ((c : Thread nD τ).loc main_v30) := (dat0 (atRefs (V3 m)) c).arrAt 2 cfg0.N
def outs0 : Outs (F := F) := fun _ r c => if h : r = main_v30 then h ▸ o0 m c else V0 m c r
/-- Region 1's, entered after region 0 and the host operations between. -/
def o1 (c : Dev nD) : Buf (Elt F) ((c : Thread nD τ).loc main_v39) := (dat1 (atRefs (V13 m (outs0 m))) c).arrAt 3 cfg1.N
def outs1 : Outs (F := F) := fun J r c => if h : r = main_v39 then h ▸ o1 m c else outs0 m J r c
def o2 (c : Dev nD) : Buf (Elt F) ((c : Thread nD τ).loc main_v41) := (dat2 (atRefs (V15 m (outs1 m))) c).arrAt 3 cfg2.N
def outs2 : Outs (F := F) := fun J r c => if h : r = main_v41 then h ▸ o2 m c else outs1 m J r c
def o3 (c : Dev nD) : Buf (Elt F) ((c : Thread nD τ).loc main_v45) := (dat3 (atRefs (V17 m (outs2 m))) c).arrAt 5 cfg3.N
/-- What every region leaves. -/
def outs : Outs (F := F) := fun J r c => if h : r = main_v45 then h ▸ o3 m c else outs2 m J r c

theorem outs_4 (c : Dev nD) : outs m 4 main_v30 c = o0 m c := by
  unfold outs outs2 outs1 outs0
  rw [dif_neg (by decide), dif_neg (by decide), dif_neg (by decide), dif_pos rfl]
theorem outs_14 (c : Dev nD) : outs m 14 main_v39 c = o1 m c := by
  unfold outs outs2 outs1
  rw [dif_neg (by decide), dif_neg (by decide), dif_pos rfl]
theorem outs_16 (c : Dev nD) : outs m 16 main_v41 c = o2 m c := by
  unfold outs outs2
  rw [dif_neg (by decide), dif_pos rfl]
theorem outs_18 (c : Dev nD) : outs m 18 main_v45 c = o3 m c := by
  unfold outs
  rw [dif_pos rfl]
theorem outs0_4 (c : Dev nD) : outs0 m 4 main_v30 c = o0 m c := by unfold outs0; rw [dif_pos rfl]
theorem outs1_4 (c : Dev nD) : outs1 m 4 main_v30 c = o0 m c := by unfold outs1 outs0; rw [dif_neg (by decide), dif_pos rfl]
theorem outs1_14 (c : Dev nD) : outs1 m 14 main_v39 c = o1 m c := by unfold outs1; rw [dif_pos rfl]
theorem outs2_4 (c : Dev nD) : outs2 m 4 main_v30 c = o0 m c := by unfold outs2 outs1 outs0; rw [dif_neg (by decide), dif_neg (by decide), dif_pos rfl]
theorem outs2_14 (c : Dev nD) : outs2 m 14 main_v39 c = o1 m c := by unfold outs2 outs1; rw [dif_neg (by decide), dif_pos rfl]
theorem outs2_16 (c : Dev nD) : outs2 m 16 main_v41 c = o2 m c := by unfold outs2; rw [dif_pos rfl]

/-- The contents a region is entered from do not depend on what later regions leave. -/
theorem Vin1_eq (c : Dev nD) : V13 m (outs0 m) c = V13 m (outs m) c := by
  show StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs0 m 4 main_v30 c)))))))))) = StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs m 4 main_v30 c))))))))))
  rw [outs0_4, outs_4]
theorem Vin1_eq' (c : Dev nD) : V13 m (outs1 m) c = V13 m (outs m) c := by
  show StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs1 m 4 main_v30 c)))))))))) = StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs m 4 main_v30 c))))))))))
  rw [outs1_4, outs_4]
theorem Vin1_eq'' (c : Dev nD) : V13 m (outs2 m) c = V13 m (outs m) c := by
  show StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs2 m 4 main_v30 c)))))))))) = StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 (Function.update (V3 m c) main_v30 (outs m 4 main_v30 c))))))))))
  rw [outs2_4, outs_4]
theorem Vin2_eq (c : Dev nD) : V15 m (outs1 m) c = V15 m (outs m) c := by
  show StableHlo.after hostOps2 (Function.update (V13 m (outs1 m) c) main_v39 (outs1 m 14 main_v39 c)) = StableHlo.after hostOps2 (Function.update (V13 m (outs m) c) main_v39 (outs m 14 main_v39 c))
  rw [Vin1_eq', outs1_14, outs_14]
theorem Vin2_eq' (c : Dev nD) : V15 m (outs2 m) c = V15 m (outs m) c := by
  show StableHlo.after hostOps2 (Function.update (V13 m (outs2 m) c) main_v39 (outs2 m 14 main_v39 c)) = StableHlo.after hostOps2 (Function.update (V13 m (outs m) c) main_v39 (outs m 14 main_v39 c))
  rw [Vin1_eq'', outs2_14, outs_14]
theorem Vin3_eq (c : Dev nD) : V17 m (outs2 m) c = V17 m (outs m) c := by
  show StableHlo.after hostOps3 (Function.update (V15 m (outs2 m) c) main_v41 (outs2 m 16 main_v41 c)) = StableHlo.after hostOps3 (Function.update (V15 m (outs m) c) main_v41 (outs m 16 main_v41 c))
  rw [Vin2_eq', outs2_16, outs_16]

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atRefs (V3 m)) c
  | ⟨1, _⟩ => fun c => dat1 (atRefs (V13 m (outs0 m))) c
  | ⟨2, _⟩ => fun c => dat2 (atRefs (V15 m (outs1 m))) c
  | ⟨3, _⟩ => fun c => dat3 (atRefs (V17 m (outs2 m))) c
abbrev 𝒱₀ : Variants := Variants.none
abbrev L : GSem nD τ sig → Finset Unit := fun _ => ∅
abbrev lv : GSem nD τ sig → Unit → ℕ := fun _ _ => 0
/-- What rides beside the buffers through every item: the generator register at some state and nothing owed. -/
abbrev Rst (c : Dev nD) : sProp 𝕄 := iprop((∃ r, prngReg c r) ∗ ∃ W, owes (c : Thread nD τ) (0 : CellTallies nD τ sig Unit) W)

/-! ## The regions as segments -/

set_option maxHeartbeats 2000000 in
/-- At region 0's exit each of its arrays holds what the pipeline leaves, -/
theorem hF0 (c : Dev nD) (w : Fin cfg0.W) : (pdats m 0 c).arrAt w cfg0.N = atRefs (V4 m (outs m)) c (Pipeline.arrRef spec0 w) := by
  have hA : ∀ w, (pdats m 0 c).A w = atRefs (V3 m) c (Pipeline.arrRef spec0 w) := fun w => by
    exact (show (pdats m 0 c).A w = atRefs (V3 m) c (Pipeline.arrRef spec0 w) from A_eq0 _ c w)
  match w with
  | ⟨0, _⟩ => exact (((pdats m 0 c).arrAt_in 0 rfl _).trans (hA 0)).trans (V4_of m (outs m) c (Pipeline.arrRef spec0 0) (by decide)).symm
  | ⟨1, _⟩ => exact (((pdats m 0 c).arrAt_in 1 rfl _).trans (hA 1)).trans (V4_of m (outs m) c (Pipeline.arrRef spec0 1) (by decide)).symm
  | ⟨2, hw⟩ =>
    have hw' : (⟨2, hw⟩ : Fin cfg0.W) = 2 := rfl
    rw [hw']
    exact (show (pdats m 0 c).arrAt 2 cfg0.N = o0 m c from rfl).trans ((outs_4 m c).symm.trans (show outs m 4 main_v30 c = V4 m (outs m) c main_v30 from by simp only [V4, Function.update_self]))
/-- and every other buffer what it held at entry. -/
theorem hrest0 (c : Dev nD) : ∀ b, b ∉ Finset.univ.image (Pipeline.arrRef spec0) → atRefs (V4 m (outs m)) c b = atRefs (V3 m) c b :=
  fun b hb => V4_of m (outs m) c b fun hm => hb (by
    rw [List.mem_singleton] at hm; subst hm
    exact Finset.mem_image.mpr ⟨(2 : Fin cfg0.W), Finset.mem_univ _, rfl⟩)

set_option backward.isDefEq.respectTransparency.types false in
/-- REGION 0 over the thread state: entered from every unscoped buffer at the contents before it, left at those after it;
    its arrays split out of the unscoped buffers and put back at the exit contents; the generator register (and for a region
    with an accumulator, the scoped rest) into the invariant and out; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atRefs (V3 m)) c).loose
  hwaits := Pipeline.hwaits_of_owed_zero _ _ _ _ L lv 0 fun _ _ => rfl
  pre c := iprop(StableHlo.held (c : Thread nD τ) (Pipeline.ucRefs τ sig) (V3 m c) ∗ Rst c)
  post c := iprop(StableHlo.held (c : Thread nD τ) (Pipeline.ucRefs τ sig) (V4 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (atRefs (V3 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atRefs (V3 m) c) fun w => by
        exact (show (pdats m 0 c).A w = atRefs (V3 m) c (Pipeline.arrRef spec0 w) from A_eq0 _ c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atRefs (V3 m) c) (atRefs (V4 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 1's exit each of its arrays holds what the pipeline leaves, -/
theorem hF1 (c : Dev nD) (w : Fin cfg1.W) : (pdats m 1 c).arrAt w cfg1.N = atRefs (V14 m (outs m)) c (Pipeline.arrRef spec1 w) := by
  have hA : ∀ w, (pdats m 1 c).A w = atRefs (V13 m (outs m)) c (Pipeline.arrRef spec1 w) := fun w => by
    exact (show (pdats m 1 c).A w = atRefs (V13 m (outs0 m)) c (Pipeline.arrRef spec1 w) from A_eq1 _ c w).trans (congrFun (Vin1_eq m c) _)
  match w with
  | ⟨0, _⟩ => exact (((pdats m 1 c).arrAt_in 0 rfl _).trans (hA 0)).trans (V14_of m (outs m) c (Pipeline.arrRef spec1 0) (by decide)).symm
  | ⟨1, _⟩ => exact (((pdats m 1 c).arrAt_in 1 rfl _).trans (hA 1)).trans (V14_of m (outs m) c (Pipeline.arrRef spec1 1) (by decide)).symm
  | ⟨2, _⟩ => exact (((pdats m 1 c).arrAt_in 2 rfl _).trans (hA 2)).trans (V14_of m (outs m) c (Pipeline.arrRef spec1 2) (by decide)).symm
  | ⟨3, hw⟩ =>
    have hw' : (⟨3, hw⟩ : Fin cfg1.W) = 3 := rfl
    rw [hw']
    exact (show (pdats m 1 c).arrAt 3 cfg1.N = o1 m c from rfl).trans ((outs_14 m c).symm.trans (show outs m 14 main_v39 c = V14 m (outs m) c main_v39 from by simp only [V14, Function.update_self]))
/-- and every other buffer what it held at entry. -/
theorem hrest1 (c : Dev nD) : ∀ b, b ∉ Finset.univ.image (Pipeline.arrRef spec1) → atRefs (V14 m (outs m)) c b = atRefs (V13 m (outs m)) c b :=
  fun b hb => V14_of m (outs m) c b fun hm => hb (by
    rw [List.mem_singleton] at hm; subst hm
    exact Finset.mem_image.mpr ⟨(3 : Fin cfg1.W), Finset.mem_univ _, rfl⟩)

set_option backward.isDefEq.respectTransparency.types false in
/-- REGION 1 over the thread state: entered from every unscoped buffer at the contents before it, left at those after it;
    its arrays split out of the unscoped buffers and put back at the exit contents; the generator register (and for a region
    with an accumulator, the scoped rest) into the invariant and out; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atRefs (V13 m (outs0 m))) c).loose
  hwaits := Pipeline.hwaits_of_owed_zero _ _ _ _ L lv 1 fun _ _ => rfl
  pre c := iprop(StableHlo.held (c : Thread nD τ) (Pipeline.ucRefs τ sig) (V13 m (outs m) c) ∗ Rst c)
  post c := iprop(StableHlo.held (c : Thread nD τ) (Pipeline.ucRefs τ sig) (V14 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (atRefs (V13 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atRefs (V13 m (outs m)) c) fun w => by
        exact (show (pdats m 1 c).A w = atRefs (V13 m (outs0 m)) c (Pipeline.arrRef spec1 w) from A_eq1 _ c w).trans (congrFun (Vin1_eq m c) _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (atRefs (V13 m (outs0 m))) c).Φ 0 from rfl]
    refine BIBase.Entails.trans ?_ (hin1 (atRefs (V13 m (outs0 m))) c)
    unfold Pipeline.ΦA
    iintro ⟨Hp, -, Hr⟩
    isplitl [Hr]; · iexact Hr
    iexact Hp
  hout c := by
    rw [Pipeline.ownSems0_none, show (pdats m 1 c).Φ (Fin.last _) = (dat1 (atRefs (V13 m (outs0 m))) c).Φ (Fin.last cfg1.N) from rfl]
    refine (hout1 (atRefs (V13 m (outs0 m))) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atRefs (V13 m (outs m)) c) (atRefs (V14 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 2's exit each of its arrays holds what the pipeline leaves, -/
theorem hF2 (c : Dev nD) (w : Fin cfg2.W) : (pdats m 2 c).arrAt w cfg2.N = atRefs (V16 m (outs m)) c (Pipeline.arrRef spec2 w) := by
  have hA : ∀ w, (pdats m 2 c).A w = atRefs (V15 m (outs m)) c (Pipeline.arrRef spec2 w) := fun w => by
    exact (show (pdats m 2 c).A w = atRefs (V15 m (outs1 m)) c (Pipeline.arrRef spec2 w) from A_eq2 _ c w).trans (congrFun (Vin2_eq m c) _)
  match w with
  | ⟨0, _⟩ => exact (((pdats m 2 c).arrAt_in 0 rfl _).trans (hA 0)).trans (V16_of m (outs m) c (Pipeline.arrRef spec2 0) (by decide)).symm
  | ⟨1, _⟩ => exact (((pdats m 2 c).arrAt_in 1 rfl _).trans (hA 1)).trans (V16_of m (outs m) c (Pipeline.arrRef spec2 1) (by decide)).symm
  | ⟨2, _⟩ => exact (((pdats m 2 c).arrAt_in 2 rfl _).trans (hA 2)).trans (V16_of m (outs m) c (Pipeline.arrRef spec2 2) (by decide)).symm
  | ⟨3, hw⟩ =>
    have hw' : (⟨3, hw⟩ : Fin cfg2.W) = 3 := rfl
    rw [hw']
    exact (show (pdats m 2 c).arrAt 3 cfg2.N = o2 m c from rfl).trans ((outs_16 m c).symm.trans (show outs m 16 main_v41 c = V16 m (outs m) c main_v41 from by simp only [V16, Function.update_self]))
/-- and every other buffer what it held at entry. -/
theorem hrest2 (c : Dev nD) : ∀ b, b ∉ Finset.univ.image (Pipeline.arrRef spec2) → atRefs (V16 m (outs m)) c b = atRefs (V15 m (outs m)) c b :=
  fun b hb => V16_of m (outs m) c b fun hm => hb (by
    rw [List.mem_singleton] at hm; subst hm
    exact Finset.mem_image.mpr ⟨(3 : Fin cfg2.W), Finset.mem_univ _, rfl⟩)

set_option backward.isDefEq.respectTransparency.types false in
/-- REGION 2 over the thread state: entered from every unscoped buffer at the contents before it, left at those after it;
    its arrays split out of the unscoped buffers and put back at the exit contents; the generator register (and for a region
    with an accumulator, the scoped rest) into the invariant and out; nothing owed; no semaphore of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atRefs (V15 m (outs1 m))) c).loose
  hwaits := Pipeline.hwaits_of_owed_zero _ _ _ _ L lv 2 fun _ _ => rfl
  pre c := iprop(StableHlo.held (c : Thread nD τ) (Pipeline.ucRefs τ sig) (V15 m (outs m) c) ∗ Rst c)
  post c := iprop(StableHlo.held (c : Thread nD τ) (Pipeline.ucRefs τ sig) (V16 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (atRefs (V15 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atRefs (V15 m (outs m)) c) fun w => by
        exact (show (pdats m 2 c).A w = atRefs (V15 m (outs1 m)) c (Pipeline.arrRef spec2 w) from A_eq2 _ c w).trans (congrFun (Vin2_eq m c) _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (atRefs (V15 m (outs1 m))) c).Φ 0 from rfl]
    refine BIBase.Entails.trans ?_ (hin2 (atRefs (V15 m (outs1 m))) c)
    unfold Pipeline.ΦA
    iintro ⟨Hp, -, Hr⟩
    isplitl [Hr]; · iexact Hr
    iexact Hp
  hout c := by
    rw [Pipeline.ownSems0_none, show (pdats m 2 c).Φ (Fin.last _) = (dat2 (atRefs (V15 m (outs1 m))) c).Φ (Fin.last cfg2.N) from rfl]
    refine (hout2 (atRefs (V15 m (outs1 m))) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atRefs (V15 m (outs m)) c) (atRefs (V16 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option maxHeartbeats 2000000 in
/-- At region 3's exit each of its arrays holds what the pipeline leaves, -/
theorem hF3 (c : Dev nD) (w : Fin cfg3.W) : (pdats m 3 c).arrAt w cfg3.N = atRefs (V18 m (outs m)) c (Pipeline.arrRef spec3 w) := by
  have hA : ∀ w, (pdats m 3 c).A w = atRefs (V17 m (outs m)) c (Pipeline.arrRef spec3 w) := fun w => by
    exact (show (pdats m 3 c).A w = atRefs (V17 m (outs2 m)) c (Pipeline.arrRef spec3 w) from A_eq3 _ c w).trans (congrFun (Vin3_eq m c) _)
  match w with
  | ⟨0, _⟩ => exact (((pdats m 3 c).arrAt_in 0 rfl _).trans (hA 0)).trans (V18_of m (outs m) c (Pipeline.arrRef spec3 0) (by decide)).symm
  | ⟨1, _⟩ => exact (((pdats m 3 c).arrAt_in 1 rfl _).trans (hA 1)).trans (V18_of m (outs m) c (Pipeline.arrRef spec3 1) (by decide)).symm
  | ⟨2, _⟩ => exact (((pdats m 3 c).arrAt_in 2 rfl _).trans (hA 2)).trans (V18_of m (outs m) c (Pipeline.arrRef spec3 2) (by decide)).symm
  | ⟨3, _⟩ => exact (((pdats m 3 c).arrAt_in 3 rfl _).trans (hA 3)).trans (V18_of m (outs m) c (Pipeline.arrRef spec3 3) (by decide)).symm
  | ⟨4, _⟩ => exact (((pdats m 3 c).arrAt_in 4 rfl _).trans (hA 4)).trans (V18_of m (outs m) c (Pipeline.arrRef spec3 4) (by decide)).symm
  | ⟨5, hw⟩ =>
    have hw' : (⟨5, hw⟩ : Fin cfg3.W) = 5 := rfl
    rw [hw']
    exact (show (pdats m 3 c).arrAt 5 cfg3.N = o3 m c from rfl).trans ((outs_18 m c).symm.trans (show outs m 18 main_v45 c = V18 m (outs m) c main_v45 from by simp only [V18, Function.update_self]))
/-- and every other buffer what it held at entry. -/
theorem hrest3 (c : Dev nD) : ∀ b, b ∉ Finset.univ.image (Pipeline.arrRef spec3) → atRefs (V18 m (outs m)) c b = atRefs (V17 m (outs m)) c b :=
  fun b hb => V18_of m (outs m) c b fun hm => hb (by
    rw [List.mem_singleton] at hm; subst hm
    exact Finset.mem_image.mpr ⟨(5 : Fin cfg3.W), Finset.mem_univ _, rfl⟩)

set_option backward.isDefEq.respectTransparency.types false in
/-- REGION 3 over the thread state: entered from every unscoped buffer at the contents before it, left at those after it;
    its arrays split out of the unscoped buffers and put back at the exit contents; the generator register (and for a region
    with an accumulator, the scoped rest) into the invariant and out; nothing owed; no semaphore of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atRefs (V17 m (outs2 m))) c).loose
  hwaits := Pipeline.hwaits_of_owed_zero _ _ _ _ L lv 3 fun _ _ => rfl
  pre c := iprop(StableHlo.held (c : Thread nD τ) (Pipeline.ucRefs τ sig) (V17 m (outs m) c) ∗ Rst c)
  post c := iprop(StableHlo.held (c : Thread nD τ) (Pipeline.ucRefs τ sig) (V18 m (outs m) c) ∗ Rst c)
  X c := iprop(∃ r, prngReg c r)
  Y c := iprop(∃ r, prngReg c r)
  Z c := Pipeline.unscopedRest (Ix := Unit) (Name := ℕ) (U := UR sig nD τ) (Lvl := ℕ) spec3 c (atRefs (V17 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atRefs (V17 m (outs m)) c) fun w => by
        exact (show (pdats m 3 c).A w = atRefs (V17 m (outs2 m)) c (Pipeline.arrRef spec3 w) from A_eq3 _ c w).trans (congrFun (Vin3_eq m c) _)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atRefs (V17 m (outs m)) c) (atRefs (V18 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the run -/

section TheRun
variable (ρ : Dev nD → PrngReg)

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals each core makes the rest state: the generator register, nothing owed. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄))) ∗ levAts L lv)
    ⊢ (|={Set.univ}=> bigSep Finset.univ (fun c : Dev nD => Rst (F := F) c) : sProp 𝕄) := by
  refine Pipeline.initEach L lv fun c => ?_
  iintro ⟨⟨-, HO, -, Hp, -⟩, -⟩
  imodintro
  isplitl [Hp]; · iexists _; iexact Hp
  iexists ∅; iexact HO

theorem hE4 (c : Dev nD) : Rst (F := F) c ⊢ (iprop(∃ W, owes (c : Thread nD τ) (0 : CellTallies nD τ sig Unit) W) : sProp 𝕄) := by
  iintro ⟨-, HO⟩; iexact HO

/-- THE FRAME, at any instance: every weakly fair execution terminates and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_cond m emb₁ () 𝒱₀ L lv (fun _ _ => rfl) ρ (outs m) (pdats m) 0 (fun _ => iprop(emp))
    (initOf (Pipeline.cells cfgs cellOf_inj) (Pipeline.launchToks cfgs cellOf_inj)) (hu₀ (F := F))
    (fun _ c => Rst c) (hE0 ρ) (hE4)
    (reg0 m) (fun _ => .rfl) (fun _ => .rfl) (reg1 m) (fun _ => .rfl) (fun _ => .rfl)
    (reg2 m) (fun _ => .rfl) (fun _ => .rfl) (reg3 m) (fun _ => .rfl) (fun _ => .rfl)

set_option backward.isDefEq.respectTransparency.types false in
/-- THE RUN WITH ITS RESULT: besides the frame, the result buffer ends at what region 3's write-backs leave. -/
theorem run_result : θ_run defs (onTc (τ := τ) (main (F := F))) ⟨m, fun _ => 0, ρ⟩ (fun r => ∀ c : Dev nD,
      r.2.mem ((c.tc : Thread nD τ).loc main_v45) = o3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) adm (pdats m) () cellOf_inj emb₁ defs₀ 𝒱₀ L lv m ρ main
    (segs m (outs m) 𝒱₀ L lv (fun _ c => Rst c) () (pdats m) (reg0 m) (reg1 m) (reg2 m) (reg3 m))
    (fun c Q => by
      rewrite [main_chain c, Seg.run_eq_chain,
        show (segs m (outs m) 𝒱₀ L lv (fun _ c => Rst c) () (pdats m) (reg0 m) (reg1 m) (reg2 m) (reg3 m) c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Seg.pipes_host, Seg.pipes_region, Seg.pipes_nil]; decide) 0 (fun _ _ => rfl) (fun _ => iprop(emp))
    (initOf (Pipeline.cells cfgs cellOf_inj) (Pipeline.launchToks cfgs cellOf_inj)) (hu₀ (F := F))
    (T₀ := fun c => iprop(StableHlo.held (c : Thread nD τ) (Pipeline.ucRefs τ sig) (V0 m c) ∗ Rst c))
    (Tₙ := fun c => StableHlo.held (c : Thread nD τ) (Pipeline.ucRefs τ sig) (V18 m (outs m) c))
    (hch := fun c => ⟨.rfl, .rfl, .rfl, .rfl, .rfl, .rfl, .rfl, .rfl, .rfl, .rfl, .rfl, .rfl, .rfl, .rfl, .rfl, .rfl, .rfl, .rfl, (sep_mono .rfl (hE4 c))⟩)
    (hinit := ?_) (QY := fun c s => s.mem ((c.tc : Thread nD τ).loc main_v45) = o3 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7))
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => Rst (F := F) c)]
    isplitl [Hh]; · iexact Hh
    iexact HE
  · unfold StableHlo.held
    iintro ⟨Hh, HSI⟩
    ihave Hr := (pointsTo_read_all (Pipeline.ucRefs τ sig) (fun b => ((c : Thread nD τ).1, b)) (V18 m (outs m) c) s') $$ [Hh HSI]
    · isplitl [Hh] <;> iassumption
    icases Hr with ⟨%h, HSI⟩
    imodintro
    isplitr
    · ipureintro
      exact ⟨(h (Proc.devRef .tc main_v45) (Finset.mem_filter.mpr ⟨StableHlo.devRef_mem_tcRefs main_v45, by decide⟩)).trans
          ((show V18 m (outs m) c main_v45 = outs m 18 main_v45 c from by simp only [V18, Function.update_self]).trans (outs_18 m c)),
        (h (Proc.devRef .tc main_arg0) (Finset.mem_filter.mpr ⟨StableHlo.devRef_mem_tcRefs main_arg0, by decide⟩)).trans (V18_main_arg0 m (outs m) c),
        (h (Proc.devRef .tc main_arg1) (Finset.mem_filter.mpr ⟨StableHlo.devRef_mem_tcRefs main_arg1, by decide⟩)).trans (V18_main_arg1 m (outs m) c),
        (h (Proc.devRef .tc main_arg2) (Finset.mem_filter.mpr ⟨StableHlo.devRef_mem_tcRefs main_arg2, by decide⟩)).trans (V18_main_arg2 m (outs m) c),
        (h (Proc.devRef .tc main_arg3) (Finset.mem_filter.mpr ⟨StableHlo.devRef_mem_tcRefs main_arg3, by decide⟩)).trans (V18_main_arg3 m (outs m) c),
        (h (Proc.devRef .tc main_arg4) (Finset.mem_filter.mpr ⟨StableHlo.devRef_mem_tcRefs main_arg4, by decide⟩)).trans (V18_main_arg4 m (outs m) c),
        (h (Proc.devRef .tc main_arg5) (Finset.mem_filter.mpr ⟨StableHlo.devRef_mem_tcRefs main_arg5, by decide⟩)).trans (V18_main_arg5 m (outs m) c),
        (h (Proc.devRef .tc main_arg6) (Finset.mem_filter.mpr ⟨StableHlo.devRef_mem_tcRefs main_arg6, by decide⟩)).trans (V18_main_arg6 m (outs m) c),
        (h (Proc.devRef .tc main_arg7) (Finset.mem_filter.mpr ⟨StableHlo.devRef_mem_tcRefs main_arg7, by decide⟩)).trans (V18_main_arg7 m (outs m) c)⟩
    · iexact HSI

end TheRun

end Cert.KernelIdeal.Hand

end
-- ==== Proof.KI.Value2a.lean ====
/-
  The scatter region: what each kind of point leaves in the accumulator and in the output's buffer, as the body's
  arithmetic applied to the blocks the point reads.

  At the first edge tile the accumulator is zeroed and then gains this tile's product; at every later tile it gains the
  tile's product over what the tile before left; at the last tile the output's buffer receives the accumulator (this tile's
  product included) with the bias row added and clamped below at zero. Each store covers its whole buffer, so what a buffer
  holds afterwards is the last value stored, and every load reads a whole buffer.
-/
import proofs.«171723_j29566554866533_1_alg».proof.Proof.KI.Region2
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

variable {F : FTy → Type} [FloatOps F]

/-- The origin of a two-axis buffer. -/
theorem hz_2 : (![0, 0] : Fin 2 → Nat) = fun _ => 0 := funext fun a => by fin_cases a <;> rfl

/-- MIDDLE edge tiles: the accumulator gains the tile's product. -/
theorem sout2_B_eq (c : Dev nD) (i : grid2.Coords) (a2 : Memref sig .tc .vmem S1x2048 .i32) (h2 : a2.IsWhole) (a3 : Memref sig .tc .vmem S2048x128 .f32) (h3 : a3.IsWhole) (a4 : Memref sig .tc .vmem S1x128 .f32) (h4 : a4.IsWhole) (a5 : Memref sig .tc .vmem S2048x128 .f32) (h5 : a5.IsWhole) (a6 : Memref sig .tc .vmem S2048x128 .f32) (h6 : a6.IsWhole) (hc0 : ¬cond2_0 i) (hc1 : ¬cond2_1 i)
    (x0 : Vec F S1x2048 .i32) (x1 : Vec F S2048x128 .f32) (x2 : Vec F S1x128 .f32) (xs0 : Vec F S2048x128 .f32) :
    sout2_B_0 c i a2 h2 a3 h3 a4 h4 a5 h5 a6 h6 hc0 hc1 x0 x1 x2 xs0 = k2_pay2 i x0 x1 xs0 := by
  unfold sout2_B_0
  rw [View.read_writes_eq_canon _ _ _ (scover2_B_0 c i a2 h2 a3 h3 a4 h4 a5 h5 a6 h6 hc0 hc1 x0 x1 x2 xs0)]
  unfold kernelRun2_B
  dsimp only
  rw [View.canon_unit_zero hz_2]
  simp only [View.readAt_eq_ld, h2.read_unread, h3.read_unread, h6.read_unread, View.ld_unit_zero (S := S1x2048) hz_2, View.ld_unit_zero (S := S2048x128) hz_2]

/-- FIRST edge tile: the accumulator is zeroed, then gains the tile's product. -/
theorem sout2_A_eq (c : Dev nD) (i : grid2.Coords) (a2 : Memref sig .tc .vmem S1x2048 .i32) (h2 : a2.IsWhole) (a3 : Memref sig .tc .vmem S2048x128 .f32) (h3 : a3.IsWhole) (a4 : Memref sig .tc .vmem S1x128 .f32) (h4 : a4.IsWhole) (a5 : Memref sig .tc .vmem S2048x128 .f32) (h5 : a5.IsWhole) (a6 : Memref sig .tc .vmem S2048x128 .f32) (h6 : a6.IsWhole) (hc0 : cond2_0 i) (hc1 : ¬cond2_1 i)
    (x0 : Vec F S1x2048 .i32) (x1 : Vec F S2048x128 .f32) (x2 : Vec F S1x128 .f32) :
    sout2_A_0 c i a2 h2 a3 h3 a4 h4 a5 h5 a6 h6 hc0 hc1 x0 x1 x2 = k2_pay2 i x0 x1 (k2_pay1 (F := F)) := by
  unfold sout2_A_0
  rw [View.read_writes_eq_canon _ _ _ (scover2_A_0 c i a2 h2 a3 h3 a4 h4 a5 h5 a6 h6 hc0 hc1 x0 x1 x2)]
  unfold kernelRun2_A
  dsimp only
  sl_unfold_words
  rw [View.canon_cons_unit_zero (S := S2048x128) hz_2, View.readCov_unit_zero (S := S2048x128) _ hz_2]
  simp only [View.readAt_eq_ld, h2.read_unread, h3.read_unread, View.ld_unit_zero (S := S1x2048) hz_2, View.ld_unit_zero (S := S2048x128) hz_2]

/-- LAST edge tile: the accumulator gains the tile's product, -/
theorem sout2_C_eq (c : Dev nD) (i : grid2.Coords) (a2 : Memref sig .tc .vmem S1x2048 .i32) (h2 : a2.IsWhole) (a3 : Memref sig .tc .vmem S2048x128 .f32) (h3 : a3.IsWhole) (a4 : Memref sig .tc .vmem S1x128 .f32) (h4 : a4.IsWhole) (a5 : Memref sig .tc .vmem S2048x128 .f32) (h5 : a5.IsWhole) (a6 : Memref sig .tc .vmem S2048x128 .f32) (h6 : a6.IsWhole) (hc0 : ¬cond2_0 i) (hc1 : cond2_1 i)
    (x0 : Vec F S1x2048 .i32) (x1 : Vec F S2048x128 .f32) (x2 : Vec F S1x128 .f32) (xs0 : Vec F S2048x128 .f32) :
    sout2_C_0 c i a2 h2 a3 h3 a4 h4 a5 h5 a6 h6 hc0 hc1 x0 x1 x2 xs0 = k2_pay2 i x0 x1 xs0 := by
  unfold sout2_C_0
  rw [View.read_writes_eq_canon _ _ _ (scover2_C_0 c i a2 h2 a3 h3 a4 h4 a5 h5 a6 h6 hc0 hc1 x0 x1 x2 xs0)]
  unfold kernelRun2_C
  dsimp only
  sl_unfold_words
  rw [View.canon_unit_zero hz_2]
  simp only [View.readAt_eq_ld, h2.read_unread, h3.read_unread, h6.read_unread, View.ld_unit_zero (S := S1x2048) hz_2, View.ld_unit_zero (S := S2048x128) hz_2]

/-- and the output's buffer receives it with the bias added, clamped below at zero. -/
theorem out2_C_eq (c : Dev nD) (i : grid2.Coords) (a2 : Memref sig .tc .vmem S1x2048 .i32) (h2 : a2.IsWhole) (a3 : Memref sig .tc .vmem S2048x128 .f32) (h3 : a3.IsWhole) (a4 : Memref sig .tc .vmem S1x128 .f32) (h4 : a4.IsWhole) (a5 : Memref sig .tc .vmem S2048x128 .f32) (h5 : a5.IsWhole) (a6 : Memref sig .tc .vmem S2048x128 .f32) (h6 : a6.IsWhole) (hc0 : ¬cond2_0 i) (hc1 : cond2_1 i)
    (x0 : Vec F S1x2048 .i32) (x1 : Vec F S2048x128 .f32) (x2 : Vec F S1x128 .f32) (xs0 : Vec F S2048x128 .f32) :
    out2_C_3 c i a2 h2 a3 h3 a4 h4 a5 h5 a6 h6 hc0 hc1 x0 x1 x2 xs0 = k2_pay3 (k2_pay2 i x0 x1 xs0) x2 := by
  unfold out2_C_3
  rw [View.read_writes_eq_canon _ _ _ (cover2_C_3 c i a2 h2 a3 h3 a4 h4 a5 h5 a6 h6 hc0 hc1 x0 x1 x2 xs0)]
  unfold kernelRun2_C
  dsimp only
  sl_unfold_words
  rw [View.canon_unit_zero hz_2, View.readCov_unit_zero (S := S2048x128) _ hz_2]
  simp only [View.readAt_eq_ld, h2.read_unread, h3.read_unread, h4.read_unread, h6.read_unread, View.ld_unit_zero (S := S1x2048) hz_2, View.ld_unit_zero (S := S2048x128) hz_2, View.ld_unit_zero (S := S1x128) hz_2]

end Cert.KernelIdeal.Hand

end
-- ==== Proof.LibPlainProduct.lean ====
/-
  A rows-by-columns matrix product, read at an index, at the ideal values.

  An M×K matrix times a K×P matrix, contracting the left operand's columns with the right operand's rows and with no batch
  axis. A kernel computes it on the matrix unit, accumulating into a splat of zeros; a host program computes it as a
  `dot_general`. At the ideal values both, read at (r, c), are the plain sum over k of lhs(r, k) · rhs(k, c): no rounding, no
  chunk order, and the zero accumulator adds nothing. So the two spellings of a dense layer meet at this sum, term by term.
-/
import Idealize.ShloMosaic.Lib.ValueIdx
import Idealize.ShloMosaic.PureOps.Ideal.Laws

noncomputable section

namespace PlainProduct

open Idealize.ShloMosaic Idealize.ShloMosaic.ValueIdx

variable {M K P : Nat}

/-- The dimension numbers of an M×K by K×P product. -/
abbrev plainDims (M K P : Nat)
    (wf : DotDims.WF (⟨2, ![M, K]⟩ : Shape) ⟨2, ![K, P]⟩ ⟨2, ![M, P]⟩ [1] [0] [0] [1] [] []) :
    DotDims ⟨2, ![M, K]⟩ ⟨2, ![K, P]⟩ ⟨2, ![M, P]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, P]⟩ ⟨2, ![M, P]⟩ [1] [0] [0] [1] [] [])

/-- The sum over the contraction index is the sum over k of lhs(r, k) · rhs(k, c). -/
theorem contr_sum (lhs : (⟨2, ![M, K]⟩ : Shape).Idx → EReal) (rhs : (⟨2, ![K, P]⟩ : Shape).Idx → EReal) (r : Fin M) (c : Fin P) :
    ∑ q : (plainDims M K P wf).contr.Idx,
        lhs ((plainDims M K P wf).lhsIdx (ix2 r c) q) * rhs ((plainDims M K P wf).rhsIdx (ix2 r c) q)
      = ∑ k : Fin K, lhs (ix2 r k) * rhs (ix2 k c) := by
  rw [← Equiv.sum_comp (contrEquiv1 (plainDims M K P wf) K rfl rfl).symm]
  refine Finset.sum_congr rfl fun k _ => ?_
  have hl : (plainDims M K P wf).lhsIdx (ix2 r c) ((contrEquiv1 (plainDims M K P wf) K rfl rfl).symm k) = ix2 r k := by
    funext a
    refine Fin.ext ?_
    match a with
    | ⟨0, _⟩ => rfl
    | ⟨1, _⟩ =>
      exact (DotDims.lhsIdx_val_of_single (d := plainDims M K P wf) (cl := (1 : Fin 2)) rfl (ix2 r c) _).trans
        (contrEquiv1_symm_val (plainDims M K P wf) K rfl rfl k)
  have hr : (plainDims M K P wf).rhsIdx (ix2 r c) ((contrEquiv1 (plainDims M K P wf) K rfl rfl).symm k) = ix2 k c := by
    funext a
    refine Fin.ext ?_
    match a with
    | ⟨0, _⟩ =>
      exact (DotDims.rhsIdx_val_of_single (d := plainDims M K P wf) (cr := (0 : Fin 2)) rfl (ix2 r c) _).trans
        (contrEquiv1_symm_val (plainDims M K P wf) K rfl rfl k)
    | ⟨1, _⟩ => rfl
  rw [hl, hr]

/-- THE KERNEL'S PRODUCT, accumulated into a splat of zeros, READ AT (r, c). -/
theorem matmul_zero_apply {φ₁ φ₂ : FTy} (prec : Option ContractPrecision) (lhs : FVec Ideal ⟨2, ![M, K]⟩ φ₁)
    (rhs : FVec Ideal ⟨2, ![K, P]⟩ φ₂) (r : Fin M) (c : Fin P) :
    matmul (plainDims M K P wf) prec lhs rhs (constant ⟨2, ![M, P]⟩ .f32 0x00000000#32) (ix2 r c)
      = ∑ k : Fin K, lhs (ix2 r k) * rhs (ix2 k c) :=
  (Ideal.matmul_constant_zero_apply (plainDims M K P wf) prec lhs rhs (ix2 r c)).trans (contr_sum wf lhs rhs r c)

/-- THE HOST'S PRODUCT READ AT (r, c). -/
theorem dotGeneral_apply {φ₁ φ₂ : FTy} (prec : Option ContractPrecision) (lhs : FVec Ideal ⟨2, ![M, K]⟩ φ₁)
    (rhs : FVec Ideal ⟨2, ![K, P]⟩ φ₂) (r : Fin M) (c : Fin P) :
    Host.dotGeneral (plainDims M K P wf) prec lhs rhs (ix2 r c) = ∑ k : Fin K, lhs (ix2 r k) * rhs (ix2 k c) :=
  (Ideal.dotGeneral_apply (plainDims M K P wf) prec .single lhs rhs (ix2 r c)).trans (contr_sum wf lhs rhs r c)

end PlainProduct

end
-- ==== Proof.KI.Value2b.lean ====
/-
  The scatter region's arithmetic, read entry by entry on the extended reals.

  The body builds, for node row r of node tile p and edge column e of the edge tile, the selector that is 1 when the
  node's number p·2048 + r, as a 32-bit word, is the edge's target word, and 0 otherwise; multiplies the selector matrix
  into the edge tile's message rows on the matrix unit; and adds the product to the accumulator. On the extended reals
  the format changes are the identity and the product is the plain sum over the tile's edges. The last tile adds the
  bias row and takes the maximum with zero.
-/
import proofs.«171723_j29566554866533_1_alg».proof.Proof.KI.Region2
import proofs.«171723_j29566554866533_1_alg».proof.Proof.LibPlainProduct
import Idealize.ShloMosaic.Lib.Pipeline.Value
import Idealize.ShloMosaic.Lib.ValueIdx
import Idealize.ShloMosaic.Lib.Affine
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

/-- The selector: 1 where the node's word is the edge's target word, else 0. -/
def sel2 (a w : BitVec 32) : EReal := if a = w then 1 else 0

theorem bit_cases2 (b : BitVec 1) : b = 1#1 ∨ b = 0#1 := by revert b; decide

/-- A comparison bit, widened to a word and converted to a number, is the selector. -/
theorem sel2_eq (a w : BitVec 32) :
    (FloatOps.sitofp (F := Ideal) .f32 ((IntOp.cmpi .eq a w).setWidth 32) : EReal) = sel2 a w := by
  unfold sel2
  show (((((IntOp.cmpi .eq a w).setWidth 32).toInt : ℝ)) : EReal) = _
  by_cases h : a = w
  · rw [if_pos h, IntOp.cmpi_eq.mpr h, show ((1#1 : BitVec 1).setWidth 32).toInt = 1 from by decide]; simp
  · rw [if_neg h]
    have h0 : IntOp.cmpi .eq a w = 0#1 := (bit_cases2 _).resolve_left (fun h1 => h (IntOp.cmpi_eq.mp h1))
    rw [h0, show ((0#1 : BitVec 1).setWidth 32).toInt = 0 from by decide]; simp

/-- The accumulator's update at (r, f): what it held plus the sum over the tile's edges of selector times message. -/
theorem pay2_2_apply (i : grid2.Coords) (x0 : Vec Ideal S1x2048 .i32) (x1 xs : Vec Ideal S2048x128 .f32) (r : Fin 2048) (f : Fin 128) :
    k2_pay2 (F := Ideal) i x0 x1 xs (ix2 r f)
      = xs (ix2 r f) + ∑ e : Fin 2048, sel2 (Scalar.muli (BitVec.ofNat 32 (i 0).val) 2048#32 + BitVec.ofNat 32 r.val) (x0 (ix2 0 e)) * x1 (ix2 e f) := by
  unfold k2_pay2
  simp only [shapeCast_self]
  rw [addf_apply]
  congr 1
  refine (PlainProduct.matmul_zero_apply (M := 2048) (K := 2048) (P := 128) dot_S2048x2048_S2048x128_S2048x128_1_0_0_1_n_n_wf none _ _ r f).trans ?_
  refine Finset.sum_congr rfl fun e _ => ?_
  rw [truncf_apply, truncf_apply, sitofp_apply, extui_apply]
  congr 1
  refine (sel2_eq _ _).trans ?_
  congr 1
  · show Scalar.muli (BitVec.ofNat 32 (i 0).val) 2048#32 + iota Kind.tc S2048x2048 32 [0] iota_S2048x2048_d0_w32 (ix2 r e) = _
    rw [iota_single_apply]
  · exact broadcastTo_apply x0 broadcasts_S1x2048_S2048x2048 (ix2 r e) (ix2 0 e) (fun a => by
      match a with
      | ⟨0, _⟩ => rfl
      | ⟨1, _⟩ => rfl)

/-- The zero block the first tile stores. -/
theorem pay2_1_apply (j : S2048x128.Idx) : k2_pay1 (F := Ideal) j = 0 := by
  unfold k2_pay1
  simp only [shapeCast_self]
  rw [broadcast_apply]
  exact Ideal.ofBits_zero_f32

/-- The output block at (r, f): the accumulator plus the bias of feature f, clamped below at zero. -/
theorem pay2_3_apply (acc : Vec Ideal S2048x128 .f32) (b : Vec Ideal S1x128 .f32) (r : Fin 2048) (f : Fin 128) :
    k2_pay3 (F := Ideal) acc b (ix2 r f) = max (acc (ix2 r f) + b (ix2 0 f)) (Ideal.ofBits .f32 0x00000000#32) := by
  unfold k2_pay3
  simp only [shapeCast_self]
  rw [maximumf_apply, addf_apply, broadcast_apply]
  congr 2
  exact broadcastTo_apply b broadcasts_S1x128_S2048x128 (ix2 r f) (ix2 0 f) (fun a => by
      match a with
      | ⟨0, _⟩ => rfl
      | ⟨1, _⟩ => rfl)

/-! ## The grid's coordinates and the windows' block indices -/

/-- The node-tile coordinate of point t is t / 440. -/
theorem coords2_p (t : Fin cfg2.N) : ((grid2.coords t) 0).val = t.val / 440 := by
  show t.val / grid2.stride 0 % 49 = t.val / 440
  rw [show grid2.stride 0 = 440 from by decide]
  have h : t.val < 21560 := lt_of_lt_of_eq t.isLt N_2
  omega

/-- The target words' block at point t is block (0, t % 440) of the row. -/
theorem index2_0 (t : Fin cfg2.N) : win2_0.index t 0 = 0 ∧ win2_0.index t 1 = t.val % 440 := by
  refine ⟨rfl, ?_⟩
  show (BitVec.ofNat 32 ((grid2.coords t) 1).val).toNat = _
  rw [BitVec.toNat_ofNat, coords2_k]; omega
/-- The messages' block at point t is block (t % 440, 0). -/
theorem index2_1 (t : Fin cfg2.N) : win2_1.index t 0 = t.val % 440 ∧ win2_1.index t 1 = 0 := by
  refine ⟨?_, rfl⟩
  show (BitVec.ofNat 32 ((grid2.coords t) 1).val).toNat = _
  rw [BitVec.toNat_ofNat, coords2_k]; omega
/-- The bias row's block is the whole row. -/
theorem index2_2 (t : Fin cfg2.N) : win2_2.index t 0 = 0 ∧ win2_2.index t 1 = 0 := ⟨rfl, rfl⟩
/-- The output's block at point t is block (t / 440, 0). -/
theorem index2_3 (t : Fin cfg2.N) : win2_3.index t 0 = t.val / 440 ∧ win2_3.index t 1 = 0 := by
  refine ⟨?_, rfl⟩
  show (BitVec.ofNat 32 ((grid2.coords t) 0).val).toNat = _
  have h : t.val < 21560 := lt_of_lt_of_eq t.isLt N_2
  rw [BitVec.toNat_ofNat, coords2_p]; omega

section Blocks
variable (V : (c : Dev nD) → (b : Ref sig .tc) → Buf (Elt Ideal) ((c : Thread nD τ).loc b))

/-- The edges' target words, the messages and the bias row, as the region finds them. -/
abbrev Dst2 (c : Dev nD) : S1x901120.Idx → BitVec 32 := V c main_v34
abbrev Msg2 (c : Dev nD) : S901120x128.Idx → EReal := V c main_v39
abbrev Bg2 (c : Dev nD) : S1x128.Idx → EReal := V c main_v40

/-- Entry e of the target words' block at point t is entry (t % 440)·2048 + e of the row. -/
theorem iblk2_0_apply (c : Dev nD) (t : Fin cfg2.N) (e : Fin 2048) :
    (iblk2 V c 0 t : Vec Ideal S1x2048 .i32) (ix2 0 e)
      = Dst2 V c (ix2 0 ⟨t.val % 440 * 2048 + e.val, by have := e.isLt; omega⟩) := by
  unfold iblk2
  rw [View.read_apply]
  show V c main_v34 _ = V c main_v34 _
  congr 1
  funext a
  apply Fin.ext
  match a with
  | ⟨0, _⟩ => show win2_0.index t 0 * 1 + 1 * 0 = 0; rw [(index2_0 t).1]
  | ⟨1, _⟩ => show win2_0.index t 1 * 2048 + 1 * e.val = t.val % 440 * 2048 + e.val; rw [(index2_0 t).2]; omega

/-- Entry (e, f) of the messages' block at point t is entry ((t % 440)·2048 + e, f). -/
theorem iblk2_1_apply (c : Dev nD) (t : Fin cfg2.N) (e : Fin 2048) (f : Fin 128) :
    (iblk2 V c 1 t : Vec Ideal S2048x128 .f32) (ix2 e f)
      = Msg2 V c (ix2 ⟨t.val % 440 * 2048 + e.val, by have := e.isLt; omega⟩ f) := by
  unfold iblk2
  rw [View.read_apply]
  show V c main_v39 _ = V c main_v39 _
  congr 1
  funext a
  apply Fin.ext
  match a with
  | ⟨0, _⟩ => show win2_1.index t 0 * 2048 + 1 * e.val = t.val % 440 * 2048 + e.val; rw [(index2_1 t).1]; omega
  | ⟨1, _⟩ => show win2_1.index t 1 * 128 + 1 * f.val = f.val; rw [(index2_1 t).2]; omega

/-- The bias block is the bias row. -/
theorem iblk2_2_apply (c : Dev nD) (t : Fin cfg2.N) (f : Fin 128) :
    (iblk2 V c 2 t : Vec Ideal S1x128 .f32) (ix2 0 f) = Bg2 V c (ix2 0 f) := by
  unfold iblk2
  rw [View.read_apply]
  show V c main_v40 _ = V c main_v40 _
  congr 1
  funext a
  apply Fin.ext
  match a with
  | ⟨0, _⟩ => show win2_2.index t 0 * 1 + 1 * 0 = 0; rw [(index2_2 t).1]
  | ⟨1, _⟩ => show win2_2.index t 1 * 128 + 1 * f.val = f.val; rw [(index2_2 t).2]; omega

end Blocks

end Cert.KernelIdeal.Hand

end
-- ==== Proof.LibBandSum.lean ====
import Mathlib.Algebra.BigOperators.Fin

/-!
# Regrouping finite sums into tiles, padded rows and bands

A sum over `Fin (D * n)` is the sum over `D` rows of the sums over the `n` lanes of each row.
If the second factor of a product sum is a shorter vector followed by zeros, or a matrix column
that is zero outside a band of rows, the terms that meet a zero drop out.  Only
`x * 0 = 0` and "a sum of zeros is zero" are used, never distributivity.
-/

open Finset

namespace Cert.LibBandSum

/-- Lane `w < n` of row `r < D` has flat index `r * n + w < D * n`. -/
theorem row_bound {D n r w : ℕ} (hr : r < D) (hw : w < n) : r * n + w < D * n :=
  calc r * n + w < r * n + n := Nat.add_lt_add_left hw _
    _ = (r + 1) * n := (Nat.succ_mul r n).symm
    _ ≤ D * n := Nat.mul_le_mul_right n hr

/-- The row of the flat index `d * n + w` with `w < n` is `d`. -/
theorem row_div {n d w : ℕ} (hw : w < n) : (d * n + w) / n = d := by
  rw [Nat.mul_comm, Nat.mul_add_div (Nat.zero_lt_of_lt hw), Nat.div_eq_of_lt hw, Nat.add_zero]

/-- The lane of the flat index `d * n + w` with `w < n` is `w`. -/
theorem row_mod {n d w : ℕ} (hw : w < n) : (d * n + w) % n = w := by
  rw [Nat.mul_comm, Nat.mul_add_mod, Nat.mod_eq_of_lt hw]

/-- A sum over `N = D * n` indices is the sum over `D` tiles of the sums over the `n` indices
`d * n + w` of tile `d`. -/
theorem tile_sum {M : Type*} [AddCommMonoid M] (D n N : ℕ) (hN : N = D * n) (f : Fin N → M) :
    ∑ k : Fin N, f k
      = ∑ d : Fin D, ∑ w : Fin n,
          f ⟨d.val * n + w.val, lt_of_lt_of_eq (row_bound d.isLt w.isLt) hN.symm⟩ := by
  subst hN
  rw [← Fintype.sum_prod_type']
  refine (Fintype.sum_equiv finProdFinEquiv _ _ ?_).symm
  rintro ⟨d, w⟩
  refine congrArg f (Fin.ext ?_)
  simp [finProdFinEquiv, Nat.mul_comm, Nat.add_comm]

/-- A sum over `Fin D` of a function that vanishes outside the rows `j ≤ d < j + m` is the sum
of its `m` values at the rows `j + k`. -/
theorem sum_band {M : Type*} [AddCommMonoid M] (D m j : ℕ) (hj : j + m ≤ D) (g : Fin D → M)
    (hg : ∀ d : Fin D, ¬ (j ≤ d.val ∧ d.val < j + m) → g d = 0) :
    ∑ d : Fin D, g d = ∑ k : Fin m, g ⟨j + k.val, by omega⟩ := by
  refine (Fintype.sum_of_injective (fun k : Fin m => (⟨j + k.val, by omega⟩ : Fin D))
    ?_ _ _ ?_ (fun _ => rfl)).symm
  · intro k k' h
    have h' : j + k.val = j + k'.val := congrArg Fin.val h
    exact Fin.ext (Nat.add_left_cancel h')
  · intro d hd
    refine hg d fun h => hd ⟨⟨d.val - j, by omega⟩, Fin.ext ?_⟩
    show j + (d.val - j) = d.val
    omega

/-- A product sum against a vector that is a shorter vector `s` followed by zeros is the product
sum over the length of `s`: the terms that meet a zero vanish. -/
theorem pad_sum {M : Type*} [AddCommMonoid M] [Mul M] (hmz : ∀ x : M, x * 0 = 0)
    (n N : ℕ) (hn : n ≤ N) (p sp : Fin N → M) (s : Fin n → M)
    (hs : ∀ w : Fin N, sp w = if h : w.val < n then s ⟨w.val, h⟩ else 0) :
    ∑ w : Fin N, p w * sp w = ∑ w : Fin n, p ⟨w.val, by omega⟩ * s w := by
  refine (Fintype.sum_of_injective (fun w : Fin n => (⟨w.val, by omega⟩ : Fin N))
    ?_ _ _ ?_ ?_).symm
  · intro w w' h
    exact Fin.ext (Fin.mk.inj h)
  · intro w hw
    have hlt : ¬ w.val < n := fun h => hw ⟨⟨w.val, h⟩, rfl⟩
    rw [hs w, dif_neg hlt, hmz]
  · intro w
    show p ⟨w.val, _⟩ * s w = p ⟨w.val, _⟩ * sp ⟨w.val, _⟩
    rw [hs, dif_pos w.isLt]

/-- A product sum over `D` rows of `n` lanes against a column that holds the five rows
`s 0 … s 4` at rows `j … j + 4` and zeros elsewhere is the sum over those five rows. -/
theorem band_sum {M : Type*} [AddCommMonoid M] [Mul M] (hmz : ∀ x : M, x * 0 = 0)
    (D n N j : ℕ) (hN : N = D * n) (hj : j + 5 ≤ D) (hn : 0 < n)
    (a Wp : Fin N → M) (s : Fin 5 → Fin n → M)
    (hW : ∀ k : Fin N, Wp k =
      if h : j ≤ k.val / n ∧ k.val / n < j + 5 then
        s ⟨k.val / n - j, by omega⟩ ⟨k.val % n, Nat.mod_lt _ hn⟩
      else 0) :
    ∑ k : Fin N, a k * Wp k
      = ∑ kh : Fin 5, ∑ w : Fin n,
          a ⟨(j + kh.val) * n + w.val,
            lt_of_lt_of_eq (row_bound (by omega) w.isLt) hN.symm⟩ * s kh w := by
  rw [tile_sum D n N hN, sum_band D 5 j hj]
  · refine Finset.sum_congr rfl fun kh _ => Finset.sum_congr rfl fun w _ => ?_
    have hd : ((j + kh.val) * n + w.val) / n = j + kh.val := row_div w.isLt
    have hm : ((j + kh.val) * n + w.val) % n = w.val := row_mod w.isLt
    have hc : j ≤ ((j + kh.val) * n + w.val) / n ∧ ((j + kh.val) * n + w.val) / n < j + 5 := by
      rw [hd]; omega
    have h1 : ((j + kh.val) * n + w.val) / n - j = kh.val := by
      rw [hd]; omega
    rw [hW, dif_pos hc]
    exact congrArg _ (congrArg₂ s (Fin.ext h1) (Fin.ext hm))
  · intro d hd
    refine Finset.sum_eq_zero fun w _ => ?_
    have hc : ¬ (j ≤ (d.val * n + w.val) / n ∧ (d.val * n + w.val) / n < j + 5) := by
      rw [row_div w.isLt]; exact hd
    rw [hW, dif_neg hc, hmz]

/-- A product sum over `D` rows of `nP` padded lanes, against a column that holds the five rows
`s 0 … s 4` in the first `n ≤ nP` lanes of rows `j … j + 4` and zeros elsewhere, is the sum over
those five rows and their first `n` lanes. -/
theorem band_pad_sum {M : Type*} [AddCommMonoid M] [Mul M] (hmz : ∀ x : M, x * 0 = 0)
    (D nP n N j : ℕ) (hN : N = D * nP) (hj : j + 5 ≤ D) (hn : n ≤ nP) (hP : 0 < nP)
    (a Wp : Fin N → M) (s : Fin 5 → Fin n → M)
    (hW : ∀ k : Fin N, Wp k =
      if h : (j ≤ k.val / nP ∧ k.val / nP < j + 5) ∧ k.val % nP < n then
        s ⟨k.val / nP - j, by omega⟩ ⟨k.val % nP, h.2⟩
      else 0) :
    ∑ k : Fin N, a k * Wp k
      = ∑ kh : Fin 5, ∑ l : Fin n,
          a ⟨(j + kh.val) * nP + l.val,
            lt_of_lt_of_eq (row_bound (by omega) (lt_of_lt_of_le l.isLt hn)) hN.symm⟩
            * s kh l := by
  rw [tile_sum D nP N hN, sum_band D 5 j hj]
  · refine Finset.sum_congr rfl fun kh _ => ?_
    refine pad_sum hmz n nP hn
      (fun w => a ⟨(j + kh.val) * nP + w.val,
        lt_of_lt_of_eq (row_bound (by omega) w.isLt) hN.symm⟩)
      (fun w => Wp ⟨(j + kh.val) * nP + w.val,
        lt_of_lt_of_eq (row_bound (by omega) w.isLt) hN.symm⟩)
      (s kh) fun w => ?_
    have hd : ((j + kh.val) * nP + w.val) / nP = j + kh.val := row_div w.isLt
    have hm : ((j + kh.val) * nP + w.val) % nP = w.val := row_mod w.isLt
    have h1 : ((j + kh.val) * nP + w.val) / nP - j = kh.val := by
      rw [hd]; omega
    show Wp ⟨(j + kh.val) * nP + w.val, _⟩ = _
    rw [hW]
    by_cases hw : w.val < n
    · have hc : (j ≤ ((j + kh.val) * nP + w.val) / nP
          ∧ ((j + kh.val) * nP + w.val) / nP < j + 5)
          ∧ ((j + kh.val) * nP + w.val) % nP < n := by
        rw [hd, hm]; exact ⟨⟨by omega, by omega⟩, hw⟩
      rw [dif_pos hc, dif_pos hw]
      exact congrArg₂ s (Fin.ext h1) (Fin.ext hm)
    · have hc : ¬ ((j ≤ ((j + kh.val) * nP + w.val) / nP
          ∧ ((j + kh.val) * nP + w.val) / nP < j + 5)
          ∧ ((j + kh.val) * nP + w.val) % nP < n) := by
        rw [hm]; exact fun h => hw h.2
      rw [dif_neg hc, dif_neg hw]
  · intro d hd
    refine Finset.sum_eq_zero fun w _ => ?_
    have hc : ¬ ((j ≤ (d.val * nP + w.val) / nP ∧ (d.val * nP + w.val) / nP < j + 5)
        ∧ (d.val * nP + w.val) % nP < n) := by
      rw [row_div w.isLt]; exact fun h => hd h.1
    rw [hW, dif_neg hc, hmz]

/-- A product sum over `D` rows of `nP` padded lanes, against a column that holds row `s d` in the
first `n ≤ nP` lanes of every row `d` and zeros in the padding lanes, is the sum over all rows
and their first `n` lanes. -/
theorem tile_pad_sum {M : Type*} [AddCommMonoid M] [Mul M] (hmz : ∀ x : M, x * 0 = 0)
    (D nP n N : ℕ) (hN : N = D * nP) (hn : n ≤ nP) (hP : 0 < nP)
    (a Wp : Fin N → M) (s : Fin D → Fin n → M)
    (hW : ∀ k : Fin N, Wp k =
      if h : k.val % nP < n then
        s ⟨k.val / nP, (Nat.div_lt_iff_lt_mul hP).2 (lt_of_lt_of_eq k.isLt hN)⟩ ⟨k.val % nP, h⟩
      else 0) :
    ∑ k : Fin N, a k * Wp k
      = ∑ d : Fin D, ∑ l : Fin n,
          a ⟨d.val * nP + l.val,
            lt_of_lt_of_eq (row_bound d.isLt (lt_of_lt_of_le l.isLt hn)) hN.symm⟩ * s d l := by
  rw [tile_sum D nP N hN]
  refine Finset.sum_congr rfl fun d _ => ?_
  refine pad_sum hmz n nP hn
    (fun w => a ⟨d.val * nP + w.val, lt_of_lt_of_eq (row_bound d.isLt w.isLt) hN.symm⟩)
    (fun w => Wp ⟨d.val * nP + w.val, lt_of_lt_of_eq (row_bound d.isLt w.isLt) hN.symm⟩)
    (s d) fun w => ?_
  have hd : (d.val * nP + w.val) / nP = d.val := row_div w.isLt
  have hm : (d.val * nP + w.val) % nP = w.val := row_mod w.isLt
  show Wp ⟨d.val * nP + w.val, _⟩ = _
  rw [hW]
  by_cases hw : w.val < n
  · have hc : (d.val * nP + w.val) % nP < n := by rw [hm]; exact hw
    rw [dif_pos hc, dif_pos hw]
    exact congrArg₂ s (Fin.ext hd) (Fin.ext hm)
  · have hc : ¬ (d.val * nP + w.val) % nP < n := by rw [hm]; exact hw
    rw [dif_neg hc, dif_neg hw]

end Cert.LibBandSum
-- ==== Proof.KI.Value2.lean ====
/-
  The scatter region's value: what its output array holds after the region, entry by entry, on the extended reals.

  For node n = p·2048 + r and feature f the accumulator, after edge tile k of node tile p, holds the sum over the edges
  e < (k + 1)·2048 of [the word of n is the target word of e] · message(e, f): the first tile starts from zero, every
  later tile adds its own 2048 terms (induction on the point). After the last tile the sum runs over all 901120 edges;
  the output block of node tile p receives that sum plus the bias of f, clamped below at zero, and the 49 blocks written
  at the last tiles cover the output array. So

      out(n, f) = max (Σ over e < 901120 of [word(n) = target(e)] · message(e, f) + bias(f)) 0.
-/
import proofs.«171723_j29566554866533_1_alg».proof.Proof.KI.Value2a
import proofs.«171723_j29566554866533_1_alg».proof.Proof.KI.Value2b
import proofs.«171723_j29566554866533_1_alg».proof.Proof.LibBandSum
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx

open Finset

section AtV
variable (V : (c : Dev nD) → (b : Ref sig .tc) → Buf (Elt Ideal) ((c : Thread nD τ).loc b))

/-! ## What the accumulator and the output's buffer hold after a point, as the body's arithmetic -/

set_option maxHeartbeats 4000000 in
/-- After a first edge tile: the tile's product over zeros. -/
theorem acc2_A (c : Dev nD) (t : Fin cfg2.N) (h0 : t.val % 440 = 0) (h1 : ¬t.val % 440 = 439) :
    (outsAt2 V c t.val t.isLt).2 = k2_pay2 (grid2.coords t) (iblk2 V c 0 t) (iblk2 V c 1 t) (k2_pay1 (F := Ideal)) := by
  rw [outsAt2_A V c t h0 h1]
  dsimp only
  exact sout2_A_eq (F := Ideal) c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)

set_option maxHeartbeats 4000000 in
/-- After a middle edge tile: the tile's product over what the tile before left. -/
theorem acc2_B (c : Dev nD) (t : Fin cfg2.N) (h0 : ¬t.val % 440 = 0) (h1 : ¬t.val % 440 = 439) :
    (outsAt2 V c t.val t.isLt).2 = k2_pay2 (grid2.coords t) (iblk2 V c 0 t) (iblk2 V c 1 t)
      (outsAt2 V c (t.val - 1) (Nat.lt_of_le_of_lt (Nat.sub_le _ _) t.isLt)).2 := by
  rw [outsAt2_B V c t h0 h1]
  dsimp only
  exact sout2_B_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) (fun h => h1 ((hcond2_1 t).mp h)) (iblk2 V c 0 t) (iblk2 V c 1 t) (iblk2 V c 2 t) (outsAt2 V c (t.val - 1) (Nat.lt_of_le_of_lt (Nat.sub_le _ _) t.isLt)).2

set_option maxHeartbeats 4000000 in
/-- After the last edge tile: the same, -/
theorem acc2_C (c : Dev nD) (t : Fin cfg2.N) (h0 : ¬t.val % 440 = 0) (h1 : t.val % 440 = 439) :
    (outsAt2 V c t.val t.isLt).2 = k2_pay2 (grid2.coords t) (iblk2 V c 0 t) (iblk2 V c 1 t)
      (outsAt2 V c (t.val - 1) (Nat.lt_of_le_of_lt (Nat.sub_le _ _) t.isLt)).2 := by
  rw [outsAt2_C V c t h0 h1]
  dsimp only
  exact sout2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2

set_option maxHeartbeats 4000000 in
/-- and the output's buffer holds it with the bias added, clamped below at zero. -/
theorem out2_C (c : Dev nD) (t : Fin cfg2.N) (h0 : ¬t.val % 440 = 0) (h1 : t.val % 440 = 439) :
    (outsAt2 V c t.val t.isLt).1 = k2_pay3 (k2_pay2 (grid2.coords t) (iblk2 V c 0 t) (iblk2 V c 1 t)
      (outsAt2 V c (t.val - 1) (Nat.lt_of_le_of_lt (Nat.sub_le _ _) t.isLt)).2) (iblk2 V c 2 t) := by
  rw [outsAt2_C V c t h0 h1]
  dsimp only
  exact out2_C_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2

/-! ## The tiles' contributions -/

/-- The 32-bit word of node row r of node tile p, as the body computes it. -/
abbrev nodeWord2 (p : ℕ) (r : Fin 2048) : BitVec 32 := Scalar.muli (BitVec.ofNat 32 p) 2048#32 + BitVec.ofNat 32 r.val

/-- Edge tile k's contribution to node row r of node tile p at feature f. -/
def tile2 (c : Dev nD) (p k : ℕ) (r : Fin 2048) (f : Fin 128) : EReal :=
  if h : k < 440 then
    ∑ e : Fin 2048, sel2 (nodeWord2 p r) (Dst2 V c (ix2 0 ⟨k * 2048 + e.val, by have := e.isLt; omega⟩))
      * Msg2 V c (ix2 ⟨k * 2048 + e.val, by have := e.isLt; omega⟩ f)
  else 0

/-- The accumulator after the edge tiles 0 … k of node tile p. -/
def acc2 (c : Dev nD) (p k : ℕ) : Vec Ideal S2048x128 .f32 := fun j => ∑ k' ∈ range (k + 1), tile2 V c p k' (j 0) (j 1)

/-- One point's update: what was there plus the point's tile. -/
theorem step2 (c : Dev nD) (t : Fin cfg2.N) (xs : Vec Ideal S2048x128 .f32) (r : Fin 2048) (f : Fin 128) :
    k2_pay2 (F := Ideal) (grid2.coords t) (iblk2 V c 0 t) (iblk2 V c 1 t) xs (ix2 r f)
      = xs (ix2 r f) + tile2 V c (t.val / 440) (t.val % 440) r f := by
  refine (pay2_2_apply (grid2.coords t) (iblk2 V c 0 t) (iblk2 V c 1 t) xs r f).trans ?_
  congr 1
  unfold tile2
  rw [dif_pos (Nat.mod_lt _ (by decide)), coords2_p]
  refine Finset.sum_congr rfl fun e _ => ?_
  rw [iblk2_0_apply, iblk2_1_apply]

/-- THE ACCUMULATOR after point n holds the tiles 0 … n % 440 of node tile n / 440: by induction on the point. -/
theorem accAt2 (c : Dev nD) : ∀ (n : ℕ) (hn : n < cfg2.N), (outsAt2 V c n hn).2 = acc2 V c (n / 440) (n % 440) := by
  intro n
  induction n with
  | zero =>
    intro hn
    rw [acc2_A V c ⟨0, hn⟩ (Nat.zero_mod _) (fun h => (show ¬(0 : ℕ) % 440 = 439 by decide) h)]
    funext j
    obtain ⟨r, f, rfl⟩ : ∃ (r : Fin 2048) (f : Fin 128), j = ix2 r f := ⟨j 0, j 1, eq_ix2 j⟩
    rw [step2 V c ⟨0, hn⟩, pay2_1_apply, zero_add]
    show tile2 V c (0 / 440) (0 % 440) r f = ∑ k' ∈ range (0 % 440 + 1), tile2 V c (0 / 440) k' r f
    rw [show 0 % 440 + 1 = 1 from rfl, Finset.sum_range_one]
  | succ n ih =>
    intro hn
    by_cases h0 : (n + 1) % 440 = 0
    · have h1 : ¬(n + 1) % 440 = 439 := by omega
      rw [acc2_A V c ⟨n + 1, hn⟩ h0 h1]
      funext j
      obtain ⟨r, f, rfl⟩ : ∃ (r : Fin 2048) (f : Fin 128), j = ix2 r f := ⟨j 0, j 1, eq_ix2 j⟩
      rw [step2 V c ⟨n + 1, hn⟩, pay2_1_apply, zero_add]
      show tile2 V c ((n + 1) / 440) ((n + 1) % 440) r f = ∑ k' ∈ range ((n + 1) % 440 + 1), tile2 V c ((n + 1) / 440) k' r f
      rw [h0, show 0 + 1 = 1 from rfl, Finset.sum_range_one]
    · have hprev := ih (Nat.lt_of_succ_lt hn)
      have e1 : (n + 1) / 440 = n / 440 := by omega
      have e2 : (n + 1) % 440 = n % 440 + 1 := by omega
      have key : ∀ j : S2048x128.Idx, (k2_pay2 (F := Ideal) (grid2.coords ⟨n + 1, hn⟩) (iblk2 V c 0 ⟨n + 1, hn⟩) (iblk2 V c 1 ⟨n + 1, hn⟩)
            (outsAt2 V c n (Nat.lt_of_succ_lt hn)).2) j = acc2 V c ((n + 1) / 440) ((n + 1) % 440) j := by
        intro j
        obtain ⟨r, f, rfl⟩ : ∃ (r : Fin 2048) (f : Fin 128), j = ix2 r f := ⟨j 0, j 1, eq_ix2 j⟩
        rw [step2 V c ⟨n + 1, hn⟩, hprev]
        show (∑ k' ∈ range (n % 440 + 1), tile2 V c (n / 440) k' r f) + tile2 V c ((n + 1) / 440) ((n + 1) % 440) r f
          = ∑ k' ∈ range ((n + 1) % 440 + 1), tile2 V c ((n + 1) / 440) k' r f
        rw [e1, e2, Finset.sum_range_succ _ (n % 440 + 1)]
      by_cases h1 : (n + 1) % 440 = 439
      · rw [acc2_C V c ⟨n + 1, hn⟩ h0 h1]; exact funext key
      · rw [acc2_B V c ⟨n + 1, hn⟩ h0 h1]; exact funext key

/-! ## All the tiles: the sum over every edge -/

/-- The node's word is the word of its number. -/
theorem nodeWord2_eq (p : ℕ) (r : Fin 2048) : nodeWord2 p r = BitVec.ofNat 32 (p * 2048 + r.val) := by
  show BitVec.ofNat 32 p * BitVec.ofNat 32 2048 + BitVec.ofNat 32 r.val = _
  rw [← BitVec.ofNat_mul, ← BitVec.ofNat_add]

/-- The 440 tiles of a node row sum to the sum over all 901120 edges. -/
theorem tiles_sum2 (c : Dev nD) (p : ℕ) (r : Fin 2048) (f : Fin 128) :
    ∑ k' ∈ range 440, tile2 V c p k' r f
      = ∑ e : Fin 901120, sel2 (BitVec.ofNat 32 (p * 2048 + r.val)) (Dst2 V c (ix2 0 e)) * Msg2 V c (ix2 e f) := by
  rw [Cert.LibBandSum.tile_sum 440 2048 901120 rfl, Finset.sum_range]
  refine Finset.sum_congr rfl fun d _ => ?_
  unfold tile2
  rw [dif_pos d.isLt, nodeWord2_eq]

/-! ## The output array -/

/-- THE OUTPUT ARRAY at (n, f): the sum over the edges whose target word is n's word of the messages' entry, plus the
    bias, clamped below at zero. -/
def G2 (c : Dev nD) : S100352x128.Idx → EReal := fun j =>
  max (∑ e : Fin 901120, sel2 (BitVec.ofNat 32 (j 0).val) (Dst2 V c (ix2 0 e)) * Msg2 V c (ix2 e (j 1)) + Bg2 V c (ix2 0 (j 1)))
    (Ideal.ofBits .f32 0x00000000#32)

/-- What the last edge tile of node tile t / 440 leaves in the output's buffer, entry by entry. -/
theorem out2_last (c : Dev nD) (t : Fin cfg2.N) (h1 : t.val % 440 = 439) (r : Fin 2048) (f : Fin 128) :
    (outsAt2 V c t.val t.isLt).1 (ix2 r f)
      = G2 V c (ix2 ⟨t.val / 440 * 2048 + r.val, by have := r.isLt; have := lt_of_lt_of_eq t.isLt N_2; omega⟩ f) := by
  have h0 : ¬t.val % 440 = 0 := by omega
  have hN : t.val < 21560 := lt_of_lt_of_eq t.isLt N_2
  rw [out2_C V c t h0 h1, pay2_3_apply, step2 V c t, accAt2 V c (t.val - 1), iblk2_2_apply]
  show max ((∑ k' ∈ range ((t.val - 1) % 440 + 1), tile2 V c ((t.val - 1) / 440) k' r f) + tile2 V c (t.val / 440) (t.val % 440) r f
      + Bg2 V c (ix2 0 f)) _ = max (_ + Bg2 V c (ix2 0 f)) _
  rw [show (t.val - 1) / 440 = t.val / 440 from by omega, show (t.val - 1) % 440 + 1 = 439 from by omega, h1,
    ← Finset.sum_range_succ (fun k' => tile2 V c (t.val / 440) k' r f) 439, tiles_sum2]

/-- A buffer whose entry (r, f) is entry (p·2048 + r, f) of an array G, p the node tile of point t, is, as the write-back at t
    reads it, block t of G. -/
theorem cut_eq_read2 (t : Fin cfg2.N) (X : S2048x128.Idx → EReal) (G : S100352x128.Idx → EReal)
    (hX : ∀ (r : Fin 2048) (f : Fin 128), X (ix2 r f)
      = G (ix2 ⟨t.val / 440 * 2048 + r.val, by have := r.isLt; have := lt_of_lt_of_eq t.isLt N_2; omega⟩ f)) :
    (cfg2.win 3).cut (grid2.coords t) X = ((cfg2.win 3).blk t).view.read (Elt Ideal) G := by
  refine funext fun (j : S2048x128.Idx) => ?_
  obtain ⟨r, f, rfl⟩ : ∃ (r : Fin 2048) (f : Fin 128), j = ix2 r f := ⟨j 0, j 1, eq_ix2 j⟩
  refine (hX r f).trans ?_
  show _ = G (((cfg2.win 3).blk t).view.emb (ix2 r f))
  congr 1
  funext a; apply Fin.ext
  match a with
  | ⟨0, _⟩ => show t.val / 440 * 2048 + r.val = win2_3.index t (0 : Fin 2) * 2048 + 1 * r.val; rw [(index2_3 t).1]; omega
  | ⟨1, _⟩ => show f.val = win2_3.index t (1 : Fin 2) * 128 + 1 * f.val; rw [(index2_3 t).2]; omega

/-- THE WRITE-BACK at the last edge tile of a node tile is that node tile's block of `G2`. -/
theorem flushed2_eq (c : Dev nD) (t : Fin cfg2.N) (hf : (cfg2.win 3).flush t = true) :
    (dat2 (F := Ideal) V c).flushed 3 t = ((cfg2.win 3).blk t).view.read (Elt Ideal) (G2 V c) := by
  have h1 : t.val % 440 = 439 := (flush2_3 t).mp hf
  show (cfg2.win 3).cut (grid2.coords t) ((dat2 (F := Ideal) V c).after 3 t) = _
  rw [after2_3]
  exact cut_eq_read2 t _ (G2 V c) (out2_last V c t h1)

/-- An index of the array is in point t's block iff each coordinate is in the block's range on its axis. -/
theorem mem_blk2_3 (t : Fin cfg2.N) (i : S100352x128.Idx) :
    i ∈ ((cfg2.win 3).blk t).view.set ↔ ∀ a : Fin 2, win2_3.index t a * S2048x128.size a ≤ (i a).val ∧ (i a).val < win2_3.index t a * S2048x128.size a + S2048x128.size a := by
  show i ∈ ((View.whole main_v41).slice (win2_3.rect t)).set ↔ _
  rw [View.set_slice_whole, Rect.mem_set_unit]
  exact Iff.rfl

/-- Every entry of the output array is in the block written at the last edge tile of its node tile. -/
theorem cover2_3 (i : S100352x128.Idx) : ∃ t : Fin cfg2.N, (cfg2.win 3).flush t = true ∧ i ∈ ((cfg2.win 3).blk t).view.set := by
  have hi0 : (i 0).val < 100352 := (i 0).isLt
  have hi1 : (i 1).val < 128 := (i 1).isLt
  have hN : cfg2.N = 21560 := N_2
  refine ⟨⟨(i 0).val / 2048 * 440 + 439, by rw [hN]; omega⟩, (flush2_3 _).mpr (by show ((i 0).val / 2048 * 440 + 439) % 440 = 439; omega), ?_⟩
  rw [mem_blk2_3]
  intro a
  match a with
  | ⟨0, _⟩ =>
    show win2_3.index _ 0 * 2048 ≤ (i 0).val ∧ (i 0).val < win2_3.index _ 0 * 2048 + 2048
    rw [(index2_3 _).1]
    show ((i 0).val / 2048 * 440 + 439) / 440 * 2048 ≤ (i 0).val ∧ (i 0).val < ((i 0).val / 2048 * 440 + 439) / 440 * 2048 + 2048
    omega
  | ⟨1, _⟩ =>
    show win2_3.index _ 1 * 128 ≤ (i 1).val ∧ (i 1).val < win2_3.index _ 1 * 128 + 128
    rw [(index2_3 _).2]; omega

/-- THE OUTPUT ARRAY AFTER THE REGION: at (n, f), max (Σ over e < 901120 of [word(n) = target(e)] · message(e, f) + bias(f)) 0,
    the targets, messages and bias being the region's three input arrays as it finds them. -/
theorem final2 (c : Dev nD) : (dat2 (F := Ideal) V c).arrAt 3 cfg2.N = G2 V c :=
  (dat2 (F := Ideal) V c).arrAt_eq_of_cover 3 (G2 V c) (flushed2_eq V c) cover2_3

end AtV

end Cert.KernelIdeal.Hand

end
-- ==== Proof.LibDenseLayers.lean ====
/-
  The two dense layers of the network, index by index, on the extended reals.

  A dense layer takes a matrix `a` of R rows and K columns, a weight matrix `w` (K by P) and a bias `b` (P entries):
  entry (r, c) of `a · w + b` is the sum over k of a(r, k) · w(k, c), plus b(c). The first layer follows it by a
  rectifier (the maximum with zero); the second by a logarithmic softmax along each row: with m the row's maximum
  (a fold of `max` from −∞) and z = y − m, the result is z − log (Σ exp z) over the row.

  Every entry of either result depends on ONE row of `a` only. So a block of consecutive rows of the result is the
  same function of the matching block of rows of `a` (`denseRelu_rows`, `denseLogSoftmax_rows`): this is what lets a
  kernel compute the layer tile by tile.
-/
import Idealize.ShloMosaic.Lib.ValueIdx
import Idealize.ShloMosaic.PureOps.Ideal

noncomputable section

namespace SageSpec

open Idealize.ShloMosaic Idealize.ShloMosaic.ValueIdx

variable {R K P : Nat}

/-- Entry (r, c) of `a · w + b`. -/
def dense (a : (⟨2, ![R, K]⟩ : Shape).Idx → EReal) (w : (⟨2, ![K, P]⟩ : Shape).Idx → EReal)
    (b : (⟨1, ![P]⟩ : Shape).Idx → EReal) (r : Fin R) (c : Fin P) : EReal :=
  (∑ k : Fin K, a (ix2 r k) * w (ix2 k c)) + b (ix1 c)

/-- Entry (r, c) of `max (a · w + b) 0`; the zero is the f32 zero word's value. -/
def denseRelu (a : (⟨2, ![R, K]⟩ : Shape).Idx → EReal) (w : (⟨2, ![K, P]⟩ : Shape).Idx → EReal)
    (b : (⟨1, ![P]⟩ : Shape).Idx → EReal) (r : Fin R) (c : Fin P) : EReal :=
  max (dense a w b r c) (Ideal.ofBits .f32 0x00000000#32)

/-- A row's maximum: the fold of `max` over the row from the value of the f32 word of −∞. -/
def rowMax (y : Fin P → EReal) : EReal :=
  (Finset.univ : Finset (Fin P)).fold max (Ideal.ofBits .f32 0xFF800000#32) y

/-- The logarithmic softmax of one row `y`, at column `c`. -/
def logSoftmaxRow (y : Fin P → EReal) (c : Fin P) : EReal :=
  (y c - rowMax y) - Ideal.log (∑ c' : Fin P, Ideal.exp (y c' - rowMax y))

/-- Entry (r, c) of the logarithmic softmax, along each row, of `a · w + b`. -/
def denseLogSoftmax (a : (⟨2, ![R, K]⟩ : Shape).Idx → EReal) (w : (⟨2, ![K, P]⟩ : Shape).Idx → EReal)
    (b : (⟨1, ![P]⟩ : Shape).Idx → EReal) (r : Fin R) (c : Fin P) : EReal :=
  logSoftmaxRow (fun c' => dense a w b r c') c

variable {R' : Nat}

/-- A row of `a · w + b` is a function of the same row of `a`. -/
theorem dense_rows (a : (⟨2, ![R, K]⟩ : Shape).Idx → EReal) (a' : (⟨2, ![R', K]⟩ : Shape).Idx → EReal)
    (w : (⟨2, ![K, P]⟩ : Shape).Idx → EReal) (b : (⟨1, ![P]⟩ : Shape).Idx → EReal) (r : Fin R) (r' : Fin R')
    (h : ∀ k : Fin K, a (ix2 r k) = a' (ix2 r' k)) (c : Fin P) : dense a w b r c = dense a' w b r' c := by
  unfold dense
  exact congrArg (· + b (ix1 c)) (Finset.sum_congr rfl fun k _ => by rw [h k])

theorem denseRelu_rows (a : (⟨2, ![R, K]⟩ : Shape).Idx → EReal) (a' : (⟨2, ![R', K]⟩ : Shape).Idx → EReal)
    (w : (⟨2, ![K, P]⟩ : Shape).Idx → EReal) (b : (⟨1, ![P]⟩ : Shape).Idx → EReal) (r : Fin R) (r' : Fin R')
    (h : ∀ k : Fin K, a (ix2 r k) = a' (ix2 r' k)) (c : Fin P) : denseRelu a w b r c = denseRelu a' w b r' c := by
  unfold denseRelu
  rw [dense_rows a a' w b r r' h c]

theorem denseLogSoftmax_rows (a : (⟨2, ![R, K]⟩ : Shape).Idx → EReal) (a' : (⟨2, ![R', K]⟩ : Shape).Idx → EReal)
    (w : (⟨2, ![K, P]⟩ : Shape).Idx → EReal) (b : (⟨1, ![P]⟩ : Shape).Idx → EReal) (r : Fin R) (r' : Fin R')
    (h : ∀ k : Fin K, a (ix2 r k) = a' (ix2 r' k)) (c : Fin P) :
    denseLogSoftmax a w b r c = denseLogSoftmax a' w b r' c := by
  unfold denseLogSoftmax
  rw [show (fun c' => dense a w b r c') = fun c' => dense a' w b r' c' from funext fun c' => dense_rows a a' w b r r' h c']

/-- The same, with the weights and the bias also read through copies that agree where the entry looks. -/
theorem denseRelu_tile (a : (⟨2, ![R, K]⟩ : Shape).Idx → EReal) (a' : (⟨2, ![R', K]⟩ : Shape).Idx → EReal)
    (w w' : (⟨2, ![K, P]⟩ : Shape).Idx → EReal) (b b' : (⟨1, ![P]⟩ : Shape).Idx → EReal) (r : Fin R) (r' : Fin R') (c : Fin P)
    (h : ∀ k : Fin K, a' (ix2 r' k) = a (ix2 r k)) (hw : ∀ k : Fin K, w' (ix2 k c) = w (ix2 k c)) (hb : b' (ix1 c) = b (ix1 c)) :
    denseRelu a' w' b' r' c = denseRelu a w b r c := by
  unfold denseRelu dense
  rw [hb]
  exact congrArg (fun s => max (s + b (ix1 c)) (Ideal.ofBits .f32 0x00000000#32))
    (Finset.sum_congr rfl fun k _ => by rw [h k, hw k])

theorem denseLogSoftmax_tile (a : (⟨2, ![R, K]⟩ : Shape).Idx → EReal) (a' : (⟨2, ![R', K]⟩ : Shape).Idx → EReal)
    (w w' : (⟨2, ![K, P]⟩ : Shape).Idx → EReal) (b b' : (⟨1, ![P]⟩ : Shape).Idx → EReal) (r : Fin R) (r' : Fin R') (c : Fin P)
    (h : ∀ k : Fin K, a' (ix2 r' k) = a (ix2 r k)) (hw : ∀ (k : Fin K) (c' : Fin P), w' (ix2 k c') = w (ix2 k c'))
    (hb : ∀ c' : Fin P, b' (ix1 c') = b (ix1 c')) :
    denseLogSoftmax a' w' b' r' c = denseLogSoftmax a w b r c := by
  unfold denseLogSoftmax
  refine congrArg (fun y => logSoftmaxRow y c) (funext fun c' => ?_)
  unfold dense
  rw [hb c']
  exact congrArg (· + b (ix1 c')) (Finset.sum_congr rfl fun k _ => by rw [h k, hw k c'])

end SageSpec

end
-- ==== Proof.Spec.lean ====
/-
  What the network computes, entry by entry, on the extended reals.

  A graph convolution followed by a two-layer classifier. The edge list (900000 edges: the 800000 given ones, then one
  self loop per node) comes as two index vectors `src`, `dst` and one weight per edge `norm`. With h = x · Wg:

    agg(n, f)  = Σ over the edges e whose target dst(e), read signed, is n, of h(src(e), f) · norm(e)
                 (the source index read signed and clamped into the rows, as a gather reads it);
    h1(n, f)   = max (agg(n, f) + bg(f)) 0;
    h2         = max (h1 · W1 + b1) 0;
    result     = the logarithmic softmax, along each row, of h2 · W2 + b2.

  The two programs compute `src`, `dst` and `norm` from the edge array by the same operations; the specification takes
  them as given.
-/
import Idealize.ShloMosaic.Lib.ValueIdx
import Idealize.ShloMosaic.PureOps.Ideal
import proofs.«171723_j29566554866533_1_alg».proof.Proof.LibDenseLayers

noncomputable section

namespace Cert.Spec

open Idealize.ShloMosaic Idealize.ShloMosaic.ValueIdx

/-- A matrix of extended reals, by index. -/
abbrev Mat (a b : ℕ) : Type := (⟨2, ![a, b]⟩ : Shape).Idx → EReal
/-- A vector of extended reals, by index. -/
abbrev Vct (a : ℕ) : Type := (⟨1, ![a]⟩ : Shape).Idx → EReal
/-- A vector of 32-bit integer words, by index. -/
abbrev IVct (a : ℕ) : Type := (⟨1, ![a]⟩ : Shape).Idx → BitVec 32

/-- Entry (n, f) of x · Wg. -/
def lin (x : Mat 100000 128) (wg : Mat 128 128) (n : Fin 100000) (f : Fin 128) : EReal :=
  ∑ k : Fin 128, x (ix2 n k) * wg (ix2 k f)

/-- The row a gather reads for the index word `w`: the word read signed, clamped into the 100000 rows. -/
def rowOf (w : BitVec 32) : Fin 100000 := ⟨min w.toInt.toNat 99999, by omega⟩

/-- The message-passing sum at (n, f): over the edges whose target is n, the source row of `h` times the edge's weight. -/
def agg (h : Fin 100000 → Fin 128 → EReal) (src dst : IVct 900000) (norm : Vct 900000) (n : Fin 100000) (f : Fin 128) : EReal :=
  ∑ e : Fin 900000, if (dst (ix1 e)).toInt = (n.val : ℤ) then h (rowOf (src (ix1 e))) f * norm (ix1 e) else 0

/-- The convolution's output after the bias and the rectifier; the zero is the f32 zero word's value. -/
def conv (x : Mat 100000 128) (wg : Mat 128 128) (bg : Vct 128) (src dst : IVct 900000) (norm : Vct 900000) : Mat 100000 128 :=
  fun i => max (agg (lin x wg) src dst norm (i 0) (i 1) + bg (ix1 (i 1))) (Ideal.ofBits .f32 0x00000000#32)

/-- The hidden layer of the classifier. -/
def hidden (h1 : Mat 100000 128) (w1 : Mat 128 512) (b1 : Vct 512) : Mat 100000 512 :=
  fun i => SageSpec.denseRelu h1 w1 b1 (i 0) (i 1)

/-- THE RESULT at (n, o). -/
def G (x : Mat 100000 128) (wg : Mat 128 128) (bg : Vct 128) (w1 : Mat 128 512) (b1 : Vct 512) (w2 : Mat 512 64) (b2 : Vct 64)
    (src dst : IVct 900000) (norm : Vct 900000) (n : Fin 100000) (o : Fin 64) : EReal :=
  SageSpec.denseLogSoftmax (hidden (conv x wg bg src dst norm) w1 b1) w2 b2 n o

/-- The result as an array. -/
def Garr (x : Mat 100000 128) (wg : Mat 128 128) (bg : Vct 128) (w1 : Mat 128 512) (b1 : Vct 512) (w2 : Mat 512 64) (b2 : Vct 64)
    (src dst : IVct 900000) (norm : Vct 900000) : Mat 100000 64 :=
  fun i => G x wg bg w1 b1 w2 b2 src dst norm (i 0) (i 1)

end Cert.Spec

end
-- ==== Proof.KI.Value3.lean ====
import proofs.«171723_j29566554866533_1_alg».proof.Proof.KI.Region3
import proofs.«171723_j29566554866533_1_alg».proof.Proof.LibPlainProduct
import proofs.«171723_j29566554866533_1_alg».proof.Proof.Spec
import Idealize.ShloMosaic.Lib.Pipeline.Value
import Idealize.ShloMosaic.Lib.ValueIdx

set_option maxRecDepth 65536

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! # Region 3's output array: the two dense layers and the row-wise logarithmic softmax, entry by entry -/

theorem zero_off2_3 : (![0, 0] : Fin 2 → Nat) = fun _ => 0 := funext fun a => by fin_cases a <;> rfl

/-- Row 0 of a one-row matrix, as a vector. -/
def row0 {P : Nat} (b : (⟨2, ![1, P]⟩ : Shape).Idx → EReal) : (⟨1, ![P]⟩ : Shape).Idx → EReal := fun j => b (ix2 0 (j 0))

/-- Entry (n, o) of the classifier applied to the rows of `h`: the logarithmic softmax along each row of
    max (h · w1 + b1) 0 · w2 + b2, the two biases given as one-row matrices. -/
def out3 (h : S100000x128.Idx → EReal) (w1 : S128x512.Idx → EReal) (b1 : S1x512.Idx → EReal) (w2 : S512x64.Idx → EReal)
    (b2 : S1x64.Idx → EReal) : S100000x64.Idx → EReal :=
  fun i => SageSpec.denseLogSoftmax (Cert.Spec.hidden h w1 (row0 b1)) w2 (row0 b2) (i 0) (i 1)

/-! ## The payload as a tree of three stages -/

/-- The hidden layer of a row block. -/
def hid3 (x0 : Vec Ideal S10000x128 .f32) (x1 : Vec Ideal S128x512 .f32) (x2 : Vec Ideal S1x512 .f32) : FVec Ideal S10000x512 .f32 :=
  maximumf (addf (matmul dot_S10000x128_S128x512_S10000x512_1_0_0_1_n_n none (truncf .bf16 (shapeCast S10000x128 x0 shapeCasts_S10000x128_S10000x128) bitsLt_bf16_f32) (truncf .bf16 x1 bitsLt_bf16_f32) (constant S10000x512 .f32 0x00000000#32))
      (broadcastTo S10000x512 (shapeCast S1x512 x2 shapeCasts_S1x512_S1x512) broadcasts_S1x512_S10000x512))
    (broadcast S10000x512 (Scalar.ofBits .f32 0x00000000#32 : Ideal .f32))

/-- The second layer before the softmax. -/
def logit3 (h : FVec Ideal S10000x512 .f32) (x3 : Vec Ideal S512x64 .f32) (x4 : Vec Ideal S1x64 .f32) : FVec Ideal S10000x64 .f32 :=
  addf (matmul dot_S10000x512_S512x64_S10000x64_1_0_0_1_n_n none (truncf .bf16 h bitsLt_bf16_f32) (truncf .bf16 x3 bitsLt_bf16_f32) (constant S10000x64 .f32 0x00000000#32))
    (broadcastTo S10000x64 (shapeCast S1x64 x4 shapeCasts_S1x64_S1x64) broadcasts_S1x64_S10000x64)

/-- Each row's maximum. -/
def rowmaxV3 (y : FVec Ideal S10000x64 .f32) : FVec Ideal S10000 .f32 :=
  multiReduction (F := Ideal) .maximumf [1] S10000 y 0xFF800000#32 reduces_S10000x64_S10000 (.inl rfl) rfl

/-- Each row's sum. -/
def rowsumV3 (z : FVec Ideal S10000x64 .f32) : FVec Ideal S10000 .f32 :=
  multiReduction (F := Ideal) .add [1] S10000 z 0x00000000#32 reduces_S10000x64_S10000 (.inl rfl) rfl

/-- A vector as a column. -/
def colV3 (u : FVec Ideal S10000 .f32) : FVec Ideal S10000x1 .f32 := shapeCast S10000x1 u shapeCasts_S10000_S10000x1

/-- A column spread over the 64 columns. -/
def spreadV3 (w : FVec Ideal S10000x1 .f32) : FVec Ideal S10000x64 .f32 := broadcastTo S10000x64 w broadcasts_S10000x1_S10000x64

/-- The rows shifted by their maxima. -/
def shift3 (y : FVec Ideal S10000x64 .f32) : FVec Ideal S10000x64 .f32 := subf y (spreadV3 (colV3 (rowmaxV3 y)))

/-- The logarithmic softmax along each row. -/
def lsm3 (y : FVec Ideal S10000x64 .f32) : FVec Ideal S10000x64 .f32 :=
  subf (shift3 y) (spreadV3 (log (colV3 (rowsumV3 (exp (shift3 y))))))

/-- The body's payload is that tree of operations of its loaded blocks. -/
theorem pay3_eq (x0 : Vec Ideal S10000x128 .f32) (x1 : Vec Ideal S128x512 .f32) (x2 : Vec Ideal S1x512 .f32) (x3 : Vec Ideal S512x64 .f32) (x4 : Vec Ideal S1x64 .f32) :
    k3_pay1 x0 x1 x2 x3 x4 = lsm3 (logit3 (hid3 x0 x1 x2) x3 x4) := rfl

/-! ## Each stage at an index -/

/-- A one-row matrix spread over R rows, at (p, c), is its entry (0, c). -/
theorem bcast_row512_3 (b : S1x512.Idx → EReal) (p : Fin 10000) (c : Fin 512) :
    broadcastTo S10000x512 (shapeCast S1x512 b shapeCasts_S1x512_S1x512) broadcasts_S1x512_S10000x512 (ix2 p c) = b (ix2 0 c) := by
  rw [shapeCast_self]
  exact broadcastTo_apply b _ (ix2 p c) (ix2 0 c) (fun a => by match a with | ⟨0, _⟩ => rfl | ⟨1, _⟩ => rfl)

theorem bcast_row64_3 (b : S1x64.Idx → EReal) (p : Fin 10000) (c : Fin 64) :
    broadcastTo S10000x64 (shapeCast S1x64 b shapeCasts_S1x64_S1x64) broadcasts_S1x64_S10000x64 (ix2 p c) = b (ix2 0 c) := by
  rw [shapeCast_self]
  exact broadcastTo_apply b _ (ix2 p c) (ix2 0 c) (fun a => by match a with | ⟨0, _⟩ => rfl | ⟨1, _⟩ => rfl)

/-- A column spread over 64 columns, at (p, q), is its entry p. -/
theorem bcast_col3 (w : S10000x1.Idx → EReal) (p : Fin 10000) (q : Fin 64) :
    broadcastTo S10000x64 w broadcasts_S10000x1_S10000x64 (ix2 p q) = w (ix2 p 0) :=
  broadcastTo_apply w _ (ix2 p q) (ix2 p 0) (fun a => by match a with | ⟨0, _⟩ => rfl | ⟨1, _⟩ => rfl)

/-- A vector recast as a column, at (p, 0), is its entry p. -/
theorem cast_col3 (u : S10000.Idx → EReal) (p : Fin 10000) :
    shapeCast S10000x1 u shapeCasts_S10000_S10000x1 (ix2 p 0) = u (ix1 p) :=
  shapeCast_apply u _ (ix2 p 0) (ix1 p) (by rw [Shape.rowMajor_val_one, Shape.rowMajor_val_two]; show p.val = p.val * 1 + 0; omega)

/-- The first product at (p, c): narrowing the operands changes nothing at the ideal values, the zero accumulator adds nothing. -/
theorem mm3a_apply (a : FVec Ideal S10000x128 .f32) (b : FVec Ideal S128x512 .f32) (p : Fin 10000) (c : Fin 512) :
    matmul (F := Ideal) dot_S10000x128_S128x512_S10000x512_1_0_0_1_n_n none (truncf .bf16 (shapeCast S10000x128 a shapeCasts_S10000x128_S10000x128) bitsLt_bf16_f32) (truncf .bf16 b bitsLt_bf16_f32) (constant S10000x512 .f32 0x00000000#32) (ix2 p c)
      = ∑ k : Fin 128, a (ix2 p k) * b (ix2 k c) := by
  rw [shapeCast_self]
  exact PlainProduct.matmul_zero_apply (M := 10000) (K := 128) (P := 512) dot_S10000x128_S128x512_S10000x512_1_0_0_1_n_n.wf none _ _ p c

/-- The second product at (p, q). -/
theorem mm3b_apply (a : FVec Ideal S10000x512 .f32) (b : FVec Ideal S512x64 .f32) (p : Fin 10000) (q : Fin 64) :
    matmul (F := Ideal) dot_S10000x512_S512x64_S10000x64_1_0_0_1_n_n none (truncf .bf16 a bitsLt_bf16_f32) (truncf .bf16 b bitsLt_bf16_f32) (constant S10000x64 .f32 0x00000000#32) (ix2 p q)
      = ∑ k : Fin 512, a (ix2 p k) * b (ix2 k q) :=
  PlainProduct.matmul_zero_apply (M := 10000) (K := 512) (P := 64) dot_S10000x512_S512x64_S10000x64_1_0_0_1_n_n.wf none _ _ p q

/-- The hidden layer of a row block at (p, c). -/
theorem hid3_apply (x0 : Vec Ideal S10000x128 .f32) (x1 : Vec Ideal S128x512 .f32) (x2 : Vec Ideal S1x512 .f32) (p : Fin 10000) (c : Fin 512) :
    hid3 x0 x1 x2 (ix2 p c) = SageSpec.denseRelu (R := 10000) (K := 128) (P := 512) x0 x1 (row0 x2) p c := by
  unfold hid3 SageSpec.denseRelu SageSpec.dense
  rw [maximumf_apply, addf_apply, mm3a_apply, bcast_row512_3]
  rfl

/-- The second layer of a row block at (p, q). -/
theorem logit3_apply (h : FVec Ideal S10000x512 .f32) (x3 : Vec Ideal S512x64 .f32) (x4 : Vec Ideal S1x64 .f32) (p : Fin 10000) (q : Fin 64) :
    logit3 h x3 x4 (ix2 p q) = SageSpec.dense (R := 10000) (K := 512) (P := 64) h x3 (row0 x4) p q := by
  unfold logit3 SageSpec.dense
  rw [addf_apply, mm3b_apply, bcast_row64_3]
  rfl

/-- A row's maximum as the reduction computes it: the fold of max from minus infinity over the row. -/
theorem rowmax_read3 (y : FVec Ideal S10000x64 .f32) (h : S10000x64.Reduces [1] S10000) (hφ : FKind.Formats .f32)
    (hacc : (0xFF800000#32 : BitVec 32) = FKind.maximumf.neutral .f32 hφ) (p : Fin 10000) :
    multiReduction (F := Ideal) .maximumf [1] S10000 y 0xFF800000#32 h hφ hacc (ix1 p)
      = SageSpec.rowMax (fun c' : Fin 64 => y (ix2 p c')) := by
  refine (Ideal.multiReduction_maximumf_single y 0xFF800000#32 h hφ hacc (ix1 p)).trans ?_
  have hl : (y ∘ h.lift (ix1 p)) = fun c' : Fin 64 => y (ix2 p c') :=
    funext fun k => congrArg y (funext fun a => Fin.ext (by match a with | ⟨0, _⟩ => rfl | ⟨1, _⟩ => rfl))
  rw [hl]
  rfl

/-- A row's sum as the reduction computes it. -/
theorem rowsum_read3 (z : FVec Ideal S10000x64 .f32) (h : S10000x64.Reduces [1] S10000) (hφ : FKind.Formats .f32)
    (hacc : (0x00000000#32 : BitVec 32) = FKind.add.neutral .f32 hφ) (p : Fin 10000) :
    multiReduction (F := Ideal) .add [1] S10000 z 0x00000000#32 h hφ hacc (ix1 p) = ∑ c' : Fin 64, z (ix2 p c') := by
  refine (Ideal.multiReduction_add_single z 0x00000000#32 h hφ hacc (ix1 p)).trans ?_
  exact Finset.sum_congr rfl fun k _ => congrArg z (funext fun a => Fin.ext (by match a with | ⟨0, _⟩ => rfl | ⟨1, _⟩ => rfl))

theorem rowmaxV3_apply (y : FVec Ideal S10000x64 .f32) (p : Fin 10000) :
    rowmaxV3 y (ix1 p) = SageSpec.rowMax (fun c' : Fin 64 => y (ix2 p c')) :=
  rowmax_read3 y _ _ _ p

theorem rowsumV3_apply (z : FVec Ideal S10000x64 .f32) (p : Fin 10000) : rowsumV3 z (ix1 p) = ∑ c' : Fin 64, z (ix2 p c') :=
  rowsum_read3 z _ _ _ p

theorem spread_col_apply3 (u : FVec Ideal S10000 .f32) (p : Fin 10000) (q : Fin 64) : spreadV3 (colV3 u) (ix2 p q) = u (ix1 p) := by
  unfold spreadV3 colV3
  rw [bcast_col3, cast_col3]

/-- The shifted rows at (p, q). -/
theorem shift3_apply (y : FVec Ideal S10000x64 .f32) (p : Fin 10000) (q : Fin 64) :
    shift3 y (ix2 p q) = y (ix2 p q) - SageSpec.rowMax (fun c' : Fin 64 => y (ix2 p c')) := by
  unfold shift3
  rw [subf_apply, spread_col_apply3, rowmaxV3_apply]

/-- The softmax stage at (p, q). -/
theorem lsm3_apply (y : FVec Ideal S10000x64 .f32) (p : Fin 10000) (q : Fin 64) :
    lsm3 y (ix2 p q) = SageSpec.logSoftmaxRow (fun c' : Fin 64 => y (ix2 p c')) q := by
  unfold lsm3 SageSpec.logSoftmaxRow
  rw [subf_apply, shift3_apply]
  unfold spreadV3
  rw [bcast_col3]
  show _ - Ideal.log (colV3 (rowsumV3 (exp (shift3 y))) (ix2 p 0)) = _
  unfold colV3
  rw [cast_col3, rowsumV3_apply]
  refine congrArg (fun s => _ - Ideal.log s) (Finset.sum_congr rfl fun c' _ => ?_)
  show Ideal.exp (shift3 y (ix2 p c')) = _
  rw [shift3_apply]

/-- THE PAYLOAD at an index of the block: the classifier of the block's rows. -/
theorem pay3_apply (x0 : Vec Ideal S10000x128 .f32) (x1 : Vec Ideal S128x512 .f32) (x2 : Vec Ideal S1x512 .f32) (x3 : Vec Ideal S512x64 .f32) (x4 : Vec Ideal S1x64 .f32) (j : S10000x64.Idx) :
    k3_pay1 x0 x1 x2 x3 x4 j
      = SageSpec.denseLogSoftmax (R := 10000) (K := 512) (P := 64)
          (fun i => SageSpec.denseRelu (R := 10000) (K := 128) (P := 512) x0 x1 (row0 x2) (i 0) (i 1)) x3 (row0 x4) (j 0) (j 1) := by
  obtain ⟨p, q, rfl⟩ : ∃ (p : Fin 10000) (q : Fin 64), j = ix2 p q := ⟨j 0, j 1, eq_ix2 j⟩
  rw [pay3_eq, lsm3_apply]
  unfold SageSpec.denseLogSoftmax
  refine congrArg (fun y => SageSpec.logSoftmaxRow y q) (funext fun c' => ?_)
  rw [logit3_apply]
  unfold SageSpec.dense
  refine congrArg (· + row0 x4 (ix1 c')) (Finset.sum_congr rfl fun k _ => ?_)
  rw [hid3_apply]

/-! ## From the blocks to the array -/

/-- The windows' block indices at every grid point: the row input's and the output's row block is the point's
    number, every other block index is zero. -/
theorem idx_facts3 : ∀ t : Fin cfg3.N, win3_0.index t (0 : Fin 2) = win3_5.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (1 : Fin 2) = 0 ∧ win3_5.index t (0 : Fin 2) = t.val :=
  (by decide +kernel : ∀ t : Fin grid3.N, _)

/-- The payload over the staged blocks at point `t`, at an index of the block, is the classifier of the whole
    arrays at the block's index in the array: the row input's block is rows `10000 t …` of its array, every other
    block is its whole array, and an entry of the classifier looks at one row of the row input only. -/
theorem block_out3 (H : S100000x128.Idx → EReal) (W1 : S128x512.Idx → EReal) (B1 : S1x512.Idx → EReal) (W2 : S512x64.Idx → EReal)
    (B2 : S1x64.Idx → EReal) (t : Fin cfg3.N) (j : S10000x64.Idx) :
    k3_pay1 (F := Ideal) (fun y => H (((cfg3.win 0).blk t).view.emb y)) (fun y => W1 (((cfg3.win 1).blk t).view.emb y))
        (fun y => B1 (((cfg3.win 2).blk t).view.emb y)) (fun y => W2 (((cfg3.win 3).blk t).view.emb y))
        (fun y => B2 (((cfg3.win 4).blk t).view.emb y)) j
      = out3 H W1 B1 W2 B2 (((cfg3.win 5).blk t).view.emb j) := by
  obtain ⟨e0, e1, e2, e3, e4, e5, e6, e7, e8, e9, e10, e11⟩ := idx_facts3 t
  have hq : (((cfg3.win 5).blk t).view.emb j) 1 = j 1 :=
    Fin.ext (by show win3_5.index t (1 : Fin 2) * 64 + 1 * (j 1).val = (j 1).val; omega)
  have h0 : ∀ k : Fin 128, ((cfg3.win 0).blk t).view.emb (ix2 (j 0) k) = ix2 ((((cfg3.win 5).blk t).view.emb j) 0) k := fun k => by
    funext a; apply Fin.ext
    match a with
    | ⟨0, _⟩ => show win3_0.index t (0 : Fin 2) * 10000 + 1 * (j 0).val = win3_5.index t (0 : Fin 2) * 10000 + 1 * (j 0).val; omega
    | ⟨1, _⟩ => show win3_0.index t (1 : Fin 2) * 128 + 1 * k.val = k.val; omega
  have h1 : ∀ (k : Fin 128) (c : Fin 512), ((cfg3.win 1).blk t).view.emb (ix2 k c) = ix2 k c := fun k c => by
    funext a; apply Fin.ext
    match a with
    | ⟨0, _⟩ => show win3_1.index t (0 : Fin 2) * 128 + 1 * k.val = k.val; omega
    | ⟨1, _⟩ => show win3_1.index t (1 : Fin 2) * 512 + 1 * c.val = c.val; omega
  have h2 : ∀ c : Fin 512, ((cfg3.win 2).blk t).view.emb (ix2 0 c) = ix2 0 c := fun c => by
    funext a; apply Fin.ext
    match a with
    | ⟨0, _⟩ => show win3_2.index t (0 : Fin 2) * 1 + 1 * 0 = 0; omega
    | ⟨1, _⟩ => show win3_2.index t (1 : Fin 2) * 512 + 1 * c.val = c.val; omega
  have h3 : ∀ (k : Fin 512) (c : Fin 64), ((cfg3.win 3).blk t).view.emb (ix2 k c) = ix2 k c := fun k c => by
    funext a; apply Fin.ext
    match a with
    | ⟨0, _⟩ => show win3_3.index t (0 : Fin 2) * 512 + 1 * k.val = k.val; omega
    | ⟨1, _⟩ => show win3_3.index t (1 : Fin 2) * 64 + 1 * c.val = c.val; omega
  have h4 : ∀ c : Fin 64, ((cfg3.win 4).blk t).view.emb (ix2 0 c) = ix2 0 c := fun c => by
    funext a; apply Fin.ext
    match a with
    | ⟨0, _⟩ => show win3_4.index t (0 : Fin 2) * 1 + 1 * 0 = 0; omega
    | ⟨1, _⟩ => show win3_4.index t (1 : Fin 2) * 64 + 1 * c.val = c.val; omega
  rw [pay3_apply]
  unfold out3
  rw [hq]
  refine SageSpec.denseLogSoftmax_tile _ _ W2 _ (row0 B2) _ _ (j 0) (j 1) (fun k => ?_) (fun k c' => ?_) (fun c' => ?_)
  · show SageSpec.denseRelu _ _ _ (j 0) k = SageSpec.denseRelu H W1 (row0 B1) ((((cfg3.win 5).blk t).view.emb j) 0) k
    refine SageSpec.denseRelu_tile H _ W1 _ (row0 B1) _ _ (j 0) k (fun k' => ?_) (fun k' => ?_) ?_
    · exact congrArg H (h0 k')
    · exact congrArg W1 (h1 k' k)
    · exact congrArg B1 (h2 k)
  · exact congrArg W2 (h3 k c')
  · exact congrArg B2 (h4 c')

/-- What point `t` writes back is block `t` of the classifier of the arrays as the region finds them. -/
theorem flushed3_eq (c : Dev nD) (t : Fin cfg3.N) :
    (dat3 (F := Ideal) V c).flushed 5 t
      = ((cfg3.win 5).blk t).view.read (Elt Ideal) (out3 (V c (Pipeline.arrRef spec3 0)) (V c (Pipeline.arrRef spec3 1))
          (V c (Pipeline.arrRef spec3 2)) (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero zero_off2_3]
  simp only [View.ld_unit_zero (S := S10000x128) zero_off2_3, View.ld_unit_zero (S := S128x512) zero_off2_3,
    View.ld_unit_zero (S := S1x512) zero_off2_3, View.ld_unit_zero (S := S512x64) zero_off2_3, View.ld_unit_zero (S := S1x64) zero_off2_3]
  refine funext fun (j : S10000x64.Idx) => ?_
  exact block_out3 (V c (Pipeline.arrRef spec3 0)) (V c (Pipeline.arrRef spec3 1)) (V c (Pipeline.arrRef spec3 2))
    (V c (Pipeline.arrRef spec3 3)) (V c (Pipeline.arrRef spec3 4)) t j

/-- An index of the array is in point `t`'s block iff each coordinate is in the block's range on its axis. -/
theorem mem_blk3 (t : Fin cfg3.N) (i : S100000x64.Idx) :
    i ∈ ((cfg3.win 5).blk t).view.set ↔ ∀ a : Fin 2, win3_5.index t a * S10000x64.size a ≤ (i a).val ∧ (i a).val < win3_5.index t a * S10000x64.size a + S10000x64.size a := by
  show i ∈ ((View.whole main_v45).slice (win3_5.rect t)).set ↔ _
  rw [View.set_slice_whole, Rect.mem_set_unit]
  exact Iff.rfl

/-- Every index of the array is in some point's block: row `r` is in the block of point `r / 10000`. -/
theorem cover3 (i : S100000x64.Idx) :
    ∃ t : Fin cfg3.N, (cfg3.win 5).flush t = true ∧ i ∈ ((cfg3.win 5).blk t).view.set := by
  have hi0 : (i 0).val < 100000 := (i 0).isLt
  have hi1 : (i 1).val < 64 := (i 1).isLt
  have hN : grid3.N = 10 := N_3
  let t : Fin cfg3.N := ⟨(i 0).val / 10000, by show _ < grid3.N; omega⟩
  obtain ⟨e0, e1, e2, e3, e4, e5, e6, e7, e8, e9, e10, e11⟩ := idx_facts3 t
  have e11' : win3_5.index t (0 : Fin 2) = (i 0).val / 10000 := e11
  refine ⟨t, flush3_5 t, ?_⟩
  rw [mem_blk3]
  intro a
  match a with
  | ⟨0, _⟩ => show win3_5.index t (0 : Fin 2) * 10000 ≤ (i 0).val ∧ (i 0).val < win3_5.index t (0 : Fin 2) * 10000 + 10000; omega
  | ⟨1, _⟩ => show win3_5.index t (1 : Fin 2) * 64 ≤ (i 1).val ∧ (i 1).val < win3_5.index t (1 : Fin 2) * 64 + 64; omega

/-- THE ARRAY after region 3: entry (n, o) is the logarithmic softmax, along row n, of
    max (h · w1 + b1) 0 · w2 + b2, of the five input arrays as the region finds them. -/
theorem final3 (c : Dev nD) :
    (dat3 (F := Ideal) V c).arrAt 5 cfg3.N = out3 (V c (Pipeline.arrRef spec3 0)) (V c (Pipeline.arrRef spec3 1))
        (V c (Pipeline.arrRef spec3 2)) (V c (Pipeline.arrRef spec3 3)) (V c (Pipeline.arrRef spec3 4)) :=
  (dat3 (F := Ideal) V c).arrAt_eq_of_cover 5 _ (fun t _ => flushed3_eq V c t) cover3

end Cert.KernelIdeal.Hand

end
-- ==== Proof.KI.Glue.lean ====
import proofs.«171723_j29566554866533_1_alg».proof.Proof.Gen.KernelIdeal.Regions
import Idealize.ShloMosaic.Lib.Pipeline.Value
import Idealize.ShloMosaic.Lib.ValueIdx
import Idealize.ShloMosaic.Lib.ValueLayout
import Idealize.ShloMosaic.Lib.StableHlo.Run

set_option maxRecDepth 65536

noncomputable section

namespace Cert.KernelIdeal.Hand

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (outs : Outs (F := Ideal))

/-! # The host operations between the regions, read at an index -/

/-- A vector of 900000 entries padded at the end to 901120, at `n`: the entry if `n < 900000`, else the padding value. -/
theorem pad_tail_apply {α : Type} (x : S900000.Idx → α) (v : S_.Idx → α) (h : S900000.Pads ![0] ![1120] ![0] S901120)
    (hu : 0 < S_.numel) (n : Fin 901120) :
    pad S901120 ![0] ![1120] ![0] x v h hu (ix1 n)
      = if hn : n.val < 900000 then x (ix1 ⟨n.val, hn⟩) else v (Shape.Idx.first hu) := by
  unfold pad
  by_cases hn : n.val < 900000
  · rw [dif_pos hn, dif_pos (fun a => by
      match a with
      | ⟨0, _⟩ => show (0 : Nat) ≤ n.val ∧ (n.val - 0) % (0 + 1) = 0 ∧ (n.val - 0) / (0 + 1) < 900000; omega)]
    refine congrArg x (funext fun a => Fin.ext ?_)
    match a with
    | ⟨0, _⟩ => show (n.val - 0) / (0 + 1) = n.val; omega
  · rw [dif_neg hn, dif_neg (fun hin => hn (by
      have h0 : (0 : Nat) ≤ n.val ∧ (n.val - 0) % (0 + 1) = 0 ∧ (n.val - 0) / (0 + 1) < 900000 := hin 0
      omega))]

/-- A vector recast as a one-column matrix, at (n, 0), is its entry n. -/
theorem col_cast_apply {α : Type} (x : S901120.Idx → α) (h : S901120.ShapeCasts S901120x1) (i : S901120x1.Idx) :
    shapeCast S901120x1 x h i = x (ix1 (i 0)) :=
  shapeCast_apply x h i (ix1 (i 0)) (by
    rw [Shape.rowMajor_val_one, Shape.rowMajor_val_two]
    have h1 : (i 1).val < 1 := (i 1).isLt
    show (i 0).val = (i 0).val * 1 + (i 1).val; omega)

/-- The source-index column the gather region reads: the source indices, then zeros. -/
theorem g_src (c : Dev nD) :
    (V13 m outs c main_v32 : S901120x1.Idx → BitVec 32)
      = fun i : S901120x1.Idx => if h : (i 0).val < 900000 then (V3 m c main_v3 : S900000.Idx → BitVec 32) (ix1 ⟨(i 0).val, h⟩) else 0#32 := by
  have hA : V13 m outs c main_v32 = V7 m outs c main_v32 :=
    (V13_of m outs c main_v32 (by decide)).trans <| (V12_of m outs c main_v32 (by decide)).trans <| (V11_of m outs c main_v32 (by decide)).trans <|
    (V10_of m outs c main_v32 (by decide)).trans <| (V9_of m outs c main_v32 (by decide)).trans <| (V8_of m outs c main_v32 (by decide))
  have hB : (V7 m outs c main_v32 : S901120x1.Idx → BitVec 32) = shapeCast S901120x1 (V6 m outs c main_v31 : S901120.Idx → BitVec 32) shapeCasts_S901120_S901120x1 := by
    show StableHlo.after hostOps1_2 (V6 m outs c) (Proc.devRef .tc main_v32) = _
    after_results
    rfl
  have hC : (V6 m outs c main_v31 : S901120.Idx → BitVec 32)
      = pad S901120 ![0] ![1120] ![0] (V5 m outs c main_v3 : S900000.Idx → BitVec 32) (V5 m outs c main_c_6 : S_.Idx → BitVec 32) pads_S900000_S901120_011200 h_S_ := by
    show StableHlo.after hostOps1_1 (V5 m outs c) (Proc.devRef .tc main_v31) = _
    after_results
    rfl
  have hD : V5 m outs c main_v3 = V3 m c main_v3 :=
    (V5_of m outs c main_v3 (by decide)).trans (V4_of m outs c main_v3 (by decide))
  have hE : (V5 m outs c main_c_6 : S_.Idx → BitVec 32) = constantI S_ 32 0#32 := by
    show StableHlo.after hostOps1 (V4 m outs c) (Proc.devRef .tc main_c_6) = _
    after_results
  rw [hA, hB, hC, hD, hE]
  funext i
  refine (col_cast_apply _ _ i).trans ?_
  exact pad_tail_apply _ _ _ _ (i 0)

/-- The zero word read as a float is the real zero. -/
theorem sitofp_zero_first :
    (sitofp (F := Ideal) .f32 (constantI S_ 32 0#32) : S_.Idx → EReal) (Shape.Idx.first h_S_) = 0 := by
  show (((0#32 : BitVec 32).toInt : ℝ) : EReal) = 0
  simp

/-- The edge-weight column the gather region reads: the edge weights, then zeros. -/
theorem g_norm (c : Dev nD) :
    (V13 m outs c main_v36 : S901120x1.Idx → EReal)
      = fun i : S901120x1.Idx => ((if h : (i 0).val < 900000 then (V3 m c main_v29 : S900000.Idx → EReal) (ix1 ⟨(i 0).val, h⟩) else 0 : EReal)) := by
  have hA : V13 m outs c main_v36 = V11 m outs c main_v36 :=
    (V13_of m outs c main_v36 (by decide)).trans <| (V12_of m outs c main_v36 (by decide))
  have hB : (V11 m outs c main_v36 : S901120x1.Idx → EReal) = shapeCast S901120x1 (V10 m outs c main_v35 : S901120.Idx → EReal) shapeCasts_S901120_S901120x1 := by
    show StableHlo.after hostOps1_6 (V10 m outs c) (Proc.devRef .tc main_v36) = _
    after_results
    rfl
  have hC : (V10 m outs c main_v35 : S901120.Idx → EReal)
      = pad S901120 ![0] ![1120] ![0] (V9 m outs c main_v29 : S900000.Idx → EReal) (sitofp (F := Ideal) .f32 (V9 m outs c main_c_8 : S_.Idx → BitVec 32)) pads_S900000_S901120_011200 h_S_ := by
    show StableHlo.after hostOps1_5 (V9 m outs c) (Proc.devRef .tc main_v35) = _
    after_results
    rfl
  have hD : V9 m outs c main_v29 = V3 m c main_v29 :=
    (V9_of m outs c main_v29 (by decide)).trans <| (V8_of m outs c main_v29 (by decide)).trans <| (V7_of m outs c main_v29 (by decide)).trans <| (V6_of m outs c main_v29 (by decide)).trans <| (V5_of m outs c main_v29 (by decide)).trans <| (V4_of m outs c main_v29 (by decide))
  have hE : (V9 m outs c main_c_8 : S_.Idx → BitVec 32) = constantI S_ 32 0#32 := by
    show StableHlo.after hostOps1_4 (V8 m outs c) (Proc.devRef .tc main_c_8) = _
    after_results
  rw [hA, hB, hC, hD, hE]
  funext i
  refine (col_cast_apply _ _ i).trans ?_
  refine (pad_tail_apply _ _ _ _ (i 0)).trans ?_
  exact dite_congr rfl (fun _ => rfl) (fun _ => sitofp_zero_first)

/-- A matrix of 100000 rows padded below to 100352 rows, at an index: the entry if the row is below 100000, else
    the padding value. -/
theorem pad_rows_apply {α : Type} (x : S100000x128.Idx → α) (v : S_.Idx → α)
    (h : S100000x128.Pads ![0, 0] ![352, 0] ![0, 0] S100352x128) (hu : 0 < S_.numel) (i : S100352x128.Idx) :
    pad S100352x128 ![0, 0] ![352, 0] ![0, 0] x v h hu i
      = if hr : (i 0).val < 100000 then x (ix2 ⟨(i 0).val, hr⟩ (i 1)) else v (Shape.Idx.first hu) := by
  unfold pad
  have h1 : (i 1).val < 128 := (i 1).isLt
  by_cases hr : (i 0).val < 100000
  · rw [dif_pos hr, dif_pos (fun a => by
      match a with
      | ⟨0, _⟩ => show (0 : Nat) ≤ (i 0).val ∧ ((i 0).val - 0) % (0 + 1) = 0 ∧ ((i 0).val - 0) / (0 + 1) < 100000; omega
      | ⟨1, _⟩ => show (0 : Nat) ≤ (i 1).val ∧ ((i 1).val - 0) % (0 + 1) = 0 ∧ ((i 1).val - 0) / (0 + 1) < 128; omega)]
    refine congrArg x (funext fun a => Fin.ext ?_)
    match a with
    | ⟨0, _⟩ => show ((i 0).val - 0) / (0 + 1) = (i 0).val; omega
    | ⟨1, _⟩ => show ((i 1).val - 0) / (0 + 1) = (i 1).val; omega
  · rw [dif_neg hr, dif_neg (fun hin => hr (by
      have h0 : (0 : Nat) ≤ (i 0).val ∧ ((i 0).val - 0) % (0 + 1) = 0 ∧ ((i 0).val - 0) / (0 + 1) < 100000 := hin 0
      omega))]

/-- The padded feature matrix the gather region reads: region 0's output, then zero rows (narrowing to bf16 changes
    nothing at the ideal values). -/
theorem g_hpad (c : Dev nD) :
    (V13 m outs c main_v38 : S100352x128.Idx → EReal)
      = fun i : S100352x128.Idx => ((if h : (i 0).val < 100000 then (outs 4 main_v30 c : S100000x128.Idx → EReal) (ix2 ⟨(i 0).val, h⟩ (i 1)) else 0 : EReal)) := by
  have hB : (V13 m outs c main_v38 : S100352x128.Idx → EReal) = truncf (F := Ideal) .bf16 (V12 m outs c main_v37 : FVec Ideal S100352x128 .f32) bitsLt_bf16_f32 := by
    show StableHlo.after hostOps1_8 (V12 m outs c) (Proc.devRef .tc main_v38) = _
    after_results
  have hC : (V12 m outs c main_v37 : S100352x128.Idx → EReal)
      = pad S100352x128 ![0, 0] ![352, 0] ![0, 0] (V11 m outs c main_v30 : S100000x128.Idx → EReal) (sitofp (F := Ideal) .f32 (V11 m outs c main_c_9 : S_.Idx → BitVec 32)) pads_S100000x128_S100352x128_03520_000 h_S_ := by
    show StableHlo.after hostOps1_7 (V11 m outs c) (Proc.devRef .tc main_v37) = _
    after_results
    rfl
  have hD : V11 m outs c main_v30 = outs 4 main_v30 c :=
    ((V11_of m outs c main_v30 (by decide)).trans <| (V10_of m outs c main_v30 (by decide)).trans <| (V9_of m outs c main_v30 (by decide)).trans <| (V8_of m outs c main_v30 (by decide)).trans <| (V7_of m outs c main_v30 (by decide)).trans <| (V6_of m outs c main_v30 (by decide)).trans <| (V5_of m outs c main_v30 (by decide))).trans (by simp only [V4, Function.update_self])
  have hE : (V11 m outs c main_c_9 : S_.Idx → BitVec 32) = constantI S_ 32 0#32 := by
    show StableHlo.after hostOps1_6 (V10 m outs c) (Proc.devRef .tc main_c_9) = _
    after_results
  rw [hB, hC, hD, hE]
  funext i
  show (pad S100352x128 ![0, 0] ![352, 0] ![0, 0] (outs 4 main_v30 c : S100000x128.Idx → EReal) (sitofp (F := Ideal) .f32 (constantI S_ 32 0#32)) pads_S100000x128_S100352x128_03520_000 h_S_ : S100352x128.Idx → EReal) i = _
  refine (pad_rows_apply _ _ _ _ i).trans ?_
  exact dite_congr rfl (fun _ => rfl) (fun _ => sitofp_zero_first)

/-- A vector recast as a one-row matrix, at (0, n), is its entry n. -/
theorem row_cast_apply {α : Type} {n : Nat} (x : (⟨1, ![n]⟩ : Shape).Idx → α) (h : (⟨1, ![n]⟩ : Shape).ShapeCasts ⟨2, ![1, n]⟩)
    (i : (⟨2, ![1, n]⟩ : Shape).Idx) : shapeCast ⟨2, ![1, n]⟩ x h i = x (ix1 (i 1)) :=
  shapeCast_apply x h i (ix1 (i 1)) (by
    rw [Shape.rowMajor_val_one, Shape.rowMajor_val_two]
    have h0 : (i 0).val < 1 := (i 0).isLt
    show (i 1).val = (i 0).val * n + (i 1).val
    have : (i 0).val = 0 := by omega
    rw [this]; omega)

/-- The target-index row the scatter region reads: the target indices, then zeros. -/
theorem g_dst (c : Dev nD) :
    (V15 m outs c main_v34 : S1x901120.Idx → BitVec 32)
      = fun i : S1x901120.Idx => if h : (i 1).val < 900000 then (V3 m c main_v6 : S900000.Idx → BitVec 32) (ix1 ⟨(i 1).val, h⟩) else 0#32 := by
  have hA : V15 m outs c main_v34 = V9 m outs c main_v34 :=
    (V15_of m outs c main_v34 (by decide)).trans <| (V14_of m outs c main_v34 (by decide)).trans <| (V13_of m outs c main_v34 (by decide)).trans <| (V12_of m outs c main_v34 (by decide)).trans <| (V11_of m outs c main_v34 (by decide)).trans <| (V10_of m outs c main_v34 (by decide))
  have hB : (V9 m outs c main_v34 : S1x901120.Idx → BitVec 32) = shapeCast S1x901120 (V8 m outs c main_v33 : S901120.Idx → BitVec 32) shapeCasts_S901120_S1x901120 := by
    show StableHlo.after hostOps1_4 (V8 m outs c) (Proc.devRef .tc main_v34) = _
    after_results
    rfl
  have hC : (V8 m outs c main_v33 : S901120.Idx → BitVec 32)
      = pad S901120 ![0] ![1120] ![0] (V7 m outs c main_v6 : S900000.Idx → BitVec 32) (V7 m outs c main_c_7 : S_.Idx → BitVec 32) pads_S900000_S901120_011200 h_S_ := by
    show StableHlo.after hostOps1_3 (V7 m outs c) (Proc.devRef .tc main_v33) = _
    after_results
    rfl
  have hD : V7 m outs c main_v6 = V3 m c main_v6 :=
    (V7_of m outs c main_v6 (by decide)).trans <| (V6_of m outs c main_v6 (by decide)).trans <| (V5_of m outs c main_v6 (by decide)).trans <| (V4_of m outs c main_v6 (by decide))
  have hE : (V7 m outs c main_c_7 : S_.Idx → BitVec 32) = constantI S_ 32 0#32 := by
    show StableHlo.after hostOps1_2 (V6 m outs c) (Proc.devRef .tc main_c_7) = _
    after_results
  rw [hA, hB, hC, hD, hE]
  funext i
  refine (row_cast_apply (n := 901120) _ _ i).trans ?_
  exact pad_tail_apply _ _ _ _ (i 1)

/-- The convolution's bias as the scatter region reads it: the bias argument as a one-row matrix. -/
theorem g_bg (c : Dev nD) :
    (V15 m outs c main_v40 : S1x128.Idx → EReal) = fun i : S1x128.Idx => (m ((c : Thread nD τ).loc main_arg3) : S128.Idx → EReal) (ix1 (i 1)) := by
  have hB : (V15 m outs c main_v40 : S1x128.Idx → EReal) = shapeCast S1x128 (V14 m outs c main_arg3 : S128.Idx → EReal) shapeCasts_S128_S1x128 := by
    show StableHlo.after hostOps2 (V14 m outs c) (Proc.devRef .tc main_v40) = _
    after_results
    rfl
  have hD : V14 m outs c main_arg3 = m ((c : Thread nD τ).loc main_arg3) :=
    (V14_of m outs c main_arg3 (by decide)).trans <| (V13_of m outs c main_arg3 (by decide)).trans <| (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m c main_arg3 (by decide)).trans <| (V2_of m c main_arg3 (by decide)).trans <| (V1_of m c main_arg3 (by decide))
  rw [hB, hD]
  funext i
  exact row_cast_apply (n := 128) _ _ i

/-- The messages as the scatter region reads them: what the gather region left. -/
theorem g_msg (c : Dev nD) : V15 m outs c main_v39 = outs 14 main_v39 c :=
  (V15_of m outs c main_v39 (by decide)).trans (by simp only [V14, Function.update_self])

/-- The classifier's row input: the first 100000 rows of what the scatter region left. -/
theorem g_h1 (c : Dev nD) :
    (V17 m outs c main_v42 : S100000x128.Idx → EReal)
      = fun i : S100000x128.Idx => (outs 16 main_v41 c : S100352x128.Idx → EReal) (ix2 ⟨(i 0).val, by have h0 : (i 0).val < 100000 := (i 0).isLt; omega⟩ (i 1)) := by
  have hB : (V17 m outs c main_v42 : S100000x128.Idx → EReal) = extractStridedSlice S100000x128 ![0, 0] (V16 m outs c main_v41 : S100352x128.Idx → EReal) slices_S100352x128_S100000x128_0_0 := by
    show StableHlo.after hostOps3 (V16 m outs c) (Proc.devRef .tc main_v42) = _
    after_results
  have hD : V16 m outs c main_v41 = outs 16 main_v41 c := by simp only [V16, Function.update_self]
  rw [hB, hD]
  funext i
  refine extractStridedSlice_apply _ _ _ i _ (fun a => ?_)
  match a with
  | ⟨0, _⟩ => show (i 0).val = 0 + (i 0).val; omega
  | ⟨1, _⟩ => show (i 1).val = 0 + (i 1).val; omega

/-- The classifier's first bias as region 3 reads it: the bias argument as a one-row matrix. -/
theorem g_b1 (c : Dev nD) :
    (V17 m outs c main_v43 : S1x512.Idx → EReal) = fun i : S1x512.Idx => (m ((c : Thread nD τ).loc main_arg5) : S512.Idx → EReal) (ix1 (i 1)) := by
  have hB : (V17 m outs c main_v43 : S1x512.Idx → EReal) = shapeCast S1x512 (V16 m outs c main_arg5 : S512.Idx → EReal) shapeCasts_S512_S1x512 := by
    show StableHlo.after hostOps3 (V16 m outs c) (Proc.devRef .tc main_v43) = _
    after_results
    rfl
  have hD : V16 m outs c main_arg5 = m ((c : Thread nD τ).loc main_arg5) :=
    (V16_of m outs c main_arg5 (by decide)).trans <| (V15_of m outs c main_arg5 (by decide)).trans <| (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m c main_arg5 (by decide)).trans <| (V2_of m c main_arg5 (by decide)).trans <| (V1_of m c main_arg5 (by decide))
  rw [hB, hD]
  funext i
  exact row_cast_apply (n := 512) _ _ i

/-- The classifier's second bias as region 3 reads it. -/
theorem g_b2 (c : Dev nD) :
    (V17 m outs c main_v44 : S1x64.Idx → EReal) = fun i : S1x64.Idx => (m ((c : Thread nD τ).loc main_arg7) : S64.Idx → EReal) (ix1 (i 1)) := by
  have hB : (V17 m outs c main_v44 : S1x64.Idx → EReal) = shapeCast S1x64 (V16 m outs c main_arg7 : S64.Idx → EReal) shapeCasts_S64_S1x64 := by
    show StableHlo.after hostOps3 (V16 m outs c) (Proc.devRef .tc main_v44) = _
    after_results
    rfl
  have hD : V16 m outs c main_arg7 = m ((c : Thread nD τ).loc main_arg7) :=
    (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide))
  rw [hB, hD]
  funext i
  exact row_cast_apply (n := 64) _ _ i

/-- The weight arguments and the feature argument reach their regions as launched: nothing before writes them. -/
theorem g_w1 (c : Dev nD) : V17 m outs c main_arg4 = m ((c : Thread nD τ).loc main_arg4) :=
  (V17_of m outs c main_arg4 (by decide)).trans <| (V16_of m outs c main_arg4 (by decide)).trans <| (V15_of m outs c main_arg4 (by decide)).trans <| (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m c main_arg4 (by decide)).trans <| (V2_of m c main_arg4 (by decide)).trans <| (V1_of m c main_arg4 (by decide))
theorem g_w2 (c : Dev nD) : V17 m outs c main_arg6 = m ((c : Thread nD τ).loc main_arg6) :=
  (V17_of m outs c main_arg6 (by decide)).trans <| (V16_of m outs c main_arg6 (by decide)).trans <| (V15_of m outs c main_arg6 (by decide)).trans <| (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide))
theorem g_x (c : Dev nD) : V3 m c main_arg0 = m ((c : Thread nD τ).loc main_arg0) :=
  (V3_of m c main_arg0 (by decide)).trans <| (V2_of m c main_arg0 (by decide)).trans <| (V1_of m c main_arg0 (by decide))
theorem g_wg (c : Dev nD) : V3 m c main_arg2 = m ((c : Thread nD τ).loc main_arg2) :=
  (V3_of m c main_arg2 (by decide)).trans <| (V2_of m c main_arg2 (by decide)).trans <| (V1_of m c main_arg2 (by decide))

end Cert.KernelIdeal.Hand

end
-- ==== Proof.KI.Value0.lean ====
import proofs.«171723_j29566554866533_1_alg».proof.Proof.KI.Region0
import proofs.«171723_j29566554866533_1_alg».proof.Proof.LibPlainProduct
import Idealize.ShloMosaic.Lib.Pipeline.Value
import Idealize.ShloMosaic.Lib.ValueIdx

set_option maxRecDepth 65536

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-! # Region 0's output array: the matrix product, entry by entry -/

theorem zero_off2 : (![0, 0] : Fin 2 → Nat) = fun _ => 0 := funext fun a => by fin_cases a <;> rfl

/-- Entry (r, f) of x · w: the sum over k of x(r, k) · w(k, f). -/
def prod0 (x : S100000x128.Idx → EReal) (w : S128x128.Idx → EReal) : S100000x128.Idx → EReal :=
  fun i => ∑ k : Fin 128, x (ix2 (i 0) k) * w (ix2 k (i 1))

/-- The body's payload at an index of the block: the plain sum of products of the loaded blocks (at the ideal
    values the narrowing of the operands changes nothing and the zero accumulator adds nothing). -/
theorem pay0_apply (x0 : Vec Ideal S10000x128 .f32) (x1 : Vec Ideal S128x128 .f32) (j : S10000x128.Idx) :
    k0_pay1 x0 x1 j = ∑ k : Fin 128, x0 (ix2 (j 0) k) * x1 (ix2 k (j 1)) := by
  obtain ⟨p, q, rfl⟩ : ∃ (p : Fin 10000) (q : Fin 128), j = ix2 p q := ⟨j 0, j 1, eq_ix2 j⟩
  unfold k0_pay1
  exact PlainProduct.matmul_zero_apply (M := 10000) (K := 128) (P := 128) dot_S10000x128_S128x128_S10000x128_1_0_0_1_n_n.wf none _ _ p q

/-- The windows' block indices at every grid point: the left operand's and the output's row block is the point's
    number, every other block index is zero. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- The sum of products over the staged blocks at point `t`, at an index of the block, is the product of the
    whole arrays at the block's index in the array: the left operand's block is rows `10000 t …` of its array,
    the right operand's block is its whole array. -/
theorem block_prod0 (X : S100000x128.Idx → EReal) (W : S128x128.Idx → EReal) (t : Fin cfg0.N) (j : S10000x128.Idx) :
    (∑ k : Fin 128, X (((cfg0.win 0).blk t).view.emb (ix2 (j 0) k)) * W (((cfg0.win 1).blk t).view.emb (ix2 k (j 1))))
      = prod0 X W (((cfg0.win 2).blk t).view.emb j) := by
  obtain ⟨e0, e1, e2, e3, e4, e5⟩ := idx_facts0 t
  unfold prod0
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega
  rw [h0, h1] <;> rfl

/-- What point `t` writes back is block `t` of the product of the arrays as the region finds them. -/
theorem flushed0_eq (c : Dev nD) (t : Fin cfg0.N) :
    (dat0 (F := Ideal) V c).flushed 2 t
      = ((cfg0.win 2).blk t).view.read (Elt Ideal) (prod0 (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero zero_off2]
  simp only [View.ld_unit_zero (S := S10000x128) zero_off2, View.ld_unit_zero (S := S128x128) zero_off2]
  obtain ⟨e0, e1, e2, e3, e4, e5⟩ := idx_facts0 t
  refine funext fun (j : S10000x128.Idx) => ?_
  refine (pay0_apply _ _ j).trans ?_
  exact block_prod0 (V c (Pipeline.arrRef spec0 0)) (V c (Pipeline.arrRef spec0 1)) t j

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- Every index of the array is in some point's block: row `r` is in the block of point `r / 10000`. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  let t : Fin cfg0.N := ⟨(i 0).val / 10000, by show _ < grid0.N; omega⟩
  obtain ⟨e0, e1, e2, e3, e4, e5⟩ := idx_facts0 t
  have e5' : win0_2.index t (0 : Fin 2) = (i 0).val / 10000 := e5
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 128 ≤ (i 1).val ∧ (i 1).val < win0_2.index t (1 : Fin 2) * 128 + 128; omega

/-- THE ARRAY after region 0: entry (r, f) is the sum over k of x(r, k) · w(k, f), of the two input arrays as the
    region finds them. -/
theorem final0 (c : Dev nD) :
    (dat0 (F := Ideal) V c).arrAt 2 cfg0.N = prod0 (V c (Pipeline.arrRef spec0 0)) (V c (Pipeline.arrRef spec0 1)) :=
  (dat0 (F := Ideal) V c).arrAt_eq_of_cover 2 _ (fun t _ => flushed0_eq V c t) cover0

end Cert.KernelIdeal.Hand

end
-- ==== Proof.LibColumns.lean ====
/-
  Layout operations on a column of per-row values, read at an index: a vector of `a` values cast to an `a × 1`
  column reads, at row `p`, the vector at `p`; a column broadcast over `b` lanes reads, at `(p, c)`, the column at
  row `p`. (What a row reduction kept as a column and spread back over the row does to indices.)
-/
import Idealize.ShloMosaic.Lib.Pipeline.Value
import Idealize.ShloMosaic.Lib.ValueIdx
import Idealize.ShloMosaic.Lib.ValueLayout

namespace Idealize.ShloMosaic.LibColumns

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.LibColumns
-- ==== Proof.KI.Value1.lean ====
import proofs.«171723_j29566554866533_1_alg».proof.Proof.KI.Region1
import Idealize.ShloMosaic.Lib.Pipeline.Value
import Idealize.ShloMosaic.Lib.ValueIdx
import Idealize.ShloMosaic.Lib.ValueLayout
import Idealize.ShloMosaic.Lib.Tactic
import proofs.«171723_j29566554866533_1_alg».proof.Proof.LibPlainProduct
import proofs.«171723_j29566554866533_1_alg».proof.Proof.LibColumns
import proofs.«171723_j29566554866533_1_alg».proof.Proof.LibBandSum

set_option maxRecDepth 16384

noncomputable section

namespace Cert.KernelIdeal.Hand

open Cert.KernelIdeal Cert.KernelIdeal.Gen
open Idealize.ShloMosaic Idealize.ShloMosaic.TcCoe Idealize.SL.Sem Idealize.ShloMosaic.Tactic
open Idealize.ShloMosaic.Pipeline (Dat)
open Idealize.ShloMosaic.ValueIdx

section Pieces
variable {F : FTy → Type} [FloatOps F]

theorem hz_1 : (![0, 0] : Fin 2 → Nat) = fun _ => 0 := funext fun a => by fin_cases a <;> rfl

/-! ## What each kind of point leaves, as values of the body's payloads -/

/-- A middle point leaves, in the accumulator holding `xs0`, the accumulate payload of the blocks. -/
theorem sout1_B_eq (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : ¬cond1_1 i)
    (x0 : Vec F S2048x1 .i32) (x1 : Vec F S2048x1 .f32) (x2 : Vec F S2048x128 .bf16) (xs0 : Vec F S2048x128 .f32) :
    sout1_B_0 c i arg2 harg2 arg3 harg3 arg4 harg4 arg5 harg5 arg6 harg6 hc0 hc1 x0 x1 x2 xs0 = k1_pay2 i x0 xs0 x2 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  rw [View.canon_unit_zero hz_1]
  simp only [View.readAt_eq_ld, harg2.read_unread, harg4.read_unread, harg6.read_unread, View.ld_unit_zero (S := S2048x1) hz_1, View.ld_unit_zero (S := S2048x128) hz_1]

/-- The first point of a row stores the zero block, reads it back, and leaves the accumulate payload over it. -/
theorem sout1_A_eq (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : cond1_0 i) (hc1 : ¬cond1_1 i)
    (x0 : Vec F S2048x1 .i32) (x1 : Vec F S2048x1 .f32) (x2 : Vec F S2048x128 .bf16) :
    sout1_A_0 c i arg2 harg2 arg3 harg3 arg4 harg4 arg5 harg5 arg6 harg6 hc0 hc1 x0 x1 x2 = k1_pay2 i x0 (k1_pay1 (F := F)) x2 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S2048x128) hz_1, View.readCov_unit_zero (S := S2048x128) _ hz_1]
  simp only [View.readAt_eq_ld, harg2.read_unread, harg4.read_unread, View.ld_unit_zero (S := S2048x1) hz_1, View.ld_unit_zero (S := S2048x128) hz_1]

/-- The last point of a row leaves the accumulator as a middle point does, -/
theorem sout1_C_eq (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) :
    sout1_C_0 c i arg2 harg2 arg3 harg3 arg4 harg4 arg5 harg5 arg6 harg6 hc0 hc1 x0 x1 x2 xs0 = k1_pay2 i x0 xs0 x2 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero hz_1]
  simp only [View.readAt_eq_ld, harg2.read_unread, harg4.read_unread, harg6.read_unread, View.ld_unit_zero (S := S2048x1) hz_1, View.ld_unit_zero (S := S2048x128) hz_1]

/-- and in the output's buffer the scaled accumulator. -/
theorem out1_C_eq (c : Dev nD) (i : grid1.Coords) (arg2 : Memref sig .tc .vmem S2048x1 .i32) (harg2 : arg2.IsWhole) (arg3 : Memref sig .tc .vmem S2048x1 .f32) (harg3 : arg3.IsWhole) (arg4 : Memref sig .tc .vmem S2048x128 .bf16) (harg4 : arg4.IsWhole) (arg5 : Memref sig .tc .vmem S2048x128 .f32) (harg5 : arg5.IsWhole) (arg6 : Memref sig .tc .vmem S2048x128 .f32) (harg6 : arg6.IsWhole) (hc0 : ¬cond1_0 i) (hc1 : cond1_1 i)
    (x0 : Vec F S2048x1 .i32) (x1 : Vec F S2048x1 .f32) (x2 : Vec F S2048x128 .bf16) (xs0 : Vec F S2048x128 .f32) :
    out1_C_3 c i arg2 harg2 arg3 harg3 arg4 harg4 arg5 harg5 arg6 harg6 hc0 hc1 x0 x1 x2 xs0 = k1_pay3 (k1_pay2 i x0 xs0 x2) x1 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero hz_1, View.readCov_unit_zero (S := S2048x128) _ hz_1]
  simp only [View.readAt_eq_ld, harg2.read_unread, harg3.read_unread, harg4.read_unread, harg6.read_unread, View.ld_unit_zero (S := S2048x1) hz_1, View.ld_unit_zero (S := S2048x128) hz_1]

end Pieces

/-! ## The payloads at an index, on the extended reals -/

section IdealMath

/-- One where the two words are equal, zero elsewhere. -/
def sel (a b : BitVec 32) : EReal := if a = b then 1 else 0

/-- A comparison's bit, widened and read as a float, is that selector. -/
theorem onehot_val (a b : BitVec 32) :
    (FloatOps.sitofp (F := Ideal) .f32 ((IntOp.cmpi .eq a b).setWidth 32) : EReal) = sel a b := by
  show (((((IntOp.cmpi .eq a b).setWidth 32).toInt : ℤ) : ℝ) : EReal) = _
  unfold sel IntOp.cmpi
  by_cases h : a = b
  · subst h; simp
  · have hb : (a == b) = false := by simpa using h
    simp [h, hb]

/-- The node id of lane j of node tile k, as the kernel computes it in words. -/
theorem word_tile (k j : ℕ) : IntOp.addi (Scalar.muli (BitVec.ofNat 32 k) 2048#32) (BitVec.ofNat 32 j) = BitVec.ofNat 32 (k * 2048 + j) := by
  show BitVec.ofNat 32 k * 2048#32 + BitVec.ofNat 32 j = _
  rw [show (2048#32 : BitVec 32) = BitVec.ofNat 32 2048 from rfl, ← BitVec.ofNat_mul, ← BitVec.ofNat_add]

/-- The accumulate payload at (e, f): the accumulator plus, over the node tile's rows j, the selector (source id of edge e =
    node id of row j) times row j. -/
theorem pay1_2_apply (i : grid1.Coords) (v7 : Vec Ideal S2048x1 .i32) (v14 : Vec Ideal S2048x128 .f32) (v15 : Vec Ideal S2048x128 .bf16) (e : Fin 2048) (f : Fin 128) :
    k1_pay2 i v7 v14 v15 (ix2 e f) = v14 (ix2 e f) + ∑ j : Fin 2048, sel (v7 (ix2 e (0 : Fin 1))) (BitVec.ofNat 32 ((i 1).val * 2048 + j.val)) * v15 (ix2 j f) := by
  unfold k1_pay2
  simp only [shapeCast_self]
  rw [addf_apply]
  congr 1
  refine (PlainProduct.matmul_zero_apply (M := 2048) (K := 2048) (P := 128) (φ₁ := .bf16) (φ₂ := .bf16) dot_S2048x2048_S2048x128_S2048x128_1_0_0_1_n_n.wf none _ v15 e f).trans ?_
  refine Finset.sum_congr rfl fun j _ => ?_
  congr 1
  rw [truncf_apply, sitofp_apply, extui_apply]
  refine (onehot_val _ _).trans ?_
  show sel (broadcastTo S2048x2048 v7 broadcasts_S2048x1_S2048x2048 (ix2 e j)) (IntOp.addi (Scalar.muli (BitVec.ofNat 32 (i 1).val) 2048#32) (iota Kind.tc S2048x2048 32 [1] iota_S2048x2048_d1_w32 (ix2 e j))) = _
  rw [LibColumns.broadcastTo_a1_ab_apply, iota_single_apply]
  exact congrArg _ (word_tile _ _)

/-- The output payload at (e, f): the accumulator times the edge's weight. -/
theorem pay1_3_apply (v25 : Vec Ideal S2048x128 .f32) (v26 : Vec Ideal S2048x1 .f32) (e : Fin 2048) (f : Fin 128) :
    k1_pay3 v25 v26 (ix2 e f) = v25 (ix2 e f) * v26 (ix2 e (0 : Fin 1)) := by
  unfold k1_pay3
  simp only [shapeCast_self]
  rw [mulf_apply, LibColumns.broadcastTo_a1_ab_apply]

/-- The reset payload is zero everywhere. -/
theorem pay1_1_apply (j : S2048x128.Idx) : k1_pay1 (F := Ideal) j = 0 := by
  unfold k1_pay1
  simp only [shapeCast_self, broadcast_apply]
  exact Ideal.ofBits_zero_f32

end IdealMath

/-! ## From the points to the array -/

section Final1
variable (V : (c : Dev nD) → (b : Ref sig .tc) → Buf (Elt Ideal) ((c : Thread nD τ).loc b))

/-- The edge-tile coordinate of point t is t / 49. -/
theorem coords1_i (t : Fin cfg1.N) : ((grid1.coords t) 0).val = t.val / 49 := by
  have hN : t.val < 21560 := lt_of_lt_of_eq t.isLt N_1
  show t.val / grid1.stride 0 % 440 = t.val / 49
  rw [show grid1.stride 0 = 49 from by decide]
  omega

/-- The windows' block indices at point t: the edge tile for the two per-edge columns and the output, the node tile for
    the node rows; every column block index is zero. -/
theorem idx1_facts (t : Fin cfg1.N) : win1_0.index t (0 : Fin 2) = t.val / 49 ∧ win1_0.index t (1 : Fin 2) = 0
    ∧ win1_1.index t (0 : Fin 2) = t.val / 49 ∧ win1_1.index t (1 : Fin 2) = 0
    ∧ win1_2.index t (0 : Fin 2) = t.val % 49 ∧ win1_2.index t (1 : Fin 2) = 0
    ∧ win1_3.index t (0 : Fin 2) = t.val / 49 ∧ win1_3.index t (1 : Fin 2) = 0 := by
  have hN : t.val < 21560 := lt_of_lt_of_eq t.isLt N_1
  have h0 : (BitVec.ofNat 32 ((grid1.coords t) 0).val).toNat = t.val / 49 := by
    rw [coords1_i, BitVec.toNat_ofNat]; omega
  have h1 : (BitVec.ofNat 32 ((grid1.coords t) 1).val).toNat = t.val % 49 := by
    rw [coords1_k, BitVec.toNat_ofNat]; omega
  exact ⟨h0, rfl, h0, rfl, h1, rfl, h0, rfl⟩

/-- The three input arrays as the region finds them. -/
abbrev Src1 (c : Dev nD) : S901120x1.Idx → BitVec 32 := V c (Pipeline.arrRef spec1 0)
abbrev Nrm1 (c : Dev nD) : S901120x1.Idx → EReal := V c (Pipeline.arrRef spec1 1)
abbrev Hp1 (c : Dev nD) : S100352x128.Idx → EReal := V c (Pipeline.arrRef spec1 2)

/-- Row n of the node rows, zero past the end. -/
def HpN (c : Dev nD) (n : ℕ) (f : Fin 128) : EReal := if h : n < 100352 then Hp1 V c (ix2 ⟨n, h⟩ f) else 0

/-- Node tile k's contribution to edge E's row: over the tile's rows, the selector times the row. -/
def tile1 (c : Dev nD) (s : BitVec 32) (f : Fin 128) (k : ℕ) : EReal :=
  ∑ j : Fin 2048, sel s (BitVec.ofNat 32 (k * 2048 + j.val)) * HpN V c (k * 2048 + j.val) f

theorem blk1_0 (c : Dev nD) (t : Fin cfg1.N) (e : Fin 2048) :
    iblk1 V c 0 t (ix2 e (0 : Fin 1)) = Src1 V c (ix2 ⟨t.val / 49 * 2048 + e.val, by have := lt_of_lt_of_eq t.isLt N_1; omega⟩ (0 : Fin 1)) := by
  obtain ⟨e0, e1, -⟩ := idx1_facts t
  unfold iblk1; rw [View.read_apply]
  show V c _ _ = V c _ _
  congr 1; funext a; apply Fin.ext
  match a with
  | ⟨0, _⟩ => show win1_0.index t (0 : Fin 2) * 2048 + 1 * e.val = t.val / 49 * 2048 + e.val; omega
  | ⟨1, _⟩ => show win1_0.index t (1 : Fin 2) * 1 + 1 * 0 = 0; omega

theorem blk1_1 (c : Dev nD) (t : Fin cfg1.N) (e : Fin 2048) :
    iblk1 V c 1 t (ix2 e (0 : Fin 1)) = Nrm1 V c (ix2 ⟨t.val / 49 * 2048 + e.val, by have := lt_of_lt_of_eq t.isLt N_1; omega⟩ (0 : Fin 1)) := by
  obtain ⟨-, -, e0, e1, -⟩ := idx1_facts t
  unfold iblk1; rw [View.read_apply]
  show V c _ _ = V c _ _
  congr 1; funext a; apply Fin.ext
  match a with
  | ⟨0, _⟩ => show win1_1.index t (0 : Fin 2) * 2048 + 1 * e.val = t.val / 49 * 2048 + e.val; omega
  | ⟨1, _⟩ => show win1_1.index t (1 : Fin 2) * 1 + 1 * 0 = 0; omega

theorem blk1_2 (c : Dev nD) (t : Fin cfg1.N) (j : Fin 2048) (f : Fin 128) :
    iblk1 V c 2 t (ix2 j f) = HpN V c (t.val % 49 * 2048 + j.val) f := by
  obtain ⟨-, -, -, -, e0, e1, -⟩ := idx1_facts t
  have hb : t.val % 49 * 2048 + j.val < 100352 := by omega
  unfold HpN; rw [dif_pos hb]
  unfold iblk1; rw [View.read_apply]
  show V c _ _ = V c _ _
  congr 1; funext a; apply Fin.ext
  match a with
  | ⟨0, _⟩ => show win1_2.index t (0 : Fin 2) * 2048 + 1 * j.val = t.val % 49 * 2048 + j.val; omega
  | ⟨1, _⟩ => show win1_2.index t (1 : Fin 2) * 128 + 1 * f.val = f.val; omega

set_option maxHeartbeats 4000000 in
/-- THE ACCUMULATOR after point t, at (e, f): the contributions of the node tiles 0 … t mod 49 to the row of edge
    (t / 49) · 2048 + e — by induction on the point. -/
theorem acc1_eq (c : Dev nD) : ∀ (n : ℕ) (hn : n < cfg1.N) (e : Fin 2048) (f : Fin 128),
    (outsAt1 V c n hn).2 (ix2 e f)
      = ∑ k ∈ Finset.range (n % 49 + 1), tile1 V c (iblk1 V c 0 ⟨n, hn⟩ (ix2 e (0 : Fin 1))) f k := by
  intro n
  induction n with
  | zero =>
    intro hn e f
    have h0 : (⟨0, hn⟩ : Fin cfg1.N).val % 49 = 0 := rfl
    have h1 : ¬(⟨0, hn⟩ : Fin cfg1.N).val % 49 = 48 := fun h => (show ¬(0 : ℕ) % 49 = 48 by decide) h
    rw [outsAt1_A V c ⟨0, hn⟩ h0 h1]
    dsimp only
    refine (congrFun (sout1_A_eq (F := Ideal) c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr h0) (fun h => h1 ((hcond1_1 ⟨0, hn⟩).mp h)) (iblk1 V c 0 ⟨0, hn⟩) (iblk1 V c 1 ⟨0, hn⟩) (iblk1 V c 2 ⟨0, hn⟩)) (ix2 e f)).trans ?_
    rw [pay1_2_apply (grid1.coords ⟨0, hn⟩) (iblk1 V c 0 ⟨0, hn⟩) (k1_pay1 (F := Ideal)) (iblk1 V c 2 ⟨0, hn⟩) e f, pay1_1_apply, zero_add]
    rw [show (0 : ℕ) % 49 + 1 = 1 from rfl, Finset.sum_range_one]
    unfold tile1
    refine Finset.sum_congr rfl fun j _ => ?_
    rw [coords1_k ⟨0, hn⟩, blk1_2 V c ⟨0, hn⟩ j f]
    rfl
  | succ n ih =>
    intro hn e f
    have hN : n + 1 < 21560 := lt_of_lt_of_eq hn N_1
    by_cases h0 : (⟨n + 1, hn⟩ : Fin cfg1.N).val % 49 = 0
    · have h0' : (n + 1) % 49 = 0 := h0
      have h1 : ¬(⟨n + 1, hn⟩ : Fin cfg1.N).val % 49 = 48 := fun h => by have h' : (n + 1) % 49 = 48 := h; omega
      rw [outsAt1_A V c ⟨n + 1, hn⟩ h0 h1]
      dsimp only
      refine (congrFun (sout1_A_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩)) (ix2 e f)).trans ?_
      rw [pay1_2_apply (grid1.coords ⟨n + 1, hn⟩) (iblk1 V c 0 ⟨n + 1, hn⟩) (k1_pay1 (F := Ideal)) (iblk1 V c 2 ⟨n + 1, hn⟩) e f, pay1_1_apply, zero_add]
      rw [show (n + 1) % 49 + 1 = 1 from by omega, Finset.sum_range_one]
      unfold tile1
      refine Finset.sum_congr rfl fun j _ => ?_
      rw [coords1_k ⟨n + 1, hn⟩, blk1_2 V c ⟨n + 1, hn⟩ j f]
      show _ = sel _ (BitVec.ofNat 32 (0 * 2048 + j.val)) * HpN V c (0 * 2048 + j.val) f
      rw [show (⟨n + 1, hn⟩ : Fin cfg1.N).val % 49 = 0 from h0]
    · have h0' : ¬(n + 1) % 49 = 0 := h0
      have hprev : (outsAt1 V c n (Nat.lt_of_succ_lt hn)).2 (ix2 e f)
          = ∑ k ∈ Finset.range ((n + 1) % 49), tile1 V c (iblk1 V c 0 ⟨n + 1, hn⟩ (ix2 e (0 : Fin 1))) f k := by
        rw [ih (Nat.lt_of_succ_lt hn) e f, show n % 49 + 1 = (n + 1) % 49 from by omega]
        refine Finset.sum_congr rfl fun k _ => ?_
        rw [blk1_0 V c ⟨n, Nat.lt_of_succ_lt hn⟩ e, blk1_0 V c ⟨n + 1, hn⟩ e]
        have hd : n / 49 = (n + 1) / 49 := by omega
        simp only [hd]
      have htile : (∑ j : Fin 2048, sel (iblk1 V c 0 ⟨n + 1, hn⟩ (ix2 e (0 : Fin 1))) (BitVec.ofNat 32 (((grid1.coords ⟨n + 1, hn⟩) 1).val * 2048 + j.val)) * iblk1 V c 2 ⟨n + 1, hn⟩ (ix2 j f))
          = tile1 V c (iblk1 V c 0 ⟨n + 1, hn⟩ (ix2 e (0 : Fin 1))) f ((n + 1) % 49) := by
        unfold tile1
        refine Finset.sum_congr rfl fun j _ => ?_
        rw [coords1_k ⟨n + 1, hn⟩, blk1_2 V c ⟨n + 1, hn⟩ j f]
      have hstep : k1_pay2 (grid1.coords ⟨n + 1, hn⟩) (iblk1 V c 0 ⟨n + 1, hn⟩) (outsAt1 V c n (Nat.lt_of_succ_lt hn)).2 (iblk1 V c 2 ⟨n + 1, hn⟩) (ix2 e f)
            = ∑ k ∈ Finset.range ((n + 1) % 49 + 1), tile1 V c (iblk1 V c 0 ⟨n + 1, hn⟩ (ix2 e (0 : Fin 1))) f k := by
        rw [pay1_2_apply (grid1.coords ⟨n + 1, hn⟩) (iblk1 V c 0 ⟨n + 1, hn⟩) (outsAt1 V c n (Nat.lt_of_succ_lt hn)).2 (iblk1 V c 2 ⟨n + 1, hn⟩) e f, hprev, htile, Finset.sum_range_succ]
      by_cases h1 : (⟨n + 1, hn⟩ : Fin cfg1.N).val % 49 = 48
      · rw [outsAt1_C V c ⟨n + 1, hn⟩ h0 h1]
        dsimp only
        refine (congrFun (sout1_C_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 V c (n + 1 - 1) (Nat.lt_of_le_of_lt (Nat.sub_le _ _) hn)).2) (ix2 e f)).trans ?_
        exact hstep
      · rw [outsAt1_B V c ⟨n + 1, hn⟩ h0 h1]
        dsimp only
        refine (congrFun (sout1_B_eq (F := Ideal) c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 V c (n + 1 - 1) (Nat.lt_of_le_of_lt (Nat.sub_le _ _) hn)).2) (ix2 e f)).trans ?_
        exact hstep

end Final1

section Array1
variable (V : (c : Dev nD) → (b : Ref sig .tc) → Buf (Elt Ideal) ((c : Thread nD τ).loc b))

/-- THE MESSAGES: row E of the output is, column by column, the sum over all 49 node tiles of the tile's contribution for
    edge E's source id, times edge E's weight. -/
def msg1 (c : Dev nD) : S901120x128.Idx → EReal := fun i =>
  (∑ k ∈ Finset.range 49, tile1 V c (Src1 V c (ix2 (i 0) (0 : Fin 1))) (i 1) k) * Nrm1 V c (ix2 (i 0) (0 : Fin 1))

/-- What the last point of a row writes back is that edge tile's block of the messages. -/
theorem flushed1_eq (c : Dev nD) (t : Fin cfg1.N) (hf : (cfg1.win 3).flush t = true) :
    (dat1 (F := Ideal) V c).flushed 3 t = ((cfg1.win 3).blk t).view.read (Elt Ideal) (msg1 V c) := by
  have hN : t.val < 21560 := lt_of_lt_of_eq t.isLt N_1
  have h1 : t.val % 49 = 48 := (flush1_3 t).mp hf
  have h0 : ¬t.val % 49 = 0 := by omega
  obtain ⟨-, -, -, -, -, -, e6, e7⟩ := idx1_facts t
  show (cfg1.win 3).cut (grid1.coords t) ((dat1 (F := Ideal) V c).after 3 t) = _
  rw [after1_3, outsAt1_C V c t h0 h1]
  dsimp only
  refine funext fun (j : S2048x128.Idx) => ?_
  obtain ⟨e, f, rfl⟩ : ∃ (e : Fin 2048) (f : Fin 128), j = ix2 e f := ⟨j 0, j 1, eq_ix2 j⟩
  refine (congrFun (out1_C_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 e f)).trans ?_
  rw [pay1_3_apply (k1_pay2 (grid1.coords t) (iblk1 V c 0 t) (outsAt1 V c (t.val - 1) (Nat.lt_of_le_of_lt (Nat.sub_le _ _) t.isLt)).2 (iblk1 V c 2 t)) (iblk1 V c 1 t) e f]
  have hacc : k1_pay2 (grid1.coords t) (iblk1 V c 0 t) (outsAt1 V c (t.val - 1) (Nat.lt_of_le_of_lt (Nat.sub_le _ _) t.isLt)).2 (iblk1 V c 2 t) (ix2 e f)
      = ∑ k ∈ Finset.range 49, tile1 V c (iblk1 V c 0 t (ix2 e (0 : Fin 1))) f k := by
    have hs := acc1_eq V c t.val t.isLt e f
    rw [outsAt1_C V c t h0 h1] at hs
    dsimp only at hs
    rw [show t.val % 49 + 1 = 49 from by omega] at hs
    exact ((congrFun (sout1_C_eq (F := Ideal) c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) (ix2 e f)).symm.trans hs)
  rw [hacc, blk1_0 V c t e, blk1_1 V c t e]
  show _ = msg1 V c (((cfg1.win 3).blk t).view.emb (ix2 e f))
  have hemb : ((cfg1.win 3).blk t).view.emb (ix2 e f) = ix2 (⟨t.val / 49 * 2048 + e.val, by omega⟩ : Fin 901120) f := by
    funext a; apply Fin.ext
    match a with
    | ⟨0, _⟩ => show win1_3.index t (0 : Fin 2) * 2048 + 1 * e.val = t.val / 49 * 2048 + e.val; omega
    | ⟨1, _⟩ => show win1_3.index t (1 : Fin 2) * 128 + 1 * f.val = f.val; omega
  rw [hemb]
  rfl

theorem mem_blk1 (t : Fin cfg1.N) (i : S901120x128.Idx) :
    i ∈ ((cfg1.win 3).blk t).view.set ↔ ∀ a : Fin 2, win1_3.index t a * S2048x128.size a ≤ (i a).val ∧ (i a).val < win1_3.index t a * S2048x128.size a + S2048x128.size a := by
  show i ∈ ((View.whole main_v39).slice (win1_3.rect t)).set ↔ _
  rw [View.set_slice_whole, Rect.mem_set_unit]
  exact Iff.rfl

/-- Row E is in the block of the last point of edge tile E / 2048. -/
theorem cover1 (i : S901120x128.Idx) :
    ∃ t : Fin cfg1.N, (cfg1.win 3).flush t = true ∧ i ∈ ((cfg1.win 3).blk t).view.set := by
  have hi0 : (i 0).val < 901120 := (i 0).isLt
  have hi1 : (i 1).val < 128 := (i 1).isLt
  have hN : grid1.N = 21560 := N_1
  let t : Fin cfg1.N := ⟨(i 0).val / 2048 * 49 + 48, by show _ < grid1.N; omega⟩
  obtain ⟨-, -, -, -, -, -, e6, e7⟩ := idx1_facts t
  have e6' : win1_3.index t (0 : Fin 2) = (i 0).val / 2048 := by rw [e6]; show ((i 0).val / 2048 * 49 + 48) / 49 = _; omega
  refine ⟨t, (flush1_3 t).mpr (by show ((i 0).val / 2048 * 49 + 48) % 49 = 48; omega), ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 128 ≤ (i 1).val ∧ (i 1).val < win1_3.index t (1 : Fin 2) * 128 + 128; omega

/-- THE ARRAY after region 1: the messages. -/
theorem final1 (c : Dev nD) : (dat1 (F := Ideal) V c).arrAt 3 cfg1.N = msg1 V c :=
  (dat1 (F := Ideal) V c).arrAt_eq_of_cover 3 _ (fun t hf => flushed1_eq V c t hf) cover1

end Array1

end Cert.KernelIdeal.Hand

end
-- ==== Proof.KI.Bridge1.lean ====
import proofs.«171723_j29566554866533_1_alg».proof.Proof.KI.Run
import proofs.«171723_j29566554866533_1_alg».proof.Proof.KI.Value0
import proofs.«171723_j29566554866533_1_alg».proof.Proof.KI.Value1
import proofs.«171723_j29566554866533_1_alg».proof.Proof.KI.Glue
import proofs.«171723_j29566554866533_1_alg».proof.Proof.Spec

set_option maxRecDepth 65536

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

/-! # Regions 0 and 1 composed with the host operations between them -/

/-- A word that is nonnegative read signed is its unsigned reading. -/
theorem toInt_nonneg_eq (s : BitVec 32) (hs : 0 ≤ s.toInt) : s.toInt = (s.toNat : ℤ) := by
  have h := BitVec.toInt_eq_toNat_cond s
  have hlt : s.toNat < 2 ^ 32 := s.isLt
  split at h <;> omega

/-- The selector against the word of a number below 2³²: one exactly at the word's unsigned reading. -/
theorem sel_ofNat (s : BitVec 32) (x : ℕ) (hx : x < 2 ^ 32) : sel s (BitVec.ofNat 32 x) = if x = s.toNat then 1 else 0 := by
  unfold sel
  by_cases h : x = s.toNat
  · rw [if_pos h, if_pos]
    subst h
    simp
  · rw [if_neg h, if_neg]
    intro he
    apply h
    rw [he, BitVec.toNat_ofNat]
    exact (Nat.mod_eq_of_lt hx).symm

/-- Summing, over the 49 tiles of 2048 rows, the selector of a row index word against the row numbers picks the one
    row whose number is the word's value. -/
theorem one_hot_row (s : BitVec 32) (hs : 0 ≤ s.toInt ∧ s.toInt < 100000) (g : ℕ → EReal) :
    ∑ k ∈ Finset.range 49, ∑ j : Fin 2048, sel s (BitVec.ofNat 32 (k * 2048 + j.val)) * g (k * 2048 + j.val) = g s.toNat := by
  have hti := toInt_nonneg_eq s hs.1
  have hn : s.toNat < 100000 := by have := hs.2; omega
  rw [Finset.sum_eq_single (s.toNat / 2048)]
  · rw [Finset.sum_eq_single (⟨s.toNat % 2048, Nat.mod_lt _ (by norm_num)⟩ : Fin 2048)]
    · have hsum : s.toNat / 2048 * 2048 + s.toNat % 2048 = s.toNat := by omega
      show sel s (BitVec.ofNat 32 (s.toNat / 2048 * 2048 + s.toNat % 2048)) * g (s.toNat / 2048 * 2048 + s.toNat % 2048) = g s.toNat
      rw [hsum, sel_ofNat s _ (by omega), if_pos rfl, one_mul]
    · intro j _ hj
      rw [sel_ofNat s _ (by have := j.isLt; omega), if_neg, zero_mul]
      intro he
      apply hj
      apply Fin.ext
      show j.val = s.toNat % 2048
      have := j.isLt
      omega
    · intro h; exact absurd (Finset.mem_univ _) h
  · intro k hk hne
    refine Finset.sum_eq_zero fun j _ => ?_
    rw [sel_ofNat s _ (by have := j.isLt; have := Finset.mem_range.mp hk; omega), if_neg, zero_mul]
    intro he
    apply hne
    have := j.isLt
    omega
  · intro h; exact absurd (Finset.mem_range.mpr (by omega)) h

variable (m : (ℓ : Loc nD τ sig) → Buf (Elt Ideal) ℓ)

/-- The feature and weight arguments at launch, and the three per-edge vectors the host prefix computes. -/
abbrev aX (c : Dev nD) : S100000x128.Idx → EReal := m ((c : Thread nD τ).loc main_arg0)
abbrev aWg (c : Dev nD) : S128x128.Idx → EReal := m ((c : Thread nD τ).loc main_arg2)
abbrev kSrc (c : Dev nD) : S900000.Idx → BitVec 32 := V3 m c main_v3
abbrev kDst (c : Dev nD) : S900000.Idx → BitVec 32 := V3 m c main_v6
abbrev kNorm (c : Dev nD) : S900000.Idx → EReal := V3 m c main_v29

/-- What region 0 leaves: x · Wg, entry by entry. -/
theorem b_lin (c : Dev nD) :
    (o0 m c : S100000x128.Idx → EReal) = fun i => Cert.Spec.lin (aX m c) (aWg m c) (i 0) (i 1) := by
  unfold o0
  refine (final0 (atRefs (V3 m)) c).trans ?_
  show prod0 (V3 m c main_arg0) (V3 m c main_arg2) = _
  rw [g_x m c, g_wg m c]
  rfl

/-- The row a gather reads for a source word in range is the word's unsigned value. -/
theorem rowOf_eq (s : BitVec 32) (hs : 0 ≤ s.toInt ∧ s.toInt < 100000) (hlt : s.toNat < 100000) :
    Cert.Spec.rowOf s = ⟨s.toNat, hlt⟩ := by
  have hti := toInt_nonneg_eq s hs.1
  apply Fin.ext
  show min s.toInt.toNat 99999 = s.toNat
  rw [hti, Int.toNat_natCast]
  omega

/-- What region 1 leaves: row e of the messages is the source row of x · Wg times the edge's weight, for the 900000
    edges; the padding rows are zero. -/
theorem b_msg (c : Dev nD) (hsrc : ∀ e : Fin 900000, 0 ≤ (kSrc m c (ix1 e)).toInt ∧ (kSrc m c (ix1 e)).toInt < 100000) :
    (o1 m c : S901120x128.Idx → EReal)
      = fun i => ((if h : (i 0).val < 900000 then
          Cert.Spec.lin (aX m c) (aWg m c) (Cert.Spec.rowOf (kSrc m c (ix1 ⟨(i 0).val, h⟩))) (i 1) * kNorm m c (ix1 ⟨(i 0).val, h⟩)
        else 0 : EReal)) := by
  unfold o1
  refine (final1 (atRefs (V13 m (outs0 m))) c).trans ?_
  funext i
  have hS : Src1 (atRefs (V13 m (outs0 m))) c (ix2 (i 0) (0 : Fin 1))
      = if h : (i 0).val < 900000 then kSrc m c (ix1 ⟨(i 0).val, h⟩) else 0#32 :=
    congrFun (g_src m (outs0 m) c) (ix2 (i 0) (0 : Fin 1))
  have hW : Nrm1 (atRefs (V13 m (outs0 m))) c (ix2 (i 0) (0 : Fin 1))
      = ((if h : (i 0).val < 900000 then kNorm m c (ix1 ⟨(i 0).val, h⟩) else 0 : EReal)) :=
    congrFun (g_norm m (outs0 m) c) (ix2 (i 0) (0 : Fin 1))
  show (∑ k ∈ Finset.range 49, tile1 (atRefs (V13 m (outs0 m))) c (Src1 (atRefs (V13 m (outs0 m))) c (ix2 (i 0) (0 : Fin 1))) (i 1) k)
      * Nrm1 (atRefs (V13 m (outs0 m))) c (ix2 (i 0) (0 : Fin 1)) = _
  rw [hS, hW]
  by_cases h : (i 0).val < 900000
  · rw [dif_pos h, dif_pos h, dif_pos h]
    have hs := hsrc ⟨(i 0).val, h⟩
    have hti := toInt_nonneg_eq _ hs.1
    have hlt : (kSrc m c (ix1 ⟨(i 0).val, h⟩)).toNat < 100000 := by have := hs.2; omega
    have hrow : (∑ k ∈ Finset.range 49, tile1 (atRefs (V13 m (outs0 m))) c (kSrc m c (ix1 ⟨(i 0).val, h⟩)) (i 1) k)
        = HpN (atRefs (V13 m (outs0 m))) c (kSrc m c (ix1 ⟨(i 0).val, h⟩)).toNat (i 1) :=
      one_hot_row _ hs (fun n => HpN (atRefs (V13 m (outs0 m))) c n (i 1))
    have hhp : HpN (atRefs (V13 m (outs0 m))) c (kSrc m c (ix1 ⟨(i 0).val, h⟩)).toNat (i 1)
        = Cert.Spec.lin (aX m c) (aWg m c) ⟨(kSrc m c (ix1 ⟨(i 0).val, h⟩)).toNat, hlt⟩ (i 1) := by
      unfold HpN
      rw [dif_pos (by omega : (kSrc m c (ix1 ⟨(i 0).val, h⟩)).toNat < 100352)]
      refine (congrFun (g_hpad m (outs0 m) c) _).trans ?_
      refine (dif_pos hlt).trans ?_
      exact congrFun ((outs0_4 m c).trans (b_lin m c)) (ix2 ⟨(kSrc m c (ix1 ⟨(i 0).val, h⟩)).toNat, hlt⟩ (i 1))
    rw [hrow, hhp, rowOf_eq _ hs hlt]
  · rw [dif_neg h, dif_neg h, dif_neg h, mul_zero]

end Cert.KernelIdeal.Hand

end
-- ==== Proof.EdgeIds.lean ====
/-
  The edge list of the graph convolution, as both programs compute it from the edge array.

  The edge array has two rows of 800000 node ids: row 0 the sources, row 1 the targets. Both programs append one self loop
  per node (the ids 0, 1, …, 99999) to each row: 900000 source ids and 900000 target ids. The weight of an edge is
  dinv[source] · dinv[target], where dinv is the inverse square root of a node's in-degree (the number of target ids that
  name it) where that is positive and 0 elsewhere; an id is wrapped (100000 added) where negative before it is looked up.

  When every given id is a node number (at least 0, below 100000) so is every id of the two lists — the given ones by
  hypothesis, the self loops because they are the node numbers — and then the wrap changes nothing.
-/
import proofs.«171723_j29566554866533_1_alg».proof.Proof.Gen.ReferenceIdeal
import Idealize.ShloMosaic.Lib.Pipeline.Value
import Idealize.ShloMosaic.Lib.ValueIdx

noncomputable section

namespace Cert.RefSide

open Cert.ReferenceIdeal Cert.ReferenceIdeal.Gen Idealize.ShloMosaic Idealize.ShloMosaic.TcCoe Idealize.SL.Sem Idealize.ShloMosaic.StableHlo Idealize.ShloMosaic.ValueIdx

/-- The source ids: row 0 of the edge array, then one self loop per node. -/
def srcT (ei : IVec S2x800000 32) : IVec S900000 32 :=
  concatenate S900000 0 [⟨S800000, (shapeCast _ (extractStridedSlice S1x800000 ![0, 0] ei slices_S2x800000_S1x800000_0_0) shapeCasts_S1x800000_S800000)⟩, ⟨S100000, (iotaInDim S100000 32 0)⟩] concatenates_S800000_S100000_S900000_d0

/-- The target ids: row 1 of the edge array, then one self loop per node. -/
def dstT (ei : IVec S2x800000 32) : IVec S900000 32 :=
  concatenate S900000 0 [⟨S800000, (shapeCast _ (extractStridedSlice S1x800000 ![1, 0] ei slices_S2x800000_S1x800000_1_0) shapeCasts_S1x800000_S800000)⟩, ⟨S100000, (iotaInDim S100000 32 0)⟩] concatenates_S800000_S100000_S900000_d0

variable {F : FTy → Type} [FloatOps F]

/-- The per-edge weight dinv[src] · dinv[dst], dinv the inverse square root of the in-degree where it is positive, else 0. -/
def normT (ei : IVec S2x800000 32) : FVec F S900000 .f32 :=
  mulf (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (dstT ei)) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (dstT ei)) (broadcastInDim S900000 ![] bcast_S_S900000 (constant S_ .f32 0x3F800000#32)))) (broadcastInDim S100000 ![] bcast_S_S100000 (id (constant S_ .f32 0x00000000#32)))) (broadcastInDim S900000x1 ![0] bcast_S900000_S900000x1_0 (select (cmpi .slt (srcT ei) (broadcastInDim S900000 ![] bcast_S_S900000 (constantI S_ 32 0#32))) (addi (srcT ei) (broadcastInDim S900000 ![] bcast_S_S900000 (constantI S_ 32 100000#32))) (srcT ei)))) (Host.gather gather_S100000_S900000x1_S900000_n_0_n_n_0_1_1 (select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 (dstT ei)) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 (dstT ei)) (broadcastInDim S900000 ![] bcast_S_S900000 (constant S_ .f32 0x3F800000#32)))) (broadcastInDim S100000 ![] bcast_S_S100000 (id (constant S_ .f32 0x00000000#32)))) (broadcastInDim S900000x1 ![0] bcast_S900000_S900000x1_0 (select (cmpi .slt (dstT ei) (broadcastInDim S900000 ![] bcast_S_S900000 (constantI S_ 32 0#32))) (addi (dstT ei) (broadcastInDim S900000 ![] bcast_S_S900000 (constantI S_ 32 100000#32))) (dstT ei))))

/-! ## Ids in range -/

/-- A small natural number, as a 32-bit word read signed, is itself. -/
theorem toInt_ofNat_small (n : ℕ) (h : n < 100000) : (BitVec.ofNat 32 n).toInt = (n : ℤ) := by
  have h1 : (BitVec.ofNat 32 n).toNat = n := by rw [BitVec.toNat_ofNat]; exact Nat.mod_eq_of_lt (by omega)
  rw [BitVec.toInt_eq_toNat_of_lt (by rw [h1]; omega), h1]

/-- The 800000 given ids followed by the node numbers: every entry is a node number when the given ids are. -/
theorem concat_range (a : IVec S800000 32) (ha : ∀ i, 0 ≤ (a i).toInt ∧ (a i).toInt < 100000) (j : S900000.Idx) :
    0 ≤ (concatenate S900000 0 [⟨S800000, a⟩, ⟨S100000, (iotaInDim S100000 32 0)⟩] concatenates_S800000_S100000_S900000_d0 j).toInt
      ∧ (concatenate S900000 0 [⟨S800000, a⟩, ⟨S100000, (iotaInDim S100000 32 0)⟩] concatenates_S800000_S100000_S900000_d0 j).toInt < 100000 := by
  by_cases hj : (j 0).val < 800000
  · rw [concatenate_pair_apply_left (0 : Fin S900000.rank) a (iotaInDim S100000 32 0) concatenates_S800000_S100000_S900000_d0 j rfl
      (fun b => match b with | ⟨0, _⟩ => ⟨(j 0).val, hj⟩) (fun b => match b with | ⟨0, _⟩ => rfl)]
    exact ha _
  · have hlt : (j 0).val < 900000 := (j 0).isLt
    rw [concatenate_pair_apply_right (0 : Fin S900000.rank) a (iotaInDim S100000 32 0) concatenates_S800000_S100000_S900000_d0 j rfl rfl
      (fun b => match b with | ⟨0, _⟩ => ⟨(j 0).val - 800000, by show (j 0).val - 800000 < 100000; omega⟩)
      (fun b hb => match b, hb with | ⟨0, _⟩, hb => absurd rfl hb)
      (by show (j 0).val - 800000 + 800000 = (j 0).val; omega)]
    show 0 ≤ (BitVec.ofNat 32 ((j 0).val - 800000)).toInt ∧ (BitVec.ofNat 32 ((j 0).val - 800000)).toInt < 100000
    rw [toInt_ofNat_small _ (by omega)]; omega

/-- Every source id is a node number. -/
theorem srcT_range' (ei : IVec S2x800000 32) (hrange : ∀ i, 0 ≤ (ei i).toInt ∧ (ei i).toInt < 100000) (j : S900000.Idx) :
    0 ≤ (srcT ei j).toInt ∧ (srcT ei j).toInt < 100000 :=
  concat_range _ (fun _ => hrange _) j

/-- Every target id is a node number. -/
theorem dstT_range' (ei : IVec S2x800000 32) (hrange : ∀ i, 0 ≤ (ei i).toInt ∧ (ei i).toInt < 100000) (j : S900000.Idx) :
    0 ≤ (dstT ei j).toInt ∧ (dstT ei j).toInt < 100000 :=
  concat_range _ (fun _ => hrange _) j

theorem srcT_range (ei : IVec S2x800000 32) (hrange : ∀ i, 0 ≤ (ei i).toInt ∧ (ei i).toInt < 100000) (e : Fin 900000) :
    0 ≤ (srcT ei (ix1 e)).toInt ∧ (srcT ei (ix1 e)).toInt < 100000 :=
  srcT_range' ei hrange (ix1 e)

theorem dstT_range (ei : IVec S2x800000 32) (hrange : ∀ i, 0 ≤ (ei i).toInt ∧ (ei i).toInt < 100000) (e : Fin 900000) :
    0 ≤ (dstT ei (ix1 e)).toInt ∧ (dstT ei (ix1 e)).toInt < 100000 :=
  dstT_range' ei hrange (ix1 e)

/-! ## The wrap of negative ids does nothing to ids in range -/

/-- A word that is not negative is left alone by "add 100000 where negative". -/
theorem wrap_id (w : BitVec 32) (h : 0 ≤ w.toInt) :
    Scalar.select (IntOp.cmpi .slt w 0#32) (IntOp.addi w 100000#32) w = w := by
  have hs : IntOp.cmpi .slt w 0#32 = 0#1 := by
    show BitVec.ofBool (decide (w.toInt < (0#32 : BitVec 32).toInt)) = 0#1
    rw [show (0#32 : BitVec 32).toInt = 0 from rfl, decide_eq_false (by omega)]; rfl
  rw [hs]; exact select_zero _ _

/-- The same of a whole vector of ids. -/
theorem nowrap (v : IVec S900000 32) (hv : ∀ j, 0 ≤ (v j).toInt) :
    select (cmpi .slt v (broadcastInDim S900000 ![] bcast_S_S900000 (constantI S_ 32 0#32))) (addi v (broadcastInDim S900000 ![] bcast_S_S900000 (constantI S_ 32 100000#32))) v = v := by
  funext j
  exact wrap_id (v j) (hv j)

end Cert.RefSide

end
-- ==== Proof.RefStages.lean ====
/-
  The reference program's stages, each as a function of the stage before.

  From the edge list (source ids s, target ids d): the inverse square root of the in-degree, `dinvT d`; the weight of each
  edge, `normOf D s d` = D[s] · D[d]; the convolution `convOf`: the rows of x · wg gathered along the sources, weighted,
  summed onto their targets, plus the bias, rectified; the classifier's hidden layer `hiddenOf` and logits `logitsOf`; the
  logarithmic softmax along each row `lsmOf`. `refOut` is their composition: the reference's result as a function of its
  eight arguments. Each is spelt with the host operations the program applies, in its order.
-/
import proofs.«171723_j29566554866533_1_alg».proof.Proof.EdgeIds

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- The inverse square root of the in-degree (the count of the target ids d naming each node) where it is positive, else 0. -/
def dinvT (d : IVec S900000 32) : FVec F S100000 .f32 :=
  select (cmpf (F := F) .ogt (Host.scatterAdd scatter_S100000_S900000x1_S900000_n_0_0_1 (broadcastInDim S100000 ![] bcast_S_S100000 (constant S_ .f32 0x00000000#32)) (broadcastInDim S900000x1 ![0] bcast_S900000_S900000x1_0 d) (broadcastInDim S900000 ![] bcast_S_S900000 (constant S_ .f32 0x3F800000#32))) (broadcastInDim S100000 ![] bcast_S_S100000 (constant S_ .f32 0x00000000#32))) (Host.rsqrt (Host.scatterAdd scatter_S100000_S900000x1_S900000_n_0_0_1 (broadcastInDim S100000 ![] bcast_S_S100000 (constant S_ .f32 0x00000000#32)) (broadcastInDim S900000x1 ![0] bcast_S900000_S900000x1_0 d) (broadcastInDim S900000 ![] bcast_S_S900000 (constant S_ .f32 0x3F800000#32)))) (broadcastInDim S100000 ![] bcast_S_S100000 (id (constant S_ .f32 0x00000000#32)))

/-- The per-edge weight D[s] · D[d], each id wrapped where negative. -/
def normOf (D : FVec F S100000 .f32) (s d : IVec S900000 32) : FVec F S900000 .f32 :=
  mulf (Host.gather gather_S100000_S900000x1_S900000_n_0_n_n_0_1_1 D (broadcastInDim S900000x1 ![0] bcast_S900000_S900000x1_0 (select (cmpi .slt s (broadcastInDim S900000 ![] bcast_S_S900000 (constantI S_ 32 0#32))) (addi s (broadcastInDim S900000 ![] bcast_S_S900000 (constantI S_ 32 100000#32))) s))) (Host.gather gather_S100000_S900000x1_S900000_n_0_n_n_0_1_1 D (broadcastInDim S900000x1 ![0] bcast_S900000_S900000x1_0 (select (cmpi .slt d (broadcastInDim S900000 ![] bcast_S_S900000 (constantI S_ 32 0#32))) (addi d (broadcastInDim S900000 ![] bcast_S_S900000 (constantI S_ 32 100000#32))) d)))

theorem normT_eq (ei : IVec S2x800000 32) : normOf (dinvT (dstT ei)) (srcT ei) (dstT ei) = normT (F := F) ei := rfl

/-- The convolution: the rows of x · wg gathered by s (wrapped where negative), weighted, summed by target d, plus bias, rectified. -/
def convOf (x : FVec F S100000x128 .f32) (wg : FVec F S128x128 .f32) (bg : FVec F S128 .f32) (s d : IVec S900000 32) (nrm : FVec F S900000 .f32) : FVec F S100000x128 .f32 :=
  maximumf (addf (Host.scatterAdd scatter_S100000x128_S900000x1_S900000x128_1_0_0_1 (broadcastInDim S100000x128 ![] bcast_S_S100000x128 (constant S_ .f32 0x00000000#32)) (broadcastInDim S900000x1 ![0] bcast_S900000_S900000x1_0 d) (mulf (Host.gather gather_S100000x128_S900000x1_S900000x128_1_0_n_n_0_1_1128 (Host.dotGeneral dot_S100000x128_S128x128_S100000x128_1_0_0_1_n_n none x wg) (broadcastInDim S900000x1 ![0] bcast_S900000_S900000x1_0 (select (cmpi .slt s (broadcastInDim S900000 ![] bcast_S_S900000 (constantI S_ 32 0#32))) (addi s (broadcastInDim S900000 ![] bcast_S_S900000 (constantI S_ 32 100000#32))) s))) (broadcastInDim S900000x128 ![0, 1] bcast_S900000x1_S900000x128_0_1 (broadcastInDim S900000x1 ![0] bcast_S900000_S900000x1_0 nrm)))) (broadcastInDim S100000x128 ![0, 1] bcast_S1x128_S100000x128_0_1 (broadcastInDim S1x128 ![1] bcast_S128_S1x128_1 bg))) (broadcastInDim S100000x128 ![] bcast_S_S100000x128 (constant S_ .f32 0x00000000#32))

/-- The classifier's hidden layer. -/
def hiddenOf (h1 : FVec F S100000x128 .f32) (w1 : FVec F S128x512 .f32) (b1 : FVec F S512 .f32) : FVec F S100000x512 .f32 :=
  maximumf (addf (Host.dotGeneral dot_S100000x128_S128x512_S100000x512_1_0_0_1_n_n none h1 w1) (broadcastInDim S100000x512 ![0, 1] bcast_S1x512_S100000x512_0_1 (broadcastInDim S1x512 ![1] bcast_S512_S1x512_1 b1))) (broadcastInDim S100000x512 ![] bcast_S_S100000x512 (constant S_ .f32 0x00000000#32))

/-- The logits. -/
def logitsOf (h2 : FVec F S100000x512 .f32) (w2 : FVec F S512x64 .f32) (b2 : FVec F S64 .f32) : FVec F S100000x64 .f32 :=
  addf (Host.dotGeneral dot_S100000x512_S512x64_S100000x64_1_0_0_1_n_n none h2 w2) (broadcastInDim S100000x64 ![0, 1] bcast_S1x64_S100000x64_0_1 (broadcastInDim S1x64 ![1] bcast_S64_S1x64_1 b2))

/-- The logarithmic softmax along each row. -/
def lsmOf (y : FVec F S100000x64 .f32) : FVec F S100000x64 .f32 :=
  subf (subf y (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x64_S100000_d1 h_S_))))) (broadcastInDim S100000x64 ![0, 1] bcast_S100000x1_S100000x64_0_1 (Host.log (broadcastInDim S100000x1 ![0] bcast_S100000_S100000x1_0 (Host.reduceAdd (Host.exp (subf y (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x64_S100000_d1 h_S_)))))) (constant S_ .f32 0x00000000#32) reducesTo_S100000x64_S100000_d1 h_S_))))

/-- The reference's result as a function of its eight arguments. -/
def refOut (x : FVec F S100000x128 .f32) (ei : IVec S2x800000 32) (wg : FVec F S128x128 .f32) (bg : FVec F S128 .f32) (w1 : FVec F S128x512 .f32) (b1 : FVec F S512 .f32) (w2 : FVec F S512x64 .f32) (b2 : FVec F S64 .f32) : FVec F S100000x64 .f32 :=
  lsmOf (logitsOf (hiddenOf (convOf x wg bg (srcT ei) (dstT ei) (normOf (dinvT (dstT ei)) (srcT ei) (dstT ei))) w1 b1) w2 b2)

end Cert.RefSide

end
-- ==== Proof.KI.EdgeK.lean ====
/-
  The edge data the kernel's program computes — the source ids, the target ids, the inverse square roots of the in-degrees
  and the per-edge weights — are the same terms of the edge array as the reference computes: the two programs apply the same
  host operations to it. Read off stretch by stretch, each stage over the stage before, so that no term is repeated.
-/
import proofs.«171723_j29566554866533_1_alg».proof.Proof.Gen.KernelIdeal.Regions
import proofs.«171723_j29566554866533_1_alg».proof.Proof.RefStages
import Idealize.ShloMosaic.Lib.Pipeline.Value
import Idealize.ShloMosaic.Lib.ValueIdx
import Idealize.ShloMosaic.Lib.StableHlo.Run

set_option maxRecDepth 65536

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The source ids. -/
theorem k_src1 (c : Dev nD) : (V1 m c main_v3 : S900000.Idx → BitVec 32) = Cert.RefSide.srcT (m ((c : Thread nD τ).loc main_arg1)) := by
  show StableHlo.after hostOps0 _ (Proc.devRef .tc main_v3) = _
  after_results; rfl
theorem k_src (c : Dev nD) : (V3 m c main_v3 : S900000.Idx → BitVec 32) = Cert.RefSide.srcT (m ((c : Thread nD τ).loc main_arg1)) := by
  rw [V3_of m c main_v3 (by decide), V2_of m c main_v3 (by decide)]; exact k_src1 m c

/-- The target ids. -/
theorem k_dst1 (c : Dev nD) : (V1 m c main_v6 : S900000.Idx → BitVec 32) = Cert.RefSide.dstT (m ((c : Thread nD τ).loc main_arg1)) := by
  show StableHlo.after hostOps0 _ (Proc.devRef .tc main_v6) = _
  after_results; rfl
theorem k_dst (c : Dev nD) : (V3 m c main_v6 : S900000.Idx → BitVec 32) = Cert.RefSide.dstT (m ((c : Thread nD τ).loc main_arg1)) := by
  rw [V3_of m c main_v6 (by decide), V2_of m c main_v6 (by decide)]; exact k_dst1 m c

/-- The in-degree of every node, from a target list: a scatter-add of ones. -/
def degK (d : IVec S900000 32) : FVec Ideal S100000 .f32 :=
  Host.scatterAdd scatter_S100000_S900000x1_S900000_n_0_0_1 (broadcastInDim S100000 ![] bcast_S_S100000 (constant S_ .f32 0x00000000#32)) (broadcastInDim S900000x1 ![0] bcast_S900000_S900000x1_0 d) (broadcastInDim S900000 ![] bcast_S_S900000 (constant S_ .f32 0x3F800000#32))

theorem k_v12 (c : Dev nD) : (V1 m c main_v12 : S100000.Idx → BitVec 1)
    = cmpf (F := Ideal) .ogt (degK (Cert.RefSide.dstT (m ((c : Thread nD τ).loc main_arg1)))) (broadcastInDim S100000 ![] bcast_S_S100000 (constant S_ .f32 0x00000000#32)) := by
  show StableHlo.after hostOps0 _ (Proc.devRef .tc main_v12) = _
  after_results; rfl
theorem k_v13 (c : Dev nD) : (V1 m c main_v13 : S100000.Idx → EReal)
    = Host.rsqrt (F := Ideal) (degK (Cert.RefSide.dstT (m ((c : Thread nD τ).loc main_arg1)))) := by
  show StableHlo.after hostOps0 _ (Proc.devRef .tc main_v13) = _
  after_results; rfl
theorem k_cst2 (c : Dev nD) : (V1 m c main_cst_2 : S_.Idx → EReal) = constant (F := Ideal) S_ .f32 0x00000000#32 := by
  show StableHlo.after hostOps0 _ (Proc.devRef .tc main_cst_2) = _
  after_results

set_option maxHeartbeats 4000000 in
/-- The select stretch, over any contents before it. -/
theorem dinv_stretch (W : Valuation τ sig (Elt Ideal)) :
    (StableHlo.after (hostOps0_1 (F := Ideal)) W (Proc.devRef .tc main_v14) : S100000.Idx → EReal)
      = select (W (Proc.devRef .tc main_v12) : S100000.Idx → BitVec 1) (W (Proc.devRef .tc main_v13) : S100000.Idx → EReal)
          (broadcastInDim S100000 ![] bcast_S_S100000 (id (W (Proc.devRef .tc main_cst_2) : S_.Idx → EReal))) := by
  after_results; rfl

/-- The inverse square roots of the in-degrees. -/
theorem k_dinv (c : Dev nD) : (V2 m c main_v14 : S100000.Idx → EReal) = Cert.RefSide.dinvT (F := Ideal) (Cert.RefSide.dstT (m ((c : Thread nD τ).loc main_arg1))) := by
  show StableHlo.after hostOps0_1 (V1 m c) (Proc.devRef .tc main_v14) = _
  rw [dinv_stretch (V1 m c)]
  rw [show (V1 m c (Proc.devRef .tc main_v12) : S100000.Idx → BitVec 1) = _ from k_v12 m c,
    show (V1 m c (Proc.devRef .tc main_v13) : S100000.Idx → EReal) = _ from k_v13 m c,
    show (V1 m c (Proc.devRef .tc main_cst_2) : S_.Idx → EReal) = _ from k_cst2 m c]
  rfl

set_option maxHeartbeats 4000000 in
/-- The weights' stretch, over any contents before it. -/
theorem norm_stretch (W : Valuation τ sig (Elt Ideal)) :
    (StableHlo.after (hostOps0_2 (F := Ideal)) W (Proc.devRef .tc main_v29) : S900000.Idx → EReal)
      = Cert.RefSide.normOf (F := Ideal) (W (Proc.devRef .tc main_v14)) (W (Proc.devRef .tc main_v3)) (W (Proc.devRef .tc main_v6)) := by
  after_results; rfl

/-- The per-edge weights. -/
theorem k_norm (c : Dev nD) : (V3 m c main_v29 : S900000.Idx → EReal) = Cert.RefSide.normT (F := Ideal) (m ((c : Thread nD τ).loc main_arg1)) := by
  show StableHlo.after hostOps0_2 (V2 m c) (Proc.devRef .tc main_v29) = _
  rw [norm_stretch (V2 m c)]
  rw [show V2 m c (Proc.devRef .tc main_v14) = Cert.RefSide.dinvT (F := Ideal) (Cert.RefSide.dstT (m ((c : Thread nD τ).loc main_arg1))) from k_dinv m c,
    show V2 m c (Proc.devRef .tc main_v3) = Cert.RefSide.srcT (m ((c : Thread nD τ).loc main_arg1)) from (V2_of m c main_v3 (by decide)).trans (k_src1 m c),
    show V2 m c (Proc.devRef .tc main_v6) = Cert.RefSide.dstT (m ((c : Thread nD τ).loc main_arg1)) from (V2_of m c main_v6 (by decide)).trans (k_dst1 m c)]
  exact Cert.RefSide.normT_eq _

end Cert.KernelIdeal.Hand

end
-- ==== Proof.LibTiledSum.lean ====
/-
  Finite sums in an additive commutative monoid, regrouped by tiles.

  * A sum over `a * b` indices is the sum over `a` tiles of the sums over the `b` indices of each tile, index `r`
    of tile `t` being `b * t + r` (`sum_fin_mul`).
  * A double sum over `(a * b) × (c * d)` cut into `a × c` tiles of `b × d` and summed tile by tile, the column
    tiles outermost, is the plain double sum (`sum_tiles_mul`; at `4096 = 8 · 512` rows and `10240 = 10 · 1024`
    columns, `sum_tiles`).
  * A sum over `n + k` indices whose last `k` terms vanish is the sum of the first `n` terms (`sum_drop_tail`; at
    `10240 = 10000 + 240`, `sum_drop_pad`).
  * An `80 × 128` array that vanishes except at column `0` of the rows `8 t`, where it holds `acc t`, sums to
    `∑ t, acc t` (`sum_corners`).
-/
import Idealize.ShloMosaic.Lib.ValueIdx
import Mathlib.Algebra.BigOperators.Fin
import Mathlib.Data.Fintype.BigOperators
import Mathlib.Logic.Equiv.Fin.Basic
import Mathlib.Tactic

open scoped BigOperators
open Idealize.ShloMosaic Idealize.ShloMosaic.ValueIdx

namespace Cert.LibTiledSum

variable {M : Type*} [AddCommMonoid M]

/-! ## One axis cut into tiles -/

/-- Index `r` of tile `t`, among `a` tiles of `b` indices each, is below `a * b`. -/
theorem tile_lt {a b : ℕ} (t : Fin a) (r : Fin b) : b * t.val + r.val < a * b := by
  have ht : t.val + 1 ≤ a := t.isLt
  have hr := r.isLt
  calc b * t.val + r.val < b * t.val + b := by omega
    _ = b * (t.val + 1) := by ring
    _ ≤ b * a := Nat.mul_le_mul_left _ ht
    _ = a * b := Nat.mul_comm _ _

/-- A sum over `a * b` indices is the sum over the `a` tiles of the sum over the `b` indices of each tile:
    `∑ n, f n = ∑ t, ∑ r, f (b t + r)`. -/
theorem sum_fin_mul (a b : ℕ) (f : Fin (a * b) → M) :
    ∑ n : Fin (a * b), f n = ∑ t : Fin a, ∑ r : Fin b, f ⟨b * t.val + r.val, tile_lt t r⟩ := by
  rw [← Fintype.sum_prod_type (f := fun p : Fin a × Fin b => f ⟨b * p.1.val + p.2.val, tile_lt p.1 p.2⟩)]
  refine (Fintype.sum_equiv finProdFinEquiv _ _ fun p => ?_).symm
  congr 1
  apply Fin.ext
  rw [finProdFinEquiv_apply_val]
  exact (Nat.add_comm _ _).symm

/-! ## Two axes cut into tiles -/

/-- A double sum over `(a * b) × (c * d)`, cut into `a` row tiles of `b` and `c` column tiles of `d` and summed tile
    by tile with the column tiles outermost, is the plain double sum. -/
theorem sum_tiles_mul (a b c d : ℕ) (f : Fin (a * b) → Fin (c * d) → M) :
    ∑ ci : Fin c, ∑ bi : Fin a, ∑ p : Fin b, ∑ j : Fin d,
        f ⟨b * bi.val + p.val, tile_lt bi p⟩ ⟨d * ci.val + j.val, tile_lt ci j⟩
      = ∑ x : Fin (a * b), ∑ y : Fin (c * d), f x y := by
  calc ∑ ci : Fin c, ∑ bi : Fin a, ∑ p : Fin b, ∑ j : Fin d,
          f ⟨b * bi.val + p.val, tile_lt bi p⟩ ⟨d * ci.val + j.val, tile_lt ci j⟩
      = ∑ bi : Fin a, ∑ ci : Fin c, ∑ p : Fin b, ∑ j : Fin d,
          f ⟨b * bi.val + p.val, tile_lt bi p⟩ ⟨d * ci.val + j.val, tile_lt ci j⟩ := Finset.sum_comm
    _ = ∑ bi : Fin a, ∑ p : Fin b, ∑ ci : Fin c, ∑ j : Fin d,
          f ⟨b * bi.val + p.val, tile_lt bi p⟩ ⟨d * ci.val + j.val, tile_lt ci j⟩ :=
        Finset.sum_congr rfl fun bi _ => Finset.sum_comm
    _ = ∑ bi : Fin a, ∑ p : Fin b, ∑ y : Fin (c * d), f ⟨b * bi.val + p.val, tile_lt bi p⟩ y :=
        Finset.sum_congr rfl fun bi _ => Finset.sum_congr rfl fun p _ =>
          (sum_fin_mul c d (f ⟨b * bi.val + p.val, tile_lt bi p⟩)).symm
    _ = ∑ x : Fin (a * b), ∑ y : Fin (c * d), f x y :=
        (sum_fin_mul a b fun x => ∑ y : Fin (c * d), f x y).symm

/-- A 4096 x 10240 double sum, cut into 8 row tiles of 512 and 10 column tiles of 1024, summed tile by tile. -/
theorem sum_tiles (f : Fin 4096 → Fin 10240 → M) :
    ∑ ci : Fin 10, ∑ bi : Fin 8, ∑ p : Fin 512, ∑ j : Fin 1024,
        f ⟨512 * bi.val + p.val, by omega⟩ ⟨1024 * ci.val + j.val, by omega⟩
      = ∑ b : Fin 4096, ∑ c : Fin 10240, f b c :=
  sum_tiles_mul 8 512 10 1024 f

/-! ## A vanishing tail -/

/-- A sum over `n + k` indices whose last `k` terms vanish is the sum of its first `n` terms. -/
theorem sum_drop_tail {n k : ℕ} (f : Fin (n + k) → M) (g : Fin n → M)
    (hlow : ∀ c : Fin n, f (Fin.castAdd k c) = g c) (hhigh : ∀ c : Fin k, f (Fin.natAdd n c) = 0) :
    ∑ c : Fin (n + k), f c = ∑ c : Fin n, g c := by
  rw [Fin.sum_univ_add, Finset.sum_congr rfl fun c _ => hlow c, Finset.sum_congr rfl fun c _ => hhigh c,
    Finset.sum_const_zero, add_zero]

/-- A sum over 10240 columns whose last 240 terms vanish is the sum over the first 10000. -/
theorem sum_drop_pad (f : Fin 10240 → M) (g : Fin 10000 → M)
    (hlow : ∀ c : Fin 10000, f ⟨c.val, by omega⟩ = g c) (hhigh : ∀ c : Fin 10240, 10000 ≤ c.val → f c = 0) :
    ∑ c : Fin 10240, f c = ∑ c : Fin 10000, g c :=
  sum_drop_tail (n := 10000) (k := 240) f g (fun c => hlow c)
    (fun c => hhigh (Fin.natAdd 10000 c) (Nat.le_add_right 10000 c.val))

/-! ## Corners of 8 × 128 tiles -/

/-- An 80 x 128 array that is zero except at the first lane of every eighth row, where row 8*t holds acc t: its total is the sum of acc. -/
theorem sum_corners (acc : Fin 10 → M) (out : (⟨2, ![80, 128]⟩ : Shape).Idx → M)
    (h : ∀ (r : Fin 80) (l : Fin 128), out (ix2 r l) = if r.val % 8 = 0 ∧ l.val = 0 then acc ⟨r.val / 8, by omega⟩ else 0) :
    ∑ j, out j = ∑ t : Fin 10, acc t := by
  rw [sum_idx2]
  -- in every row only lane 0 contributes
  have hlane : ∀ r : Fin 80, ∑ l : Fin 128, out (ix2 r l)
      = if r.val % 8 = 0 then acc ⟨r.val / 8, by omega⟩ else 0 := by
    intro r
    rw [Finset.sum_eq_single (⟨0, by omega⟩ : Fin 128)]
    · rw [h r ⟨0, by omega⟩]
      by_cases hr : r.val % 8 = 0
      · rw [if_pos ⟨hr, rfl⟩, if_pos hr]
      · rw [if_neg (fun hc => hr hc.1), if_neg hr]
    · intro l _ hl
      rw [h r l, if_neg]
      rintro ⟨_, hl0⟩
      exact hl (Fin.ext hl0)
    · intro hmem
      exact absurd (Finset.mem_univ _) hmem
  rw [Finset.sum_congr rfl fun r _ => hlane r]
  -- the rows, eight at a time: only the first of each eight contributes
  have hrows : ∑ r : Fin 80, (if r.val % 8 = 0 then acc ⟨r.val / 8, by omega⟩ else 0)
      = ∑ t : Fin 10, ∑ q : Fin 8,
          (if (8 * t.val + q.val) % 8 = 0 then acc ⟨(8 * t.val + q.val) / 8, by omega⟩ else 0) :=
    sum_fin_mul 10 8 fun r : Fin (10 * 8) => if r.val % 8 = 0 then acc ⟨r.val / 8, by omega⟩ else 0
  rw [hrows]
  refine Finset.sum_congr rfl fun t _ => ?_
  rw [Finset.sum_eq_single (⟨0, by omega⟩ : Fin 8)]
  · have h0 : (8 * t.val + 0) % 8 = 0 := by omega
    rw [if_pos h0]
    congr 1
    apply Fin.ext
    show (8 * t.val + 0) / 8 = t.val
    omega
  · intro q _ hq
    have hq0 : q.val ≠ 0 := fun hc => hq (Fin.ext hc)
    have hne : ¬ (8 * t.val + q.val) % 8 = 0 := by omega
    rw [if_neg hne]
  · intro hmem
    exact absurd (Finset.mem_univ _) hmem

end Cert.LibTiledSum
-- ==== Proof.KI.Bridge2.lean ====
/-
  The aggregation and the classifier composed with the operations between the regions: the kernel's result is the
  specification's, given that every id of the two edge lists is a node number.

  For a node n the aggregation region sums, over all 901120 padded edge slots, the selector (node id = target id) times the
  slot's message. The 1120 padding slots carry weight 0, so their messages vanish and the sum is over the 900000 edges; for
  an edge the selector is 1 exactly when its target, read signed, is n; and its message is the source node's row of x · Wg
  times the edge's weight. That is the specification's segment sum.
-/
import proofs.«171723_j29566554866533_1_alg».proof.Proof.KI.Run
import proofs.«171723_j29566554866533_1_alg».proof.Proof.KI.Value2
import proofs.«171723_j29566554866533_1_alg».proof.Proof.KI.Value3
import proofs.«171723_j29566554866533_1_alg».proof.Proof.KI.Glue
import proofs.«171723_j29566554866533_1_alg».proof.Proof.KI.Bridge1
import proofs.«171723_j29566554866533_1_alg».proof.Proof.KI.EdgeK
import proofs.«171723_j29566554866533_1_alg».proof.Proof.Spec
import proofs.«171723_j29566554866533_1_alg».proof.Proof.LibTiledSum

set_option maxRecDepth 65536

noncomputable section

namespace Cert.KernelIdeal.Hand

open Cert.KernelIdeal Cert.KernelIdeal.Gen
open Idealize.ShloMosaic Idealize.ShloMosaic.TcCoe Idealize.SL.Sem
open Idealize.ShloMosaic.ValueIdx

/-- For a node number n and a target word d that is a node number: the word of n is d exactly when d, read signed, is n. -/
theorem node_test (n : ℕ) (hn : n < 100352) (d : BitVec 32) (hd : 0 ≤ d.toInt ∧ d.toInt < 100000) :
    BitVec.ofNat 32 n = d ↔ d.toInt = (n : ℤ) := by
  have hdn : d.toInt = (d.toNat : ℤ) := by
    rw [BitVec.toInt_eq_toNat_cond] at hd ⊢
    have := d.isLt
    split_ifs at hd ⊢ with h
    · rfl
    · omega
  constructor
  · intro h
    rw [hdn, ← h, BitVec.toNat_ofNat]
    have : n % 2 ^ 32 = n := Nat.mod_eq_of_lt (by omega)
    rw [this]
  · intro h
    have hnat : d.toNat = n := by rw [hdn] at h; exact_mod_cast h
    rw [← hnat, BitVec.ofNat_toNat, BitVec.setWidth_eq]

/-- A sum over the 901120 padded edge slots whose last 1120 terms vanish is the sum over the 900000 edges. -/
theorem sum_drop_slots (f : Fin 901120 → EReal) (g : Fin 900000 → EReal)
    (hlow : ∀ e : Fin 900000, f ⟨e.val, by omega⟩ = g e) (hhigh : ∀ e : Fin 901120, 900000 ≤ e.val → f e = 0) :
    ∑ e : Fin 901120, f e = ∑ e : Fin 900000, g e :=
  Cert.LibTiledSum.sum_drop_tail (n := 900000) (k := 1120) f g (fun e => hlow e)
    (fun e => hhigh (Fin.natAdd 900000 e) (Nat.le_add_right 900000 e.val))

variable (m : (ℓ : Loc nD τ sig) → Buf (Elt Ideal) ℓ)

abbrev aBg (c : Dev nD) : S128.Idx → EReal := m ((c : Thread nD τ).loc main_arg3)
abbrev aW1 (c : Dev nD) : S128x512.Idx → EReal := m ((c : Thread nD τ).loc main_arg4)
abbrev aB1 (c : Dev nD) : S512.Idx → EReal := m ((c : Thread nD τ).loc main_arg5)
abbrev aW2 (c : Dev nD) : S512x64.Idx → EReal := m ((c : Thread nD τ).loc main_arg6)
abbrev aB2 (c : Dev nD) : S64.Idx → EReal := m ((c : Thread nD τ).loc main_arg7)

set_option maxHeartbeats 2000000 in
/-- THE CONVOLUTION: row n < 100000 of what region 2 leaves is the specification's convolution output. -/
theorem b_conv (c : Dev nD)
    (hsrc : ∀ e : Fin 900000, 0 ≤ (kSrc m c (ix1 e)).toInt ∧ (kSrc m c (ix1 e)).toInt < 100000)
    (hdst : ∀ e : Fin 900000, 0 ≤ (kDst m c (ix1 e)).toInt ∧ (kDst m c (ix1 e)).toInt < 100000)
    (n : Fin 100000) (f : Fin 128) :
    (o2 m c : S100352x128.Idx → EReal) (ix2 ⟨n.val, by omega⟩ f)
      = Cert.Spec.conv (aX m c) (aWg m c) (aBg m c) (kSrc m c) (kDst m c) (kNorm m c) (ix2 n f) := by
  have hfin : (o2 m c : S100352x128.Idx → EReal) = G2 (atRefs (V15 m (outs1 m))) c := final2 (atRefs (V15 m (outs1 m))) c
  rw [hfin]
  unfold G2 Cert.Spec.conv Cert.Spec.agg
  have hD : Dst2 (atRefs (V15 m (outs1 m))) c = _ := g_dst m (outs1 m) c
  have hM : Msg2 (atRefs (V15 m (outs1 m))) c = (o1 m c : S901120x128.Idx → EReal) := (g_msg m (outs1 m) c).trans (outs1_14 m c)
  have hB : Bg2 (atRefs (V15 m (outs1 m))) c = _ := g_bg m (outs1 m) c
  rw [hD, hM, hB, b_msg m c hsrc]
  refine congrArg (fun z : EReal => max (z + aBg m c (ix1 f)) (Ideal.ofBits .f32 0x00000000#32)) ?_
  refine sum_drop_slots _ _ (fun e => ?_) (fun e he => ?_)
  · have he : e.val < 900000 := e.isLt
    show sel2 (BitVec.ofNat 32 n.val) (if h : e.val < 900000 then kDst m c (ix1 ⟨e.val, h⟩) else 0#32) * (if h : e.val < 900000 then _ else (0 : EReal)) = _
    rw [dif_pos he, dif_pos he]
    unfold sel2
    by_cases ht : (kDst m c (ix1 e)).toInt = (n.val : ℤ)
    · rw [if_pos ((node_test n.val (by omega) _ (hdst e)).mpr ht), if_pos ht, one_mul]
      rfl
    · rw [if_neg (fun h => ht ((node_test n.val (by omega) _ (hdst e)).mp h)), if_neg ht, zero_mul]
  · show sel2 _ _ * (if h : e.val < 900000 then _ else (0 : EReal)) = 0
    rw [dif_neg (by omega), mul_zero]

/-- A [1, P] row read back as a vector is the vector it was cast from. -/
theorem row0_cast {P : ℕ} (b : (⟨1, ![P]⟩ : Shape).Idx → EReal) : row0 (fun i : (⟨2, ![1, P]⟩ : Shape).Idx => b (ix1 (i 1))) = b := by
  funext j
  show b (ix1 ((ix2 (0 : Fin 1) (j 0)) 1)) = b j
  exact congrArg b (eq_ix1 j).symm

set_option maxHeartbeats 2000000 in
/-- THE RESULT, over the kernel program's own edge data. -/
theorem b_out (c : Dev nD)
    (hsrc : ∀ e : Fin 900000, 0 ≤ (kSrc m c (ix1 e)).toInt ∧ (kSrc m c (ix1 e)).toInt < 100000)
    (hdst : ∀ e : Fin 900000, 0 ≤ (kDst m c (ix1 e)).toInt ∧ (kDst m c (ix1 e)).toInt < 100000) :
    (o3 m c : S100000x64.Idx → EReal)
      = Cert.Spec.Garr (aX m c) (aWg m c) (aBg m c) (aW1 m c) (aB1 m c) (aW2 m c) (aB2 m c) (kSrc m c) (kDst m c) (kNorm m c) := by
  have hfin : (o3 m c : S100000x64.Idx → EReal) = _ := final3 (atRefs (V17 m (outs2 m))) c
  rw [hfin]
  have h1 : (atRefs (V17 m (outs2 m)) c (Pipeline.arrRef spec3 0) : S100000x128.Idx → EReal)
      = Cert.Spec.conv (aX m c) (aWg m c) (aBg m c) (kSrc m c) (kDst m c) (kNorm m c) := by
    refine (g_h1 m (outs2 m) c).trans (funext fun i => ?_)
    rw [show (outs2 m 16 main_v41 c : S100352x128.Idx → EReal) = o2 m c from outs2_16 m c]
    obtain ⟨n, f, rfl⟩ : ∃ (n : Fin 100000) (f : Fin 128), i = ix2 n f := ⟨i 0, i 1, eq_ix2 i⟩
    exact b_conv m c hsrc hdst n f
  have hw1 : (atRefs (V17 m (outs2 m)) c (Pipeline.arrRef spec3 1) : S128x512.Idx → EReal) = aW1 m c := g_w1 m (outs2 m) c
  have hb1 : (atRefs (V17 m (outs2 m)) c (Pipeline.arrRef spec3 2) : S1x512.Idx → EReal) = fun i => aB1 m c (ix1 (i 1)) := g_b1 m (outs2 m) c
  have hw2 : (atRefs (V17 m (outs2 m)) c (Pipeline.arrRef spec3 3) : S512x64.Idx → EReal) = aW2 m c := g_w2 m (outs2 m) c
  have hb2 : (atRefs (V17 m (outs2 m)) c (Pipeline.arrRef spec3 4) : S1x64.Idx → EReal) = fun i => aB2 m c (ix1 (i 1)) := g_b2 m (outs2 m) c
  rw [h1, hw1, hb1, hw2, hb2]
  unfold out3 Cert.Spec.Garr Cert.Spec.G
  show (fun i : S100000x64.Idx => SageSpec.denseLogSoftmax
      (Cert.Spec.hidden (Cert.Spec.conv (aX m c) (aWg m c) (aBg m c) (kSrc m c) (kDst m c) (kNorm m c)) (aW1 m c)
        (row0 (P := 512) (fun i : S1x512.Idx => aB1 m c (ix1 (i 1)))))
      (aW2 m c) (row0 (P := 64) (fun i : S1x64.Idx => aB2 m c (ix1 (i 1)))) (i 0) (i 1)) = _
  rw [row0_cast (P := 512) (aB1 m c), row0_cast (P := 64) (aB2 m c)]

/-- THE RESULT, over the shared terms of the edge array. -/
theorem kernel_value (c : Dev nD)
    (hr : ∀ i, 0 ≤ ((m ((c : Thread nD τ).loc main_arg1)) i).toInt ∧ ((m ((c : Thread nD τ).loc main_arg1)) i).toInt < 100000) :
    (o3 m c : S100000x64.Idx → EReal)
      = Cert.Spec.Garr (aX m c) (aWg m c) (aBg m c) (aW1 m c) (aB1 m c) (aW2 m c) (aB2 m c)
          (Cert.RefSide.srcT (m ((c : Thread nD τ).loc main_arg1))) (Cert.RefSide.dstT (m ((c : Thread nD τ).loc main_arg1)))
          (Cert.RefSide.normT (F := Ideal) (m ((c : Thread nD τ).loc main_arg1))) := by
  have hs : kSrc m c = Cert.RefSide.srcT (m ((c : Thread nD τ).loc main_arg1)) := k_src m c
  have hd : kDst m c = Cert.RefSide.dstT (m ((c : Thread nD τ).loc main_arg1)) := k_dst m c
  have hn : kNorm m c = Cert.RefSide.normT (F := Ideal) (m ((c : Thread nD τ).loc main_arg1)) := k_norm m c
  rw [b_out m c (fun e => by rw [hs]; exact Cert.RefSide.srcT_range _ hr e) (fun e => by rw [hd]; exact Cert.RefSide.dstT_range _ hr e), hs, hd, hn]

end Cert.KernelIdeal.Hand

end
-- ==== Proof.RefRun.lean ====
/-
  The reference program's run, read back stage by stage.

  The program is a straight line of 89 host operations. Cut into six lines — the edge lists; the inverse square roots of
  the in-degrees; the edge weights; the convolution; the classifier's logits; the logarithmic softmax — each line leaves, in
  the buffer the next lines read, one stage function (RefStages) of the buffers it read, and leaves the arguments and the
  earlier stages still to be read as they were. Chained, the result buffer holds `refOut` of the eight arguments, which
  are unchanged: so every weakly fair execution of the program terminates in such a state.
-/
import proofs.«171723_j29566554866533_1_alg».proof.Proof.RefRunP
import proofs.«171723_j29566554866533_1_alg».proof.Proof.RefStages
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-! ## The program in six lines -/

abbrev seg1 : List (HloOp τ sig (Elt F)) :=
  [ nullary main_v0 (iotaInDim S100000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S900000 0 [⟨S800000, a⟩, ⟨S100000, b⟩] concatenates_S800000_S100000_S900000_d0) : (⟨S800000, .i32⟩ : BufTy).Contents (Elt F) → (⟨S100000, .i32⟩ : BufTy).Contents (Elt F) → (⟨S900000, .i32⟩ : BufTy).Contents (Elt F)) ]

abbrev seg2 : List (HloOp τ sig (Elt F)) :=
  [ nullary main_cst (constant S_ .f32 0x3F800000#32),
    unary main_cst main_v7 (broadcastInDim S900000 ![] bcast_S_S900000 : (⟨S_, .f32⟩ : BufTy).Contents (Elt F) → (⟨S900000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S900000x1 ![0] bcast_S900000_S900000x1_0 : (⟨S900000, .i32⟩ : BufTy).Contents (Elt F) → (⟨S900000x1, .i32⟩ : BufTy).Contents (Elt F)),
    ternary main_v8 main_v9 main_v7 main_v10 ((fun x i u => Host.scatterAdd scatter_S100000_S900000x1_S900000_n_0_0_1 x i u) : (⟨S100000, .f32⟩ : BufTy).Contents (Elt F) → (⟨S900000x1, .i32⟩ : BufTy).Contents (Elt F) → (⟨S900000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

abbrev seg3 : List (HloOp τ sig (Elt F)) :=
  [ nullary main_c (constantI S_ 32 0#32),
    unary main_c main_v15 (broadcastInDim S900000 ![] bcast_S_S900000 : (⟨S_, .i32⟩ : BufTy).Contents (Elt F) → (⟨S900000, .i32⟩ : BufTy).Contents (Elt F)),
    binary main_v3 main_v15 main_v16 (cmpi .slt : (⟨S900000, .i32⟩ : BufTy).Contents (Elt F) → (⟨S900000, .i32⟩ : BufTy).Contents (Elt F) → (⟨S900000, .i1⟩ : BufTy).Contents (Elt F)),
    nullary main_c_3 (constantI S_ 32 100000#32),
    unary main_c_3 main_v17 (broadcastInDim S900000 ![] bcast_S_S900000 : (⟨S_, .i32⟩ : BufTy).Contents (Elt F) → (⟨S900000, .i32⟩ : BufTy).Contents (Elt F)),
    binary main_v3 main_v17 main_v18 (addi : (⟨S900000, .i32⟩ : BufTy).Contents (Elt F) → (⟨S900000, .i32⟩ : BufTy).Contents (Elt F) → (⟨S900000, .i32⟩ : BufTy).Contents (Elt F)),
    ternary main_v16 main_v18 main_v3 main_v19 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v19 main_v20 (broadcastInDim S900000x1 ![0] bcast_S900000_S900000x1_0 : (⟨S900000, .i32⟩ : BufTy).Contents (Elt F) → (⟨S900000x1, .i32⟩ : BufTy).Contents (Elt F)),
    binary main_v14 main_v20 main_v21 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    nullary main_c_4 (constantI S_ 32 0#32),
    unary main_c_4 main_v22 (broadcastInDim S900000 ![] bcast_S_S900000 : (⟨S_, .i32⟩ : BufTy).Contents (Elt F) → (⟨S900000, .i32⟩ : BufTy).Contents (Elt F)),
    binary main_v6 main_v22 main_v23 (cmpi .slt : (⟨S900000, .i32⟩ : BufTy).Contents (Elt F) → (⟨S900000, .i32⟩ : BufTy).Contents (Elt F) → (⟨S900000, .i1⟩ : BufTy).Contents (Elt F)),
    nullary main_c_5 (constantI S_ 32 100000#32),
    unary main_c_5 main_v24 (broadcastInDim S900000 ![] bcast_S_S900000 : (⟨S_, .i32⟩ : BufTy).Contents (Elt F) → (⟨S900000, .i32⟩ : BufTy).Contents (Elt F)),
    binary main_v6 main_v24 main_v25 (addi : (⟨S900000, .i32⟩ : BufTy).Contents (Elt F) → (⟨S900000, .i32⟩ : BufTy).Contents (Elt F) → (⟨S900000, .i32⟩ : BufTy).Contents (Elt F)),
    ternary main_v23 main_v25 main_v6 main_v26 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v26 main_v27 (broadcastInDim S900000x1 ![0] bcast_S900000_S900000x1_0 : (⟨S900000, .i32⟩ : BufTy).Contents (Elt F) → (⟨S900000x1, .i32⟩ : BufTy).Contents (Elt F)),
    binary main_v14 main_v27 main_v28 ((fun x i => Host.gather gather_S100000_S900000x1_S900000_n_0_n_n_0_1_1 x i) : (⟨S100000, .f32⟩ : BufTy).Contents (Elt F) → (⟨S900000x1, .i32⟩ : BufTy).Contents (Elt F) → (⟨S900000, .f32⟩ : BufTy).Contents (Elt F)),
    binary main_v21 main_v28 main_v29 (mulf : (⟨S900000, .f32⟩ : BufTy).Contents (Elt F) → (⟨S900000, .f32⟩ : BufTy).Contents (Elt F) → (⟨S900000, .f32⟩ : BufTy).Contents (Elt F)) ]

abbrev seg4 : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S900000 ![] bcast_S_S900000 : (⟨S_, .i32⟩ : BufTy).Contents (Elt F) → (⟨S900000, .i32⟩ : BufTy).Contents (Elt F)),
    binary main_v3 main_v31 main_v32 (cmpi .slt : (⟨S900000, .i32⟩ : BufTy).Contents (Elt F) → (⟨S900000, .i32⟩ : BufTy).Contents (Elt F) → (⟨S900000, .i1⟩ : BufTy).Contents (Elt F)),
    nullary main_c_7 (constantI S_ 32 100000#32),
    unary main_c_7 main_v33 (broadcastInDim S900000 ![] bcast_S_S900000 : (⟨S_, .i32⟩ : BufTy).Contents (Elt F) → (⟨S900000, .i32⟩ : BufTy).Contents (Elt F)),
    binary main_v3 main_v33 main_v34 (addi : (⟨S900000, .i32⟩ : BufTy).Contents (Elt F) → (⟨S900000, .i32⟩ : BufTy).Contents (Elt F) → (⟨S900000, .i32⟩ : BufTy).Contents (Elt F)),
    ternary main_v32 main_v34 main_v3 main_v35 (select : (⟨S900000, .i1⟩ : BufTy).Contents (Elt F) → (⟨S900000, .i32⟩ : BufTy).Contents (Elt F) → (⟨S900000, .i32⟩ : BufTy).Contents (Elt F) → (⟨S900000, .i32⟩ : BufTy).Contents (Elt F)),
    unary main_v35 main_v36 (broadcastInDim S900000x1 ![0] bcast_S900000_S900000x1_0 : (⟨S900000, .i32⟩ : BufTy).Contents (Elt F) → (⟨S900000x1, .i32⟩ : BufTy).Contents (Elt F)),
    binary main_v30 main_v36 main_v37 ((fun x i => Host.gather gather_S100000x128_S900000x1_S900000x128_1_0_n_n_0_1_1128 x i) : (⟨S100000x128, .f32⟩ : BufTy).Contents (Elt F) → (⟨S900000x1, .i32⟩ : BufTy).Contents (Elt F) → (⟨S900000x128, .f32⟩ : BufTy).Contents (Elt F)),
    unary main_v29 main_v38 (broadcastInDim S900000x1 ![0] bcast_S900000_S900000x1_0 : (⟨S900000, .f32⟩ : BufTy).Contents (Elt F) → (⟨S900000x1, .f32⟩ : BufTy).Contents (Elt F)),
    unary main_v38 main_v39 (broadcastInDim S900000x128 ![0, 1] bcast_S900000x1_S900000x128_0_1 : (⟨S900000x1, .f32⟩ : BufTy).Contents (Elt F) → (⟨S900000x128, .f32⟩ : BufTy).Contents (Elt F)),
    binary main_v37 main_v39 main_v40 (mulf : (⟨S900000x128, .f32⟩ : BufTy).Contents (Elt F) → (⟨S900000x128, .f32⟩ : BufTy).Contents (Elt F) → (⟨S900000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S900000x1 ![0] bcast_S900000_S900000x1_0 : (⟨S900000, .i32⟩ : BufTy).Contents (Elt F) → (⟨S900000x1, .i32⟩ : BufTy).Contents (Elt F)),
    ternary main_v41 main_v42 main_v40 main_v43 ((fun x i u => Host.scatterAdd scatter_S100000x128_S900000x1_S900000x128_1_0_0_1 x i u) : (⟨S100000x128, .f32⟩ : BufTy).Contents (Elt F) → (⟨S900000x1, .i32⟩ : BufTy).Contents (Elt F) → (⟨S900000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

abbrev seg5 : List (HloOp τ sig (Elt F)) :=
  [ binary main_v47 main_arg4 main_v48 ((fun l r => Host.dotGeneral dot_S100000x128_S128x512_S100000x512_1_0_0_1_n_n none l r) : (⟨S100000x128, .f32⟩ : BufTy).Contents (Elt F) → (⟨S128x512, .f32⟩ : BufTy).Contents (Elt F) → (⟨S100000x512, .f32⟩ : BufTy).Contents (Elt F)),
    unary main_arg5 main_v49 (broadcastInDim S1x512 ![1] bcast_S512_S1x512_1 : (⟨S512, .f32⟩ : BufTy).Contents (Elt F) → (⟨S1x512, .f32⟩ : BufTy).Contents (Elt F)),
    unary main_v49 main_v50 (broadcastInDim S100000x512 ![0, 1] bcast_S1x512_S100000x512_0_1 : (⟨S1x512, .f32⟩ : BufTy).Contents (Elt F) → (⟨S100000x512, .f32⟩ : BufTy).Contents (Elt F)),
    binary main_v48 main_v50 main_v51 (addf : (⟨S100000x512, .f32⟩ : BufTy).Contents (Elt F) → (⟨S100000x512, .f32⟩ : BufTy).Contents (Elt F) → (⟨S100000x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x512, .f32⟩) main_call2_v0) (broadcastInDim S100000x512 ![] bcast_S_S100000x512),
    TRef.binary (TRef.of (T := ⟨S100000x512, .f32⟩) main_v51) (TRef.of (T := ⟨S100000x512, .f32⟩) main_call2_v0) (TRef.of (T := ⟨S100000x512, .f32⟩) main_v52) maximumf,
    binary main_v52 main_arg6 main_v53 ((fun l r => Host.dotGeneral dot_S100000x512_S512x64_S100000x64_1_0_0_1_n_n none l r) : (⟨S100000x512, .f32⟩ : BufTy).Contents (Elt F) → (⟨S512x64, .f32⟩ : BufTy).Contents (Elt F) → (⟨S100000x64, .f32⟩ : BufTy).Contents (Elt F)),
    unary main_arg7 main_v54 (broadcastInDim S1x64 ![1] bcast_S64_S1x64_1 : (⟨S64, .f32⟩ : BufTy).Contents (Elt F) → (⟨S1x64, .f32⟩ : BufTy).Contents (Elt F)),
    unary main_v54 main_v55 (broadcastInDim S100000x64 ![0, 1] bcast_S1x64_S100000x64_0_1 : (⟨S1x64, .f32⟩ : BufTy).Contents (Elt F) → (⟨S100000x64, .f32⟩ : BufTy).Contents (Elt F)),
    binary main_v53 main_v55 main_v56 (addf : (⟨S100000x64, .f32⟩ : BufTy).Contents (Elt F) → (⟨S100000x64, .f32⟩ : BufTy).Contents (Elt F) → (⟨S100000x64, .f32⟩ : BufTy).Contents (Elt F)) ]

abbrev seg6 : List (HloOp τ sig (Elt F)) :=
  [ TRef.nullary (TRef.of (T := ⟨S_, .f32⟩) main_call3_cst) (constant S_ .f32 0xFF800000#32),
    TRef.binary (TRef.of (T := ⟨S100000x64, .f32⟩) main_v56) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v56) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v57) subf ]

set_option maxRecDepth 8192 in
/-- The six lines, one after the other, are the program. -/
theorem ops_eq : (Cert.ReferenceIdeal.ValueP.ops : List (HloOp τ sig (Elt F))) = seg1 ++ (seg2 ++ (seg3 ++ (seg4 ++ (seg5 ++ seg6)))) := rfl

/-- The contents after two lines run one after the other. -/
theorem after_append' (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- Contents carried to a buffer's own type and back are unchanged. -/
theorem ofBuf_toBuf' {T : BufTy} (x : TRef sig T) (v : T.Contents (Elt F)) : x.ofBuf (x.toBuf v) = v := by
  obtain ⟨r, h, a, b⟩ := x
  subst h
  rfl

/-! ## What each line leaves -/

theorem seg1_v3 (V : Valuation τ sig (Elt F)) : after seg1 V (Proc.devRef .tc main_v3) = srcT (V (Proc.devRef .tc main_arg1)) := by
  after_results_simp <;> rfl
theorem seg1_v6 (V : Valuation τ sig (Elt F)) : after seg1 V (Proc.devRef .tc main_v6) = dstT (V (Proc.devRef .tc main_arg1)) := by
  after_results_simp <;> rfl
theorem seg1_arg0 (V : Valuation τ sig (Elt F)) : after seg1 V (Proc.devRef .tc main_arg0) = V (Proc.devRef .tc main_arg0) := by
  after_results_simp
theorem seg1_arg1 (V : Valuation τ sig (Elt F)) : after seg1 V (Proc.devRef .tc main_arg1) = V (Proc.devRef .tc main_arg1) := by
  after_results_simp
theorem seg1_arg2 (V : Valuation τ sig (Elt F)) : after seg1 V (Proc.devRef .tc main_arg2) = V (Proc.devRef .tc main_arg2) := by
  after_results_simp
theorem seg1_arg3 (V : Valuation τ sig (Elt F)) : after seg1 V (Proc.devRef .tc main_arg3) = V (Proc.devRef .tc main_arg3) := by
  after_results_simp
theorem seg1_arg4 (V : Valuation τ sig (Elt F)) : after seg1 V (Proc.devRef .tc main_arg4) = V (Proc.devRef .tc main_arg4) := by
  after_results_simp
theorem seg1_arg5 (V : Valuation τ sig (Elt F)) : after seg1 V (Proc.devRef .tc main_arg5) = V (Proc.devRef .tc main_arg5) := by
  after_results_simp
theorem seg1_arg6 (V : Valuation τ sig (Elt F)) : after seg1 V (Proc.devRef .tc main_arg6) = V (Proc.devRef .tc main_arg6) := by
  after_results_simp
theorem seg1_arg7 (V : Valuation τ sig (Elt F)) : after seg1 V (Proc.devRef .tc main_arg7) = V (Proc.devRef .tc main_arg7) := by
  after_results_simp
theorem seg2_v14 (V : Valuation τ sig (Elt F)) : after seg2 V (Proc.devRef .tc main_v14) = dinvT (V (Proc.devRef .tc main_v6)) := by
  after_results_simp <;> rfl
theorem seg2_arg0 (V : Valuation τ sig (Elt F)) : after seg2 V (Proc.devRef .tc main_arg0) = V (Proc.devRef .tc main_arg0) := by
  after_results_simp
theorem seg2_arg1 (V : Valuation τ sig (Elt F)) : after seg2 V (Proc.devRef .tc main_arg1) = V (Proc.devRef .tc main_arg1) := by
  after_results_simp
theorem seg2_arg2 (V : Valuation τ sig (Elt F)) : after seg2 V (Proc.devRef .tc main_arg2) = V (Proc.devRef .tc main_arg2) := by
  after_results_simp
theorem seg2_arg3 (V : Valuation τ sig (Elt F)) : after seg2 V (Proc.devRef .tc main_arg3) = V (Proc.devRef .tc main_arg3) := by
  after_results_simp
theorem seg2_arg4 (V : Valuation τ sig (Elt F)) : after seg2 V (Proc.devRef .tc main_arg4) = V (Proc.devRef .tc main_arg4) := by
  after_results_simp
theorem seg2_arg5 (V : Valuation τ sig (Elt F)) : after seg2 V (Proc.devRef .tc main_arg5) = V (Proc.devRef .tc main_arg5) := by
  after_results_simp
theorem seg2_arg6 (V : Valuation τ sig (Elt F)) : after seg2 V (Proc.devRef .tc main_arg6) = V (Proc.devRef .tc main_arg6) := by
  after_results_simp
theorem seg2_arg7 (V : Valuation τ sig (Elt F)) : after seg2 V (Proc.devRef .tc main_arg7) = V (Proc.devRef .tc main_arg7) := by
  after_results_simp
theorem seg2_v3 (V : Valuation τ sig (Elt F)) : after seg2 V (Proc.devRef .tc main_v3) = V (Proc.devRef .tc main_v3) := by
  after_results_simp
theorem seg2_v6 (V : Valuation τ sig (Elt F)) : after seg2 V (Proc.devRef .tc main_v6) = V (Proc.devRef .tc main_v6) := by
  after_results_simp
theorem seg3_v29 (V : Valuation τ sig (Elt F)) : after seg3 V (Proc.devRef .tc main_v29) = normOf (V (Proc.devRef .tc main_v14)) (V (Proc.devRef .tc main_v3)) (V (Proc.devRef .tc main_v6)) := by
  after_results_simp <;> rfl
theorem seg3_arg0 (V : Valuation τ sig (Elt F)) : after seg3 V (Proc.devRef .tc main_arg0) = V (Proc.devRef .tc main_arg0) := by
  after_results_simp
theorem seg3_arg1 (V : Valuation τ sig (Elt F)) : after seg3 V (Proc.devRef .tc main_arg1) = V (Proc.devRef .tc main_arg1) := by
  after_results_simp
theorem seg3_arg2 (V : Valuation τ sig (Elt F)) : after seg3 V (Proc.devRef .tc main_arg2) = V (Proc.devRef .tc main_arg2) := by
  after_results_simp
theorem seg3_arg3 (V : Valuation τ sig (Elt F)) : after seg3 V (Proc.devRef .tc main_arg3) = V (Proc.devRef .tc main_arg3) := by
  after_results_simp
theorem seg3_arg4 (V : Valuation τ sig (Elt F)) : after seg3 V (Proc.devRef .tc main_arg4) = V (Proc.devRef .tc main_arg4) := by
  after_results_simp
theorem seg3_arg5 (V : Valuation τ sig (Elt F)) : after seg3 V (Proc.devRef .tc main_arg5) = V (Proc.devRef .tc main_arg5) := by
  after_results_simp
theorem seg3_arg6 (V : Valuation τ sig (Elt F)) : after seg3 V (Proc.devRef .tc main_arg6) = V (Proc.devRef .tc main_arg6) := by
  after_results_simp
theorem seg3_arg7 (V : Valuation τ sig (Elt F)) : after seg3 V (Proc.devRef .tc main_arg7) = V (Proc.devRef .tc main_arg7) := by
  after_results_simp
theorem seg3_v3 (V : Valuation τ sig (Elt F)) : after seg3 V (Proc.devRef .tc main_v3) = V (Proc.devRef .tc main_v3) := by
  after_results_simp
theorem seg3_v6 (V : Valuation τ sig (Elt F)) : after seg3 V (Proc.devRef .tc main_v6) = V (Proc.devRef .tc main_v6) := by
  after_results_simp
theorem seg4_v47 (V : Valuation τ sig (Elt F)) : after seg4 V (Proc.devRef .tc main_v47) = convOf (V (Proc.devRef .tc main_arg0)) (V (Proc.devRef .tc main_arg2)) (V (Proc.devRef .tc main_arg3)) (V (Proc.devRef .tc main_v3)) (V (Proc.devRef .tc main_v6)) (V (Proc.devRef .tc main_v29)) := by
  after_results_simp <;> rfl
theorem seg4_arg0 (V : Valuation τ sig (Elt F)) : after seg4 V (Proc.devRef .tc main_arg0) = V (Proc.devRef .tc main_arg0) := by
  after_results_simp
theorem seg4_arg1 (V : Valuation τ sig (Elt F)) : after seg4 V (Proc.devRef .tc main_arg1) = V (Proc.devRef .tc main_arg1) := by
  after_results_simp
theorem seg4_arg2 (V : Valuation τ sig (Elt F)) : after seg4 V (Proc.devRef .tc main_arg2) = V (Proc.devRef .tc main_arg2) := by
  after_results_simp
theorem seg4_arg3 (V : Valuation τ sig (Elt F)) : after seg4 V (Proc.devRef .tc main_arg3) = V (Proc.devRef .tc main_arg3) := by
  after_results_simp
theorem seg4_arg4 (V : Valuation τ sig (Elt F)) : after seg4 V (Proc.devRef .tc main_arg4) = V (Proc.devRef .tc main_arg4) := by
  after_results_simp
theorem seg4_arg5 (V : Valuation τ sig (Elt F)) : after seg4 V (Proc.devRef .tc main_arg5) = V (Proc.devRef .tc main_arg5) := by
  after_results_simp
theorem seg4_arg6 (V : Valuation τ sig (Elt F)) : after seg4 V (Proc.devRef .tc main_arg6) = V (Proc.devRef .tc main_arg6) := by
  after_results_simp
theorem seg4_arg7 (V : Valuation τ sig (Elt F)) : after seg4 V (Proc.devRef .tc main_arg7) = V (Proc.devRef .tc main_arg7) := by
  after_results_simp
theorem seg5_v56 (V : Valuation τ sig (Elt F)) : after seg5 V (Proc.devRef .tc main_v56) = logitsOf (hiddenOf (V (Proc.devRef .tc main_v47)) (V (Proc.devRef .tc main_arg4)) (V (Proc.devRef .tc main_arg5))) (V (Proc.devRef .tc main_arg6)) (V (Proc.devRef .tc main_arg7)) := by
  after_results_simp <;> rfl
theorem seg5_arg0 (V : Valuation τ sig (Elt F)) : after seg5 V (Proc.devRef .tc main_arg0) = V (Proc.devRef .tc main_arg0) := by
  after_results_simp
theorem seg5_arg1 (V : Valuation τ sig (Elt F)) : after seg5 V (Proc.devRef .tc main_arg1) = V (Proc.devRef .tc main_arg1) := by
  after_results_simp
theorem seg5_arg2 (V : Valuation τ sig (Elt F)) : after seg5 V (Proc.devRef .tc main_arg2) = V (Proc.devRef .tc main_arg2) := by
  after_results_simp
theorem seg5_arg3 (V : Valuation τ sig (Elt F)) : after seg5 V (Proc.devRef .tc main_arg3) = V (Proc.devRef .tc main_arg3) := by
  after_results_simp
theorem seg5_arg4 (V : Valuation τ sig (Elt F)) : after seg5 V (Proc.devRef .tc main_arg4) = V (Proc.devRef .tc main_arg4) := by
  after_results_simp
theorem seg5_arg5 (V : Valuation τ sig (Elt F)) : after seg5 V (Proc.devRef .tc main_arg5) = V (Proc.devRef .tc main_arg5) := by
  after_results_simp
theorem seg5_arg6 (V : Valuation τ sig (Elt F)) : after seg5 V (Proc.devRef .tc main_arg6) = V (Proc.devRef .tc main_arg6) := by
  after_results_simp
theorem seg5_arg7 (V : Valuation τ sig (Elt F)) : after seg5 V (Proc.devRef .tc main_arg7) = V (Proc.devRef .tc main_arg7) := by
  after_results_simp
theorem seg6_v57 (V : Valuation τ sig (Elt F)) : after seg6 V (Proc.devRef .tc main_v57) = lsmOf (V (Proc.devRef .tc main_v56)) := by
  after_results_simp
  simp only [ofBuf_toBuf']
  rfl
theorem seg6_arg0 (V : Valuation τ sig (Elt F)) : after seg6 V (Proc.devRef .tc main_arg0) = V (Proc.devRef .tc main_arg0) := by
  after_results_simp
theorem seg6_arg1 (V : Valuation τ sig (Elt F)) : after seg6 V (Proc.devRef .tc main_arg1) = V (Proc.devRef .tc main_arg1) := by
  after_results_simp
theorem seg6_arg2 (V : Valuation τ sig (Elt F)) : after seg6 V (Proc.devRef .tc main_arg2) = V (Proc.devRef .tc main_arg2) := by
  after_results_simp
theorem seg6_arg3 (V : Valuation τ sig (Elt F)) : after seg6 V (Proc.devRef .tc main_arg3) = V (Proc.devRef .tc main_arg3) := by
  after_results_simp
theorem seg6_arg4 (V : Valuation τ sig (Elt F)) : after seg6 V (Proc.devRef .tc main_arg4) = V (Proc.devRef .tc main_arg4) := by
  after_results_simp
theorem seg6_arg5 (V : Valuation τ sig (Elt F)) : after seg6 V (Proc.devRef .tc main_arg5) = V (Proc.devRef .tc main_arg5) := by
  after_results_simp
theorem seg6_arg6 (V : Valuation τ sig (Elt F)) : after seg6 V (Proc.devRef .tc main_arg6) = V (Proc.devRef .tc main_arg6) := by
  after_results_simp
theorem seg6_arg7 (V : Valuation τ sig (Elt F)) : after seg6 V (Proc.devRef .tc main_arg7) = V (Proc.devRef .tc main_arg7) := by
  after_results_simp

/-! ## The whole program -/

/-- After the program the result buffer holds the reference's stages composed, of the arguments' contents before it. -/
theorem after_ops_v57 (V : Valuation τ sig (Elt F)) :
    after (Cert.ReferenceIdeal.ValueP.ops (F := F)) V (Proc.devRef .tc main_v57)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) := by
  rw [ops_eq, after_append', after_append', after_append', after_append', after_append']
  rw [seg6_v57, seg5_v56, seg4_v47, seg4_arg4, seg4_arg5, seg4_arg6, seg4_arg7,
    seg3_v29, seg3_v3, seg3_v6, seg3_arg0, seg3_arg2, seg3_arg3, seg3_arg4, seg3_arg5, seg3_arg6, seg3_arg7,
    seg2_v14, seg2_v3, seg2_v6, seg2_arg0, seg2_arg2, seg2_arg3, seg2_arg4, seg2_arg5, seg2_arg6, seg2_arg7,
    seg1_v3, seg1_v6, seg1_arg0, seg1_arg2, seg1_arg3, seg1_arg4, seg1_arg5, seg1_arg6, seg1_arg7]
  rfl

theorem after_ops_arg0 (V : Valuation τ sig (Elt F)) : after (Cert.ReferenceIdeal.ValueP.ops (F := F)) V (Proc.devRef .tc main_arg0) = V (Proc.devRef .tc main_arg0) := by
  rw [ops_eq, after_append', after_append', after_append', after_append', after_append', seg6_arg0, seg5_arg0, seg4_arg0, seg3_arg0, seg2_arg0, seg1_arg0]

theorem after_ops_arg1 (V : Valuation τ sig (Elt F)) : after (Cert.ReferenceIdeal.ValueP.ops (F := F)) V (Proc.devRef .tc main_arg1) = V (Proc.devRef .tc main_arg1) := by
  rw [ops_eq, after_append', after_append', after_append', after_append', after_append', seg6_arg1, seg5_arg1, seg4_arg1, seg3_arg1, seg2_arg1, seg1_arg1]

theorem after_ops_arg2 (V : Valuation τ sig (Elt F)) : after (Cert.ReferenceIdeal.ValueP.ops (F := F)) V (Proc.devRef .tc main_arg2) = V (Proc.devRef .tc main_arg2) := by
  rw [ops_eq, after_append', after_append', after_append', after_append', after_append', seg6_arg2, seg5_arg2, seg4_arg2, seg3_arg2, seg2_arg2, seg1_arg2]

theorem after_ops_arg3 (V : Valuation τ sig (Elt F)) : after (Cert.ReferenceIdeal.ValueP.ops (F := F)) V (Proc.devRef .tc main_arg3) = V (Proc.devRef .tc main_arg3) := by
  rw [ops_eq, after_append', after_append', after_append', after_append', after_append', seg6_arg3, seg5_arg3, seg4_arg3, seg3_arg3, seg2_arg3, seg1_arg3]

theorem after_ops_arg4 (V : Valuation τ sig (Elt F)) : after (Cert.ReferenceIdeal.ValueP.ops (F := F)) V (Proc.devRef .tc main_arg4) = V (Proc.devRef .tc main_arg4) := by
  rw [ops_eq, after_append', after_append', after_append', after_append', after_append', seg6_arg4, seg5_arg4, seg4_arg4, seg3_arg4, seg2_arg4, seg1_arg4]

theorem after_ops_arg5 (V : Valuation τ sig (Elt F)) : after (Cert.ReferenceIdeal.ValueP.ops (F := F)) V (Proc.devRef .tc main_arg5) = V (Proc.devRef .tc main_arg5) := by
  rw [ops_eq, after_append', after_append', after_append', after_append', after_append', seg6_arg5, seg5_arg5, seg4_arg5, seg3_arg5, seg2_arg5, seg1_arg5]

theorem after_ops_arg6 (V : Valuation τ sig (Elt F)) : after (Cert.ReferenceIdeal.ValueP.ops (F := F)) V (Proc.devRef .tc main_arg6) = V (Proc.devRef .tc main_arg6) := by
  rw [ops_eq, after_append', after_append', after_append', after_append', after_append', seg6_arg6, seg5_arg6, seg4_arg6, seg3_arg6, seg2_arg6, seg1_arg6]

theorem after_ops_arg7 (V : Valuation τ sig (Elt F)) : after (Cert.ReferenceIdeal.ValueP.ops (F := F)) V (Proc.devRef .tc main_arg7) = V (Proc.devRef .tc main_arg7) := by
  rw [ops_eq, after_append', after_append', after_append', after_append', after_append', seg6_arg7, seg5_arg7, seg4_arg7, seg3_arg7, seg2_arg7, seg1_arg7]

/-- THE REFERENCE'S RUN. On every device, for any float values, from any memory with zero counters: every weakly fair
    execution of the program terminates with the result buffer at `refOut` of the arguments and the arguments unchanged. -/
theorem ref_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v57).trans (after_ops_v57 _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _),
      (h c main_arg6).trans (after_ops_arg6 _),
      (h c main_arg7).trans (after_ops_arg7 _)⟩)
    (run_seq Cert.ReferenceIdeal.ValueP.scopedRefs_eq Cert.ReferenceIdeal.ValueP.scopedSems_eq defs main (fun _ => Cert.ReferenceIdeal.ValueP.ops) Cert.ReferenceIdeal.ValueP.main_eq (fun _ => Cert.ReferenceIdeal.ValueP.ops_sub) m ρ)

end Cert.RefSide

end
-- ==== Proof.LibSparseRows.lean ====
/-
  Row gathers, row scatter-adds and sparse products on the host, read at an index.

  A sparse matrix given by its edges — for each of E edges a row number, a column number and a value — acts on an N×F
  matrix h by  out[n, f] = Σ over the edges e into row n of  val[e] · h[col[e], f].  On the host this is a GATHER of the rows
  `h[col]` (E×F), a product with the values laid along the columns, and a SCATTER-ADD of the E×F products into N×F zeros
  by the row numbers (a segment sum). Read at an index:
  • the row gather at (e, f) is the operand at (r, f), r the index col[e] read signed and clamped into [0, N − 1];
  • the row scatter-add at (n, f) is the operand's entry plus the sum, over the update rows whose index — read signed, not
    clamped — is n, of the update's entry (e, f); an update row whose index is no row of the operand adds nothing;
  • so the product at (n, f) is that sum of val · h over the edges into n, and it reads column f of h only: the product of
    several matrices laid side by side is the products of each laid side by side (`spmm_cols`).
  Every statement is at the ideal values (floats are extended reals); none needs a finiteness hypothesis.
-/
import Idealize.ShloMosaic.Lib.ValueIdx
import Idealize.ShloMosaic.PureOps.Ideal.Laws

noncomputable section

namespace GatherRows

open Idealize.ShloMosaic Idealize.ShloMosaic.ValueIdx

variable {α : Type} {N E F w : Nat}

/-- The dimension numbers of a row gather from an N×F operand by E×1 start indices. -/
abbrev rowDims (N E F : Nat)
    (wf : GatherDims.WF (⟨2, ![N, F]⟩ : Shape) ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

variable (wf : GatherDims.WF (⟨2, ![N, F]⟩ : Shape) ⟨2, ![E, 1]⟩ ⟨2, ![E, F]⟩ [1] [0] [] [0] [] 1 ![1, F])

/-- THE ROW GATHER READ AT (e, f): the operand at the row idx[e] names — read signed, clamped into the operand — and
    column f. -/
theorem gather_rows_apply (hN : 0 < N) (x : (⟨2, ![N, F]⟩ : Shape).Idx → α) (idx : IVec ⟨2, ![E, 1]⟩ w) (e : Fin E) (f : Fin F) :
    Host.gather (rowDims N E F wf) x idx (ix2 e f)
      = x (ix2 (⟨min (idx (ix2 e (0 : Fin 1))).toInt.toNat (N - 1), by omega⟩ : Fin N) f) := by
  unfold Host.gather
  congr 1
  funext a
  refine Fin.ext ?_
  have hb : ∀ a : Fin 2, (rowDims N E F wf).batchCoord (ix2 e f) a = 0 := fun a =>
    GatherDims.batchCoord_eq_zero _ _ _ List.not_mem_nil
  match a with
  | ⟨0, _⟩ =>
    show (rowDims N E F wf).start (ix2 e f) idx 0 + (rowDims N E F wf).batchCoord (ix2 e f) 0 + (rowDims N E F wf).offCoord (ix2 e f) 0 = _
    have h0 : (0 : Fin 2) ∉ (rowDims N E F wf).sKept :=
      (show (0 : Fin 2) ∉ (List.finRange 2).filter (· ∉ [(0 : Fin 2)] ++ []) by decide)
    rw [hb 0, GatherDims.offCoord_eq_zero _ _ _ h0]
    simp only [Nat.add_zero]
    unfold GatherDims.start
    rw [dif_pos (show (0 : Fin 2) ∈ [(0 : Fin 2)] from List.mem_singleton.mpr rfl)]
    have hsi : (rowDims N E F wf).siIdx (ix2 e f) ⟨List.idxOf (0 : Fin 2) (rowDims N E F wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E F wf).start (ix2 e f) idx 1 + (rowDims N E F wf).batchCoord (ix2 e f) 1 + (rowDims N E F wf).offCoord (ix2 e f) 1 = f.val
    have h1 : (1 : Fin 2) ∈ (rowDims N E F wf).sKept :=
      (show (1 : Fin 2) ∈ (List.finRange 2).filter (· ∉ [(0 : Fin 2)] ++ []) by decide)
    rw [hb 1]
    unfold GatherDims.start GatherDims.offCoord
    rw [dif_neg (show (1 : Fin 2) ∉ [(0 : Fin 2)] by decide), dif_pos h1]
    simp only [Nat.zero_add, Nat.add_zero]
    rfl

end GatherRows

namespace ScatterRows

open Idealize.ShloMosaic Idealize.ShloMosaic.ValueIdx

variable {N E F w : Nat}

/-- The dimension numbers of a row scatter into an N×F operand from E×1 indices and E×F updates. -/
abbrev rowDims (N E F : Nat) (wf : ScatterDims.WF (⟨2, ![N, F]⟩ : Shape) ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

variable (wf : ScatterDims.WF (⟨2, ![N, F]⟩ : Shape) ⟨2, ![E, 1]⟩ ⟨2, ![E, F]⟩ [1] [0] [0] 1)

/-- On the row axis an update has no window coordinate. -/
theorem window_row (j : (⟨2, ![E, F]⟩ : Shape).Idx) : (rowDims N E F wf).window j 0 = 0 := by
  have h : (0 : Fin 2) ∉ (rowDims N E F wf).sKept :=
    (show (0 : Fin 2) ∉ (List.finRange 2).filter (· ∉ [(0 : Fin 2)]) by decide)
  unfold ScatterDims.window
  rw [dif_neg h]

/-- On the column axis its window coordinate is its own column. -/
theorem window_col (j : (⟨2, ![E, F]⟩ : Shape).Idx) : (rowDims N E F wf).window j 1 = (j 1).val := by
  have h : (1 : Fin 2) ∈ (rowDims N E F wf).sKept :=
    (show (1 : Fin 2) ∈ (List.finRange 2).filter (· ∉ [(0 : Fin 2)]) by decide)
  unfold ScatterDims.window
  rw [dif_pos h]
  rfl

/-- The window starts at column 0. -/
theorem start_col (j : (⟨2, ![E, F]⟩ : Shape).Idx) (idx : IVec ⟨2, ![E, 1]⟩ w) : (rowDims N E F wf).start j idx 1 = 0 := by
  unfold ScatterDims.start
  rw [dif_neg (show (1 : Fin 2) ∉ [(0 : Fin 2)] by decide)]

/-- The window starts at the row the update row's index names, read signed. -/
theorem start_row (j : (⟨2, ![E, F]⟩ : Shape).Idx) (idx : IVec ⟨2, ![E, 1]⟩ w) :
    (rowDims N E F wf).start j idx 0 = (idx (ix2 (j 0 : Fin E) (0 : Fin 1))).toInt := by
  unfold ScatterDims.start
  rw [dif_pos (show (0 : Fin 2) ∈ [(0 : Fin 2)] from List.mem_singleton.mpr rfl)]
  congr 2
  funext b
  refine Fin.ext ?_
  match b with
  | ⟨0, _⟩ => rfl
  | ⟨1, _⟩ => rfl

/-- Update entry `j` lands on the operand's entry (n, f) exactly when its row's index, read signed, is n and its column is f. -/
theorem resultIdx_eq_some_iff (j : (⟨2, ![E, F]⟩ : Shape).Idx) (idx : IVec ⟨2, ![E, 1]⟩ w) (n : Fin N) (f : Fin F) :
    (rowDims N E F wf).resultIdx? j idx = some (ix2 n f)
      ↔ (idx (ix2 (j 0 : Fin E) (0 : Fin 1))).toInt = (n.val : ℤ) ∧ (j 1 : Fin F) = f := by
  unfold ScatterDims.resultIdx?
  constructor
  · intro h
    split at h
    · rename_i hr
      have he := Option.some.inj h
      have e0 := congrArg (fun g => (g 0).val) he
      have e1 := congrArg (fun g => (g 1).val) he
      simp only [start_row, start_col, window_row, window_col] at e0 e1
      have h0 := hr 0
      simp only [start_row, window_row] at h0
      refine ⟨?_, Fin.ext ?_⟩
      · have : ((idx (ix2 (j 0 : Fin E) (0 : Fin 1))).toInt + 0).toNat = n.val := e0
        omega
      · have : ((0 : ℤ) + ((j 1).val : ℤ)).toNat = f.val := e1
        omega
    · exact absurd h (by simp)
  · rintro ⟨h0, h1⟩
    have hn := n.isLt
    have hj : (j 1).val < F := (j 1).isLt
    have s0 : (rowDims N E F wf).start j idx 0 + ((rowDims N E F wf).window j 0 : ℤ) = (n.val : ℤ) := by
      rw [start_row, window_row, h0]; omega
    have s1 : (rowDims N E F wf).start j idx 1 + ((rowDims N E F wf).window j 1 : ℤ) = ((j 1).val : ℤ) := by
      rw [start_col, window_col]; omega
    have hr : ∀ a, 0 ≤ (rowDims N E F wf).start j idx a + (rowDims N E F wf).window j a
        ∧ (rowDims N E F wf).start j idx a + (rowDims N E F wf).window j a < (⟨2, ![N, F]⟩ : Shape).size a := fun a =>
      match a with
      | ⟨0, _⟩ => (show 0 ≤ (rowDims N E F wf).start j idx 0 + ((rowDims N E F wf).window j 0 : ℤ)
          ∧ (rowDims N E F wf).start j idx 0 + ((rowDims N E F wf).window j 0 : ℤ) < ((N : ℕ) : ℤ) by rw [s0]; omega)
      | ⟨1, _⟩ => (show 0 ≤ (rowDims N E F wf).start j idx 1 + ((rowDims N E F wf).window j 1 : ℤ)
          ∧ (rowDims N E F wf).start j idx 1 + ((rowDims N E F wf).window j 1 : ℤ) < ((F : ℕ) : ℤ) by rw [s1]; omega)
    rw [dif_pos hr]
    congr 1
    funext a
    refine Fin.ext ?_
    match a with
    | ⟨0, _⟩ =>
      show ((rowDims N E F wf).start j idx 0 + ((rowDims N E F wf).window j 0 : ℤ)).toNat = n.val
      rw [s0]; omega
    | ⟨1, _⟩ =>
      show ((rowDims N E F wf).start j idx 1 + ((rowDims N E F wf).window j 1 : ℤ)).toNat = f.val
      rw [s1, ← h1]; omega

/-- THE ROW SCATTER-ADD READ AT (n, f): the operand's entry plus the sum, over the update rows whose index is n, of the
    update's entry in column f. -/
theorem hostScatterAdd_rows_apply (x : (⟨2, ![N, F]⟩ : Shape).Idx → EReal) (idx : IVec ⟨2, ![E, 1]⟩ w)
    (upd : (⟨2, ![E, F]⟩ : Shape).Idx → EReal) (n : Fin N) (f : Fin F) :
    Ideal.hostScatterAdd (rowDims N E F wf) x idx upd (ix2 n f)
      = x (ix2 n f) + ∑ e : Fin E, if (idx (ix2 e (0 : Fin 1))).toInt = (n.val : ℤ) then upd (ix2 e f) else 0 := by
  unfold Ideal.hostScatterAdd
  congr 1
  rw [Finset.sum_filter, sum_idx2]
  refine Finset.sum_congr rfl fun e _ => ?_
  have hiff : ∀ b : Fin F, (rowDims N E F wf).resultIdx? (ix2 e b) idx = some (ix2 n f)
      ↔ ((idx (ix2 e (0 : Fin 1))).toInt = (n.val : ℤ) ∧ b = f) :=
    fun b => resultIdx_eq_some_iff wf (ix2 e b) idx n f
  by_cases hc : (idx (ix2 e (0 : Fin 1))).toInt = (n.val : ℤ)
  · rw [if_pos hc]
    rw [Finset.sum_eq_single f]
    · rw [if_pos ((hiff f).mpr ⟨hc, rfl⟩)]
    · intro b _ hb
      rw [if_neg fun h => hb ((hiff b).mp h).2]
    · intro h; exact absurd (Finset.mem_univ f) h
  · rw [if_neg hc]
    refine Finset.sum_eq_zero fun b _ => ?_
    rw [if_neg fun h => hc ((hiff b).mp h).1]

/-- The same of the host operation at the ideal instance, as a printed program spells it. -/
theorem scatterAdd_rows_apply {φ : FTy} (x : FVec Ideal ⟨2, ![N, F]⟩ φ) (idx : IVec ⟨2, ![E, 1]⟩ w)
    (upd : FVec Ideal ⟨2, ![E, F]⟩ φ) (n : Fin N) (f : Fin F) :
    Host.scatterAdd (rowDims N E F wf) x idx upd (ix2 n f)
      = x (ix2 n f) + ∑ e : Fin E, if (idx (ix2 e (0 : Fin 1))).toInt = (n.val : ℤ) then upd (ix2 e f) else 0 :=
  hostScatterAdd_rows_apply wf x idx upd n f

/-- COLUMNS DO NOT MIX: two row scatters by the same indices, of any two widths, agree at a pair of columns on which
    their operands agree and their updates agree. So a scatter of matrices laid side by side is, column block by column
    block, the scatter of each. -/
theorem hostScatterAdd_rows_col {F' : Nat}
    (wf' : ScatterDims.WF (⟨2, ![N, F']⟩ : Shape) ⟨2, ![E, 1]⟩ ⟨2, ![E, F']⟩ [1] [0] [0] 1)
    (x : (⟨2, ![N, F]⟩ : Shape).Idx → EReal) (x' : (⟨2, ![N, F']⟩ : Shape).Idx → EReal) (idx : IVec ⟨2, ![E, 1]⟩ w)
    (upd : (⟨2, ![E, F]⟩ : Shape).Idx → EReal) (upd' : (⟨2, ![E, F']⟩ : Shape).Idx → EReal) (f : Fin F) (f' : Fin F')
    (hx : ∀ n : Fin N, x (ix2 n f) = x' (ix2 n f')) (hu : ∀ e : Fin E, upd (ix2 e f) = upd' (ix2 e f')) (n : Fin N) :
    Ideal.hostScatterAdd (rowDims N E F wf) x idx upd (ix2 n f)
      = Ideal.hostScatterAdd (rowDims N E F' wf') x' idx upd' (ix2 n f') := by
  rw [hostScatterAdd_rows_apply wf, hostScatterAdd_rows_apply wf', hx n]
  congr 1
  exact Finset.sum_congr rfl fun e _ => by rw [hu e]

end ScatterRows

namespace SparseRows

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- The clamped row an edge's column index names. -/
abbrev clampRow (hN : 0 < N) (ci : IVec ⟨2, ![E, 1]⟩ w) (e : Fin E) : Fin N :=
  ⟨min (ci (ix2 e (0 : Fin 1))).toInt.toNat (N - 1), by omega⟩

/-- THE SPARSE PRODUCT READ AT (n, f): scatter-adding, by the row indices `ri`, the products of the values `v` (laid out
    E×F) with the rows of `h` gathered by the column indices `ci`, onto `z`: the entry of `z` plus the sum over the edges
    into row n of value times `h` at the edge's column row, in column f. -/
theorem spmm_apply (hN : 0 < N) (z : (⟨2, ![N, F]⟩ : Shape).Idx → EReal) (ri ci : IVec ⟨2, ![E, 1]⟩ w)
    (v : (⟨2, ![E, F]⟩ : Shape).Idx → EReal) (h : (⟨2, ![N, F]⟩ : Shape).Idx → EReal) (n : Fin N) (f : Fin F) :
    Ideal.hostScatterAdd (ScatterRows.rowDims N E F wfs) z ri
        (fun j => v j * Host.gather (GatherRows.rowDims N E F wfg) h ci j) (ix2 n f)
      = z (ix2 n f) + ∑ e : Fin E, if (ri (ix2 e (0 : Fin 1))).toInt = (n.val : ℤ)
          then v (ix2 e f) * h (ix2 (clampRow hN ci e) f) else 0 := by
  rw [ScatterRows.hostScatterAdd_rows_apply wfs]
  congr 1
  refine Finset.sum_congr rfl fun e _ => ?_
  rw [GatherRows.gather_rows_apply wfg hN]

/-- SIDE BY SIDE: two sparse products by the same edges, of widths F and F', agree at a pair of columns on which the
    matrices, the laid-out values and the scatter's operands agree. A product over matrices laid side by side is therefore,
    column block by column block, the product over each. -/
theorem spmm_cols {F' : Nat}
    (wfg' : GatherDims.WF (⟨2, ![N, F']⟩ : Shape) ⟨2, ![E, 1]⟩ ⟨2, ![E, F']⟩ [1] [0] [] [0] [] 1 ![1, F'])
    (wfs' : ScatterDims.WF (⟨2, ![N, F']⟩ : Shape) ⟨2, ![E, 1]⟩ ⟨2, ![E, F']⟩ [1] [0] [0] 1)
    (hN : 0 < N) (ri ci : IVec ⟨2, ![E, 1]⟩ w)
    (z : (⟨2, ![N, F]⟩ : Shape).Idx → EReal) (z' : (⟨2, ![N, F']⟩ : Shape).Idx → EReal)
    (v : (⟨2, ![E, F]⟩ : Shape).Idx → EReal) (v' : (⟨2, ![E, F']⟩ : Shape).Idx → EReal)
    (h : (⟨2, ![N, F]⟩ : Shape).Idx → EReal) (h' : (⟨2, ![N, F']⟩ : Shape).Idx → EReal) (f : Fin F) (f' : Fin F')
    (hz : ∀ n : Fin N, z (ix2 n f) = z' (ix2 n f')) (hv : ∀ e : Fin E, v (ix2 e f) = v' (ix2 e f'))
    (hh : ∀ n : Fin N, h (ix2 n f) = h' (ix2 n f')) (n : Fin N) :
    Ideal.hostScatterAdd (ScatterRows.rowDims N E F wfs) z ri
        (fun j => v j * Host.gather (GatherRows.rowDims N E F wfg) h ci j) (ix2 n f)
      = Ideal.hostScatterAdd (ScatterRows.rowDims N E F' wfs') z' ri
        (fun j => v' j * Host.gather (GatherRows.rowDims N E F' wfg') h' ci j) (ix2 n f') := by
  rw [spmm_apply wfg wfs hN, spmm_apply wfg' wfs' hN, hz n]
  congr 1
  exact Finset.sum_congr rfl fun e _ => by rw [hv e, hh]

end SparseRows

end
-- ==== Proof.LibGatherScatter.lean ====
/-
  Summing gathered rows along edges, read at an index.

  Rows of an N×F matrix h are gathered by E×1 source indices and scatter-added, by E×1 target indices, onto an N×F matrix z.
  Read at (n, f) the result is z's entry plus the sum, over the edges whose target index — read signed, not clamped — is n,
  of h at the edge's source row (its index read signed and clamped into the matrix) in column f. With z zero at (n, f) it
  is that sum alone. (The segment sum of gathered rows of a graph convolution.)
  At the ideal values (floats are extended reals); no finiteness hypothesis.
-/
import Idealize.ShloMosaic.Lib.ValueIdx
import Idealize.ShloMosaic.PureOps.Ideal.Laws
import proofs.«171723_j29566554866533_1_alg».proof.Proof.LibSparseRows

noncomputable section

namespace GatherScatter

open Idealize.ShloMosaic Idealize.ShloMosaic.ValueIdx

variable {N E F w : Nat}
variable (wfg : GatherDims.WF (⟨2, ![N, F]⟩ : Shape) ⟨2, ![E, 1]⟩ ⟨2, ![E, F]⟩ [1] [0] [] [0] [] 1 ![1, F])
variable (wfs : ScatterDims.WF (⟨2, ![N, F]⟩ : Shape) ⟨2, ![E, 1]⟩ ⟨2, ![E, F]⟩ [1] [0] [0] 1)

/-- THE SUM OF GATHERED ROWS READ AT (n, f). -/
theorem scatterAdd_gather_apply {φ : FTy} (hN : 0 < N) (z : FVec Ideal ⟨2, ![N, F]⟩ φ) (ti si : IVec ⟨2, ![E, 1]⟩ w)
    (h : FVec Ideal ⟨2, ![N, F]⟩ φ) (n : Fin N) (f : Fin F) :
    Host.scatterAdd (ScatterRows.rowDims N E F wfs) z ti (Host.gather (GatherRows.rowDims N E F wfg) h si) (ix2 n f)
      = z (ix2 n f) + ∑ e : Fin E, if (ti (ix2 e (0 : Fin 1))).toInt = (n.val : ℤ)
          then h (ix2 (⟨min (si (ix2 e (0 : Fin 1))).toInt.toNat (N - 1), by omega⟩ : Fin N) f) else 0 := by
  rw [ScatterRows.scatterAdd_rows_apply wfs]
  congr 1
  refine Finset.sum_congr rfl fun e _ => ?_
  rw [GatherRows.gather_rows_apply wfg hN]

/-- Onto a matrix that is zero at (n, f) it is the sum alone. -/
theorem scatterAdd_gather_apply_of_zero {φ : FTy} (hN : 0 < N) (z : FVec Ideal ⟨2, ![N, F]⟩ φ) (ti si : IVec ⟨2, ![E, 1]⟩ w)
    (h : FVec Ideal ⟨2, ![N, F]⟩ φ) (n : Fin N) (f : Fin F) (hz : z (ix2 n f) = 0) :
    Host.scatterAdd (ScatterRows.rowDims N E F wfs) z ti (Host.gather (GatherRows.rowDims N E F wfg) h si) (ix2 n f)
      = ∑ e : Fin E, if (ti (ix2 e (0 : Fin 1))).toInt = (n.val : ℤ)
          then h (ix2 (⟨min (si (ix2 e (0 : Fin 1))).toInt.toNat (N - 1), by omega⟩ : Fin N) f) else 0 := by
  rw [scatterAdd_gather_apply wfg wfs hN, hz, zero_add]

end GatherScatter

end
-- ==== Proof.RefSide.lean ====
/-
  The reference's result is the specification.

  The reference's stages (RefStages), read at an index on the extended reals. The first linear layer is a plain matrix
  product. A row gather by a column of ids reads the row each id names (read signed, clamped); a row scatter-add onto zeros
  sums, at (n, f), the updates of the rows whose id is n: so the convolution stage is the specification's message-passing
  sum, plus bias, rectified — once the wrap of negative ids is gone, which it is when every id is a node number. The two
  dense layers are the specification's by the same product. The logarithmic softmax shifts each row by its maximum — the
  maximum of −∞ and the fold of max from −∞ over the row, which is that fold — and subtracts the logarithm of 0 plus the
  sum of the exponentials of the shifted row. No entry needs to be finite: every step is an identity of extended reals.
-/
import proofs.«171723_j29566554866533_1_alg».proof.Proof.RefStages
import proofs.«171723_j29566554866533_1_alg».proof.Proof.Spec
import proofs.«171723_j29566554866533_1_alg».proof.Proof.LibGatherScatter
import proofs.«171723_j29566554866533_1_alg».proof.Proof.LibPlainProduct
import Idealize.ShloMosaic.Lib.Pipeline.Value
import Idealize.ShloMosaic.Lib.ValueIdx
import Idealize.ShloMosaic.PureOps.Ideal.Laws
import Idealize.ShloMosaic.PureOps.Reduce

noncomputable section

namespace Cert.RefSide

open Cert.ReferenceIdeal Cert.ReferenceIdeal.Gen Idealize.ShloMosaic Idealize.ShloMosaic.TcCoe Idealize.SL.Sem Idealize.ShloMosaic.StableHlo Idealize.ShloMosaic.ValueIdx

/-! ## The layout operations read at an index -/

/-- An id vector laid out as a column, read at (e, 0). -/
theorem col_apply {α : Type} (v : S900000.Idx → α) (e : Fin 900000) :
    broadcastInDim S900000x1 ![0] bcast_S900000_S900000x1_0 v (ix2 e (0 : Fin 1)) = v (ix1 e) := by
  refine (broadcastInDim_apply _ bcast_S900000_S900000x1_0 v (ix2 e (0 : Fin 1)) (ix1 e) (fun a => match a with
    | ⟨0, _⟩ => by show e.val = if (900000 : Nat) = 1 then 0 else e.val; rw [if_neg (by decide)]))

/-- A bias of P entries, laid out as a row and repeated down R rows, read at an index. -/
theorem bias128_apply {α : Type} (b : S128.Idx → α) (i : S100000x128.Idx) :
    broadcastInDim S100000x128 ![0, 1] bcast_S1x128_S100000x128_0_1 (broadcastInDim S1x128 ![1] bcast_S128_S1x128_1 b) i = b (ix1 (i 1)) := by
  rw [broadcastInDim_apply _ bcast_S1x128_S100000x128_0_1 _ i (ix2 (0 : Fin 1) (i 1)) (fun a => match a with
    | ⟨0, _⟩ => by show (0 : Nat) = if (1 : Nat) = 1 then 0 else (i 0).val; rw [if_pos rfl]
    | ⟨1, _⟩ => by show (i 1).val = if (128 : Nat) = 1 then 0 else (i 1).val; rw [if_neg (by decide)])]
  exact broadcastInDim_apply _ bcast_S128_S1x128_1 b _ (ix1 (i 1)) (fun a => match a with
    | ⟨0, _⟩ => by show (i 1).val = if (128 : Nat) = 1 then 0 else (i 1).val; rw [if_neg (by decide)])

/-! ## The sparse stages -/

/-- The row gather by a column of ids, read at (e, f): the row the id names, read signed and clamped. -/
theorem gather128_apply (h : FVec Ideal S100000x128 .f32) (v : IVec S900000 32) (e : Fin 900000) (f : Fin 128) :
    Host.gather gather_S100000x128_S900000x1_S900000x128_1_0_n_n_0_1_1128 h (broadcastInDim S900000x1 ![0] bcast_S900000_S900000x1_0 v) (ix2 e f)
      = h (ix2 (Cert.Spec.rowOf (v (ix1 e))) f) := by
  refine (GatherRows.gather_rows_apply (N := 100000) (E := 900000) (F := 128) gather_S100000x128_S900000x1_S900000x128_1_0_n_n_0_1_1128_wf (by decide) h _ e f).trans ?_
  refine congrArg h (congrArg (fun r : Fin 100000 => ix2 r f) (Fin.ext ?_))
  show min (broadcastInDim S900000x1 ![0] bcast_S900000_S900000x1_0 v (ix2 e (0 : Fin 1))).toInt.toNat (100000 - 1) = min (v (ix1 e)).toInt.toNat 99999
  rw [col_apply]

/-- The row scatter-add onto zeros by a column of ids, read at (n, f). -/
theorem scatter128_apply (d : IVec S900000 32) (upd : FVec Ideal S900000x128 .f32) (n : Fin 100000) (f : Fin 128) :
    Host.scatterAdd scatter_S100000x128_S900000x1_S900000x128_1_0_0_1 (broadcastInDim S100000x128 ![] bcast_S_S100000x128 (constant S_ .f32 0x00000000#32)) (broadcastInDim S900000x1 ![0] bcast_S900000_S900000x1_0 d) upd (ix2 n f)
      = ∑ e : Fin 900000, if (d (ix1 e)).toInt = (n.val : ℤ) then upd (ix2 e f) else 0 := by
  refine (ScatterRows.scatterAdd_rows_apply (N := 100000) (E := 900000) (F := 128) scatter_S100000x128_S900000x1_S900000x128_1_0_0_1_wf _ _ upd n f).trans ?_
  rw [show (broadcastInDim S100000x128 ![] bcast_S_S100000x128 (constant (F := Ideal) S_ .f32 0x00000000#32)) (ix2 n f) = Ideal.ofBits .f32 0x00000000#32 from rfl,
    Ideal.ofBits_zero_f32, zero_add]
  refine Finset.sum_congr rfl fun e _ => ?_
  rw [col_apply]

/-- The first linear layer read at (r, f). -/
theorem lin_apply (x : FVec Ideal S100000x128 .f32) (wg : FVec Ideal S128x128 .f32) (r : Fin 100000) (f : Fin 128) :
    Host.dotGeneral dot_S100000x128_S128x128_S100000x128_1_0_0_1_n_n none x wg (ix2 r f) = Cert.Spec.lin x wg r f :=
  PlainProduct.dotGeneral_apply (M := 100000) (K := 128) (P := 128) dot_S100000x128_S128x128_S100000x128_1_0_0_1_n_n_wf none x wg r f

theorem bias512_apply {α : Type} (b : S512.Idx → α) (i : S100000x512.Idx) :
    broadcastInDim S100000x512 ![0, 1] bcast_S1x512_S100000x512_0_1 (broadcastInDim S1x512 ![1] bcast_S512_S1x512_1 b) i = b (ix1 (i 1)) := by
  rw [broadcastInDim_apply _ bcast_S1x512_S100000x512_0_1 _ i (ix2 (0 : Fin 1) (i 1)) (fun a => match a with
    | ⟨0, _⟩ => by show (0 : Nat) = if (1 : Nat) = 1 then 0 else (i 0).val; rw [if_pos rfl]
    | ⟨1, _⟩ => by show (i 1).val = if (512 : Nat) = 1 then 0 else (i 1).val; rw [if_neg (by decide)])]
  exact broadcastInDim_apply _ bcast_S512_S1x512_1 b _ (ix1 (i 1)) (fun a => match a with
    | ⟨0, _⟩ => by show (i 1).val = if (512 : Nat) = 1 then 0 else (i 1).val; rw [if_neg (by decide)])

theorem bias64_apply {α : Type} (b : S64.Idx → α) (i : S100000x64.Idx) :
    broadcastInDim S100000x64 ![0, 1] bcast_S1x64_S100000x64_0_1 (broadcastInDim S1x64 ![1] bcast_S64_S1x64_1 b) i = b (ix1 (i 1)) := by
  rw [broadcastInDim_apply _ bcast_S1x64_S100000x64_0_1 _ i (ix2 (0 : Fin 1) (i 1)) (fun a => match a with
    | ⟨0, _⟩ => by show (0 : Nat) = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 b _ (ix1 (i 1)) (fun a => match a with
    | ⟨0, _⟩ => by show (i 1).val = if (64 : Nat) = 1 then 0 else (i 1).val; rw [if_neg (by decide)])

/-- The per-edge weight laid out as a column and repeated along the features, read at (e, f). -/
theorem norm_apply {α : Type} (nrm : S900000.Idx → α) (e : Fin 900000) (f : Fin 128) :
    broadcastInDim S900000x128 ![0, 1] bcast_S900000x1_S900000x128_0_1 (broadcastInDim S900000x1 ![0] bcast_S900000_S900000x1_0 nrm) (ix2 e f) = nrm (ix1 e) := by
  rw [broadcastInDim_apply _ bcast_S900000x1_S900000x128_0_1 _ (ix2 e f) (ix2 e (0 : Fin 1)) (fun a => match a with
    | ⟨0, _⟩ => by show e.val = if (900000 : Nat) = 1 then 0 else e.val; rw [if_neg (by decide)]
    | ⟨1, _⟩ => by show (0 : Nat) = if (1 : Nat) = 1 then 0 else f.val; rw [if_pos rfl])]
  exact col_apply nrm e

/-! ## The convolution: segment sum of the weighted gathered rows, bias, rectifier -/

/-- The specification's convolution read at (n, f). -/
theorem conv_def (x : Cert.Spec.Mat 100000 128) (wg : Cert.Spec.Mat 128 128) (bg : Cert.Spec.Vct 128) (s d : Cert.Spec.IVct 900000) (nrm : Cert.Spec.Vct 900000)
    (n : Fin 100000) (f : Fin 128) :
    Cert.Spec.conv x wg bg s d nrm (ix2 n f) = max (Cert.Spec.agg (Cert.Spec.lin x wg) s d nrm n f + bg (ix1 f)) (Ideal.ofBits .f32 0x00000000#32) := rfl

/-- The weighted gathered rows summed by target: the specification's message-passing sum. -/
theorem msg_sum (x : FVec Ideal S100000x128 .f32) (wg : FVec Ideal S128x128 .f32) (s d : IVec S900000 32) (nrm : FVec Ideal S900000 .f32)
    (n : Fin 100000) (f : Fin 128) :
    (∑ e : Fin 900000, if (d (ix1 e)).toInt = (n.val : ℤ) then
        (mulf (Host.gather gather_S100000x128_S900000x1_S900000x128_1_0_n_n_0_1_1128 (Host.dotGeneral dot_S100000x128_S128x128_S100000x128_1_0_0_1_n_n none x wg) (broadcastInDim S900000x1 ![0] bcast_S900000_S900000x1_0 s))
          (broadcastInDim S900000x128 ![0, 1] bcast_S900000x1_S900000x128_0_1 (broadcastInDim S900000x1 ![0] bcast_S900000_S900000x1_0 nrm))) (ix2 e f) else 0)
      = Cert.Spec.agg (Cert.Spec.lin x wg) s d nrm n f := by
  unfold Cert.Spec.agg
  refine Finset.sum_congr rfl fun e _ => ?_
  rw [mulf_apply, gather128_apply, norm_apply, lin_apply]

theorem conv_eq (x : FVec Ideal S100000x128 .f32) (wg : FVec Ideal S128x128 .f32) (bg : FVec Ideal S128 .f32)
    (s d : IVec S900000 32) (nrm : FVec Ideal S900000 .f32) :
    maximumf (addf (Host.scatterAdd scatter_S100000x128_S900000x1_S900000x128_1_0_0_1 (broadcastInDim S100000x128 ![] bcast_S_S100000x128 (constant S_ .f32 0x00000000#32)) (broadcastInDim S900000x1 ![0] bcast_S900000_S900000x1_0 d)
        (mulf (Host.gather gather_S100000x128_S900000x1_S900000x128_1_0_n_n_0_1_1128 (Host.dotGeneral dot_S100000x128_S128x128_S100000x128_1_0_0_1_n_n none x wg) (broadcastInDim S900000x1 ![0] bcast_S900000_S900000x1_0 s))
          (broadcastInDim S900000x128 ![0, 1] bcast_S900000x1_S900000x128_0_1 (broadcastInDim S900000x1 ![0] bcast_S900000_S900000x1_0 nrm))))
        (broadcastInDim S100000x128 ![0, 1] bcast_S1x128_S100000x128_0_1 (broadcastInDim S1x128 ![1] bcast_S128_S1x128_1 bg)))
      (broadcastInDim S100000x128 ![] bcast_S_S100000x128 (constant S_ .f32 0x00000000#32))
      = Cert.Spec.conv x wg bg s d nrm := by
  funext i
  obtain ⟨n, f, rfl⟩ : ∃ n f, i = ix2 n f := ⟨i 0, i 1, eq_ix2 i⟩
  rw [conv_def, maximumf_apply, addf_apply, scatter128_apply, bias128_apply, msg_sum]
  rfl
/-! ## The classifier's layers -/

theorem hidden_eq (h1 : FVec Ideal S100000x128 .f32) (w1 : FVec Ideal S128x512 .f32) (b1 : FVec Ideal S512 .f32) :
    maximumf (addf (Host.dotGeneral dot_S100000x128_S128x512_S100000x512_1_0_0_1_n_n none h1 w1) (broadcastInDim S100000x512 ![0, 1] bcast_S1x512_S100000x512_0_1 (broadcastInDim S1x512 ![1] bcast_S512_S1x512_1 b1)))
      (broadcastInDim S100000x512 ![] bcast_S_S100000x512 (constant S_ .f32 0x00000000#32))
      = Cert.Spec.hidden h1 w1 b1 := by
  funext i
  obtain ⟨r, c, rfl⟩ : ∃ r c, i = ix2 r c := ⟨i 0, i 1, eq_ix2 i⟩
  have hd : Host.dotGeneral dot_S100000x128_S128x512_S100000x512_1_0_0_1_n_n none h1 w1 (ix2 r c) = ∑ k : Fin 128, h1 (ix2 r k) * w1 (ix2 k c) :=
    PlainProduct.dotGeneral_apply (M := 100000) (K := 128) (P := 512) dot_S100000x128_S128x512_S100000x512_1_0_0_1_n_n_wf none h1 w1 r c
  show max (Host.dotGeneral dot_S100000x128_S128x512_S100000x512_1_0_0_1_n_n none h1 w1 (ix2 r c)
      + broadcastInDim S100000x512 ![0, 1] bcast_S1x512_S100000x512_0_1 (broadcastInDim S1x512 ![1] bcast_S512_S1x512_1 b1) (ix2 r c)) (Ideal.ofBits .f32 0x00000000#32)
    = max ((∑ k : Fin 128, h1 (ix2 r k) * w1 (ix2 k c)) + b1 (ix1 c)) (Ideal.ofBits .f32 0x00000000#32)
  rw [hd, bias512_apply]

/-- The logits read at (r, c). -/
theorem logits_apply (h2 : FVec Ideal S100000x512 .f32) (w2 : FVec Ideal S512x64 .f32) (b2 : FVec Ideal S64 .f32) (r : Fin 100000) (c : Fin 64) :
    addf (Host.dotGeneral dot_S100000x512_S512x64_S100000x64_1_0_0_1_n_n none h2 w2) (broadcastInDim S100000x64 ![0, 1] bcast_S1x64_S100000x64_0_1 (broadcastInDim S1x64 ![1] bcast_S64_S1x64_1 b2)) (ix2 r c)
      = SageSpec.dense h2 w2 b2 r c := by
  have hd : Host.dotGeneral dot_S100000x512_S512x64_S100000x64_1_0_0_1_n_n none h2 w2 (ix2 r c) = ∑ k : Fin 512, h2 (ix2 r k) * w2 (ix2 k c) :=
    PlainProduct.dotGeneral_apply (M := 100000) (K := 512) (P := 64) dot_S100000x512_S512x64_S100000x64_1_0_0_1_n_n_wf none h2 w2 r c
  show Host.dotGeneral dot_S100000x512_S512x64_S100000x64_1_0_0_1_n_n none h2 w2 (ix2 r c)
      + broadcastInDim S100000x64 ![0, 1] bcast_S1x64_S100000x64_0_1 (broadcastInDim S1x64 ![1] bcast_S64_S1x64_1 b2) (ix2 r c)
    = (∑ k : Fin 512, h2 (ix2 r k) * w2 (ix2 k c)) + b2 (ix1 c)
  rw [hd, bias64_apply]

/-! ## The logarithmic softmax along each row -/

/-- A column repeated along 64 features, read at (r, c). -/
theorem bc1_apply {α : Type} (u : S100000x1.Idx → α) (r : Fin 100000) (c : Fin 64) :
    broadcastInDim S100000x64 ![0, 1] bcast_S100000x1_S100000x64_0_1 u (ix2 r c) = u (ix2 r (0 : Fin 1)) :=
  broadcastInDim_apply _ bcast_S100000x1_S100000x64_0_1 u (ix2 r c) (ix2 r (0 : Fin 1)) (fun a => match a with
    | ⟨0, _⟩ => by show r.val = if (100000 : Nat) = 1 then 0 else r.val; rw [if_neg (by decide)]
    | ⟨1, _⟩ => by show (0 : Nat) = if (1 : Nat) = 1 then 0 else c.val; rw [if_pos rfl])

/-- A vector laid out as a column, read at (r, 0). -/
theorem bc0_apply {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- The index over row r with column k put back. -/
theorem lift64 (h : S100000x64.Reduces [1] S100000) (r : Fin 100000) (k : Fin 64) : h.lift (ix1 r) k = ix2 r k :=
  funext fun a => Fin.ext (by match a with | ⟨0, _⟩ => rfl | ⟨1, _⟩ => rfl)

/-- The program's row fold (a reduce by max from −∞ over the columns) read at row r. -/
theorem rowfold_apply (hR : S100000x64.Reduces [1] S100000) (y : FVec Ideal S100000x64 .f32) (r : Fin 100000) :
    Host.reduce FloatOps.maximumf y (constant S_ .f32 0xFF800000#32) reducesTo_S100000x64_S100000_d1 h_S_ (ix1 r)
      = (Finset.univ : Finset (Fin 64)).fold max (Ideal.ofBits .f32 0xFF800000#32) (fun c => y (ix2 r c)) := by
  have hf : (y ∘ hR.lift (ix1 r)) = fun c : Fin 64 => y (ix2 r c) := funext fun k => congrArg y (lift64 hR r k)
  refine (Host.reduce_eq_fold_single FloatOps.maximumf y (constant S_ .f32 0xFF800000#32) reducesTo_S100000x64_S100000_d1 hR h_S_ (ix1 r)).trans ?_
  rw [hf]
  rfl
/-- The logits' shape with its column axis dropped is the row shape. -/
theorem hR64 : S100000x64.Reduces [1] S100000 := ⟨reducesTo_S100000x64_S100000_d1.1, Nat.one_pos, reducesTo_S100000x64_S100000_d1.2⟩
/-- The row maximum the program computes (the maximum of −∞ and the fold from −∞) is the fold from −∞. -/
theorem rowmax_apply (y : FVec Ideal S100000x64 .f32) (r : Fin 100000) :
    maximumf (broadcastInDim S100000 ![] bcast_S_S100000 (constant S_ .f32 0xFF800000#32)) (Host.reduce FloatOps.maximumf y (constant S_ .f32 0xFF800000#32) reducesTo_S100000x64_S100000_d1 h_S_) (ix1 r)
      = SageSpec.rowMax (fun c => y (ix2 r c)) := by
  rw [maximumf_apply, rowfold_apply hR64 y r]
  exact max_eq_right ((Finset.le_fold_max _).mpr (Or.inl le_rfl))
/-- The host's logarithm read at an index. -/
theorem hostLog_apply {s : Shape} (X : FVec Ideal s .f32) (i : s.Idx) : Host.log X i = Ideal.log (X i) := rfl

/-- The shifted logits, the exponentials' sum, its logarithm: the program's logarithmic softmax of the logits y, read at (r, c). -/
theorem lsm_apply (y : FVec Ideal S100000x64 .f32) (r : Fin 100000) (c : Fin 64) :
    subf (subf y (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x64_S100000_d1 h_S_)))))
      (broadcastInDim S100000x64 ![0, 1] bcast_S100000x1_S100000x64_0_1 (Host.log (broadcastInDim S100000x1 ![0] bcast_S100000_S100000x1_0 (Host.reduceAdd (Host.exp (subf y (broadcastInDim S100000x64 ![0, 1] bcast_S100000x1_S100000x64_0_1 (broadcastInDim S100000x1 ![0] bcast_S100000_S100000x1_0 (maximumf (broadcastInDim S100000 ![] bcast_S_S100000 (constant S_ .f32 0xFF800000#32)) (Host.reduce FloatOps.maximumf y (constant S_ .f32 0xFF800000#32) reducesTo_S100000x64_S100000_d1 h_S_)))))) (constant S_ .f32 0x00000000#32) reducesTo_S100000x64_S100000_d1 h_S_)))) (ix2 r c)
      = SageSpec.logSoftmaxRow (fun c' => y (ix2 r c')) c := by
  have hR : S100000x64.Reduces [1] S100000 := hR64
  generalize hM : maximumf (broadcastInDim S100000 ![] bcast_S_S100000 (constant S_ .f32 0xFF800000#32)) (Host.reduce FloatOps.maximumf y (constant S_ .f32 0xFF800000#32) reducesTo_S100000x64_S100000_d1 h_S_) = M
  have hMr : M (ix1 r) = SageSpec.rowMax (fun c' => y (ix2 r c')) := by rw [← hM]; exact rowmax_apply y r
  have hz : ∀ c' : Fin 64, subf y (broadcastInDim S100000x64 ![0, 1] bcast_S100000x1_S100000x64_0_1 (broadcastInDim S100000x1 ![0] bcast_S100000_S100000x1_0 M)) (ix2 r c')
      = y (ix2 r c') - SageSpec.rowMax (fun c' => y (ix2 r c')) := fun c' => by
    rw [subf_apply, bc1_apply, bc0_apply, hMr]
  generalize subf y (broadcastInDim S100000x64 ![0, 1] bcast_S100000x1_S100000x64_0_1 (broadcastInDim S100000x1 ![0] bcast_S100000_S100000x1_0 M)) = z at hz ⊢
  have hsum : Host.reduceAdd (Host.exp z) (constant S_ .f32 0x00000000#32) reducesTo_S100000x64_S100000_d1 h_S_ (ix1 r)
      = ∑ c' : Fin 64, Ideal.exp (y (ix2 r c') - SageSpec.rowMax (fun c' => y (ix2 r c'))) := by
    simp only [Host.reduceAdd, Ideal.hostReduceAdd_def]
    rw [Ideal.hostReduceAdd_single reducesTo_S100000x64_S100000_d1 hR]
    rw [show (constant (F := Ideal) S_ .f32 0x00000000#32) (Shape.Idx.first h_S_) = Ideal.ofBits .f32 0x00000000#32 from rfl, Ideal.ofBits_zero_f32, zero_add]
    refine Finset.sum_congr rfl fun k _ => ?_
    rw [lift64 hR r k]
    show Ideal.exp (z (ix2 r k)) = _
    rw [hz k]
  show z (ix2 r c) - broadcastInDim S100000x64 ![0, 1] bcast_S100000x1_S100000x64_0_1 (Host.log (broadcastInDim S100000x1 ![0] bcast_S100000_S100000x1_0 (Host.reduceAdd (Host.exp z) (constant S_ .f32 0x00000000#32) reducesTo_S100000x64_S100000_d1 h_S_))) (ix2 r c)
    = (y (ix2 r c) - SageSpec.rowMax (fun c' => y (ix2 r c'))) - Ideal.log (∑ c' : Fin 64, Ideal.exp (y (ix2 r c') - SageSpec.rowMax (fun c' => y (ix2 r c'))))
  rw [hz c, bc1_apply]
  rw [hostLog_apply, bc0_apply, hsum]

/-! ## The reference's result is the specification -/

/-- The specification's result array read at (n, o). -/
theorem Garr_def (x : Cert.Spec.Mat 100000 128) (wg : Cert.Spec.Mat 128 128) (bg : Cert.Spec.Vct 128) (w1 : Cert.Spec.Mat 128 512) (b1 : Cert.Spec.Vct 512)
    (w2 : Cert.Spec.Mat 512 64) (b2 : Cert.Spec.Vct 64) (s d : Cert.Spec.IVct 900000) (nrm : Cert.Spec.Vct 900000) (n : Fin 100000) (o : Fin 64) :
    Cert.Spec.Garr x wg bg w1 b1 w2 b2 s d nrm (ix2 n o)
      = SageSpec.denseLogSoftmax (Cert.Spec.hidden (Cert.Spec.conv x wg bg s d nrm) w1 b1) w2 b2 n o := rfl

/-- With every id a node number, the convolution stage is the specification's. -/
theorem convOf_eq (x : FVec Ideal S100000x128 .f32) (wg : FVec Ideal S128x128 .f32) (bg : FVec Ideal S128 .f32) (ei : IVec S2x800000 32)
    (hrange : ∀ i, 0 ≤ (ei i).toInt ∧ (ei i).toInt < 100000) :
    convOf x wg bg (srcT ei) (dstT ei) (normOf (dinvT (dstT ei)) (srcT ei) (dstT ei))
      = Cert.Spec.conv x wg bg (srcT ei) (dstT ei) (normT (F := Ideal) ei) := by
  rw [normT_eq]
  unfold convOf
  rw [nowrap (srcT ei) (fun j => (srcT_range' ei hrange j).1)]
  exact conv_eq x wg bg (srcT ei) (dstT ei) (normT ei)

/-- THE REFERENCE COMPUTES THE SPECIFICATION, when every entry of the edge array is a node number. -/
theorem ref_is_spec (x : FVec Ideal S100000x128 .f32) (wg : FVec Ideal S128x128 .f32) (bg : FVec Ideal S128 .f32) (w1 : FVec Ideal S128x512 .f32)
    (b1 : FVec Ideal S512 .f32) (w2 : FVec Ideal S512x64 .f32) (b2 : FVec Ideal S64 .f32) (ei : IVec S2x800000 32)
    (hrange : ∀ i, 0 ≤ (ei i).toInt ∧ (ei i).toInt < 100000) :
    refOut (F := Ideal) x ei wg bg w1 b1 w2 b2
      = Cert.Spec.Garr x wg bg w1 b1 w2 b2 (srcT ei) (dstT ei) (normT (F := Ideal) ei) := by
  funext i
  obtain ⟨r, c, rfl⟩ : ∃ r c, i = ix2 r c := ⟨i 0, i 1, eq_ix2 i⟩
  unfold refOut
  rw [convOf_eq x wg bg ei hrange, Garr_def]
  have hh : hiddenOf (Cert.Spec.conv x wg bg (srcT ei) (dstT ei) (normT (F := Ideal) ei)) w1 b1
      = Cert.Spec.hidden (Cert.Spec.conv x wg bg (srcT ei) (dstT ei) (normT (F := Ideal) ei)) w1 b1 := hidden_eq _ w1 b1
  rw [hh]
  refine (lsm_apply _ r c).trans ?_
  unfold SageSpec.denseLogSoftmax
  refine congrArg (fun y => SageSpec.logSoftmaxRow y c) (funext fun c' => ?_)
  exact logits_apply _ w2 b2 r c'

end Cert.RefSide

end
-- ==== Proof.PreFacts.lean ====
/-
  What the precondition says of the edge array: every entry, read signed, is a node number.

  The precondition is a conjunction of "all" tests, one per argument; its last conjunct is the test, over the whole edge
  array, that each entry is at least 0 and below 100000. A conjunction of one-bit words is 1 only if each is; an "all"
  that is 1 had a 1 at every index; and a signed comparison that is 1 says the inequality of the words read signed.
-/
import proofs.«171723_j29566554866533_1_alg».proof.Pre_finite_inputs
import proofs.«171723_j29566554866533_1_alg».proof.Proof.Gen.Pre_finite_inputs
import Idealize.ShloMosaic.Lib.ReduceAll
import Idealize.ShloMosaic.Lib.ValueIdx

namespace Cert.PreFacts

open Idealize.ShloMosaic Cert.Pre_finite_inputs

/-- The shape of a scalar has one index. -/
instance : Subsingleton S_.Idx := ⟨fun a b => funext fun d => d.elim0⟩

/-- Under the precondition every entry of the edge array, read signed, lies in [0, 100000). -/
theorem range_of_pre {F : FTy → Type} [FloatOps F] (a0 : FVec F S100000x128 .f32) (ei : IVec S2x800000 32) (a2 : FVec F S128x128 .f32)
    (a3 : FVec F S128 .f32) (a4 : FVec F S128x512 .f32) (a5 : FVec F S512 .f32) (a6 : FVec F S512x64 .f32) (a7 : FVec F S64 .f32)
    (h : Cert.Pre_finite_inputs.fn (F := F) a0 ei a2 a3 a4 a5 a6 a7 = fun _ => 1#1) :
    ∀ i, 0 ≤ (ei i).toInt ∧ (ei i).toInt < 100000 := by
  intro i
  have h0 := congrFun h ValueIdx.ix0
  dsimp only [fn, fn_part1, fn_part2] at h0
  have h1 := (IntOp.andi_eq_one.1 h0).2
  have h2 := Host.reduce_andi_all _ _ _ _ _ h1 i
  obtain ⟨hge, hlt⟩ := IntOp.andi_eq_one.1 h2
  have hge' : (0#32 : BitVec 32).toInt ≤ (ei i).toInt := IntOp.cmpi_sge.1 hge
  have hlt' : (ei i).toInt < (100000#32 : BitVec 32).toInt := IntOp.cmpi_slt.1 hlt
  have e0 : (0#32 : BitVec 32).toInt = 0 := by decide
  have e1 : (100000#32 : BitVec 32).toInt = 100000 := by decide
  rw [e0] at hge'
  rw [e1] at hlt'
  exact ⟨hge', hlt'⟩

end Cert.PreFacts
-- ==== Proof.lean ====
/-
  The certificate of the graph-convolution network against its reference.

  The kernel runs four pipelined regions: the linear layer x · Wg; the messages (for every edge, the source node's row,
  found by a one-hot selector product accumulated over the node tiles, times the edge's weight); the aggregation (for every
  node, the sum of the messages whose target it is, again by a selector product accumulated over the edge tiles, plus the
  bias, rectified); the two-layer classifier with its logarithmic softmax. The reference gathers and scatter-adds instead.
  On the extended reals both results are the one function of the arguments stated in the specification module, provided
  every id of the edge array is a node number (the precondition says so): a selector row then has exactly one 1.

  The three frames: each program runs to the end without a fault and leaves its arguments as launched — for the kernel, at the
  word level and at the ideal values alike, from one record per region (its body's obligation at every grid point and what
  enters and leaves its invariant); for the reference, from its run read back. The idealization rewrote nothing.
-/
import proofs.«171723_j29566554866533_1_alg».proof.Defs
import proofs.«171723_j29566554866533_1_alg».proof.Proof.Gen.Kernel
import proofs.«171723_j29566554866533_1_alg».proof.Proof.Gen.KernelIdeal
import proofs.«171723_j29566554866533_1_alg».proof.Proof.Gen.ReferenceIdeal
import proofs.«171723_j29566554866533_1_alg».proof.Proof.Gen.Pre_finite_inputs
import proofs.«171723_j29566554866533_1_alg».proof.Proof.K.Run
import proofs.«171723_j29566554866533_1_alg».proof.Proof.KI.Run
import proofs.«171723_j29566554866533_1_alg».proof.Proof.KI.Bridge2
import proofs.«171723_j29566554866533_1_alg».proof.Proof.RefRun
import proofs.«171723_j29566554866533_1_alg».proof.Proof.RefSide
import proofs.«171723_j29566554866533_1_alg».proof.Proof.PreFacts
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.RefSide.ref_run (F := Ideal) m ρ)

/-- From memories agreeing on the arguments both programs end at the specification's result. -/
theorem algebraic : @Cert.algebraic_KernelIdeal_ReferenceIdeal Cert.KernelIdeal.Gen.facts Cert.ReferenceIdeal.Gen.facts Cert.Pre_finite_inputs.Gen.facts := by
  intro m ρ m' ρ' hpre hagree
  have hr : ∀ c : Dev Cert.KernelIdeal.nD, ∀ i, 0 ≤ ((m ((c.tc : Thread Cert.KernelIdeal.nD Cert.KernelIdeal.τ).loc Cert.KernelIdeal.main_arg1)) i).toInt
      ∧ ((m ((c.tc : Thread Cert.KernelIdeal.nD Cert.KernelIdeal.τ).loc Cert.KernelIdeal.main_arg1)) i).toInt < 100000 :=
    fun c => Cert.PreFacts.range_of_pre _ _ _ _ _ _ _ _ (hpre c)
  refine ⟨fun c => Cert.KernelIdeal.Hand.o3 (F := Ideal) m c, Cert.KernelIdeal.Hand.run_result (F := Ideal) m ρ, ?_⟩
  refine (θ_run Cert.ReferenceIdeal.defs _ _).mono (fun _ h c => ⟨(h c).1.trans ?_, (h c).2⟩) (Cert.RefSide.ref_run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2]
  rw [Cert.RefSide.ref_is_spec _ _ _ _ _ _ _ _ (hr c)]
  exact (Cert.KernelIdeal.Hand.kernel_value m c (hr c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
